-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v334)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v334) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v410) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x600000 : Shape := ⟨2, ![2, 600000]⟩
abbrev S100000 : Shape := ⟨1, ![100000]⟩
abbrev S5x16x64 : Shape := ⟨3, ![5, 16, 64]⟩
abbrev S64 : Shape := ⟨1, ![64]⟩
abbrev S5x128x256 : Shape := ⟨3, ![5, 128, 256]⟩
abbrev S256 : Shape := ⟨1, ![256]⟩
abbrev S512x4 : Shape := ⟨2, ![512, 4]⟩
abbrev S4 : Shape := ⟨1, ![4]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S5x16x64 : S_.BroadcastsInDim S5x16x64 (![] : Fin 0 → Fin S5x16x64.rank)
  reducesTo_S5x16x64_S_d0_1_2 : S5x16x64.ReducesTo [0, 1, 2] S_
  bcast_S_S64 : S_.BroadcastsInDim S64 (![] : Fin 0 → Fin S64.rank)
  reducesTo_S64_S_d0 : S64.ReducesTo [0] S_
  bcast_S_S5x128x256 : S_.BroadcastsInDim S5x128x256 (![] : Fin 0 → Fin S5x128x256.rank)
  reducesTo_S5x128x256_S_d0_1_2 : S5x128x256.ReducesTo [0, 1, 2] S_
  bcast_S_S256 : S_.BroadcastsInDim S256 (![] : Fin 0 → Fin S256.rank)
  reducesTo_S256_S_d0 : S256.ReducesTo [0] S_
  bcast_S_S512x4 : S_.BroadcastsInDim S512x4 (![] : Fin 0 → Fin S512x4.rank)
  reducesTo_S512x4_S_d0_1 : S512x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S5x128x256 .f32) (main_arg10 : FVec F S256 .f32) (main_arg11 : FVec F S512x4 .f32) (main_arg12 : FVec F S4 .f32) (main_v33 : IVec S_ 1) : IVec S_ 1 :=
  let main_v34 : FVec F S5x128x256 .f32 := Host.absf main_arg9
  let main_cst_12 : FVec F S_ .f32 := constant S_ .f32 0x7F800000#32
  let main_v35 : FVec F S5x128x256 .f32 := broadcastInDim S5x128x256 ![] bcast_S_S5x128x256 main_cst_12
  let main_v36 : IVec S5x128x256 1 := cmpf .olt main_v34 main_v35
  let main_c_13 : IVec S_ 1 := constantI S_ 1 1#1
  let main_v37 : IVec S_ 1 := (fun x v => Host.reduce IntOp.andi x v reducesTo_S5x128x256_S_d0_1_2 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x4 .f32 := Host.absf main_arg11
  let main_cst_16 : FVec F S_ .f32 := constant S_ .f32 0x7F800000#32
  let main_v45 : FVec F S512x4 .f32 := broadcastInDim S512x4 ![] bcast_S_S512x4 main_cst_16
  let main_v46 : IVec S512x4 1 := cmpf .olt main_v44 main_v45
  let main_c_17 : IVec S_ 1 := constantI S_ 1 1#1
  let main_v47 : IVec S_ 1 := (fun x v => Host.reduce IntOp.andi x v reducesTo_S512x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S64 .f32) (main_arg7 : FVec F S5x128x256 .f32) (main_arg8 : FVec F S256 .f32) (main_arg9 : FVec F S5x128x256 .f32) (main_arg10 : FVec F S256 .f32) (main_arg11 : FVec F S512x4 .f32) (main_arg12 : FVec F S4 .f32) (main_v13 : IVec S_ 1) (main_v16 : IVec S5x16x64 1) : IVec S_ 1 :=
  let main_c_5 : IVec S_ 1 := constantI S_ 1 1#1
  let main_v17 : IVec S_ 1 := (fun x v => Host.reduce IntOp.andi x v reducesTo_S5x16x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S5x128x256 .f32 := Host.absf main_arg7
  let main_cst_8 : FVec F S_ .f32 := constant S_ .f32 0x7F800000#32
  let main_v25 : FVec F S5x128x256 .f32 := broadcastInDim S5x128x256 ![] bcast_S_S5x128x256 main_cst_8
  let main_v26 : IVec S5x128x256 1 := cmpf .olt main_v24 main_v25
  let main_c_9 : IVec S_ 1 := constantI S_ 1 1#1
  let main_v27 : IVec S_ 1 := (fun x v => Host.reduce IntOp.andi x v reducesTo_S5x128x256_S_d0_1_2 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x16 .f32) (main_arg1 : IVec S2x600000 32) (main_arg2 : IVec S100000 32) (main_arg3 : FVec F S5x16x64 .f32) (main_arg4 : FVec F S64 .f32) (main_arg5 : FVec F S5x16x64 .f32) (main_arg6 : FVec F S64 .f32) (main_arg7 : FVec F S5x128x256 .f32) (main_arg8 : FVec F S256 .f32) (main_arg9 : FVec F S5x128x256 .f32) (main_arg10 : FVec F S256 .f32) (main_arg11 : FVec F S512x4 .f32) (main_arg12 : FVec F S4 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S5x16x64 .f32 := Host.absf main_arg3
  let main_cst_0 : FVec F S_ .f32 := constant S_ .f32 0x7F800000#32
  let main_v5 : FVec F S5x16x64 .f32 := broadcastInDim S5x16x64 ![] bcast_S_S5x16x64 main_cst_0
  let main_v6 : IVec S5x16x64 1 := cmpf .olt main_v4 main_v5
  let main_c_1 : IVec S_ 1 := constantI S_ 1 1#1
  let main_v7 : IVec S_ 1 := (fun x v => Host.reduce IntOp.andi x v reducesTo_S5x16x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5x16x64 .f32 := Host.absf main_arg5
  let main_cst_4 : FVec F S_ .f32 := constant S_ .f32 0x7F800000#32
  let main_v15 : FVec F S5x16x64 .f32 := broadcastInDim S5x16x64 ![] bcast_S_S5x16x64 main_cst_4
  let main_v16 : IVec S5x16x64 1 := cmpf .olt main_v14 main_v15
  fn_part1 (F := F) main_arg6 main_arg7 main_arg8 main_arg9 main_arg10 main_arg11 main_arg12 main_v13 main_v16
-- ==== Kernel.lean ====
abbrev S100000x16 : Shape := ⟨2, ![100000, 16]⟩
abbrev S2x600000 : Shape := ⟨2, ![2, 600000]⟩
abbrev S100000 : Shape := ⟨1, ![100000]⟩
abbrev S5x16x64 : Shape := ⟨3, ![5, 16, 64]⟩
abbrev S64 : Shape := ⟨1, ![64]⟩
abbrev S5x128x256 : Shape := ⟨3, ![5, 128, 256]⟩
abbrev S256 : Shape := ⟨1, ![256]⟩
abbrev S512x4 : Shape := ⟨2, ![512, 4]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x16 : Shape := ⟨2, ![600000, 16]⟩
abbrev S100000x80 : Shape := ⟨2, ![100000, 80]⟩
abbrev S80x64 : Shape := ⟨2, ![80, 64]⟩
abbrev S1x64 : Shape := ⟨2, ![1, 64]⟩
abbrev S100000x64 : Shape := ⟨2, ![100000, 64]⟩
abbrev S2000x80 : Shape := ⟨2, ![2000, 80]⟩
abbrev S2000x64 : Shape := ⟨2, ![2000, 64]⟩
abbrev S100000x128 : Shape := ⟨2, ![100000, 128]⟩
abbrev S600000x128 : Shape := ⟨2, ![600000, 128]⟩
abbrev S100000x640 : Shape := ⟨2, ![100000, 640]⟩
abbrev S640x256 : Shape := ⟨2, ![640, 256]⟩
abbrev S1x256 : Shape := ⟨2, ![1, 256]⟩
abbrev S100000x256 : Shape := ⟨2, ![100000, 256]⟩
abbrev S2000x640 : Shape := ⟨2, ![2000, 640]⟩
abbrev S2000x256 : Shape := ⟨2, ![2000, 256]⟩
abbrev S100000x512 : Shape := ⟨2, ![100000, 512]⟩
abbrev S256x512 : Shape := ⟨2, ![256, 512]⟩
abbrev S100000x1 : Shape := ⟨2, ![100000, 1]⟩
abbrev S256x1 : Shape := ⟨2, ![256, 1]⟩
abbrev S256x4 : Shape := ⟨2, ![256, 4]⟩
abbrev S1x4 : Shape := ⟨2, ![1, 4]⟩

abbrev nBuf : Space → Nat
  | .hbm => 448
  | .vmem => 24
  | .smem => 0
  | _ => 0

abbrev hbmTy0_0 (i : Nat) : BufTy := match i % 128 with
  | 0 => ⟨S100000x16, .f32⟩
  | 1 => ⟨S2x600000, .i32⟩
  | 2 => ⟨S100000, .i32⟩
  | 3 => ⟨S5x16x64, .f32⟩
  | 4 => ⟨S64, .f32⟩
  | 5 => ⟨S5x16x64, .f32⟩
  | 6 => ⟨S64, .f32⟩
  | 7 => ⟨S5x128x256, .f32⟩
  | 8 => ⟨S256, .f32⟩
  | 9 => ⟨S5x128x256, .f32⟩
  | 10 => ⟨S256, .f32⟩
  | 11 => ⟨S512x4, .f32⟩
  | 12 => ⟨S4, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S_, .f32⟩
  | 55 => ⟨S600000, .f32⟩
  | 56 => ⟨S_, .f32⟩
  | 57 => ⟨S100000, .f32⟩
  | 58 => ⟨S600000x1, .i32⟩
  | 59 => ⟨S100000, .f32⟩
  | 60 => ⟨S_, .f32⟩
  | 61 => ⟨S100000, .f32⟩
  | 62 => ⟨S100000, .i1⟩
  | 63 => ⟨S_, .f32⟩
  | 64 => ⟨S100000, .f32⟩
  | 65 => ⟨S100000, .f32⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000, .f32⟩
  | 90 => ⟨S600000, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x16, .f32⟩
  | 100 => ⟨S600000x1, .f32⟩
  | 101 => ⟨S600000x16, .f32⟩
  | 102 => ⟨S600000x16, .f32⟩
  | 103 => ⟨S_, .f32⟩
  | 104 => ⟨S100000x16, .f32⟩
  | 105 => ⟨S600000x1, .i32⟩
  | 106 => ⟨S100000x16, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x16, .f32⟩
  | 116 => ⟨S600000x1, .f32⟩
  | 117 => ⟨S600000x16, .f32⟩
  | 118 => ⟨S600000x16, .f32⟩
  | 119 => ⟨S_, .f32⟩
  | 120 => ⟨S100000x16, .f32⟩
  | 121 => ⟨S600000x1, .i32⟩
  | 122 => ⟨S100000x16, .f32⟩
  | 123 => ⟨S_, .f32⟩
  | 124 => ⟨S100000x16, .f32⟩
  | 125 => ⟨S100000x16, .f32⟩
  | 126 => ⟨S100000x16, .f32⟩
  | 127 => ⟨S_, .i32⟩
  | _ => ⟨S100000x16, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x16, .f32⟩
  | 8 => ⟨S600000x1, .f32⟩
  | 9 => ⟨S600000x16, .f32⟩
  | 10 => ⟨S600000x16, .f32⟩
  | 11 => ⟨S_, .f32⟩
  | 12 => ⟨S100000x16, .f32⟩
  | 13 => ⟨S600000x1, .i32⟩
  | 14 => ⟨S100000x16, .f32⟩
  | 15 => ⟨S_, .f32⟩
  | 16 => ⟨S100000x16, .f32⟩
  | 17 => ⟨S100000x16, .f32⟩
  | 18 => ⟨S100000x16, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x16, .f32⟩
  | 28 => ⟨S600000x1, .f32⟩
  | 29 => ⟨S600000x16, .f32⟩
  | 30 => ⟨S600000x16, .f32⟩
  | 31 => ⟨S_, .f32⟩
  | 32 => ⟨S100000x16, .f32⟩
  | 33 => ⟨S600000x1, .i32⟩
  | 34 => ⟨S100000x16, .f32⟩
  | 35 => ⟨S_, .f32⟩
  | 36 => ⟨S100000x16, .f32⟩
  | 37 => ⟨S100000x16, .f32⟩
  | 38 => ⟨S100000x16, .f32⟩
  | 39 => ⟨S100000x80, .f32⟩
  | 40 => ⟨S80x64, .f32⟩
  | 41 => ⟨S1x64, .f32⟩
  | 42 => ⟨S100000x64, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x16, .f32⟩
  | 52 => ⟨S600000x1, .f32⟩
  | 53 => ⟨S600000x16, .f32⟩
  | 54 => ⟨S600000x16, .f32⟩
  | 55 => ⟨S_, .f32⟩
  | 56 => ⟨S100000x16, .f32⟩
  | 57 => ⟨S600000x1, .i32⟩
  | 58 => ⟨S100000x16, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x16, .f32⟩
  | 68 => ⟨S600000x1, .f32⟩
  | 69 => ⟨S600000x16, .f32⟩
  | 70 => ⟨S600000x16, .f32⟩
  | 71 => ⟨S_, .f32⟩
  | 72 => ⟨S100000x16, .f32⟩
  | 73 => ⟨S600000x1, .i32⟩
  | 74 => ⟨S100000x16, .f32⟩
  | 75 => ⟨S_, .f32⟩
  | 76 => ⟨S100000x16, .f32⟩
  | 77 => ⟨S100000x16, .f32⟩
  | 78 => ⟨S100000x16, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x16, .f32⟩
  | 88 => ⟨S600000x1, .f32⟩
  | 89 => ⟨S600000x16, .f32⟩
  | 90 => ⟨S600000x16, .f32⟩
  | 91 => ⟨S_, .f32⟩
  | 92 => ⟨S100000x16, .f32⟩
  | 93 => ⟨S600000x1, .i32⟩
  | 94 => ⟨S100000x16, .f32⟩
  | 95 => ⟨S_, .f32⟩
  | 96 => ⟨S100000x16, .f32⟩
  | 97 => ⟨S100000x16, .f32⟩
  | 98 => ⟨S100000x16, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x16, .f32⟩
  | 108 => ⟨S600000x1, .f32⟩
  | 109 => ⟨S600000x16, .f32⟩
  | 110 => ⟨S600000x16, .f32⟩
  | 111 => ⟨S_, .f32⟩
  | 112 => ⟨S100000x16, .f32⟩
  | 113 => ⟨S600000x1, .i32⟩
  | 114 => ⟨S100000x16, .f32⟩
  | 115 => ⟨S_, .f32⟩
  | 116 => ⟨S100000x16, .f32⟩
  | 117 => ⟨S100000x16, .f32⟩
  | 118 => ⟨S100000x16, .f32⟩
  | 119 => ⟨S100000x80, .f32⟩
  | 120 => ⟨S80x64, .f32⟩
  | 121 => ⟨S1x64, .f32⟩
  | 122 => ⟨S100000x64, .f32⟩
  | 123 => ⟨S100000x128, .f32⟩
  | 124 => ⟨S_, .i32⟩
  | 125 => ⟨S600000, .i32⟩
  | 126 => ⟨S600000, .i1⟩
  | 127 => ⟨S_, .i32⟩
  | _ => ⟨S100000x16, .f32⟩

abbrev hbmTy0_2 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x1, .f32⟩
  | 6 => ⟨S600000x128, .f32⟩
  | 7 => ⟨S600000x128, .f32⟩
  | 8 => ⟨S_, .f32⟩
  | 9 => ⟨S100000x128, .f32⟩
  | 10 => ⟨S600000x1, .i32⟩
  | 11 => ⟨S100000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S600000x1, .f32⟩
  | 22 => ⟨S600000x128, .f32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x1, .f32⟩
  | 42 => ⟨S600000x128, .f32⟩
  | 43 => ⟨S600000x128, .f32⟩
  | 44 => ⟨S_, .f32⟩
  | 45 => ⟨S100000x128, .f32⟩
  | 46 => ⟨S600000x1, .i32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x1, .f32⟩
  | 62 => ⟨S600000x128, .f32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x640, .f32⟩
  | 73 => ⟨S640x256, .f32⟩
  | 74 => ⟨S1x256, .f32⟩
  | 75 => ⟨S100000x256, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x1, .f32⟩
  | 86 => ⟨S600000x128, .f32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x1, .f32⟩
  | 102 => ⟨S600000x128, .f32⟩
  | 103 => ⟨S600000x128, .f32⟩
  | 104 => ⟨S_, .f32⟩
  | 105 => ⟨S100000x128, .f32⟩
  | 106 => ⟨S600000x1, .i32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S600000x1, .f32⟩
  | 122 => ⟨S600000x128, .f32⟩
  | 123 => ⟨S600000x128, .f32⟩
  | 124 => ⟨S_, .f32⟩
  | 125 => ⟨S100000x128, .f32⟩
  | 126 => ⟨S600000x1, .i32⟩
  | 127 => ⟨S100000x128, .f32⟩
  | _ => ⟨S100000x16, .f32⟩

abbrev hbmTy0_3 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x1, .f32⟩
  | 14 => ⟨S600000x128, .f32⟩
  | 15 => ⟨S600000x128, .f32⟩
  | 16 => ⟨S_, .f32⟩
  | 17 => ⟨S100000x128, .f32⟩
  | 18 => ⟨S600000x1, .i32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S100000x640, .f32⟩
  | 25 => ⟨S640x256, .f32⟩
  | 26 => ⟨S1x256, .f32⟩
  | 27 => ⟨S100000x256, .f32⟩
  | 28 => ⟨S100000x512, .f32⟩
  | 29 => ⟨S_, .f32⟩
  | 30 => ⟨S256x512, .f32⟩
  | 31 => ⟨S100000x1, .i32⟩
  | 32 => ⟨S256x512, .f32⟩
  | 33 => ⟨S_, .f32⟩
  | 34 => ⟨S100000, .f32⟩
  | 35 => ⟨S_, .f32⟩
  | 36 => ⟨S256, .f32⟩
  | 37 => ⟨S100000x1, .i32⟩
  | 38 => ⟨S256, .f32⟩
  | 39 => ⟨S_, .f32⟩
  | 40 => ⟨S256, .f32⟩
  | 41 => ⟨S256, .f32⟩
  | 42 => ⟨S256x1, .f32⟩
  | 43 => ⟨S256x512, .f32⟩
  | 44 => ⟨S256x512, .f32⟩
  | 45 => ⟨S256x4, .f32⟩
  | 46 => ⟨S1x4, .f32⟩
  | 47 => ⟨S256x4, .f32⟩
  | 48 => ⟨S256x4, .f32⟩
  | 49 => ⟨S_, .f32⟩
  | 50 => ⟨S256, .f32⟩
  | 51 => ⟨S_, .f32⟩
  | 52 => ⟨S256, .f32⟩
  | 53 => ⟨S256, .f32⟩
  | 54 => ⟨S256x1, .f32⟩
  | 55 => ⟨S256x4, .f32⟩
  | 56 => ⟨S256x4, .f32⟩
  | 57 => ⟨S256x4, .f32⟩
  | 58 => ⟨S_, .f32⟩
  | 59 => ⟨S256, .f32⟩
  | 60 => ⟨S256x1, .f32⟩
  | 61 => ⟨S256x1, .f32⟩
  | 62 => ⟨S256x4, .f32⟩
  | 63 => ⟨S256x4, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | .local _ .vmem, ⟨0, _⟩ => ⟨S2000x80, .f32⟩
  | .local _ .vmem, ⟨1, _⟩ => ⟨S2000x80, .f32⟩
  | .local _ .vmem, ⟨2, _⟩ => ⟨S80x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x80, .f32⟩
  | .local _ .vmem, ⟨7, _⟩ => ⟨S2000x80, .f32⟩
  | .local _ .vmem, ⟨8, _⟩ => ⟨S80x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x640, .f32⟩
  | .local _ .vmem, ⟨13, _⟩ => ⟨S2000x640, .f32⟩
  | .local _ .vmem, ⟨14, _⟩ => ⟨S640x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x640, .f32⟩
  | .local _ .vmem, ⟨19, _⟩ => ⟨S2000x640, .f32⟩
  | .local _ .vmem, ⟨20, _⟩ => ⟨S640x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_v39 : Ref sig .tc := ⟨.hbm, 70, rfl⟩
abbrev main_c_12 : Ref sig .tc := ⟨.hbm, 71, rfl⟩
abbrev main_v40 : Ref sig .tc := ⟨.hbm, 72, rfl⟩
abbrev main_v41 : Ref sig .tc := ⟨.hbm, 73, rfl⟩
abbrev main_c_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_16 : Ref sig .tc := ⟨.hbm, 91, rfl⟩
abbrev main_v56 : Ref sig .tc := ⟨.hbm, 92, rfl⟩
abbrev main_v57 : Ref sig .tc := ⟨.hbm, 93, rfl⟩
abbrev main_c_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_19 : Ref sig .tc := ⟨.hbm, 107, rfl⟩
abbrev main_v69 : Ref sig .tc := ⟨.hbm, 108, rfl⟩
abbrev main_v70 : Ref sig .tc := ⟨.hbm, 109, rfl⟩
abbrev main_c_20 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_21 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_22 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_23 : Ref sig .tc := ⟨.hbm, 127, rfl⟩
abbrev main_v85 : Ref sig .tc := ⟨.hbm, 128, rfl⟩
abbrev main_v86 : Ref sig .tc := ⟨.hbm, 129, rfl⟩
abbrev main_c_24 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_25 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_26 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_27 : Ref sig .tc := ⟨.hbm, 147, rfl⟩
abbrev main_v101 : Ref sig .tc := ⟨.hbm, 148, rfl⟩
abbrev main_v102 : Ref sig .tc := ⟨.hbm, 149, rfl⟩
abbrev main_c_28 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_29 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_30 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_31 : Ref sig .tc := ⟨.hbm, 171, rfl⟩
abbrev main_v121 : Ref sig .tc := ⟨.hbm, 172, rfl⟩
abbrev main_v122 : Ref sig .tc := ⟨.hbm, 173, rfl⟩
abbrev main_c_32 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_33 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_34 : Ref sig .tc := ⟨.hbm, 187, rfl⟩
abbrev main_v134 : Ref sig .tc := ⟨.hbm, 188, rfl⟩
abbrev main_v135 : Ref sig .tc := ⟨.hbm, 189, rfl⟩
abbrev main_c_35 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_36 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_37 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_38 : Ref sig .tc := ⟨.hbm, 207, rfl⟩
abbrev main_v150 : Ref sig .tc := ⟨.hbm, 208, rfl⟩
abbrev main_v151 : Ref sig .tc := ⟨.hbm, 209, rfl⟩
abbrev main_c_39 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_40 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_41 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_42 : Ref sig .tc := ⟨.hbm, 227, rfl⟩
abbrev main_v166 : Ref sig .tc := ⟨.hbm, 228, rfl⟩
abbrev main_v167 : Ref sig .tc := ⟨.hbm, 229, rfl⟩
abbrev main_c_43 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_44 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_45 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_c_46 : Ref sig .tc := ⟨.hbm, 252, rfl⟩
abbrev main_v187 : Ref sig .tc := ⟨.hbm, 253, rfl⟩
abbrev main_v188 : Ref sig .tc := ⟨.hbm, 254, rfl⟩
abbrev main_c_47 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_cst_48 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_c_49 : Ref sig .tc := ⟨.hbm, 268, rfl⟩
abbrev main_v200 : Ref sig .tc := ⟨.hbm, 269, rfl⟩
abbrev main_v201 : Ref sig .tc := ⟨.hbm, 270, rfl⟩
abbrev main_c_50 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_51 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_52 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_c_53 : Ref sig .tc := ⟨.hbm, 288, rfl⟩
abbrev main_v216 : Ref sig .tc := ⟨.hbm, 289, rfl⟩
abbrev main_v217 : Ref sig .tc := ⟨.hbm, 290, rfl⟩
abbrev main_c_54 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_cst_55 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_cst_56 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_c_57 : Ref sig .tc := ⟨.hbm, 308, rfl⟩
abbrev main_v232 : Ref sig .tc := ⟨.hbm, 309, rfl⟩
abbrev main_v233 : Ref sig .tc := ⟨.hbm, 310, rfl⟩
abbrev main_c_58 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_cst_59 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_60 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_c_61 : Ref sig .tc := ⟨.hbm, 332, rfl⟩
abbrev main_v252 : Ref sig .tc := ⟨.hbm, 333, rfl⟩
abbrev main_v253 : Ref sig .tc := ⟨.hbm, 334, rfl⟩
abbrev main_c_62 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_63 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_c_64 : Ref sig .tc := ⟨.hbm, 348, rfl⟩
abbrev main_v265 : Ref sig .tc := ⟨.hbm, 349, rfl⟩
abbrev main_v266 : Ref sig .tc := ⟨.hbm, 350, rfl⟩
abbrev main_c_65 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_cst_66 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_cst_67 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_c_68 : Ref sig .tc := ⟨.hbm, 368, rfl⟩
abbrev main_v281 : Ref sig .tc := ⟨.hbm, 369, rfl⟩
abbrev main_v282 : Ref sig .tc := ⟨.hbm, 370, rfl⟩
abbrev main_c_69 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_cst_70 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_cst_71 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_c_72 : Ref sig .tc := ⟨.hbm, 388, rfl⟩
abbrev main_v297 : Ref sig .tc := ⟨.hbm, 389, rfl⟩
abbrev main_v298 : Ref sig .tc := ⟨.hbm, 390, rfl⟩
abbrev main_c_73 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_cst_74 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_cst_75 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_cst_76 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_cst_77 : Ref sig .tc := ⟨.hbm, 417, rfl⟩
abbrev main_v321 : Ref sig .tc := ⟨.hbm, 418, rfl⟩
abbrev main_cst_78 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_cst_79 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_call2_cst : Ref sig .tc := ⟨.hbm, 433, rfl⟩
abbrev main_call2_v0 : Ref sig .tc := ⟨.hbm, 434, rfl⟩
abbrev main_call2_cst_0 : Ref sig .tc := ⟨.hbm, 435, rfl⟩
abbrev main_call2_v1 : Ref sig .tc := ⟨.hbm, 436, rfl⟩
abbrev main_call2_v2 : Ref sig .tc := ⟨.hbm, 437, rfl⟩
abbrev main_call2_v3 : Ref sig .tc := ⟨.hbm, 438, rfl⟩
abbrev main_call2_v4 : Ref sig .tc := ⟨.hbm, 439, rfl⟩
abbrev main_call2_v5 : Ref sig .tc := ⟨.hbm, 440, rfl⟩
abbrev main_call2_v6 : Ref sig .tc := ⟨.hbm, 441, rfl⟩
abbrev main_call2_cst_1 : Ref sig .tc := ⟨.hbm, 442, rfl⟩
abbrev main_call2_v7 : Ref sig .tc := ⟨.hbm, 443, rfl⟩
abbrev main_call2_v8 : Ref sig .tc := ⟨.hbm, 444, rfl⟩
abbrev main_call2_v9 : Ref sig .tc := ⟨.hbm, 445, rfl⟩
abbrev main_call2_v10 : Ref sig .tc := ⟨.hbm, 446, rfl⟩
abbrev main_v334 : Ref sig .tc := ⟨.hbm, 447, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S640x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x640 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S640x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x16_0_1 : S600000x1.BroadcastsInDim S600000x16 (![0, 1] : Fin 2 → Fin S600000x16.rank)
  bcast_S_S100000x16 : S_.BroadcastsInDim S100000x16 (![] : Fin 0 → Fin S100000x16.rank)
  concatenates_S100000x16_S100000x16_S100000x16_S100000x16_S100000x16_S100000x80_d1 : Shape.Concatenates [S100000x16, S100000x16, S100000x16, S100000x16, S100000x16] S100000x80 1
  shapeCasts_S5x16x64_S80x64 : S5x16x64.ShapeCasts S80x64
  shapeCasts_S64_S1x64 : S64.ShapeCasts S1x64
  inb_S2000x80_S2000x80_0_0 : ∀ a, (![0, 0] : Fin 2 → Nat) a + S2000x80.size a ≤ S2000x80.size a
  h_S2000x80 : 0 < S2000x80.numel
  shapeCasts_S2000x80_S2000x80 : S2000x80.ShapeCasts S2000x80
  bitsLt_bf16_f32 : FTy.bits .bf16 < FTy.bits .f32
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  concatenates_S100000x64_S100000x64_S100000x128_d1 : Shape.Concatenates [S100000x64, S100000x64] S100000x128 1
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  concatenates_S100000x128_S100000x128_S100000x128_S100000x128_S100000x128_S100000x640_d1 : Shape.Concatenates [S100000x128, S100000x128, S100000x128, S100000x128, S100000x128] S100000x640 1
  shapeCasts_S5x128x256_S640x256 : S5x128x256.ShapeCasts S640x256
  shapeCasts_S256_S1x256 : S256.ShapeCasts S1x256
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  concatenates_S100000x256_S100000x256_S100000x512_d1 : Shape.Concatenates [S100000x256, S100000x256] S100000x512 1
  bcast_S_S256x512 : S_.BroadcastsInDim S256x512 (![] : Fin 0 → Fin S256x512.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  bcast_S4_S1x4_1 : S4.BroadcastsInDim S1x4 (![1] : Fin 1 → Fin S1x4.rank)
  bcast_S1x4_S256x4_0_1 : S1x4.BroadcastsInDim S256x4 (![0, 1] : Fin 2 → Fin S256x4.rank)
  reducesTo_S256x4_S256_d1 : S256x4.ReducesTo [1] S256
  h_S_ : 0 < S_.numel
  bcast_S256x1_S256x4_0_1 : S256x1.BroadcastsInDim S256x4 (![0, 1] : Fin 2 → Fin S256x4.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  dot_S2000x80_S80x64_S2000x64_1_0_0_1_n_n_wf : DotDims.WF S2000x80 S80x64 S2000x64 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x640_S640x256_S2000x256_1_0_0_1_n_n_wf : DotDims.WF S2000x640 S640x256 S2000x256 [1] [0] [0] [1] [] []
  scatter_S256x512_S100000x1_S100000x512_1_0_0_1_wf : ScatterDims.WF S256x512 S100000x1 S100000x512 [1] [0] [0] 1
  scatter_S256_S100000x1_S100000_n_0_0_1_wf : ScatterDims.WF S256 S100000x1 S100000 [] [0] [0] 1
  dot_S256x512_S512x4_S256x4_1_0_0_1_n_n_wf : DotDims.WF S256x512 S512x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x80.size a ≤ S100000x80.size a
  hwx0_0 : ∀ i : grid0.Coords, EltTy.bits .f32 = 32 ∨ (Rect.block (s := S100000x80) S2000x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x64.size a ≤ S80x64.size a
  hwx0_1 : ∀ i : grid0.Coords, EltTy.bits .f32 = 32 ∨ (Rect.block (s := S80x64) S80x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x80.size a ≤ S100000x80.size a
  hwx1_0 : ∀ i : grid1.Coords, EltTy.bits .f32 = 32 ∨ (Rect.block (s := S100000x80) S2000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x64.size a ≤ S80x64.size a
  hwx1_1 : ∀ i : grid1.Coords, EltTy.bits .f32 = 32 ∨ (Rect.block (s := S80x64) S80x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x640.size a ≤ S100000x640.size a
  hwx2_0 : ∀ i : grid2.Coords, EltTy.bits .f32 = 32 ∨ (Rect.block (s := S100000x640) S2000x640.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S640x256.size a ≤ S640x256.size a
  hwx2_1 : ∀ i : grid2.Coords, EltTy.bits .f32 = 32 ∨ (Rect.block (s := S640x256) S640x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x640.size a ≤ S100000x640.size a
  hwx3_0 : ∀ i : grid3.Coords, EltTy.bits .f32 = 32 ∨ (Rect.block (s := S100000x640) S2000x640.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S640x256.size a ≤ S640x256.size a
  hwx3_1 : ∀ i : grid3.Coords, EltTy.bits .f32 = 32 ∨ (Rect.block (s := S640x256) S640x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S100000x256.size a
  hwx3_3 : ∀ i : grid3.Coords, EltTy.bits .f32 = 32 ∨ (Rect.block (s := S100000x256) S2000x256.size (cc3_transform_3 i) (hinb3_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf
def dot_S2000x80_S80x64_S2000x64_1_0_0_1_n_n : DotDims S2000x80 S80x64 S2000x64 where
  lhsContracting := [1]
  rhsContracting := [0]
  lhsNonContracting := [0]
  rhsNonContracting := [1]
  lhsBatch := []
  rhsBatch := []
  wf := dot_S2000x80_S80x64_S2000x64_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x640_S640x256_S2000x256_1_0_0_1_n_n : DotDims S2000x640 S640x256 S2000x256 where
  lhsContracting := [1]
  rhsContracting := [0]
  lhsNonContracting := [0]
  rhsNonContracting := [1]
  lhsBatch := []
  rhsBatch := []
  wf := dot_S2000x640_S640x256_S2000x256_1_0_0_1_n_n_wf
def scatter_S256x512_S100000x1_S100000x512_1_0_0_1 : ScatterDims S256x512 S100000x1 S100000x512 where
  updateWindowDims := [1]
  insertedWindowDims := [0]
  scatterDimsToOperandDims := [0]
  indexVectorDim := 1
  wf := scatter_S256x512_S100000x1_S100000x512_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x512_S512x4_S256x4_1_0_0_1_n_n : DotDims S256x512 S512x4 S256x4 where
  lhsContracting := [1]
  rhsContracting := [0]
  lhsNonContracting := [0]
  rhsNonContracting := [1]
  lhsBatch := []
  rhsBatch := []
  wf := dot_S256x512_S512x4_S256x4_1_0_0_1_n_n_wf

abbrev win0_0 : Pipeline.Window sig grid0 :=
  Pipeline.Window.ofSpec (Memref.whole main_v117) S2000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v118) S80x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v119) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v120) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v182) S2000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v183) S80x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v184) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v185) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v248) S2000x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v249) S640x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v250) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v251) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v313) S2000x640.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v314) S640x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v315) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v316) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x600000 : Shape := ⟨2, ![2, 600000]⟩
abbrev S100000 : Shape := ⟨1, ![100000]⟩
abbrev S5x16x64 : Shape := ⟨3, ![5, 16, 64]⟩
abbrev S64 : Shape := ⟨1, ![64]⟩
abbrev S5x128x256 : Shape := ⟨3, ![5, 128, 256]⟩
abbrev S256 : Shape := ⟨1, ![256]⟩
abbrev S512x4 : Shape := ⟨2, ![512, 4]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x16 : Shape := ⟨2, ![600000, 16]⟩
abbrev S1x16x64 : Shape := ⟨3, ![1, 16, 64]⟩
abbrev S16x64 : Shape := ⟨2, ![16, 64]⟩
abbrev S100000x64 : Shape := ⟨2, ![100000, 64]⟩
abbrev S1x64 : Shape := ⟨2, ![1, 64]⟩
abbrev S100000x128 : Shape := ⟨2, ![100000, 128]⟩
abbrev S600000x128 : Shape := ⟨2, ![600000, 128]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S100000x512 : Shape := ⟨2, ![100000, 512]⟩
abbrev S256x512 : Shape := ⟨2, ![256, 512]⟩
abbrev S100000x1 : Shape := ⟨2, ![100000, 1]⟩
abbrev S256x1 : Shape := ⟨2, ![256, 1]⟩
abbrev S256x4 : Shape := ⟨2, ![256, 4]⟩
abbrev S1x4 : Shape := ⟨2, ![1, 4]⟩

abbrev nBuf : Space → Nat
  | .hbm => 532
  | .vmem => 0
  | .smem => 0
  | _ => 0

abbrev hbmTy0_0 (i : Nat) : BufTy := match i % 128 with
  | 0 => ⟨S100000x16, .f32⟩
  | 1 => ⟨S2x600000, .i32⟩
  | 2 => ⟨S100000, .i32⟩
  | 3 => ⟨S5x16x64, .f32⟩
  | 4 => ⟨S64, .f32⟩
  | 5 => ⟨S5x16x64, .f32⟩
  | 6 => ⟨S64, .f32⟩
  | 7 => ⟨S5x128x256, .f32⟩
  | 8 => ⟨S256, .f32⟩
  | 9 => ⟨S5x128x256, .f32⟩
  | 10 => ⟨S256, .f32⟩
  | 11 => ⟨S512x4, .f32⟩
  | 12 => ⟨S4, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S_, .f32⟩
  | 55 => ⟨S600000, .f32⟩
  | 56 => ⟨S_, .f32⟩
  | 57 => ⟨S100000, .f32⟩
  | 58 => ⟨S600000x1, .i32⟩
  | 59 => ⟨S100000, .f32⟩
  | 60 => ⟨S_, .f32⟩
  | 61 => ⟨S100000, .f32⟩
  | 62 => ⟨S100000, .i1⟩
  | 63 => ⟨S_, .f32⟩
  | 64 => ⟨S100000, .f32⟩
  | 65 => ⟨S100000, .f32⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000, .f32⟩
  | 90 => ⟨S600000, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x16, .f32⟩
  | 100 => ⟨S600000x1, .f32⟩
  | 101 => ⟨S600000x16, .f32⟩
  | 102 => ⟨S600000x16, .f32⟩
  | 103 => ⟨S_, .f32⟩
  | 104 => ⟨S100000x16, .f32⟩
  | 105 => ⟨S600000x1, .i32⟩
  | 106 => ⟨S100000x16, .f32⟩
  | 107 => ⟨S1x16x64, .f32⟩
  | 108 => ⟨S16x64, .f32⟩
  | 109 => ⟨S100000x64, .f32⟩
  | 110 => ⟨S1x16x64, .f32⟩
  | 111 => ⟨S16x64, .f32⟩
  | 112 => ⟨S100000x64, .f32⟩
  | 113 => ⟨S100000x64, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x16, .f32⟩
  | 123 => ⟨S600000x1, .f32⟩
  | 124 => ⟨S600000x16, .f32⟩
  | 125 => ⟨S600000x16, .f32⟩
  | 126 => ⟨S_, .f32⟩
  | 127 => ⟨S100000x16, .f32⟩
  | _ => ⟨S100000x16, .f32⟩

abbrev hbmTy0_1 (i : Nat) : BufTy := match i % 128 with
  | 0 => ⟨S600000x1, .i32⟩
  | 1 => ⟨S100000x16, .f32⟩
  | 2 => ⟨S_, .f32⟩
  | 3 => ⟨S100000x16, .f32⟩
  | 4 => ⟨S100000x16, .f32⟩
  | 5 => ⟨S100000x16, .f32⟩
  | 6 => ⟨S1x16x64, .f32⟩
  | 7 => ⟨S16x64, .f32⟩
  | 8 => ⟨S100000x64, .f32⟩
  | 9 => ⟨S100000x64, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x16, .f32⟩
  | 19 => ⟨S600000x1, .f32⟩
  | 20 => ⟨S600000x16, .f32⟩
  | 21 => ⟨S600000x16, .f32⟩
  | 22 => ⟨S_, .f32⟩
  | 23 => ⟨S100000x16, .f32⟩
  | 24 => ⟨S600000x1, .i32⟩
  | 25 => ⟨S100000x16, .f32⟩
  | 26 => ⟨S_, .f32⟩
  | 27 => ⟨S100000x16, .f32⟩
  | 28 => ⟨S100000x16, .f32⟩
  | 29 => ⟨S100000x16, .f32⟩
  | 30 => ⟨S1x16x64, .f32⟩
  | 31 => ⟨S16x64, .f32⟩
  | 32 => ⟨S100000x64, .f32⟩
  | 33 => ⟨S100000x64, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x16, .f32⟩
  | 43 => ⟨S600000x1, .f32⟩
  | 44 => ⟨S600000x16, .f32⟩
  | 45 => ⟨S600000x16, .f32⟩
  | 46 => ⟨S_, .f32⟩
  | 47 => ⟨S100000x16, .f32⟩
  | 48 => ⟨S600000x1, .i32⟩
  | 49 => ⟨S100000x16, .f32⟩
  | 50 => ⟨S_, .f32⟩
  | 51 => ⟨S100000x16, .f32⟩
  | 52 => ⟨S100000x16, .f32⟩
  | 53 => ⟨S100000x16, .f32⟩
  | 54 => ⟨S1x16x64, .f32⟩
  | 55 => ⟨S16x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x16, .f32⟩
  | 73 => ⟨S600000x1, .f32⟩
  | 74 => ⟨S600000x16, .f32⟩
  | 75 => ⟨S600000x16, .f32⟩
  | 76 => ⟨S_, .f32⟩
  | 77 => ⟨S100000x16, .f32⟩
  | 78 => ⟨S600000x1, .i32⟩
  | 79 => ⟨S100000x16, .f32⟩
  | 80 => ⟨S1x16x64, .f32⟩
  | 81 => ⟨S16x64, .f32⟩
  | 82 => ⟨S100000x64, .f32⟩
  | 83 => ⟨S1x16x64, .f32⟩
  | 84 => ⟨S16x64, .f32⟩
  | 85 => ⟨S100000x64, .f32⟩
  | 86 => ⟨S100000x64, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x16, .f32⟩
  | 96 => ⟨S600000x1, .f32⟩
  | 97 => ⟨S600000x16, .f32⟩
  | 98 => ⟨S600000x16, .f32⟩
  | 99 => ⟨S_, .f32⟩
  | 100 => ⟨S100000x16, .f32⟩
  | 101 => ⟨S600000x1, .i32⟩
  | 102 => ⟨S100000x16, .f32⟩
  | 103 => ⟨S_, .f32⟩
  | 104 => ⟨S100000x16, .f32⟩
  | 105 => ⟨S100000x16, .f32⟩
  | 106 => ⟨S100000x16, .f32⟩
  | 107 => ⟨S1x16x64, .f32⟩
  | 108 => ⟨S16x64, .f32⟩
  | 109 => ⟨S100000x64, .f32⟩
  | 110 => ⟨S100000x64, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x16, .f32⟩
  | 120 => ⟨S600000x1, .f32⟩
  | 121 => ⟨S600000x16, .f32⟩
  | 122 => ⟨S600000x16, .f32⟩
  | 123 => ⟨S_, .f32⟩
  | 124 => ⟨S100000x16, .f32⟩
  | 125 => ⟨S600000x1, .i32⟩
  | 126 => ⟨S100000x16, .f32⟩
  | 127 => ⟨S_, .f32⟩
  | _ => ⟨S100000x16, .f32⟩

abbrev hbmTy0_2 (i : Nat) : BufTy := match i % 128 with
  | 0 => ⟨S100000x16, .f32⟩
  | 1 => ⟨S100000x16, .f32⟩
  | 2 => ⟨S100000x16, .f32⟩
  | 3 => ⟨S1x16x64, .f32⟩
  | 4 => ⟨S16x64, .f32⟩
  | 5 => ⟨S100000x64, .f32⟩
  | 6 => ⟨S100000x64, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x16, .f32⟩
  | 16 => ⟨S600000x1, .f32⟩
  | 17 => ⟨S600000x16, .f32⟩
  | 18 => ⟨S600000x16, .f32⟩
  | 19 => ⟨S_, .f32⟩
  | 20 => ⟨S100000x16, .f32⟩
  | 21 => ⟨S600000x1, .i32⟩
  | 22 => ⟨S100000x16, .f32⟩
  | 23 => ⟨S_, .f32⟩
  | 24 => ⟨S100000x16, .f32⟩
  | 25 => ⟨S100000x16, .f32⟩
  | 26 => ⟨S100000x16, .f32⟩
  | 27 => ⟨S1x16x64, .f32⟩
  | 28 => ⟨S16x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x1, .f32⟩
  | 48 => ⟨S600000x128, .f32⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S1x128x256, .f32⟩
  | 55 => ⟨S128x256, .f32⟩
  | 56 => ⟨S100000x256, .f32⟩
  | 57 => ⟨S1x128x256, .f32⟩
  | 58 => ⟨S128x256, .f32⟩
  | 59 => ⟨S100000x256, .f32⟩
  | 60 => ⟨S100000x256, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x1, .f32⟩
  | 71 => ⟨S600000x128, .f32⟩
  | 72 => ⟨S600000x128, .f32⟩
  | 73 => ⟨S_, .f32⟩
  | 74 => ⟨S100000x128, .f32⟩
  | 75 => ⟨S600000x1, .i32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S1x128x256, .f32⟩
  | 82 => ⟨S128x256, .f32⟩
  | 83 => ⟨S100000x256, .f32⟩
  | 84 => ⟨S100000x256, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S600000x1, .f32⟩
  | 95 => ⟨S600000x128, .f32⟩
  | 96 => ⟨S600000x128, .f32⟩
  | 97 => ⟨S_, .f32⟩
  | 98 => ⟨S100000x128, .f32⟩
  | 99 => ⟨S600000x1, .i32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1x128x256, .f32⟩
  | 106 => ⟨S128x256, .f32⟩
  | 107 => ⟨S100000x256, .f32⟩
  | 108 => ⟨S100000x256, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x1, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S_, .f32⟩
  | 126 => ⟨S100000x128, .f32⟩
  | 127 => ⟨S100000x128, .f32⟩
  | _ => ⟨S100000x16, .f32⟩

abbrev hbmTy0_3 (i : Nat) : BufTy := match i % 128 with
  | 0 => ⟨S100000x128, .f32⟩
  | 1 => ⟨S1x128x256, .f32⟩
  | 2 => ⟨S128x256, .f32⟩
  | 3 => ⟨S100000x256, .f32⟩
  | 4 => ⟨S100000x256, .f32⟩
  | 5 => ⟨S1x256, .f32⟩
  | 6 => ⟨S100000x256, .f32⟩
  | 7 => ⟨S100000x256, .f32⟩
  | 8 => ⟨S_, .f32⟩
  | 9 => ⟨S100000x256, .f32⟩
  | 10 => ⟨S100000x256, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000x128, .f32⟩
  | 20 => ⟨S600000x1, .f32⟩
  | 21 => ⟨S600000x128, .f32⟩
  | 22 => ⟨S600000x128, .f32⟩
  | 23 => ⟨S_, .f32⟩
  | 24 => ⟨S100000x128, .f32⟩
  | 25 => ⟨S600000x1, .i32⟩
  | 26 => ⟨S100000x128, .f32⟩
  | 27 => ⟨S1x128x256, .f32⟩
  | 28 => ⟨S128x256, .f32⟩
  | 29 => ⟨S100000x256, .f32⟩
  | 30 => ⟨S1x128x256, .f32⟩
  | 31 => ⟨S128x256, .f32⟩
  | 32 => ⟨S100000x256, .f32⟩
  | 33 => ⟨S100000x256, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x1, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x128x256, .f32⟩
  | 55 => ⟨S128x256, .f32⟩
  | 56 => ⟨S100000x256, .f32⟩
  | 57 => ⟨S100000x256, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S600000x1, .f32⟩
  | 68 => ⟨S600000x128, .f32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S1x128x256, .f32⟩
  | 79 => ⟨S128x256, .f32⟩
  | 80 => ⟨S100000x256, .f32⟩
  | 81 => ⟨S100000x256, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S600000x1, .f32⟩
  | 92 => ⟨S600000x128, .f32⟩
  | 93 => ⟨S600000x128, .f32⟩
  | 94 => ⟨S_, .f32⟩
  | 95 => ⟨S100000x128, .f32⟩
  | 96 => ⟨S600000x1, .i32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1x128x256, .f32⟩
  | 103 => ⟨S128x256, .f32⟩
  | 104 => ⟨S100000x256, .f32⟩
  | 105 => ⟨S100000x256, .f32⟩
  | 106 => ⟨S1x256, .f32⟩
  | 107 => ⟨S100000x256, .f32⟩
  | 108 => ⟨S100000x256, .f32⟩
  | 109 => ⟨S_, .f32⟩
  | 110 => ⟨S100000x256, .f32⟩
  | 111 => ⟨S100000x256, .f32⟩
  | 112 => ⟨S100000x512, .f32⟩
  | 113 => ⟨S_, .f32⟩
  | 114 => ⟨S256x512, .f32⟩
  | 115 => ⟨S100000x1, .i32⟩
  | 116 => ⟨S256x512, .f32⟩
  | 117 => ⟨S_, .f32⟩
  | 118 => ⟨S100000, .f32⟩
  | 119 => ⟨S_, .f32⟩
  | 120 => ⟨S256, .f32⟩
  | 121 => ⟨S100000x1, .i32⟩
  | 122 => ⟨S256, .f32⟩
  | 123 => ⟨S_, .f32⟩
  | 124 => ⟨S256, .f32⟩
  | 125 => ⟨S256, .f32⟩
  | 126 => ⟨S256x1, .f32⟩
  | 127 => ⟨S256x512, .f32⟩
  | _ => ⟨S100000x16, .f32⟩

abbrev hbmTy0_4 (i : Nat) : BufTy := match i % 128 with
  | 0 => ⟨S256x512, .f32⟩
  | 1 => ⟨S256x4, .f32⟩
  | 2 => ⟨S1x4, .f32⟩
  | 3 => ⟨S256x4, .f32⟩
  | 4 => ⟨S256x4, .f32⟩
  | 5 => ⟨S_, .f32⟩
  | 6 => ⟨S256, .f32⟩
  | 7 => ⟨S_, .f32⟩
  | 8 => ⟨S256, .f32⟩
  | 9 => ⟨S256, .f32⟩
  | 10 => ⟨S256x1, .f32⟩
  | 11 => ⟨S256x4, .f32⟩
  | 12 => ⟨S256x4, .f32⟩
  | 13 => ⟨S256x4, .f32⟩
  | 14 => ⟨S_, .f32⟩
  | 15 => ⟨S256, .f32⟩
  | 16 => ⟨S256x1, .f32⟩
  | 17 => ⟨S256x1, .f32⟩
  | 18 => ⟨S256x4, .f32⟩
  | 19 => ⟨S256x4, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_v39 : Ref sig .tc := ⟨.hbm, 70, rfl⟩
abbrev main_c_12 : Ref sig .tc := ⟨.hbm, 71, rfl⟩
abbrev main_v40 : Ref sig .tc := ⟨.hbm, 72, rfl⟩
abbrev main_v41 : Ref sig .tc := ⟨.hbm, 73, rfl⟩
abbrev main_c_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_16 : Ref sig .tc := ⟨.hbm, 91, rfl⟩
abbrev main_v56 : Ref sig .tc := ⟨.hbm, 92, rfl⟩
abbrev main_v57 : Ref sig .tc := ⟨.hbm, 93, rfl⟩
abbrev main_c_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_19 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_22 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_c_24 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_25 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_26 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_27 : Ref sig .tc := ⟨.hbm, 162, rfl⟩
abbrev main_v116 : Ref sig .tc := ⟨.hbm, 163, rfl⟩
abbrev main_v117 : Ref sig .tc := ⟨.hbm, 164, rfl⟩
abbrev main_c_28 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_29 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_30 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call2_cst : Ref sig .tc := ⟨.hbm, 189, rfl⟩
abbrev main_call2_v0 : Ref sig .tc := ⟨.hbm, 190, rfl⟩
abbrev main_v139 : Ref sig .tc := ⟨.hbm, 191, rfl⟩
abbrev main_c_31 : Ref sig .tc := ⟨.hbm, 192, rfl⟩
abbrev main_v140 : Ref sig .tc := ⟨.hbm, 193, rfl⟩
abbrev main_v141 : Ref sig .tc := ⟨.hbm, 194, rfl⟩
abbrev main_c_32 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_33 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_c_34 : Ref sig .tc := ⟨.hbm, 215, rfl⟩
abbrev main_v160 : Ref sig .tc := ⟨.hbm, 216, rfl⟩
abbrev main_v161 : Ref sig .tc := ⟨.hbm, 217, rfl⟩
abbrev main_c_35 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_36 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_37 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_c_38 : Ref sig .tc := ⟨.hbm, 239, rfl⟩
abbrev main_v180 : Ref sig .tc := ⟨.hbm, 240, rfl⟩
abbrev main_v181 : Ref sig .tc := ⟨.hbm, 241, rfl⟩
abbrev main_c_39 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_40 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_cst_41 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_c_42 : Ref sig .tc := ⟨.hbm, 263, rfl⟩
abbrev main_v200 : Ref sig .tc := ⟨.hbm, 264, rfl⟩
abbrev main_v201 : Ref sig .tc := ⟨.hbm, 265, rfl⟩
abbrev main_c_43 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_44 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_cst_45 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_call3_cst : Ref sig .tc := ⟨.hbm, 290, rfl⟩
abbrev main_call3_v0 : Ref sig .tc := ⟨.hbm, 291, rfl⟩
abbrev main_v223 : Ref sig .tc := ⟨.hbm, 292, rfl⟩
abbrev main_v224 : Ref sig .tc := ⟨.hbm, 293, rfl⟩
abbrev main_c_46 : Ref sig .tc := ⟨.hbm, 294, rfl⟩
abbrev main_v225 : Ref sig .tc := ⟨.hbm, 295, rfl⟩
abbrev main_v226 : Ref sig .tc := ⟨.hbm, 296, rfl⟩
abbrev main_c_47 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_cst_48 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_c_49 : Ref sig .tc := ⟨.hbm, 317, rfl⟩
abbrev main_v245 : Ref sig .tc := ⟨.hbm, 318, rfl⟩
abbrev main_v246 : Ref sig .tc := ⟨.hbm, 319, rfl⟩
abbrev main_c_50 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_cst_51 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_cst_52 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_c_53 : Ref sig .tc := ⟨.hbm, 341, rfl⟩
abbrev main_v265 : Ref sig .tc := ⟨.hbm, 342, rfl⟩
abbrev main_v266 : Ref sig .tc := ⟨.hbm, 343, rfl⟩
abbrev main_c_54 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_cst_55 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_cst_56 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_c_57 : Ref sig .tc := ⟨.hbm, 365, rfl⟩
abbrev main_v285 : Ref sig .tc := ⟨.hbm, 366, rfl⟩
abbrev main_v286 : Ref sig .tc := ⟨.hbm, 367, rfl⟩
abbrev main_c_58 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_cst_59 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_cst_60 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_call4_cst : Ref sig .tc := ⟨.hbm, 392, rfl⟩
abbrev main_call4_v0 : Ref sig .tc := ⟨.hbm, 393, rfl⟩
abbrev main_v308 : Ref sig .tc := ⟨.hbm, 394, rfl⟩
abbrev main_c_61 : Ref sig .tc := ⟨.hbm, 395, rfl⟩
abbrev main_v309 : Ref sig .tc := ⟨.hbm, 396, rfl⟩
abbrev main_v310 : Ref sig .tc := ⟨.hbm, 397, rfl⟩
abbrev main_c_62 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_cst_63 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_c_64 : Ref sig .tc := ⟨.hbm, 418, rfl⟩
abbrev main_v329 : Ref sig .tc := ⟨.hbm, 419, rfl⟩
abbrev main_v330 : Ref sig .tc := ⟨.hbm, 420, rfl⟩
abbrev main_c_65 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_cst_66 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_cst_67 : Ref sig .tc := ⟨.hbm, 434, rfl⟩
abbrev main_v342 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_c_68 : Ref sig .tc := ⟨.hbm, 442, rfl⟩
abbrev main_v349 : Ref sig .tc := ⟨.hbm, 443, rfl⟩
abbrev main_v350 : Ref sig .tc := ⟨.hbm, 444, rfl⟩
abbrev main_c_69 : Ref sig .tc := ⟨.hbm, 445, rfl⟩
abbrev main_v351 : Ref sig .tc := ⟨.hbm, 446, rfl⟩
abbrev main_v352 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_cst_70 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_cst_71 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_c_72 : Ref sig .tc := ⟨.hbm, 466, rfl⟩
abbrev main_v369 : Ref sig .tc := ⟨.hbm, 467, rfl⟩
abbrev main_v370 : Ref sig .tc := ⟨.hbm, 468, rfl⟩
abbrev main_c_73 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_cst_74 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_cst_75 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_call5_cst : Ref sig .tc := ⟨.hbm, 493, rfl⟩
abbrev main_call5_v0 : Ref sig .tc := ⟨.hbm, 494, rfl⟩
abbrev main_v392 : Ref sig .tc := ⟨.hbm, 495, rfl⟩
abbrev main_v393 : Ref sig .tc := ⟨.hbm, 496, rfl⟩
abbrev main_cst_76 : Ref sig .tc := ⟨.hbm, 497, rfl⟩
abbrev main_v394 : Ref sig .tc := ⟨.hbm, 498, rfl⟩
abbrev main_v395 : Ref sig .tc := ⟨.hbm, 499, rfl⟩
abbrev main_v396 : Ref sig .tc := ⟨.hbm, 500, rfl⟩
abbrev main_cst_77 : Ref sig .tc := ⟨.hbm, 501, rfl⟩
abbrev main_v397 : Ref sig .tc := ⟨.hbm, 502, rfl⟩
abbrev main_cst_78 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_cst_79 : Ref sig .tc := ⟨.hbm, 507, rfl⟩
abbrev main_v401 : Ref sig .tc := ⟨.hbm, 508, rfl⟩
abbrev main_v402 : Ref sig .tc := ⟨.hbm, 509, rfl⟩
abbrev main_v403 : Ref sig .tc := ⟨.hbm, 510, rfl⟩
abbrev main_v404 : Ref sig .tc := ⟨.hbm, 511, rfl⟩
abbrev main_v405 : Ref sig .tc := ⟨.hbm, 512, rfl⟩
abbrev main_v406 : Ref sig .tc := ⟨.hbm, 513, rfl⟩
abbrev main_v407 : Ref sig .tc := ⟨.hbm, 514, rfl⟩
abbrev main_v408 : Ref sig .tc := ⟨.hbm, 515, rfl⟩
abbrev main_v409 : Ref sig .tc := ⟨.hbm, 516, rfl⟩
abbrev main_call6_cst : Ref sig .tc := ⟨.hbm, 517, rfl⟩
abbrev main_call6_v0 : Ref sig .tc := ⟨.hbm, 518, rfl⟩
abbrev main_call6_cst_0 : Ref sig .tc := ⟨.hbm, 519, rfl⟩
abbrev main_call6_v1 : Ref sig .tc := ⟨.hbm, 520, rfl⟩
abbrev main_call6_v2 : Ref sig .tc := ⟨.hbm, 521, rfl⟩
abbrev main_call6_v3 : Ref sig .tc := ⟨.hbm, 522, rfl⟩
abbrev main_call6_v4 : Ref sig .tc := ⟨.hbm, 523, rfl⟩
abbrev main_call6_v5 : Ref sig .tc := ⟨.hbm, 524, rfl⟩
abbrev main_call6_v6 : Ref sig .tc := ⟨.hbm, 525, rfl⟩
abbrev main_call6_cst_1 : Ref sig .tc := ⟨.hbm, 526, rfl⟩
abbrev main_call6_v7 : Ref sig .tc := ⟨.hbm, 527, rfl⟩
abbrev main_call6_v8 : Ref sig .tc := ⟨.hbm, 528, rfl⟩
abbrev main_call6_v9 : Ref sig .tc := ⟨.hbm, 529, rfl⟩
abbrev main_call6_v10 : Ref sig .tc := ⟨.hbm, 530, rfl⟩
abbrev main_v410 : Ref sig .tc := ⟨.hbm, 531, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x16_0_1 : S600000x1.BroadcastsInDim S600000x16 (![0, 1] : Fin 2 → Fin S600000x16.rank)
  bcast_S_S100000x16 : S_.BroadcastsInDim S100000x16 (![] : Fin 0 → Fin S100000x16.rank)
  slices_S5x16x64_S1x16x64_0_0_0 : S5x16x64.Slices ![0, 0, 0] S1x16x64
  shapeCasts_S1x16x64_S16x64 : S1x16x64.ShapeCasts S16x64
  slices_S5x16x64_S1x16x64_1_0_0 : S5x16x64.Slices ![1, 0, 0] S1x16x64
  slices_S5x16x64_S1x16x64_2_0_0 : S5x16x64.Slices ![2, 0, 0] S1x16x64
  slices_S5x16x64_S1x16x64_3_0_0 : S5x16x64.Slices ![3, 0, 0] S1x16x64
  slices_S5x16x64_S1x16x64_4_0_0 : S5x16x64.Slices ![4, 0, 0] S1x16x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S5x128x256_S1x128x256_0_0_0 : S5x128x256.Slices ![0, 0, 0] S1x128x256
  shapeCasts_S1x128x256_S128x256 : S1x128x256.ShapeCasts S128x256
  slices_S5x128x256_S1x128x256_1_0_0 : S5x128x256.Slices ![1, 0, 0] S1x128x256
  slices_S5x128x256_S1x128x256_2_0_0 : S5x128x256.Slices ![2, 0, 0] S1x128x256
  slices_S5x128x256_S1x128x256_3_0_0 : S5x128x256.Slices ![3, 0, 0] S1x128x256
  slices_S5x128x256_S1x128x256_4_0_0 : S5x128x256.Slices ![4, 0, 0] S1x128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  concatenates_S100000x256_S100000x256_S100000x512_d1 : Shape.Concatenates [S100000x256, S100000x256] S100000x512 1
  bcast_S_S256x512 : S_.BroadcastsInDim S256x512 (![] : Fin 0 → Fin S256x512.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  bcast_S4_S1x4_1 : S4.BroadcastsInDim S1x4 (![1] : Fin 1 → Fin S1x4.rank)
  bcast_S1x4_S256x4_0_1 : S1x4.BroadcastsInDim S256x4 (![0, 1] : Fin 2 → Fin S256x4.rank)
  reducesTo_S256x4_S256_d1 : S256x4.ReducesTo [1] S256
  h_S_ : 0 < S_.numel
  bcast_S256x1_S256x4_0_1 : S256x1.BroadcastsInDim S256x4 (![0, 1] : Fin 2 → Fin S256x4.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  dot_S100000x16_S16x64_S100000x64_1_0_0_1_n_n_wf : DotDims.WF S100000x16 S16x64 S100000x64 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  scatter_S256x512_S100000x1_S100000x512_1_0_0_1_wf : ScatterDims.WF S256x512 S100000x1 S100000x512 [1] [0] [0] 1
  scatter_S256_S100000x1_S100000_n_0_0_1_wf : ScatterDims.WF S256 S100000x1 S100000 [] [0] [0] 1
  dot_S256x512_S512x4_S256x4_1_0_0_1_n_n_wf : DotDims.WF S256x512 S512x4 S256x4 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S256x512_S100000x1_S100000x512_1_0_0_1 : ScatterDims S256x512 S100000x1 S100000x512 where
  updateWindowDims := [1]
  insertedWindowDims := [0]
  scatterDimsToOperandDims := [0]
  indexVectorDim := 1
  wf := scatter_S256x512_S100000x1_S100000x512_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x512_S512x4_S256x4_1_0_0_1_n_n : DotDims S256x512 S512x4 S256x4 where
  lhsContracting := [1]
  rhsContracting := [0]
  lhsNonContracting := [0]
  rhsNonContracting := [1]
  lhsBatch := []
  rhsBatch := []
  wf := dot_S256x512_S512x4_S256x4_1_0_0_1_n_n_wf

class Facts : Prop extends Facts₀ where

variable [Facts]
-- ==== Proof.KRegion0.lean ====
import proofs.«137322_j45767171506782_1_alg».proof.Proof.Gen.Kernel.Launch
import proofs.«137322_j45767171506782_1_alg».proof.Proof.Gen.Kernel.Skeleton
import proofs.«137322_j45767171506782_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 0 of @main: the matmul + bias + relu kernel `cc0__matmul_relu_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the fetch that filled the buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the fetch that filled the buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the fetch that filled the buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's staging buffer, whole -/

abbrev r0_0 : Rect S2000x80 := Rect.unit (s := S2000x80) ![0, 0] S2000x80.size inb_S2000x80_S2000x80_0_0
abbrev r0_1 : Rect S80x64 := Rect.unit (s := S80x64) ![0, 0] S80x64.size inb_S80x64_S80x64_0_0
abbrev r0_2 : Rect S1x64 := Rect.unit (s := S1x64) ![0, 0] S1x64.size inb_S1x64_S1x64_0_0
abbrev r0_3 : Rect S2000x64 := Rect.unit (s := S2000x64) ![0, 0] S2000x64.size inb_S2000x64_S2000x64_0_0

/-! ## What the body leaves in the output window's buffer -/

/-- Window 3's staging buffer after the body, from the three input windows' blocks: its one store, of
    relu (x0 · x1 + x2) computed as the payload `k0_pay1`, over the whole buffer. -/
def out0_3 (x0 : Vec F S2000x80 .f32) (x1 : Vec F S80x64 .f32) (x2 : Vec F S1x64 .f32) : Vec F S2000x64 .f32 :=
  View.canon [⟨r0_3, k0_pay1 (View.ld x0 r0_0) (View.ld x1 r0_1) (View.ld x2 r0_2)⟩]

/-- The store is of the whole buffer, so it covers it. -/
theorem cover0_3 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

/-! ## The body's triple -/

set_option maxHeartbeats 4000000 in
/-- The kernel body on whole staging memrefs, the inputs' at read contents `x0 x1 x2` and the output's at anything,
    runs to the continuation holding the inputs' as they were and the output's at `out0_3` of the inputs'. The body
    also reads the output buffer before it stores to it; the value read is not used. -/
theorem sound_kernel0 (c : Dev nD) (E : Set ℕ) (i : grid0.Coords)
    (arg0 : Memref sig .tc .vmem S2000x80 .f32) (harg0 : arg0.IsWhole) (arg1 : Memref sig .tc .vmem S80x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x80 .f32) (x1 : Vec F S80x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_relu_kernel i arg0 harg0 arg1 harg1 arg2 harg2 arg3 harg3) K := by
  simp only [cc0__matmul_relu_kernel_eq_skeleton]; unfold cc0__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant that of a
    body touching only its windows (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRegion1.lean ====
import proofs.«137322_j45767171506782_1_alg».proof.Proof.Gen.Kernel.Launch
import proofs.«137322_j45767171506782_1_alg».proof.Proof.Gen.Kernel.Skeleton
import proofs.«137322_j45767171506782_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 1 of @main: the matmul + bias + relu kernel `cc1__matmul_relu_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved since the fetch that filled the buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the fetch that filled the buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the fetch that filled the buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's staging buffer, whole -/

abbrev r1_0 : Rect S2000x80 := Rect.unit (s := S2000x80) ![0, 0] S2000x80.size inb_S2000x80_S2000x80_0_0
abbrev r1_1 : Rect S80x64 := Rect.unit (s := S80x64) ![0, 0] S80x64.size inb_S80x64_S80x64_0_0
abbrev r1_2 : Rect S1x64 := Rect.unit (s := S1x64) ![0, 0] S1x64.size inb_S1x64_S1x64_0_0
abbrev r1_3 : Rect S2000x64 := Rect.unit (s := S2000x64) ![0, 0] S2000x64.size inb_S2000x64_S2000x64_0_0

/-! ## What the body leaves in the output window's buffer -/

/-- Window 3's staging buffer after the body, from the three input windows' blocks: its one store, of
    relu (x0 · x1 + x2) computed as the payload `k1_pay1`, over the whole buffer. -/
def out1_3 (x0 : Vec F S2000x80 .f32) (x1 : Vec F S80x64 .f32) (x2 : Vec F S1x64 .f32) : Vec F S2000x64 .f32 :=
  View.canon [⟨r1_3, k1_pay1 (View.ld x0 r1_0) (View.ld x1 r1_1) (View.ld x2 r1_2)⟩]

/-- The store is of the whole buffer, so it covers it. -/
theorem cover1_3 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

/-! ## The body's triple -/

set_option maxHeartbeats 4000000 in
/-- The kernel body on whole staging memrefs, the inputs' at read contents `x0 x1 x2` and the output's at anything,
    runs to the continuation holding the inputs' as they were and the output's at `out1_3` of the inputs'. The body
    also reads the output buffer before it stores to it; the value read is not used. -/
theorem sound_kernel1 (c : Dev nD) (E : Set ℕ) (i : grid1.Coords)
    (arg0 : Memref sig .tc .vmem S2000x80 .f32) (harg0 : arg0.IsWhole) (arg1 : Memref sig .tc .vmem S80x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x80 .f32) (x1 : Vec F S80x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__matmul_relu_kernel i arg0 harg0 arg1 harg1 arg2 harg2 arg3 harg3) K := by
  simp only [cc1__matmul_relu_kernel_eq_skeleton]; unfold cc1__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant that of a
    body touching only its windows (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRegion2.lean ====
import proofs.«137322_j45767171506782_1_alg».proof.Proof.Gen.Kernel.Launch
import proofs.«137322_j45767171506782_1_alg».proof.Proof.Gen.Kernel.Skeleton
import proofs.«137322_j45767171506782_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 2 of @main: the matmul + bias + relu kernel `cc2__matmul_relu_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the window is not fetched its block
    index has not moved since the fetch that filled the buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the fetch that filled the buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the fetch that filled the buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's staging buffer, whole -/

abbrev r2_0 : Rect S2000x640 := Rect.unit (s := S2000x640) ![0, 0] S2000x640.size inb_S2000x640_S2000x640_0_0
abbrev r2_1 : Rect S640x256 := Rect.unit (s := S640x256) ![0, 0] S640x256.size inb_S640x256_S640x256_0_0
abbrev r2_2 : Rect S1x256 := Rect.unit (s := S1x256) ![0, 0] S1x256.size inb_S1x256_S1x256_0_0
abbrev r2_3 : Rect S2000x256 := Rect.unit (s := S2000x256) ![0, 0] S2000x256.size inb_S2000x256_S2000x256_0_0

/-! ## What the body leaves in the output window's buffer -/

/-- Window 3's staging buffer after the body, from the three input windows' blocks: its one store, of
    relu (x0 · x1 + x2) computed as the payload `k2_pay1`, over the whole buffer. -/
def out2_3 (x0 : Vec F S2000x640 .f32) (x1 : Vec F S640x256 .f32) (x2 : Vec F S1x256 .f32) : Vec F S2000x256 .f32 :=
  View.canon [⟨r2_3, k2_pay1 (View.ld x0 r2_0) (View.ld x1 r2_1) (View.ld x2 r2_2)⟩]

/-- The store is of the whole buffer, so it covers it. -/
theorem cover2_3 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 4000000 in
/-- The kernel body on whole staging memrefs, the inputs' at read contents `x0 x1 x2` and the output's at anything,
    runs to the continuation holding the inputs' as they were and the output's at `out2_3` of the inputs'. The body
    also reads the output buffer before it stores to it; the value read is not used. -/
theorem sound_kernel2 (c : Dev nD) (E : Set ℕ) (i : grid2.Coords)
    (arg0 : Memref sig .tc .vmem S2000x640 .f32) (harg0 : arg0.IsWhole) (arg1 : Memref sig .tc .vmem S640x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x640 .f32) (x1 : Vec F S640x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_relu_kernel i arg0 harg0 arg1 harg1 arg2 harg2 arg3 harg3) K := by
  simp only [cc2__matmul_relu_kernel_eq_skeleton]; unfold cc2__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant that of a
    body touching only its windows (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KRegion3.lean ====
import proofs.«137322_j45767171506782_1_alg».proof.Proof.Gen.Kernel.Launch
import proofs.«137322_j45767171506782_1_alg».proof.Proof.Gen.Kernel.Skeleton
import proofs.«137322_j45767171506782_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 3 of @main: the matmul + bias + relu kernel `cc3__matmul_relu_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: where the window is not fetched its block
    index has not moved since the fetch that filled the buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: where the window is not fetched its block
    index has not moved since the fetch that filled the buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: where the window is not fetched its block
    index has not moved since the fetch that filled the buffer. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's staging buffer, whole -/

abbrev r3_0 : Rect S2000x640 := Rect.unit (s := S2000x640) ![0, 0] S2000x640.size inb_S2000x640_S2000x640_0_0
abbrev r3_1 : Rect S640x256 := Rect.unit (s := S640x256) ![0, 0] S640x256.size inb_S640x256_S640x256_0_0
abbrev r3_2 : Rect S1x256 := Rect.unit (s := S1x256) ![0, 0] S1x256.size inb_S1x256_S1x256_0_0
abbrev r3_3 : Rect S2000x256 := Rect.unit (s := S2000x256) ![0, 0] S2000x256.size inb_S2000x256_S2000x256_0_0

/-! ## What the body leaves in the output window's buffer -/

/-- Window 3's staging buffer after the body, from the three input windows' blocks: its one store, of
    relu (x0 · x1 + x2) computed as the payload `k3_pay1`, over the whole buffer. -/
def out3_3 (x0 : Vec F S2000x640 .f32) (x1 : Vec F S640x256 .f32) (x2 : Vec F S1x256 .f32) : Vec F S2000x256 .f32 :=
  View.canon [⟨r3_3, k3_pay1 (View.ld x0 r3_0) (View.ld x1 r3_1) (View.ld x2 r3_2)⟩]

/-- The store is of the whole buffer, so it covers it. -/
theorem cover3_3 (p0 : Vec F S2000x256 .f32) (y : S2000x256.Idx) :
    ∃ pc ∈ ([⟨r3_3, p0⟩] : List (View.Piece (Elt F) S2000x256 .f32)), y ∈ pc.1.set :=
  View.cover_of_tiled [⟨r3_3, p0⟩] S2000x256.size (by rfl) y

/-! ## The body's triple -/

set_option maxHeartbeats 4000000 in
/-- The kernel body on whole staging memrefs, the inputs' at read contents `x0 x1 x2` and the output's at anything,
    runs to the continuation holding the inputs' as they were and the output's at `out3_3` of the inputs'. The body
    also reads the output buffer before it stores to it; the value read is not used. -/
theorem sound_kernel3 (c : Dev nD) (E : Set ℕ) (i : grid3.Coords)
    (arg0 : Memref sig .tc .vmem S2000x640 .f32) (harg0 : arg0.IsWhole) (arg1 : Memref sig .tc .vmem S640x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x640 .f32) (x1 : Vec F S640x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__matmul_relu_kernel i arg0 harg0 arg1 harg1 arg2 harg2 arg3 harg3) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant that of a
    body touching only its windows (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KHost.lean ====
import proofs.«137322_j45767171506782_1_alg».proof.Proof.Gen.Kernel.Launch
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-! # The host stretches of @main: none allocates a buffer, none writes an argument array -/

/-- The thirteen argument arrays of @main. -/
def argRefs : List (Ref sig .tc) :=
  [main_arg0, main_arg1, main_arg2, main_arg3, main_arg4, main_arg5, main_arg6, main_arg7, main_arg8, main_arg9,
    main_arg10, main_arg11, main_arg12]

/-- A line of host operations none of which writes any reference of the list `Rs` leaves each of them at its
    contents: the fold over the line changes a buffer only at an operation that writes it. -/
theorem after_keeps {ops : List (HloOp τ sig (Elt F))} (Rs : List (Ref sig .tc))
    (h : ops.Forall fun op => ∀ r ∈ Rs, Proc.devRef (τ := τ) .tc r ∉ op.writes) (W : Valuation τ sig (Elt F))
    {r : Ref sig .tc} (hr : r ∈ Rs) :
    StableHlo.after ops W (Proc.devRef .tc r) = W (Proc.devRef .tc r) :=
  StableHlo.after_of_forall_not_mem ops W fun op hop => (List.forall_iff_forall_mem.mp h) op hop r hr

/-- Every argument array has one of the first thirteen indices of its memory space. -/
theorem args_idx_lt : ∀ r ∈ argRefs, r.idx.val < 13 := by decide +kernel

/-- One operation whose writes are the single result `y`, an array of index thirteen or more, writes no argument. -/
theorem keeps_one {op : HloOp τ sig (Elt F)} {y : Ref sig .tc} (hw : op.writes = {Proc.devRef (τ := τ) .tc y})
    (h : 13 ≤ y.idx.val) : ∀ r ∈ argRefs, Proc.devRef (τ := τ) .tc r ∉ op.writes :=
  fun r hr hm => by
    rw [hw, Finset.mem_singleton] at hm
    have e : r = y := Proc.devRef_injective _ hm
    have hlt := args_idx_lt r hr
    rw [e] at hlt
    omega

/-! ## A fact about every operation of a list, read position by position

A fact about every operation of a list is assembled from the fact at each position, last position first. -/

section ByIndex
variable {α : Type} {p : α → Prop}

/-- Past the last position nothing is left. -/
theorem forall_drop_end (l : List α) {n : ℕ} (hn : l.length = n) : (l.drop n).Forall p := by
  rw [← hn, List.drop_length]; exact trivial

/-- From the fact at position `k` and at every later position, the fact from position `k` on. -/
theorem forall_drop_step (l : List α) {n : ℕ} (hn : l.length = n) (k : ℕ) (hk : k < n)
    (h : p (l.get ⟨k, hn ▸ hk⟩)) (ht : (l.drop (k + 1)).Forall p) : (l.drop k).Forall p := by
  have hk' : k < l.length := hn ▸ hk
  rw [List.drop_eq_getElem_cons hk', List.forall_cons]
  exact ⟨h, ht⟩

end ByIndex

set_option maxHeartbeats 40000000 in
/-- No operation of `hostOps0` allocates a buffer. -/
theorem hostOps0_fresh : (hostOps0 : List (HloOp τ sig (Elt F))).Forall fun op => op.fresh = ∅ := by
  simp only [List.Forall]; repeat' constructor

theorem hostOps0_length : (hostOps0 : List (HloOp τ sig (Elt F))).length = 18 := rfl

set_option maxHeartbeats 40000000 in
/-- No operation of `hostOps0` writes an argument array: each writes its one result, a value of the program's own. -/
theorem hostOps0_keeps : (hostOps0 : List (HloOp τ sig (Elt F))).Forall fun op => ∀ r ∈ argRefs, Proc.devRef (τ := τ) .tc r ∉ op.writes :=
  show ((hostOps0 : List (HloOp τ sig (Elt F))).drop 0).Forall _ from
  forall_drop_step hostOps0 hostOps0_length 0 (by decide) (keeps_one rfl (by decide +kernel)) <|
  forall_drop_step hostOps0 hostOps0_length 1 (by decide) (keeps_one rfl (by decide +kernel)) <|
  forall_drop_step hostOps0 hostOps0_length 2 (by decide) (keeps_one rfl (by decide +kernel)) <|
  forall_drop_step hostOps0 hostOps0_length 3 (by decide) (keeps_one rfl (by decide +kernel)) <|
  forall_drop_step hostOps0 hostOps0_length 4 (by decide) (keeps_one rfl (by decide +kernel)) <|
  forall_drop_step hostOps0 hostOps0_length 5 (by decide) (keeps_one rfl (by decide +kernel)) <|
  forall_drop_step hostOps0 hostOps0_length 6 (by decide) (keeps_one rfl (by decide +kernel)) <|
  forall_drop_step hostOps0 hostOps0_length 7 (by decide) (keeps_one rfl (by decide +kernel)) <|
  forall_drop_step hostOps0 hostOps0_length 8 (by decide) (keeps_one rfl (by decide +kernel)) <|
  forall_drop_step hostOps0 hostOps0_length 9 (by decide) (keeps_one rfl (by decide +kernel)) <|
  forall_drop_step hostOps0 hostOps0_length 10 (by decide) (keeps_one rfl (by decide +kernel)) <|
  forall_drop_step hostOps0 hostOps0_length 11 (by decide) (keeps_one rfl (by decide +kernel)) <|
  forall_drop_step hostOps0 hostOps0_length 12 (by decide) (keeps_one rfl (by decide +kernel)) <|
  forall_drop_step hostOps0 hostOps0_length 13 (by decide) (keeps_one rfl (by decide +kernel)) <|
  forall_drop_step hostOps0 hostOps0_length 14 (by decide) (keeps_one rfl (by decide +kernel)) <|
  forall_drop_step hostOps0 hostOps0_length 15 (by decide) (keeps_one rfl (by decide +kernel)) <|
  forall_drop_step hostOps0 hostOps0_length 16 (by decide) (keeps_one rfl (by decide +kernel)) <|
  forall_drop_step hostOps0 hostOps0_length 17 (by decide) (keeps_one rfl (by decide +kernel)) <|
  forall_drop_end hostOps0 hostOps0_length

set_option maxHeartbeats 40000000 in
/-- No operation of `hostOps0_1` allocates a buffer. -/
theorem hostOps0_1_fresh : (hostOps0_1 : List (HloOp τ sig (Elt F))).Forall fun op => op.fresh = ∅ := by
  simp only [List.Forall]; repeat' constructor

theorem hostOps0_1_length : (hostOps0_1 : List (HloOp τ sig (Elt F))).length = 3 := rfl

set_option maxHeartbeats 40000000 in
/-- No operation of `hostOps0_1` writes an argument array: each writes its one result, a value of the program's own. -/
theorem hostOps0_1_keeps : (hostOps0_1 : List (HloOp τ sig (Elt F))).Forall fun op => ∀ r ∈ argRefs, Proc.devRef (τ := τ) .tc r ∉ op.writes :=
  show ((hostOps0_1 : List (HloOp τ sig (Elt F))).drop 0).Forall _ from
  forall_drop_step hostOps0_1 hostOps0_1_length 0 (by decide) (keeps_one rfl (by decide +kernel)) <|
  forall_drop_step hostOps0_1 hostOps0_1_length 1 (by decide) (keeps_one rfl (by decide +kernel)) <|
  forall_drop_step hostOps0_1 hostOps0_1_length 2 (by decide) (keeps_one rfl (by decide +kernel)) <|
  forall_drop_end hostOps0_1 hostOps0_1_length

set_option maxHeartbeats 40000000 in
/-- No operation of `hostOps0_2` allocates a buffer. -/
theorem hostOps0_2_fresh : (hostOps0_2 : List (HloOp τ sig (Elt F))).Forall fun op => op.fresh = ∅ := by
  simp only [List.Forall]; repeat' constructor

theorem hostOps0_2_length : (hostOps0_2 : List (HloOp τ sig (Elt F))).length = 34 := rfl

set_option maxHeartbeats 40000000 in
/-- No operation of `hostOps0_2` writes an argument array: each writes its one result, a value of the program's own. -/
theorem hostOps0_2_keeps : (hostOps0_2 : List (HloOp τ sig (Elt F))).Forall fun op => ∀ r ∈ argRefs, Proc.devRef (τ := τ) .tc r ∉ op.writes :=
  show ((hostOps0_2 : List (HloOp τ sig (Elt F))).drop 0).Forall _ from
  forall_drop_step hostOps0_2 hostOps0_2_length 0 (by decide) (keeps_one rfl (by decide +kernel)) <|
  forall_drop_step hostOps0_2 hostOps0_2_length 1 (by decide) (keeps_one rfl (by decide +kernel)) <|
  forall_drop_step hostOps0_2 hostOps0_2_length 2 (by decide) (keeps_one rfl (by decide +kernel)) <|
  forall_drop_step hostOps0_2 hostOps0_2_length 3 (by decide) (keeps_one rfl (by decide +kernel)) <|
  forall_drop_step hostOps0_2 hostOps0_2_length 4 (by decide) (keeps_one rfl (by decide +kernel)) <|
  forall_drop_step hostOps0_2 hostOps0_2_length 5 (by decide) (keeps_one rfl (by decide +kernel)) <|
  forall_drop_step hostOps0_2 hostOps0_2_length 6 (by decide) (keeps_one rfl (by decide +kernel)) <|
  forall_drop_step hostOps0_2 hostOps0_2_length 7 (by decide) (keeps_one rfl (by decide +kernel)) <|
  forall_drop_step hostOps0_2 hostOps0_2_length 8 (by decide) (keeps_one rfl (by decide +kernel)) <|
  forall_drop_step hostOps0_2 hostOps0_2_length 9 (by decide) (keeps_one rfl (by decide +kernel)) <|
  forall_drop_step hostOps0_2 hostOps0_2_length 10 (by decide) (keeps_one rfl (by decide +kernel)) <|
  forall_drop_step hostOps0_2 hostOps0_2_length 11 (by decide) (keeps_one rfl (by decide +kernel)) <|
  forall_drop_step hostOps0_2 hostOps0_2_length 12 (by decide) (keeps_one rfl (by decide +kernel)) <|
  forall_drop_step hostOps0_2 hostOps0_2_length 13 (by decide) (keeps_one rfl (by decide +kernel)) <|
  forall_drop_step hostOps0_2 hostOps0_2_length 14 (by decide) (keeps_one rfl (by decide +kernel)) <|
  forall_drop_step hostOps0_2 hostOps0_2_length 15 (by decide) (keeps_one rfl (by decide +kernel)) <|
  forall_drop_step hostOps0_2 hostOps0_2_length 16 (by decide) (keeps_one rfl (by decide +kernel)) <|
  forall_drop_step hostOps0_2 hostOps0_2_length 17 (by decide) (keeps_one rfl (by decide +kernel)) <|
  forall_drop_step hostOps0_2 hostOps0_2_length 18 (by decide) (keeps_one rfl (by decide +kernel)) <|
  forall_drop_step hostOps0_2 hostOps0_2_length 19 (by decide) (keeps_one rfl (by decide +kernel)) <|
  forall_drop_step hostOps0_2 hostOps0_2_length 20 (by decide) (keeps_one rfl (by decide +kernel)) <|
  forall_drop_step hostOps0_2 hostOps0_2_length 21 (by decide) (keeps_one rfl (by decide +kernel)) <|
  forall_drop_step hostOps0_2 hostOps0_2_length 22 (by decide) (keeps_one rfl (by decide +kernel)) <|
  forall_drop_step hostOps0_2 hostOps0_2_length 23 (by decide) (keeps_one rfl (by decide +kernel)) <|
  forall_drop_step hostOps0_2 hostOps0_2_length 24 (by decide) (keeps_one rfl (by decide +kernel)) <|
  forall_drop_step hostOps0_2 hostOps0_2_length 25 (by decide) (keeps_one rfl (by decide +kernel)) <|
  forall_drop_step hostOps0_2 hostOps0_2_length 26 (by decide) (keeps_one rfl (by decide +kernel)) <|
  forall_drop_step hostOps0_2 hostOps0_2_length 27 (by decide) (keeps_one rfl (by decide +kernel)) <|
  forall_drop_step hostOps0_2 hostOps0_2_length 28 (by decide) (keeps_one rfl (by decide +kernel)) <|
  forall_drop_step hostOps0_2 hostOps0_2_length 29 (by decide) (keeps_one rfl (by decide +kernel)) <|
  forall_drop_step hostOps0_2 hostOps0_2_length 30 (by decide) (keeps_one rfl (by decide +kernel)) <|
  forall_drop_step hostOps0_2 hostOps0_2_length 31 (by decide) (keeps_one rfl (by decide +kernel)) <|
  forall_drop_step hostOps0_2 hostOps0_2_length 32 (by decide) (keeps_one rfl (by decide +kernel)) <|
  forall_drop_step hostOps0_2 hostOps0_2_length 33 (by decide) (keeps_one rfl (by decide +kernel)) <|
  forall_drop_end hostOps0_2 hostOps0_2_length

set_option maxHeartbeats 40000000 in
/-- No operation of `hostOps0_3` allocates a buffer. -/
theorem hostOps0_3_fresh : (hostOps0_3 : List (HloOp τ sig (Elt F))).Forall fun op => op.fresh = ∅ := by
  simp only [List.Forall]; repeat' constructor

theorem hostOps0_3_length : (hostOps0_3 : List (HloOp τ sig (Elt F))).length = 3 := rfl

set_option maxHeartbeats 40000000 in
/-- No operation of `hostOps0_3` writes an argument array: each writes its one result, a value of the program's own. -/
theorem hostOps0_3_keeps : (hostOps0_3 : List (HloOp τ sig (Elt F))).Forall fun op => ∀ r ∈ argRefs, Proc.devRef (τ := τ) .tc r ∉ op.writes :=
  show ((hostOps0_3 : List (HloOp τ sig (Elt F))).drop 0).Forall _ from
  forall_drop_step hostOps0_3 hostOps0_3_length 0 (by decide) (keeps_one rfl (by decide +kernel)) <|
  forall_drop_step hostOps0_3 hostOps0_3_length 1 (by decide) (keeps_one rfl (by decide +kernel)) <|
  forall_drop_step hostOps0_3 hostOps0_3_length 2 (by decide) (keeps_one rfl (by decide +kernel)) <|
  forall_drop_end hostOps0_3 hostOps0_3_length

set_option maxHeartbeats 40000000 in
/-- No operation of `hostOps0_4` allocates a buffer. -/
theorem hostOps0_4_fresh : (hostOps0_4 : List (HloOp τ sig (Elt F))).Forall fun op => op.fresh = ∅ := by
  simp only [List.Forall]; repeat' constructor

theorem hostOps0_4_length : (hostOps0_4 : List (HloOp τ sig (Elt F))).length = 99 := rfl

set_option maxHeartbeats 40000000 in
/-- No operation of `hostOps0_4` writes an argument array: each writes its one result, a value of the program's own. -/
theorem hostOps0_4_keeps : (hostOps0_4 : List (HloOp τ sig (Elt F))).Forall fun op => ∀ r ∈ argRefs, Proc.devRef (τ := τ) .tc r ∉ op.writes :=
  show ((hostOps0_4 : List (HloOp τ sig (Elt F))).drop 0).Forall _ from
  forall_drop_step hostOps0_4 hostOps0_4_length 0 (by decide) (keeps_one rfl (by decide +kernel)) <|
  forall_drop_step hostOps0_4 hostOps0_4_length 1 (by decide) (keeps_one rfl (by decide +kernel)) <|
  forall_drop_step hostOps0_4 hostOps0_4_length 2 (by decide) (keeps_one rfl (by decide +kernel)) <|
  forall_drop_step hostOps0_4 hostOps0_4_length 3 (by decide) (keeps_one rfl (by decide +kernel)) <|
  forall_drop_step hostOps0_4 hostOps0_4_length 4 (by decide) (keeps_one rfl (by decide +kernel)) <|
  forall_drop_step hostOps0_4 hostOps0_4_length 5 (by decide) (keeps_one rfl (by decide +kernel)) <|
  forall_drop_step hostOps0_4 hostOps0_4_length 6 (by decide) (keeps_one rfl (by decide +kernel)) <|
  forall_drop_step hostOps0_4 hostOps0_4_length 7 (by decide) (keeps_one rfl (by decide +kernel)) <|
  forall_drop_step hostOps0_4 hostOps0_4_length 8 (by decide) (keeps_one rfl (by decide +kernel)) <|
  forall_drop_step hostOps0_4 hostOps0_4_length 9 (by decide) (keeps_one rfl (by decide +kernel)) <|
  forall_drop_step hostOps0_4 hostOps0_4_length 10 (by decide) (keeps_one rfl (by decide +kernel)) <|
  forall_drop_step hostOps0_4 hostOps0_4_length 11 (by decide) (keeps_one rfl (by decide +kernel)) <|
  forall_drop_step hostOps0_4 hostOps0_4_length 12 (by decide) (keeps_one rfl (by decide +kernel)) <|
  forall_drop_step hostOps0_4 hostOps0_4_length 13 (by decide) (keeps_one rfl (by decide +kernel)) <|
  forall_drop_step hostOps0_4 hostOps0_4_length 14 (by decide) (keeps_one rfl (by decide +kernel)) <|
  forall_drop_step hostOps0_4 hostOps0_4_length 15 (by decide) (keeps_one rfl (by decide +kernel)) <|
  forall_drop_step hostOps0_4 hostOps0_4_length 16 (by decide) (keeps_one rfl (by decide +kernel)) <|
  forall_drop_step hostOps0_4 hostOps0_4_length 17 (by decide) (keeps_one rfl (by decide +kernel)) <|
  forall_drop_step hostOps0_4 hostOps0_4_length 18 (by decide) (keeps_one rfl (by decide +kernel)) <|
  forall_drop_step hostOps0_4 hostOps0_4_length 19 (by decide) (keeps_one rfl (by decide +kernel)) <|
  forall_drop_step hostOps0_4 hostOps0_4_length 20 (by decide) (keeps_one rfl (by decide +kernel)) <|
  forall_drop_step hostOps0_4 hostOps0_4_length 21 (by decide) (keeps_one rfl (by decide +kernel)) <|
  forall_drop_step hostOps0_4 hostOps0_4_length 22 (by decide) (keeps_one rfl (by decide +kernel)) <|
  forall_drop_step hostOps0_4 hostOps0_4_length 23 (by decide) (keeps_one rfl (by decide +kernel)) <|
  forall_drop_step hostOps0_4 hostOps0_4_length 24 (by decide) (keeps_one rfl (by decide +kernel)) <|
  forall_drop_step hostOps0_4 hostOps0_4_length 25 (by decide) (keeps_one rfl (by decide +kernel)) <|
  forall_drop_step hostOps0_4 hostOps0_4_length 26 (by decide) (keeps_one rfl (by decide +kernel)) <|
  forall_drop_step hostOps0_4 hostOps0_4_length 27 (by decide) (keeps_one rfl (by decide +kernel)) <|
  forall_drop_step hostOps0_4 hostOps0_4_length 28 (by decide) (keeps_one rfl (by decide +kernel)) <|
  forall_drop_step hostOps0_4 hostOps0_4_length 29 (by decide) (keeps_one rfl (by decide +kernel)) <|
  forall_drop_step hostOps0_4 hostOps0_4_length 30 (by decide) (keeps_one rfl (by decide +kernel)) <|
  forall_drop_step hostOps0_4 hostOps0_4_length 31 (by decide) (keeps_one rfl (by decide +kernel)) <|
  forall_drop_step hostOps0_4 hostOps0_4_length 32 (by decide) (keeps_one rfl (by decide +kernel)) <|
  forall_drop_step hostOps0_4 hostOps0_4_length 33 (by decide) (keeps_one rfl (by decide +kernel)) <|
  forall_drop_step hostOps0_4 hostOps0_4_length 34 (by decide) (keeps_one rfl (by decide +kernel)) <|
  forall_drop_step hostOps0_4 hostOps0_4_length 35 (by decide) (keeps_one rfl (by decide +kernel)) <|
  forall_drop_step hostOps0_4 hostOps0_4_length 36 (by decide) (keeps_one rfl (by decide +kernel)) <|
  forall_drop_step hostOps0_4 hostOps0_4_length 37 (by decide) (keeps_one rfl (by decide +kernel)) <|
  forall_drop_step hostOps0_4 hostOps0_4_length 38 (by decide) (keeps_one rfl (by decide +kernel)) <|
  forall_drop_step hostOps0_4 hostOps0_4_length 39 (by decide) (keeps_one rfl (by decide +kernel)) <|
  forall_drop_step hostOps0_4 hostOps0_4_length 40 (by decide) (keeps_one rfl (by decide +kernel)) <|
  forall_drop_step hostOps0_4 hostOps0_4_length 41 (by decide) (keeps_one rfl (by decide +kernel)) <|
  forall_drop_step hostOps0_4 hostOps0_4_length 42 (by decide) (keeps_one rfl (by decide +kernel)) <|
  forall_drop_step hostOps0_4 hostOps0_4_length 43 (by decide) (keeps_one rfl (by decide +kernel)) <|
  forall_drop_step hostOps0_4 hostOps0_4_length 44 (by decide) (keeps_one rfl (by decide +kernel)) <|
  forall_drop_step hostOps0_4 hostOps0_4_length 45 (by decide) (keeps_one rfl (by decide +kernel)) <|
  forall_drop_step hostOps0_4 hostOps0_4_length 46 (by decide) (keeps_one rfl (by decide +kernel)) <|
  forall_drop_step hostOps0_4 hostOps0_4_length 47 (by decide) (keeps_one rfl (by decide +kernel)) <|
  forall_drop_step hostOps0_4 hostOps0_4_length 48 (by decide) (keeps_one rfl (by decide +kernel)) <|
  forall_drop_step hostOps0_4 hostOps0_4_length 49 (by decide) (keeps_one rfl (by decide +kernel)) <|
  forall_drop_step hostOps0_4 hostOps0_4_length 50 (by decide) (keeps_one rfl (by decide +kernel)) <|
  forall_drop_step hostOps0_4 hostOps0_4_length 51 (by decide) (keeps_one rfl (by decide +kernel)) <|
  forall_drop_step hostOps0_4 hostOps0_4_length 52 (by decide) (keeps_one rfl (by decide +kernel)) <|
  forall_drop_step hostOps0_4 hostOps0_4_length 53 (by decide) (keeps_one rfl (by decide +kernel)) <|
  forall_drop_step hostOps0_4 hostOps0_4_length 54 (by decide) (keeps_one rfl (by decide +kernel)) <|
  forall_drop_step hostOps0_4 hostOps0_4_length 55 (by decide) (keeps_one rfl (by decide +kernel)) <|
  forall_drop_step hostOps0_4 hostOps0_4_length 56 (by decide) (keeps_one rfl (by decide +kernel)) <|
  forall_drop_step hostOps0_4 hostOps0_4_length 57 (by decide) (keeps_one rfl (by decide +kernel)) <|
  forall_drop_step hostOps0_4 hostOps0_4_length 58 (by decide) (keeps_one rfl (by decide +kernel)) <|
  forall_drop_step hostOps0_4 hostOps0_4_length 59 (by decide) (keeps_one rfl (by decide +kernel)) <|
  forall_drop_step hostOps0_4 hostOps0_4_length 60 (by decide) (keeps_one rfl (by decide +kernel)) <|
  forall_drop_step hostOps0_4 hostOps0_4_length 61 (by decide) (keeps_one rfl (by decide +kernel)) <|
  forall_drop_step hostOps0_4 hostOps0_4_length 62 (by decide) (keeps_one rfl (by decide +kernel)) <|
  forall_drop_step hostOps0_4 hostOps0_4_length 63 (by decide) (keeps_one rfl (by decide +kernel)) <|
  forall_drop_step hostOps0_4 hostOps0_4_length 64 (by decide) (keeps_one rfl (by decide +kernel)) <|
  forall_drop_step hostOps0_4 hostOps0_4_length 65 (by decide) (keeps_one rfl (by decide +kernel)) <|
  forall_drop_step hostOps0_4 hostOps0_4_length 66 (by decide) (keeps_one rfl (by decide +kernel)) <|
  forall_drop_step hostOps0_4 hostOps0_4_length 67 (by decide) (keeps_one rfl (by decide +kernel)) <|
  forall_drop_step hostOps0_4 hostOps0_4_length 68 (by decide) (keeps_one rfl (by decide +kernel)) <|
  forall_drop_step hostOps0_4 hostOps0_4_length 69 (by decide) (keeps_one rfl (by decide +kernel)) <|
  forall_drop_step hostOps0_4 hostOps0_4_length 70 (by decide) (keeps_one rfl (by decide +kernel)) <|
  forall_drop_step hostOps0_4 hostOps0_4_length 71 (by decide) (keeps_one rfl (by decide +kernel)) <|
  forall_drop_step hostOps0_4 hostOps0_4_length 72 (by decide) (keeps_one rfl (by decide +kernel)) <|
  forall_drop_step hostOps0_4 hostOps0_4_length 73 (by decide) (keeps_one rfl (by decide +kernel)) <|
  forall_drop_step hostOps0_4 hostOps0_4_length 74 (by decide) (keeps_one rfl (by decide +kernel)) <|
  forall_drop_step hostOps0_4 hostOps0_4_length 75 (by decide) (keeps_one rfl (by decide +kernel)) <|
  forall_drop_step hostOps0_4 hostOps0_4_length 76 (by decide) (keeps_one rfl (by decide +kernel)) <|
  forall_drop_step hostOps0_4 hostOps0_4_length 77 (by decide) (keeps_one rfl (by decide +kernel)) <|
  forall_drop_step hostOps0_4 hostOps0_4_length 78 (by decide) (keeps_one rfl (by decide +kernel)) <|
  forall_drop_step hostOps0_4 hostOps0_4_length 79 (by decide) (keeps_one rfl (by decide +kernel)) <|
  forall_drop_step hostOps0_4 hostOps0_4_length 80 (by decide) (keeps_one rfl (by decide +kernel)) <|
  forall_drop_step hostOps0_4 hostOps0_4_length 81 (by decide) (keeps_one rfl (by decide +kernel)) <|
  forall_drop_step hostOps0_4 hostOps0_4_length 82 (by decide) (keeps_one rfl (by decide +kernel)) <|
  forall_drop_step hostOps0_4 hostOps0_4_length 83 (by decide) (keeps_one rfl (by decide +kernel)) <|
  forall_drop_step hostOps0_4 hostOps0_4_length 84 (by decide) (keeps_one rfl (by decide +kernel)) <|
  forall_drop_step hostOps0_4 hostOps0_4_length 85 (by decide) (keeps_one rfl (by decide +kernel)) <|
  forall_drop_step hostOps0_4 hostOps0_4_length 86 (by decide) (keeps_one rfl (by decide +kernel)) <|
  forall_drop_step hostOps0_4 hostOps0_4_length 87 (by decide) (keeps_one rfl (by decide +kernel)) <|
  forall_drop_step hostOps0_4 hostOps0_4_length 88 (by decide) (keeps_one rfl (by decide +kernel)) <|
  forall_drop_step hostOps0_4 hostOps0_4_length 89 (by decide) (keeps_one rfl (by decide +kernel)) <|
  forall_drop_step hostOps0_4 hostOps0_4_length 90 (by decide) (keeps_one rfl (by decide +kernel)) <|
  forall_drop_step hostOps0_4 hostOps0_4_length 91 (by decide) (keeps_one rfl (by decide +kernel)) <|
  forall_drop_step hostOps0_4 hostOps0_4_length 92 (by decide) (keeps_one rfl (by decide +kernel)) <|
  forall_drop_step hostOps0_4 hostOps0_4_length 93 (by decide) (keeps_one rfl (by decide +kernel)) <|
  forall_drop_step hostOps0_4 hostOps0_4_length 94 (by decide) (keeps_one rfl (by decide +kernel)) <|
  forall_drop_step hostOps0_4 hostOps0_4_length 95 (by decide) (keeps_one rfl (by decide +kernel)) <|
  forall_drop_step hostOps0_4 hostOps0_4_length 96 (by decide) (keeps_one rfl (by decide +kernel)) <|
  forall_drop_step hostOps0_4 hostOps0_4_length 97 (by decide) (keeps_one rfl (by decide +kernel)) <|
  forall_drop_step hostOps0_4 hostOps0_4_length 98 (by decide) (keeps_one rfl (by decide +kernel)) <|
  forall_drop_end hostOps0_4 hostOps0_4_length

set_option maxHeartbeats 40000000 in
/-- No operation of `hostOps1` allocates a buffer. -/
theorem hostOps1_fresh : (hostOps1 : List (HloOp τ sig (Elt F))).Forall fun op => op.fresh = ∅ := by
  simp only [List.Forall]; repeat' constructor

theorem hostOps1_length : (hostOps1 : List (HloOp τ sig (Elt F))).length = 79 := rfl

set_option maxHeartbeats 40000000 in
/-- No operation of `hostOps1` writes an argument array: each writes its one result, a value of the program's own. -/
theorem hostOps1_keeps : (hostOps1 : List (HloOp τ sig (Elt F))).Forall fun op => ∀ r ∈ argRefs, Proc.devRef (τ := τ) .tc r ∉ op.writes :=
  show ((hostOps1 : List (HloOp τ sig (Elt F))).drop 0).Forall _ from
  forall_drop_step hostOps1 hostOps1_length 0 (by decide) (keeps_one rfl (by decide +kernel)) <|
  forall_drop_step hostOps1 hostOps1_length 1 (by decide) (keeps_one rfl (by decide +kernel)) <|
  forall_drop_step hostOps1 hostOps1_length 2 (by decide) (keeps_one rfl (by decide +kernel)) <|
  forall_drop_step hostOps1 hostOps1_length 3 (by decide) (keeps_one rfl (by decide +kernel)) <|
  forall_drop_step hostOps1 hostOps1_length 4 (by decide) (keeps_one rfl (by decide +kernel)) <|
  forall_drop_step hostOps1 hostOps1_length 5 (by decide) (keeps_one rfl (by decide +kernel)) <|
  forall_drop_step hostOps1 hostOps1_length 6 (by decide) (keeps_one rfl (by decide +kernel)) <|
  forall_drop_step hostOps1 hostOps1_length 7 (by decide) (keeps_one rfl (by decide +kernel)) <|
  forall_drop_step hostOps1 hostOps1_length 8 (by decide) (keeps_one rfl (by decide +kernel)) <|
  forall_drop_step hostOps1 hostOps1_length 9 (by decide) (keeps_one rfl (by decide +kernel)) <|
  forall_drop_step hostOps1 hostOps1_length 10 (by decide) (keeps_one rfl (by decide +kernel)) <|
  forall_drop_step hostOps1 hostOps1_length 11 (by decide) (keeps_one rfl (by decide +kernel)) <|
  forall_drop_step hostOps1 hostOps1_length 12 (by decide) (keeps_one rfl (by decide +kernel)) <|
  forall_drop_step hostOps1 hostOps1_length 13 (by decide) (keeps_one rfl (by decide +kernel)) <|
  forall_drop_step hostOps1 hostOps1_length 14 (by decide) (keeps_one rfl (by decide +kernel)) <|
  forall_drop_step hostOps1 hostOps1_length 15 (by decide) (keeps_one rfl (by decide +kernel)) <|
  forall_drop_step hostOps1 hostOps1_length 16 (by decide) (keeps_one rfl (by decide +kernel)) <|
  forall_drop_step hostOps1 hostOps1_length 17 (by decide) (keeps_one rfl (by decide +kernel)) <|
  forall_drop_step hostOps1 hostOps1_length 18 (by decide) (keeps_one rfl (by decide +kernel)) <|
  forall_drop_step hostOps1 hostOps1_length 19 (by decide) (keeps_one rfl (by decide +kernel)) <|
  forall_drop_step hostOps1 hostOps1_length 20 (by decide) (keeps_one rfl (by decide +kernel)) <|
  forall_drop_step hostOps1 hostOps1_length 21 (by decide) (keeps_one rfl (by decide +kernel)) <|
  forall_drop_step hostOps1 hostOps1_length 22 (by decide) (keeps_one rfl (by decide +kernel)) <|
  forall_drop_step hostOps1 hostOps1_length 23 (by decide) (keeps_one rfl (by decide +kernel)) <|
  forall_drop_step hostOps1 hostOps1_length 24 (by decide) (keeps_one rfl (by decide +kernel)) <|
  forall_drop_step hostOps1 hostOps1_length 25 (by decide) (keeps_one rfl (by decide +kernel)) <|
  forall_drop_step hostOps1 hostOps1_length 26 (by decide) (keeps_one rfl (by decide +kernel)) <|
  forall_drop_step hostOps1 hostOps1_length 27 (by decide) (keeps_one rfl (by decide +kernel)) <|
  forall_drop_step hostOps1 hostOps1_length 28 (by decide) (keeps_one rfl (by decide +kernel)) <|
  forall_drop_step hostOps1 hostOps1_length 29 (by decide) (keeps_one rfl (by decide +kernel)) <|
  forall_drop_step hostOps1 hostOps1_length 30 (by decide) (keeps_one rfl (by decide +kernel)) <|
  forall_drop_step hostOps1 hostOps1_length 31 (by decide) (keeps_one rfl (by decide +kernel)) <|
  forall_drop_step hostOps1 hostOps1_length 32 (by decide) (keeps_one rfl (by decide +kernel)) <|
  forall_drop_step hostOps1 hostOps1_length 33 (by decide) (keeps_one rfl (by decide +kernel)) <|
  forall_drop_step hostOps1 hostOps1_length 34 (by decide) (keeps_one rfl (by decide +kernel)) <|
  forall_drop_step hostOps1 hostOps1_length 35 (by decide) (keeps_one rfl (by decide +kernel)) <|
  forall_drop_step hostOps1 hostOps1_length 36 (by decide) (keeps_one rfl (by decide +kernel)) <|
  forall_drop_step hostOps1 hostOps1_length 37 (by decide) (keeps_one rfl (by decide +kernel)) <|
  forall_drop_step hostOps1 hostOps1_length 38 (by decide) (keeps_one rfl (by decide +kernel)) <|
  forall_drop_step hostOps1 hostOps1_length 39 (by decide) (keeps_one rfl (by decide +kernel)) <|
  forall_drop_step hostOps1 hostOps1_length 40 (by decide) (keeps_one rfl (by decide +kernel)) <|
  forall_drop_step hostOps1 hostOps1_length 41 (by decide) (keeps_one rfl (by decide +kernel)) <|
  forall_drop_step hostOps1 hostOps1_length 42 (by decide) (keeps_one rfl (by decide +kernel)) <|
  forall_drop_step hostOps1 hostOps1_length 43 (by decide) (keeps_one rfl (by decide +kernel)) <|
  forall_drop_step hostOps1 hostOps1_length 44 (by decide) (keeps_one rfl (by decide +kernel)) <|
  forall_drop_step hostOps1 hostOps1_length 45 (by decide) (keeps_one rfl (by decide +kernel)) <|
  forall_drop_step hostOps1 hostOps1_length 46 (by decide) (keeps_one rfl (by decide +kernel)) <|
  forall_drop_step hostOps1 hostOps1_length 47 (by decide) (keeps_one rfl (by decide +kernel)) <|
  forall_drop_step hostOps1 hostOps1_length 48 (by decide) (keeps_one rfl (by decide +kernel)) <|
  forall_drop_step hostOps1 hostOps1_length 49 (by decide) (keeps_one rfl (by decide +kernel)) <|
  forall_drop_step hostOps1 hostOps1_length 50 (by decide) (keeps_one rfl (by decide +kernel)) <|
  forall_drop_step hostOps1 hostOps1_length 51 (by decide) (keeps_one rfl (by decide +kernel)) <|
  forall_drop_step hostOps1 hostOps1_length 52 (by decide) (keeps_one rfl (by decide +kernel)) <|
  forall_drop_step hostOps1 hostOps1_length 53 (by decide) (keeps_one rfl (by decide +kernel)) <|
  forall_drop_step hostOps1 hostOps1_length 54 (by decide) (keeps_one rfl (by decide +kernel)) <|
  forall_drop_step hostOps1 hostOps1_length 55 (by decide) (keeps_one rfl (by decide +kernel)) <|
  forall_drop_step hostOps1 hostOps1_length 56 (by decide) (keeps_one rfl (by decide +kernel)) <|
  forall_drop_step hostOps1 hostOps1_length 57 (by decide) (keeps_one rfl (by decide +kernel)) <|
  forall_drop_step hostOps1 hostOps1_length 58 (by decide) (keeps_one rfl (by decide +kernel)) <|
  forall_drop_step hostOps1 hostOps1_length 59 (by decide) (keeps_one rfl (by decide +kernel)) <|
  forall_drop_step hostOps1 hostOps1_length 60 (by decide) (keeps_one rfl (by decide +kernel)) <|
  forall_drop_step hostOps1 hostOps1_length 61 (by decide) (keeps_one rfl (by decide +kernel)) <|
  forall_drop_step hostOps1 hostOps1_length 62 (by decide) (keeps_one rfl (by decide +kernel)) <|
  forall_drop_step hostOps1 hostOps1_length 63 (by decide) (keeps_one rfl (by decide +kernel)) <|
  forall_drop_step hostOps1 hostOps1_length 64 (by decide) (keeps_one rfl (by decide +kernel)) <|
  forall_drop_step hostOps1 hostOps1_length 65 (by decide) (keeps_one rfl (by decide +kernel)) <|
  forall_drop_step hostOps1 hostOps1_length 66 (by decide) (keeps_one rfl (by decide +kernel)) <|
  forall_drop_step hostOps1 hostOps1_length 67 (by decide) (keeps_one rfl (by decide +kernel)) <|
  forall_drop_step hostOps1 hostOps1_length 68 (by decide) (keeps_one rfl (by decide +kernel)) <|
  forall_drop_step hostOps1 hostOps1_length 69 (by decide) (keeps_one rfl (by decide +kernel)) <|
  forall_drop_step hostOps1 hostOps1_length 70 (by decide) (keeps_one rfl (by decide +kernel)) <|
  forall_drop_step hostOps1 hostOps1_length 71 (by decide) (keeps_one rfl (by decide +kernel)) <|
  forall_drop_step hostOps1 hostOps1_length 72 (by decide) (keeps_one rfl (by decide +kernel)) <|
  forall_drop_step hostOps1 hostOps1_length 73 (by decide) (keeps_one rfl (by decide +kernel)) <|
  forall_drop_step hostOps1 hostOps1_length 74 (by decide) (keeps_one rfl (by decide +kernel)) <|
  forall_drop_step hostOps1 hostOps1_length 75 (by decide) (keeps_one rfl (by decide +kernel)) <|
  forall_drop_step hostOps1 hostOps1_length 76 (by decide) (keeps_one rfl (by decide +kernel)) <|
  forall_drop_step hostOps1 hostOps1_length 77 (by decide) (keeps_one rfl (by decide +kernel)) <|
  forall_drop_step hostOps1 hostOps1_length 78 (by decide) (keeps_one rfl (by decide +kernel)) <|
  forall_drop_end hostOps1 hostOps1_length

set_option maxHeartbeats 40000000 in
/-- No operation of `hostOps2` allocates a buffer. -/
theorem hostOps2_fresh : (hostOps2 : List (HloOp τ sig (Elt F))).Forall fun op => op.fresh = ∅ := by
  simp only [List.Forall]; repeat' constructor

theorem hostOps2_length : (hostOps2 : List (HloOp τ sig (Elt F))).length = 80 := rfl

set_option maxHeartbeats 40000000 in
/-- No operation of `hostOps2` writes an argument array: each writes its one result, a value of the program's own. -/
theorem hostOps2_keeps : (hostOps2 : List (HloOp τ sig (Elt F))).Forall fun op => ∀ r ∈ argRefs, Proc.devRef (τ := τ) .tc r ∉ op.writes :=
  show ((hostOps2 : List (HloOp τ sig (Elt F))).drop 0).Forall _ from
  forall_drop_step hostOps2 hostOps2_length 0 (by decide) (keeps_one rfl (by decide +kernel)) <|
  forall_drop_step hostOps2 hostOps2_length 1 (by decide) (keeps_one rfl (by decide +kernel)) <|
  forall_drop_step hostOps2 hostOps2_length 2 (by decide) (keeps_one rfl (by decide +kernel)) <|
  forall_drop_step hostOps2 hostOps2_length 3 (by decide) (keeps_one rfl (by decide +kernel)) <|
  forall_drop_step hostOps2 hostOps2_length 4 (by decide) (keeps_one rfl (by decide +kernel)) <|
  forall_drop_step hostOps2 hostOps2_length 5 (by decide) (keeps_one rfl (by decide +kernel)) <|
  forall_drop_step hostOps2 hostOps2_length 6 (by decide) (keeps_one rfl (by decide +kernel)) <|
  forall_drop_step hostOps2 hostOps2_length 7 (by decide) (keeps_one rfl (by decide +kernel)) <|
  forall_drop_step hostOps2 hostOps2_length 8 (by decide) (keeps_one rfl (by decide +kernel)) <|
  forall_drop_step hostOps2 hostOps2_length 9 (by decide) (keeps_one rfl (by decide +kernel)) <|
  forall_drop_step hostOps2 hostOps2_length 10 (by decide) (keeps_one rfl (by decide +kernel)) <|
  forall_drop_step hostOps2 hostOps2_length 11 (by decide) (keeps_one rfl (by decide +kernel)) <|
  forall_drop_step hostOps2 hostOps2_length 12 (by decide) (keeps_one rfl (by decide +kernel)) <|
  forall_drop_step hostOps2 hostOps2_length 13 (by decide) (keeps_one rfl (by decide +kernel)) <|
  forall_drop_step hostOps2 hostOps2_length 14 (by decide) (keeps_one rfl (by decide +kernel)) <|
  forall_drop_step hostOps2 hostOps2_length 15 (by decide) (keeps_one rfl (by decide +kernel)) <|
  forall_drop_step hostOps2 hostOps2_length 16 (by decide) (keeps_one rfl (by decide +kernel)) <|
  forall_drop_step hostOps2 hostOps2_length 17 (by decide) (keeps_one rfl (by decide +kernel)) <|
  forall_drop_step hostOps2 hostOps2_length 18 (by decide) (keeps_one rfl (by decide +kernel)) <|
  forall_drop_step hostOps2 hostOps2_length 19 (by decide) (keeps_one rfl (by decide +kernel)) <|
  forall_drop_step hostOps2 hostOps2_length 20 (by decide) (keeps_one rfl (by decide +kernel)) <|
  forall_drop_step hostOps2 hostOps2_length 21 (by decide) (keeps_one rfl (by decide +kernel)) <|
  forall_drop_step hostOps2 hostOps2_length 22 (by decide) (keeps_one rfl (by decide +kernel)) <|
  forall_drop_step hostOps2 hostOps2_length 23 (by decide) (keeps_one rfl (by decide +kernel)) <|
  forall_drop_step hostOps2 hostOps2_length 24 (by decide) (keeps_one rfl (by decide +kernel)) <|
  forall_drop_step hostOps2 hostOps2_length 25 (by decide) (keeps_one rfl (by decide +kernel)) <|
  forall_drop_step hostOps2 hostOps2_length 26 (by decide) (keeps_one rfl (by decide +kernel)) <|
  forall_drop_step hostOps2 hostOps2_length 27 (by decide) (keeps_one rfl (by decide +kernel)) <|
  forall_drop_step hostOps2 hostOps2_length 28 (by decide) (keeps_one rfl (by decide +kernel)) <|
  forall_drop_step hostOps2 hostOps2_length 29 (by decide) (keeps_one rfl (by decide +kernel)) <|
  forall_drop_step hostOps2 hostOps2_length 30 (by decide) (keeps_one rfl (by decide +kernel)) <|
  forall_drop_step hostOps2 hostOps2_length 31 (by decide) (keeps_one rfl (by decide +kernel)) <|
  forall_drop_step hostOps2 hostOps2_length 32 (by decide) (keeps_one rfl (by decide +kernel)) <|
  forall_drop_step hostOps2 hostOps2_length 33 (by decide) (keeps_one rfl (by decide +kernel)) <|
  forall_drop_step hostOps2 hostOps2_length 34 (by decide) (keeps_one rfl (by decide +kernel)) <|
  forall_drop_step hostOps2 hostOps2_length 35 (by decide) (keeps_one rfl (by decide +kernel)) <|
  forall_drop_step hostOps2 hostOps2_length 36 (by decide) (keeps_one rfl (by decide +kernel)) <|
  forall_drop_step hostOps2 hostOps2_length 37 (by decide) (keeps_one rfl (by decide +kernel)) <|
  forall_drop_step hostOps2 hostOps2_length 38 (by decide) (keeps_one rfl (by decide +kernel)) <|
  forall_drop_step hostOps2 hostOps2_length 39 (by decide) (keeps_one rfl (by decide +kernel)) <|
  forall_drop_step hostOps2 hostOps2_length 40 (by decide) (keeps_one rfl (by decide +kernel)) <|
  forall_drop_step hostOps2 hostOps2_length 41 (by decide) (keeps_one rfl (by decide +kernel)) <|
  forall_drop_step hostOps2 hostOps2_length 42 (by decide) (keeps_one rfl (by decide +kernel)) <|
  forall_drop_step hostOps2 hostOps2_length 43 (by decide) (keeps_one rfl (by decide +kernel)) <|
  forall_drop_step hostOps2 hostOps2_length 44 (by decide) (keeps_one rfl (by decide +kernel)) <|
  forall_drop_step hostOps2 hostOps2_length 45 (by decide) (keeps_one rfl (by decide +kernel)) <|
  forall_drop_step hostOps2 hostOps2_length 46 (by decide) (keeps_one rfl (by decide +kernel)) <|
  forall_drop_step hostOps2 hostOps2_length 47 (by decide) (keeps_one rfl (by decide +kernel)) <|
  forall_drop_step hostOps2 hostOps2_length 48 (by decide) (keeps_one rfl (by decide +kernel)) <|
  forall_drop_step hostOps2 hostOps2_length 49 (by decide) (keeps_one rfl (by decide +kernel)) <|
  forall_drop_step hostOps2 hostOps2_length 50 (by decide) (keeps_one rfl (by decide +kernel)) <|
  forall_drop_step hostOps2 hostOps2_length 51 (by decide) (keeps_one rfl (by decide +kernel)) <|
  forall_drop_step hostOps2 hostOps2_length 52 (by decide) (keeps_one rfl (by decide +kernel)) <|
  forall_drop_step hostOps2 hostOps2_length 53 (by decide) (keeps_one rfl (by decide +kernel)) <|
  forall_drop_step hostOps2 hostOps2_length 54 (by decide) (keeps_one rfl (by decide +kernel)) <|
  forall_drop_step hostOps2 hostOps2_length 55 (by decide) (keeps_one rfl (by decide +kernel)) <|
  forall_drop_step hostOps2 hostOps2_length 56 (by decide) (keeps_one rfl (by decide +kernel)) <|
  forall_drop_step hostOps2 hostOps2_length 57 (by decide) (keeps_one rfl (by decide +kernel)) <|
  forall_drop_step hostOps2 hostOps2_length 58 (by decide) (keeps_one rfl (by decide +kernel)) <|
  forall_drop_step hostOps2 hostOps2_length 59 (by decide) (keeps_one rfl (by decide +kernel)) <|
  forall_drop_step hostOps2 hostOps2_length 60 (by decide) (keeps_one rfl (by decide +kernel)) <|
  forall_drop_step hostOps2 hostOps2_length 61 (by decide) (keeps_one rfl (by decide +kernel)) <|
  forall_drop_step hostOps2 hostOps2_length 62 (by decide) (keeps_one rfl (by decide +kernel)) <|
  forall_drop_step hostOps2 hostOps2_length 63 (by decide) (keeps_one rfl (by decide +kernel)) <|
  forall_drop_step hostOps2 hostOps2_length 64 (by decide) (keeps_one rfl (by decide +kernel)) <|
  forall_drop_step hostOps2 hostOps2_length 65 (by decide) (keeps_one rfl (by decide +kernel)) <|
  forall_drop_step hostOps2 hostOps2_length 66 (by decide) (keeps_one rfl (by decide +kernel)) <|
  forall_drop_step hostOps2 hostOps2_length 67 (by decide) (keeps_one rfl (by decide +kernel)) <|
  forall_drop_step hostOps2 hostOps2_length 68 (by decide) (keeps_one rfl (by decide +kernel)) <|
  forall_drop_step hostOps2 hostOps2_length 69 (by decide) (keeps_one rfl (by decide +kernel)) <|
  forall_drop_step hostOps2 hostOps2_length 70 (by decide) (keeps_one rfl (by decide +kernel)) <|
  forall_drop_step hostOps2 hostOps2_length 71 (by decide) (keeps_one rfl (by decide +kernel)) <|
  forall_drop_step hostOps2 hostOps2_length 72 (by decide) (keeps_one rfl (by decide +kernel)) <|
  forall_drop_step hostOps2 hostOps2_length 73 (by decide) (keeps_one rfl (by decide +kernel)) <|
  forall_drop_step hostOps2 hostOps2_length 74 (by decide) (keeps_one rfl (by decide +kernel)) <|
  forall_drop_step hostOps2 hostOps2_length 75 (by decide) (keeps_one rfl (by decide +kernel)) <|
  forall_drop_step hostOps2 hostOps2_length 76 (by decide) (keeps_one rfl (by decide +kernel)) <|
  forall_drop_step hostOps2 hostOps2_length 77 (by decide) (keeps_one rfl (by decide +kernel)) <|
  forall_drop_step hostOps2 hostOps2_length 78 (by decide) (keeps_one rfl (by decide +kernel)) <|
  forall_drop_step hostOps2 hostOps2_length 79 (by decide) (keeps_one rfl (by decide +kernel)) <|
  forall_drop_end hostOps2 hostOps2_length

set_option maxHeartbeats 40000000 in
/-- No operation of `hostOps3` allocates a buffer. -/
theorem hostOps3_fresh : (hostOps3 : List (HloOp τ sig (Elt F))).Forall fun op => op.fresh = ∅ := by
  simp only [List.Forall]; repeat' constructor

theorem hostOps3_length : (hostOps3 : List (HloOp τ sig (Elt F))).length = 79 := rfl

set_option maxHeartbeats 40000000 in
/-- No operation of `hostOps3` writes an argument array: each writes its one result, a value of the program's own. -/
theorem hostOps3_keeps : (hostOps3 : List (HloOp τ sig (Elt F))).Forall fun op => ∀ r ∈ argRefs, Proc.devRef (τ := τ) .tc r ∉ op.writes :=
  show ((hostOps3 : List (HloOp τ sig (Elt F))).drop 0).Forall _ from
  forall_drop_step hostOps3 hostOps3_length 0 (by decide) (keeps_one rfl (by decide +kernel)) <|
  forall_drop_step hostOps3 hostOps3_length 1 (by decide) (keeps_one rfl (by decide +kernel)) <|
  forall_drop_step hostOps3 hostOps3_length 2 (by decide) (keeps_one rfl (by decide +kernel)) <|
  forall_drop_step hostOps3 hostOps3_length 3 (by decide) (keeps_one rfl (by decide +kernel)) <|
  forall_drop_step hostOps3 hostOps3_length 4 (by decide) (keeps_one rfl (by decide +kernel)) <|
  forall_drop_step hostOps3 hostOps3_length 5 (by decide) (keeps_one rfl (by decide +kernel)) <|
  forall_drop_step hostOps3 hostOps3_length 6 (by decide) (keeps_one rfl (by decide +kernel)) <|
  forall_drop_step hostOps3 hostOps3_length 7 (by decide) (keeps_one rfl (by decide +kernel)) <|
  forall_drop_step hostOps3 hostOps3_length 8 (by decide) (keeps_one rfl (by decide +kernel)) <|
  forall_drop_step hostOps3 hostOps3_length 9 (by decide) (keeps_one rfl (by decide +kernel)) <|
  forall_drop_step hostOps3 hostOps3_length 10 (by decide) (keeps_one rfl (by decide +kernel)) <|
  forall_drop_step hostOps3 hostOps3_length 11 (by decide) (keeps_one rfl (by decide +kernel)) <|
  forall_drop_step hostOps3 hostOps3_length 12 (by decide) (keeps_one rfl (by decide +kernel)) <|
  forall_drop_step hostOps3 hostOps3_length 13 (by decide) (keeps_one rfl (by decide +kernel)) <|
  forall_drop_step hostOps3 hostOps3_length 14 (by decide) (keeps_one rfl (by decide +kernel)) <|
  forall_drop_step hostOps3 hostOps3_length 15 (by decide) (keeps_one rfl (by decide +kernel)) <|
  forall_drop_step hostOps3 hostOps3_length 16 (by decide) (keeps_one rfl (by decide +kernel)) <|
  forall_drop_step hostOps3 hostOps3_length 17 (by decide) (keeps_one rfl (by decide +kernel)) <|
  forall_drop_step hostOps3 hostOps3_length 18 (by decide) (keeps_one rfl (by decide +kernel)) <|
  forall_drop_step hostOps3 hostOps3_length 19 (by decide) (keeps_one rfl (by decide +kernel)) <|
  forall_drop_step hostOps3 hostOps3_length 20 (by decide) (keeps_one rfl (by decide +kernel)) <|
  forall_drop_step hostOps3 hostOps3_length 21 (by decide) (keeps_one rfl (by decide +kernel)) <|
  forall_drop_step hostOps3 hostOps3_length 22 (by decide) (keeps_one rfl (by decide +kernel)) <|
  forall_drop_step hostOps3 hostOps3_length 23 (by decide) (keeps_one rfl (by decide +kernel)) <|
  forall_drop_step hostOps3 hostOps3_length 24 (by decide) (keeps_one rfl (by decide +kernel)) <|
  forall_drop_step hostOps3 hostOps3_length 25 (by decide) (keeps_one rfl (by decide +kernel)) <|
  forall_drop_step hostOps3 hostOps3_length 26 (by decide) (keeps_one rfl (by decide +kernel)) <|
  forall_drop_step hostOps3 hostOps3_length 27 (by decide) (keeps_one rfl (by decide +kernel)) <|
  forall_drop_step hostOps3 hostOps3_length 28 (by decide) (keeps_one rfl (by decide +kernel)) <|
  forall_drop_step hostOps3 hostOps3_length 29 (by decide) (keeps_one rfl (by decide +kernel)) <|
  forall_drop_step hostOps3 hostOps3_length 30 (by decide) (keeps_one rfl (by decide +kernel)) <|
  forall_drop_step hostOps3 hostOps3_length 31 (by decide) (keeps_one rfl (by decide +kernel)) <|
  forall_drop_step hostOps3 hostOps3_length 32 (by decide) (keeps_one rfl (by decide +kernel)) <|
  forall_drop_step hostOps3 hostOps3_length 33 (by decide) (keeps_one rfl (by decide +kernel)) <|
  forall_drop_step hostOps3 hostOps3_length 34 (by decide) (keeps_one rfl (by decide +kernel)) <|
  forall_drop_step hostOps3 hostOps3_length 35 (by decide) (keeps_one rfl (by decide +kernel)) <|
  forall_drop_step hostOps3 hostOps3_length 36 (by decide) (keeps_one rfl (by decide +kernel)) <|
  forall_drop_step hostOps3 hostOps3_length 37 (by decide) (keeps_one rfl (by decide +kernel)) <|
  forall_drop_step hostOps3 hostOps3_length 38 (by decide) (keeps_one rfl (by decide +kernel)) <|
  forall_drop_step hostOps3 hostOps3_length 39 (by decide) (keeps_one rfl (by decide +kernel)) <|
  forall_drop_step hostOps3 hostOps3_length 40 (by decide) (keeps_one rfl (by decide +kernel)) <|
  forall_drop_step hostOps3 hostOps3_length 41 (by decide) (keeps_one rfl (by decide +kernel)) <|
  forall_drop_step hostOps3 hostOps3_length 42 (by decide) (keeps_one rfl (by decide +kernel)) <|
  forall_drop_step hostOps3 hostOps3_length 43 (by decide) (keeps_one rfl (by decide +kernel)) <|
  forall_drop_step hostOps3 hostOps3_length 44 (by decide) (keeps_one rfl (by decide +kernel)) <|
  forall_drop_step hostOps3 hostOps3_length 45 (by decide) (keeps_one rfl (by decide +kernel)) <|
  forall_drop_step hostOps3 hostOps3_length 46 (by decide) (keeps_one rfl (by decide +kernel)) <|
  forall_drop_step hostOps3 hostOps3_length 47 (by decide) (keeps_one rfl (by decide +kernel)) <|
  forall_drop_step hostOps3 hostOps3_length 48 (by decide) (keeps_one rfl (by decide +kernel)) <|
  forall_drop_step hostOps3 hostOps3_length 49 (by decide) (keeps_one rfl (by decide +kernel)) <|
  forall_drop_step hostOps3 hostOps3_length 50 (by decide) (keeps_one rfl (by decide +kernel)) <|
  forall_drop_step hostOps3 hostOps3_length 51 (by decide) (keeps_one rfl (by decide +kernel)) <|
  forall_drop_step hostOps3 hostOps3_length 52 (by decide) (keeps_one rfl (by decide +kernel)) <|
  forall_drop_step hostOps3 hostOps3_length 53 (by decide) (keeps_one rfl (by decide +kernel)) <|
  forall_drop_step hostOps3 hostOps3_length 54 (by decide) (keeps_one rfl (by decide +kernel)) <|
  forall_drop_step hostOps3 hostOps3_length 55 (by decide) (keeps_one rfl (by decide +kernel)) <|
  forall_drop_step hostOps3 hostOps3_length 56 (by decide) (keeps_one rfl (by decide +kernel)) <|
  forall_drop_step hostOps3 hostOps3_length 57 (by decide) (keeps_one rfl (by decide +kernel)) <|
  forall_drop_step hostOps3 hostOps3_length 58 (by decide) (keeps_one rfl (by decide +kernel)) <|
  forall_drop_step hostOps3 hostOps3_length 59 (by decide) (keeps_one rfl (by decide +kernel)) <|
  forall_drop_step hostOps3 hostOps3_length 60 (by decide) (keeps_one rfl (by decide +kernel)) <|
  forall_drop_step hostOps3 hostOps3_length 61 (by decide) (keeps_one rfl (by decide +kernel)) <|
  forall_drop_step hostOps3 hostOps3_length 62 (by decide) (keeps_one rfl (by decide +kernel)) <|
  forall_drop_step hostOps3 hostOps3_length 63 (by decide) (keeps_one rfl (by decide +kernel)) <|
  forall_drop_step hostOps3 hostOps3_length 64 (by decide) (keeps_one rfl (by decide +kernel)) <|
  forall_drop_step hostOps3 hostOps3_length 65 (by decide) (keeps_one rfl (by decide +kernel)) <|
  forall_drop_step hostOps3 hostOps3_length 66 (by decide) (keeps_one rfl (by decide +kernel)) <|
  forall_drop_step hostOps3 hostOps3_length 67 (by decide) (keeps_one rfl (by decide +kernel)) <|
  forall_drop_step hostOps3 hostOps3_length 68 (by decide) (keeps_one rfl (by decide +kernel)) <|
  forall_drop_step hostOps3 hostOps3_length 69 (by decide) (keeps_one rfl (by decide +kernel)) <|
  forall_drop_step hostOps3 hostOps3_length 70 (by decide) (keeps_one rfl (by decide +kernel)) <|
  forall_drop_step hostOps3 hostOps3_length 71 (by decide) (keeps_one rfl (by decide +kernel)) <|
  forall_drop_step hostOps3 hostOps3_length 72 (by decide) (keeps_one rfl (by decide +kernel)) <|
  forall_drop_step hostOps3 hostOps3_length 73 (by decide) (keeps_one rfl (by decide +kernel)) <|
  forall_drop_step hostOps3 hostOps3_length 74 (by decide) (keeps_one rfl (by decide +kernel)) <|
  forall_drop_step hostOps3 hostOps3_length 75 (by decide) (keeps_one rfl (by decide +kernel)) <|
  forall_drop_step hostOps3 hostOps3_length 76 (by decide) (keeps_one rfl (by decide +kernel)) <|
  forall_drop_step hostOps3 hostOps3_length 77 (by decide) (keeps_one rfl (by decide +kernel)) <|
  forall_drop_step hostOps3 hostOps3_length 78 (by decide) (keeps_one rfl (by decide +kernel)) <|
  forall_drop_end hostOps3 hostOps3_length

set_option maxHeartbeats 40000000 in
/-- No operation of `hostOps4` allocates a buffer. -/
theorem hostOps4_fresh : (hostOps4 : List (HloOp τ sig (Elt F))).Forall fun op => op.fresh = ∅ := by
  simp only [List.Forall]; repeat' constructor

theorem hostOps4_length : (hostOps4 : List (HloOp τ sig (Elt F))).length = 21 := rfl

set_option maxHeartbeats 40000000 in
/-- No operation of `hostOps4` writes an argument array: each writes its one result, a value of the program's own. -/
theorem hostOps4_keeps : (hostOps4 : List (HloOp τ sig (Elt F))).Forall fun op => ∀ r ∈ argRefs, Proc.devRef (τ := τ) .tc r ∉ op.writes :=
  show ((hostOps4 : List (HloOp τ sig (Elt F))).drop 0).Forall _ from
  forall_drop_step hostOps4 hostOps4_length 0 (by decide) (keeps_one rfl (by decide +kernel)) <|
  forall_drop_step hostOps4 hostOps4_length 1 (by decide) (keeps_one rfl (by decide +kernel)) <|
  forall_drop_step hostOps4 hostOps4_length 2 (by decide) (keeps_one rfl (by decide +kernel)) <|
  forall_drop_step hostOps4 hostOps4_length 3 (by decide) (keeps_one rfl (by decide +kernel)) <|
  forall_drop_step hostOps4 hostOps4_length 4 (by decide) (keeps_one rfl (by decide +kernel)) <|
  forall_drop_step hostOps4 hostOps4_length 5 (by decide) (keeps_one rfl (by decide +kernel)) <|
  forall_drop_step hostOps4 hostOps4_length 6 (by decide) (keeps_one rfl (by decide +kernel)) <|
  forall_drop_step hostOps4 hostOps4_length 7 (by decide) (keeps_one rfl (by decide +kernel)) <|
  forall_drop_step hostOps4 hostOps4_length 8 (by decide) (keeps_one rfl (by decide +kernel)) <|
  forall_drop_step hostOps4 hostOps4_length 9 (by decide) (keeps_one rfl (by decide +kernel)) <|
  forall_drop_step hostOps4 hostOps4_length 10 (by decide) (keeps_one rfl (by decide +kernel)) <|
  forall_drop_step hostOps4 hostOps4_length 11 (by decide) (keeps_one rfl (by decide +kernel)) <|
  forall_drop_step hostOps4 hostOps4_length 12 (by decide) (keeps_one rfl (by decide +kernel)) <|
  forall_drop_step hostOps4 hostOps4_length 13 (by decide) (keeps_one rfl (by decide +kernel)) <|
  forall_drop_step hostOps4 hostOps4_length 14 (by decide) (keeps_one rfl (by decide +kernel)) <|
  forall_drop_step hostOps4 hostOps4_length 15 (by decide) (keeps_one rfl (by decide +kernel)) <|
  forall_drop_step hostOps4 hostOps4_length 16 (by decide) (keeps_one rfl (by decide +kernel)) <|
  forall_drop_step hostOps4 hostOps4_length 17 (by decide) (keeps_one rfl (by decide +kernel)) <|
  forall_drop_step hostOps4 hostOps4_length 18 (by decide) (keeps_one rfl (by decide +kernel)) <|
  forall_drop_step hostOps4 hostOps4_length 19 (by decide) (keeps_one rfl (by decide +kernel)) <|
  forall_drop_step hostOps4 hostOps4_length 20 (by decide) (keeps_one rfl (by decide +kernel)) <|
  forall_drop_end hostOps4 hostOps4_length

set_option maxHeartbeats 40000000 in
/-- No operation of `hostOps4_1` allocates a buffer. -/
theorem hostOps4_1_fresh : (hostOps4_1 : List (HloOp τ sig (Elt F))).Forall fun op => op.fresh = ∅ := by
  simp only [List.Forall]; repeat' constructor

theorem hostOps4_1_length : (hostOps4_1 : List (HloOp τ sig (Elt F))).length = 15 := rfl

set_option maxHeartbeats 40000000 in
/-- No operation of `hostOps4_1` writes an argument array: each writes its one result, a value of the program's own. -/
theorem hostOps4_1_keeps : (hostOps4_1 : List (HloOp τ sig (Elt F))).Forall fun op => ∀ r ∈ argRefs, Proc.devRef (τ := τ) .tc r ∉ op.writes :=
  show ((hostOps4_1 : List (HloOp τ sig (Elt F))).drop 0).Forall _ from
  forall_drop_step hostOps4_1 hostOps4_1_length 0 (by decide) (keeps_one rfl (by decide +kernel)) <|
  forall_drop_step hostOps4_1 hostOps4_1_length 1 (by decide) (keeps_one rfl (by decide +kernel)) <|
  forall_drop_step hostOps4_1 hostOps4_1_length 2 (by decide) (keeps_one rfl (by decide +kernel)) <|
  forall_drop_step hostOps4_1 hostOps4_1_length 3 (by decide) (keeps_one rfl (by decide +kernel)) <|
  forall_drop_step hostOps4_1 hostOps4_1_length 4 (by decide) (keeps_one rfl (by decide +kernel)) <|
  forall_drop_step hostOps4_1 hostOps4_1_length 5 (by decide) (keeps_one rfl (by decide +kernel)) <|
  forall_drop_step hostOps4_1 hostOps4_1_length 6 (by decide) (keeps_one rfl (by decide +kernel)) <|
  forall_drop_step hostOps4_1 hostOps4_1_length 7 (by decide) (keeps_one rfl (by decide +kernel)) <|
  forall_drop_step hostOps4_1 hostOps4_1_length 8 (by decide) (keeps_one rfl (by decide +kernel)) <|
  forall_drop_step hostOps4_1 hostOps4_1_length 9 (by decide) (keeps_one rfl (by decide +kernel)) <|
  forall_drop_step hostOps4_1 hostOps4_1_length 10 (by decide) (keeps_one rfl (by decide +kernel)) <|
  forall_drop_step hostOps4_1 hostOps4_1_length 11 (by decide) (keeps_one rfl (by decide +kernel)) <|
  forall_drop_step hostOps4_1 hostOps4_1_length 12 (by decide) (keeps_one rfl (by decide +kernel)) <|
  forall_drop_step hostOps4_1 hostOps4_1_length 13 (by decide) (keeps_one rfl (by decide +kernel)) <|
  forall_drop_step hostOps4_1 hostOps4_1_length 14 (by decide) (keeps_one rfl (by decide +kernel)) <|
  forall_drop_end hostOps4_1 hostOps4_1_length

end Cert.Kernel.Hand

end
-- ==== Proof.KRun.lean ====
import proofs.«137322_j45767171506782_1_alg».proof.Proof.Gen.Kernel.Launch
import proofs.«137322_j45767171506782_1_alg».proof.Proof.Gen.Kernel.Skeleton
import proofs.«137322_j45767171506782_1_alg».proof.Proof.Gen.Kernel.Points
import proofs.«137322_j45767171506782_1_alg».proof.Proof.KRegion0
import proofs.«137322_j45767171506782_1_alg».proof.Proof.KRegion1
import proofs.«137322_j45767171506782_1_alg».proof.Proof.KRegion2
import proofs.«137322_j45767171506782_1_alg».proof.Proof.KRegion3
import proofs.«137322_j45767171506782_1_alg».proof.Proof.KHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's fourteen segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2` (region 2's entry). -/
abbrev W9 : Dev nD → Valuation τ sig (Elt F) := fun c => StableHlo.after hostOps2 (W8 m ρ c)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves and every other buffer what it held at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3` (region 3's entry). -/
abbrev W11 : Dev nD → Valuation τ sig (Elt F) := fun c => StableHlo.after hostOps3 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves and every other buffer what it held at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After `hostOps4`. -/
abbrev W13 : Dev nD → Valuation τ sig (Elt F) := fun c => StableHlo.after hostOps4 (W12 m ρ c)
/-- After `hostOps4_1`: the contents @main returns with. -/
abbrev W14 : Dev nD → Valuation τ sig (Elt F) := fun c => StableHlo.after hostOps4_1 (W13 m ρ c)

/-! ### The arguments end as launched: no host operation writes one, and no region has one as a window's array
    (every window's array is a value the host stretches compute), so the fold at an argument's buffer walks back
    to the launch memory -/

/-- No argument array is an array of region 0's windows. -/
theorem args_not_win0 : ∀ r ∈ argRefs, ∀ w : Fin cfg0.W, Pipeline.arrRef spec0 w ≠ r := by decide
/-- No argument array is an array of region 1's windows. -/
theorem args_not_win1 : ∀ r ∈ argRefs, ∀ w : Fin cfg1.W, Pipeline.arrRef spec1 w ≠ r := by decide
/-- No argument array is an array of region 2's windows. -/
theorem args_not_win2 : ∀ r ∈ argRefs, ∀ w : Fin cfg2.W, Pipeline.arrRef spec2 w ≠ r := by decide
/-- No argument array is an array of region 3's windows. -/
theorem args_not_win3 : ∀ r ∈ argRefs, ∀ w : Fin cfg3.W, Pipeline.arrRef spec3 w ≠ r := by decide

/-- Every argument array holds at the end what it held at launch. -/
theorem W14_arg (c : Dev nD) {r : Ref sig .tc} (hr : r ∈ argRefs) :
    W14 m ρ c (Proc.devRef .tc r) = m ((c : Thread nD τ).loc r) :=
  calc W14 m ρ c (Proc.devRef .tc r)
    _ = W13 m ρ c (Proc.devRef .tc r) := after_keeps argRefs hostOps4_1_keeps _ hr
    _ = W12 m ρ c (Proc.devRef .tc r) := after_keeps argRefs hostOps4_keeps _ hr
    _ = W11 m ρ c (Proc.devRef .tc r) := W12_of_ne m ρ c r (args_not_win3 r hr)
    _ = W10 m ρ c (Proc.devRef .tc r) := after_keeps argRefs hostOps3_keeps _ hr
    _ = W9 m ρ c (Proc.devRef .tc r) := W10_of_ne m ρ c r (args_not_win2 r hr)
    _ = W8 m ρ c (Proc.devRef .tc r) := after_keeps argRefs hostOps2_keeps _ hr
    _ = W7 m ρ c (Proc.devRef .tc r) := W8_of_ne m ρ c r (args_not_win1 r hr)
    _ = W6 m ρ c (Proc.devRef .tc r) := after_keeps argRefs hostOps1_keeps _ hr
    _ = W5 m ρ c (Proc.devRef .tc r) := W6_of_ne m ρ c r (args_not_win0 r hr)
    _ = W4 m ρ c (Proc.devRef .tc r) := after_keeps argRefs hostOps0_4_keeps _ hr
    _ = W3 m ρ c (Proc.devRef .tc r) := after_keeps argRefs hostOps0_3_keeps _ hr
    _ = W2 m ρ c (Proc.devRef .tc r) := after_keeps argRefs hostOps0_2_keeps _ hr
    _ = W1 m ρ c (Proc.devRef .tc r) := after_keeps argRefs hostOps0_1_keeps _ hr
    _ = W0 m ρ c (Proc.devRef .tc r) := after_keeps argRefs hostOps0_keeps _ hr
    _ = m ((c : Thread nD τ).loc r) := rfl

theorem W14_main_arg0 (c : Dev nD) : W14 m ρ c (Proc.devRef .tc main_arg0) = m ((c : Thread nD τ).loc main_arg0) :=
  W14_arg m ρ c (by decide)
theorem W14_main_arg1 (c : Dev nD) : W14 m ρ c (Proc.devRef .tc main_arg1) = m ((c : Thread nD τ).loc main_arg1) :=
  W14_arg m ρ c (by decide)
theorem W14_main_arg2 (c : Dev nD) : W14 m ρ c (Proc.devRef .tc main_arg2) = m ((c : Thread nD τ).loc main_arg2) :=
  W14_arg m ρ c (by decide)
theorem W14_main_arg3 (c : Dev nD) : W14 m ρ c (Proc.devRef .tc main_arg3) = m ((c : Thread nD τ).loc main_arg3) :=
  W14_arg m ρ c (by decide)
theorem W14_main_arg4 (c : Dev nD) : W14 m ρ c (Proc.devRef .tc main_arg4) = m ((c : Thread nD τ).loc main_arg4) :=
  W14_arg m ρ c (by decide)
theorem W14_main_arg5 (c : Dev nD) : W14 m ρ c (Proc.devRef .tc main_arg5) = m ((c : Thread nD τ).loc main_arg5) :=
  W14_arg m ρ c (by decide)
theorem W14_main_arg6 (c : Dev nD) : W14 m ρ c (Proc.devRef .tc main_arg6) = m ((c : Thread nD τ).loc main_arg6) :=
  W14_arg m ρ c (by decide)
theorem W14_main_arg7 (c : Dev nD) : W14 m ρ c (Proc.devRef .tc main_arg7) = m ((c : Thread nD τ).loc main_arg7) :=
  W14_arg m ρ c (by decide)
theorem W14_main_arg8 (c : Dev nD) : W14 m ρ c (Proc.devRef .tc main_arg8) = m ((c : Thread nD τ).loc main_arg8) :=
  W14_arg m ρ c (by decide)
theorem W14_main_arg9 (c : Dev nD) : W14 m ρ c (Proc.devRef .tc main_arg9) = m ((c : Thread nD τ).loc main_arg9) :=
  W14_arg m ρ c (by decide)
theorem W14_main_arg10 (c : Dev nD) : W14 m ρ c (Proc.devRef .tc main_arg10) = m ((c : Thread nD τ).loc main_arg10) :=
  W14_arg m ρ c (by decide)
theorem W14_main_arg11 (c : Dev nD) : W14 m ρ c (Proc.devRef .tc main_arg11) = m ((c : Thread nD τ).loc main_arg11) :=
  W14_arg m ρ c (by decide)
theorem W14_main_arg12 (c : Dev nD) : W14 m ρ c (Proc.devRef .tc main_arg12) = m ((c : Thread nD τ).loc main_arg12) :=
  W14_arg m ρ c (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W14`, the
    generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 (pipeline 0) over the thread state: entered from every unscoped buffer at `W5`, left at `W6`. Its
    arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (pipeline 1) over the thread state: entered from every unscoped buffer at `W7`, left at `W8`. Its
    arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (pipeline 2) over the thread state: entered from every unscoped buffer at `W9`, left at `W10`. Its
    arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (pipeline 3) over the thread state: entered from every unscoped buffer at `W11`, left at `W12`. Its
    arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)) ]
/-- @main is the run of the segments: it is the chain of its items, and the segments' run is the same chain. -/
theorem main_run (c : Dev nD) : main (F := F) c = Pipeline.Seg.run (segs m ρ) := (main_chain c).trans (by chain_rfl)

set_option backward.isDefEq.respectTransparency.types false in
/-- The whole run: at the compiled mesh, from any memory with zero counters, every weakly fair execution of @main on
    the TensorCores terminates, nothing faulting, and every final state has every unscoped buffer of every core at
    the fold's last contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The frame: every final state of @main has the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩) (run_all m ρ)

end Cert.Kernel.Hand

end
-- ==== Proof.KIRegion0.lean ====
import proofs.«137322_j45767171506782_1_alg».proof.Proof.Gen.KernelIdeal.Launch
import proofs.«137322_j45767171506782_1_alg».proof.Proof.Gen.KernelIdeal.Skeleton
import proofs.«137322_j45767171506782_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 0 of @main: the matmul + bias + relu kernel `cc0__matmul_relu_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the fetch that filled the buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the fetch that filled the buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the fetch that filled the buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's staging buffer, whole -/

abbrev r0_0 : Rect S2000x80 := Rect.unit (s := S2000x80) ![0, 0] S2000x80.size inb_S2000x80_S2000x80_0_0
abbrev r0_1 : Rect S80x64 := Rect.unit (s := S80x64) ![0, 0] S80x64.size inb_S80x64_S80x64_0_0
abbrev r0_2 : Rect S1x64 := Rect.unit (s := S1x64) ![0, 0] S1x64.size inb_S1x64_S1x64_0_0
abbrev r0_3 : Rect S2000x64 := Rect.unit (s := S2000x64) ![0, 0] S2000x64.size inb_S2000x64_S2000x64_0_0

/-! ## What the body leaves in the output window's buffer -/

/-- Window 3's staging buffer after the body, from the three input windows' blocks: its one store, of
    relu (x0 · x1 + x2) computed as the payload `k0_pay1`, over the whole buffer. -/
def out0_3 (x0 : Vec F S2000x80 .f32) (x1 : Vec F S80x64 .f32) (x2 : Vec F S1x64 .f32) : Vec F S2000x64 .f32 :=
  View.canon [⟨r0_3, k0_pay1 (View.ld x0 r0_0) (View.ld x1 r0_1) (View.ld x2 r0_2)⟩]

/-- The store is of the whole buffer, so it covers it. -/
theorem cover0_3 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

/-! ## The body's triple -/

set_option maxHeartbeats 4000000 in
/-- The kernel body on whole staging memrefs, the inputs' at read contents `x0 x1 x2` and the output's at anything,
    runs to the continuation holding the inputs' as they were and the output's at `out0_3` of the inputs'. The body
    also reads the output buffer before it stores to it; the value read is not used. -/
theorem sound_kernel0 (c : Dev nD) (E : Set ℕ) (i : grid0.Coords)
    (arg0 : Memref sig .tc .vmem S2000x80 .f32) (harg0 : arg0.IsWhole) (arg1 : Memref sig .tc .vmem S80x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x80 .f32) (x1 : Vec F S80x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_relu_kernel i arg0 harg0 arg1 harg1 arg2 harg2 arg3 harg3) K := by
  simp only [cc0__matmul_relu_kernel_eq_skeleton]; unfold cc0__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant that of a
    body touching only its windows (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIRegion1.lean ====
import proofs.«137322_j45767171506782_1_alg».proof.Proof.Gen.KernelIdeal.Launch
import proofs.«137322_j45767171506782_1_alg».proof.Proof.Gen.KernelIdeal.Skeleton
import proofs.«137322_j45767171506782_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 1 of @main: the matmul + bias + relu kernel `cc1__matmul_relu_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved since the fetch that filled the buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the fetch that filled the buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the fetch that filled the buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's staging buffer, whole -/

abbrev r1_0 : Rect S2000x80 := Rect.unit (s := S2000x80) ![0, 0] S2000x80.size inb_S2000x80_S2000x80_0_0
abbrev r1_1 : Rect S80x64 := Rect.unit (s := S80x64) ![0, 0] S80x64.size inb_S80x64_S80x64_0_0
abbrev r1_2 : Rect S1x64 := Rect.unit (s := S1x64) ![0, 0] S1x64.size inb_S1x64_S1x64_0_0
abbrev r1_3 : Rect S2000x64 := Rect.unit (s := S2000x64) ![0, 0] S2000x64.size inb_S2000x64_S2000x64_0_0

/-! ## What the body leaves in the output window's buffer -/

/-- Window 3's staging buffer after the body, from the three input windows' blocks: its one store, of
    relu (x0 · x1 + x2) computed as the payload `k1_pay1`, over the whole buffer. -/
def out1_3 (x0 : Vec F S2000x80 .f32) (x1 : Vec F S80x64 .f32) (x2 : Vec F S1x64 .f32) : Vec F S2000x64 .f32 :=
  View.canon [⟨r1_3, k1_pay1 (View.ld x0 r1_0) (View.ld x1 r1_1) (View.ld x2 r1_2)⟩]

/-- The store is of the whole buffer, so it covers it. -/
theorem cover1_3 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

/-! ## The body's triple -/

set_option maxHeartbeats 4000000 in
/-- The kernel body on whole staging memrefs, the inputs' at read contents `x0 x1 x2` and the output's at anything,
    runs to the continuation holding the inputs' as they were and the output's at `out1_3` of the inputs'. The body
    also reads the output buffer before it stores to it; the value read is not used. -/
theorem sound_kernel1 (c : Dev nD) (E : Set ℕ) (i : grid1.Coords)
    (arg0 : Memref sig .tc .vmem S2000x80 .f32) (harg0 : arg0.IsWhole) (arg1 : Memref sig .tc .vmem S80x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x80 .f32) (x1 : Vec F S80x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__matmul_relu_kernel i arg0 harg0 arg1 harg1 arg2 harg2 arg3 harg3) K := by
  simp only [cc1__matmul_relu_kernel_eq_skeleton]; unfold cc1__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant that of a
    body touching only its windows (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIRegion2.lean ====
import proofs.«137322_j45767171506782_1_alg».proof.Proof.Gen.KernelIdeal.Launch
import proofs.«137322_j45767171506782_1_alg».proof.Proof.Gen.KernelIdeal.Skeleton
import proofs.«137322_j45767171506782_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 2 of @main: the matmul + bias + relu kernel `cc2__matmul_relu_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the window is not fetched its block
    index has not moved since the fetch that filled the buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved since the fetch that filled the buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved since the fetch that filled the buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's staging buffer, whole -/

abbrev r2_0 : Rect S2000x640 := Rect.unit (s := S2000x640) ![0, 0] S2000x640.size inb_S2000x640_S2000x640_0_0
abbrev r2_1 : Rect S640x256 := Rect.unit (s := S640x256) ![0, 0] S640x256.size inb_S640x256_S640x256_0_0
abbrev r2_2 : Rect S1x256 := Rect.unit (s := S1x256) ![0, 0] S1x256.size inb_S1x256_S1x256_0_0
abbrev r2_3 : Rect S2000x256 := Rect.unit (s := S2000x256) ![0, 0] S2000x256.size inb_S2000x256_S2000x256_0_0

/-! ## What the body leaves in the output window's buffer -/

/-- Window 3's staging buffer after the body, from the three input windows' blocks: its one store, of
    relu (x0 · x1 + x2) computed as the payload `k2_pay1`, over the whole buffer. -/
def out2_3 (x0 : Vec F S2000x640 .f32) (x1 : Vec F S640x256 .f32) (x2 : Vec F S1x256 .f32) : Vec F S2000x256 .f32 :=
  View.canon [⟨r2_3, k2_pay1 (View.ld x0 r2_0) (View.ld x1 r2_1) (View.ld x2 r2_2)⟩]

/-- The store is of the whole buffer, so it covers it. -/
theorem cover2_3 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 4000000 in
/-- The kernel body on whole staging memrefs, the inputs' at read contents `x0 x1 x2` and the output's at anything,
    runs to the continuation holding the inputs' as they were and the output's at `out2_3` of the inputs'. The body
    also reads the output buffer before it stores to it; the value read is not used. -/
theorem sound_kernel2 (c : Dev nD) (E : Set ℕ) (i : grid2.Coords)
    (arg0 : Memref sig .tc .vmem S2000x640 .f32) (harg0 : arg0.IsWhole) (arg1 : Memref sig .tc .vmem S640x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x640 .f32) (x1 : Vec F S640x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_relu_kernel i arg0 harg0 arg1 harg1 arg2 harg2 arg3 harg3) K := by
  simp only [cc2__matmul_relu_kernel_eq_skeleton]; unfold cc2__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant that of a
    body touching only its windows (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIRegion3.lean ====
import proofs.«137322_j45767171506782_1_alg».proof.Proof.Gen.KernelIdeal.Launch
import proofs.«137322_j45767171506782_1_alg».proof.Proof.Gen.KernelIdeal.Skeleton
import proofs.«137322_j45767171506782_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! # Region 3 of @main: the matmul + bias + relu kernel `cc3__matmul_relu_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: where the window is not fetched its block
    index has not moved since the fetch that filled the buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: where the window is not fetched its block
    index has not moved since the fetch that filled the buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: where the window is not fetched its block
    index has not moved since the fetch that filled the buffer. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's staging buffer, whole -/

abbrev r3_0 : Rect S2000x640 := Rect.unit (s := S2000x640) ![0, 0] S2000x640.size inb_S2000x640_S2000x640_0_0
abbrev r3_1 : Rect S640x256 := Rect.unit (s := S640x256) ![0, 0] S640x256.size inb_S640x256_S640x256_0_0
abbrev r3_2 : Rect S1x256 := Rect.unit (s := S1x256) ![0, 0] S1x256.size inb_S1x256_S1x256_0_0
abbrev r3_3 : Rect S2000x256 := Rect.unit (s := S2000x256) ![0, 0] S2000x256.size inb_S2000x256_S2000x256_0_0

/-! ## What the body leaves in the output window's buffer -/

/-- Window 3's staging buffer after the body, from the three input windows' blocks: its one store, of
    relu (x0 · x1 + x2) computed as the payload `k3_pay1`, over the whole buffer. -/
def out3_3 (x0 : Vec F S2000x640 .f32) (x1 : Vec F S640x256 .f32) (x2 : Vec F S1x256 .f32) : Vec F S2000x256 .f32 :=
  View.canon [⟨r3_3, k3_pay1 (View.ld x0 r3_0) (View.ld x1 r3_1) (View.ld x2 r3_2)⟩]

/-- The store is of the whole buffer, so it covers it. -/
theorem cover3_3 (p0 : Vec F S2000x256 .f32) (y : S2000x256.Idx) :
    ∃ pc ∈ ([⟨r3_3, p0⟩] : List (View.Piece (Elt F) S2000x256 .f32)), y ∈ pc.1.set :=
  View.cover_of_tiled [⟨r3_3, p0⟩] S2000x256.size (by rfl) y

/-! ## The body's triple -/

set_option maxHeartbeats 4000000 in
/-- The kernel body on whole staging memrefs, the inputs' at read contents `x0 x1 x2` and the output's at anything,
    runs to the continuation holding the inputs' as they were and the output's at `out3_3` of the inputs'. The body
    also reads the output buffer before it stores to it; the value read is not used. -/
theorem sound_kernel3 (c : Dev nD) (E : Set ℕ) (i : grid3.Coords)
    (arg0 : Memref sig .tc .vmem S2000x640 .f32) (harg0 : arg0.IsWhole) (arg1 : Memref sig .tc .vmem S640x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x640 .f32) (x1 : Vec F S640x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__matmul_relu_kernel i arg0 harg0 arg1 harg1 arg2 harg2 arg3 harg3) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant that of a
    body touching only its windows (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KIHost.lean ====
import proofs.«137322_j45767171506782_1_alg».proof.Proof.Gen.KernelIdeal.Launch
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! # The host stretches of @main: none allocates a buffer, none writes an argument array -/

/-- The thirteen argument arrays of @main. -/
def argRefs : List (Ref sig .tc) :=
  [main_arg0, main_arg1, main_arg2, main_arg3, main_arg4, main_arg5, main_arg6, main_arg7, main_arg8, main_arg9,
    main_arg10, main_arg11, main_arg12]

/-- A line of host operations none of which writes any reference of the list `Rs` leaves each of them at its
    contents: the fold over the line changes a buffer only at an operation that writes it. -/
theorem after_keeps {ops : List (HloOp τ sig (Elt F))} (Rs : List (Ref sig .tc))
    (h : ops.Forall fun op => ∀ r ∈ Rs, Proc.devRef (τ := τ) .tc r ∉ op.writes) (W : Valuation τ sig (Elt F))
    {r : Ref sig .tc} (hr : r ∈ Rs) :
    StableHlo.after ops W (Proc.devRef .tc r) = W (Proc.devRef .tc r) :=
  StableHlo.after_of_forall_not_mem ops W fun op hop => (List.forall_iff_forall_mem.mp h) op hop r hr

/-- Every argument array has one of the first thirteen indices of its memory space. -/
theorem args_idx_lt : ∀ r ∈ argRefs, r.idx.val < 13 := by decide +kernel

/-- One operation whose writes are the single result `y`, an array of index thirteen or more, writes no argument. -/
theorem keeps_one {op : HloOp τ sig (Elt F)} {y : Ref sig .tc} (hw : op.writes = {Proc.devRef (τ := τ) .tc y})
    (h : 13 ≤ y.idx.val) : ∀ r ∈ argRefs, Proc.devRef (τ := τ) .tc r ∉ op.writes :=
  fun r hr hm => by
    rw [hw, Finset.mem_singleton] at hm
    have e : r = y := Proc.devRef_injective _ hm
    have hlt := args_idx_lt r hr
    rw [e] at hlt
    omega

/-! ## A fact about every operation of a list, read position by position

A fact about every operation of a list is assembled from the fact at each position, last position first. -/

section ByIndex
variable {α : Type} {p : α → Prop}

/-- Past the last position nothing is left. -/
theorem forall_drop_end (l : List α) {n : ℕ} (hn : l.length = n) : (l.drop n).Forall p := by
  rw [← hn, List.drop_length]; exact trivial

/-- From the fact at position `k` and at every later position, the fact from position `k` on. -/
theorem forall_drop_step (l : List α) {n : ℕ} (hn : l.length = n) (k : ℕ) (hk : k < n)
    (h : p (l.get ⟨k, hn ▸ hk⟩)) (ht : (l.drop (k + 1)).Forall p) : (l.drop k).Forall p := by
  have hk' : k < l.length := hn ▸ hk
  rw [List.drop_eq_getElem_cons hk', List.forall_cons]
  exact ⟨h, ht⟩

end ByIndex

set_option maxHeartbeats 40000000 in
/-- No operation of `hostOps0` allocates a buffer. -/
theorem hostOps0_fresh : (hostOps0 : List (HloOp τ sig (Elt F))).Forall fun op => op.fresh = ∅ := by
  simp only [List.Forall]; repeat' constructor

theorem hostOps0_length : (hostOps0 : List (HloOp τ sig (Elt F))).length = 18 := rfl

set_option maxHeartbeats 40000000 in
/-- No operation of `hostOps0` writes an argument array: each writes its one result, a value of the program's own. -/
theorem hostOps0_keeps : (hostOps0 : List (HloOp τ sig (Elt F))).Forall fun op => ∀ r ∈ argRefs, Proc.devRef (τ := τ) .tc r ∉ op.writes :=
  show ((hostOps0 : List (HloOp τ sig (Elt F))).drop 0).Forall _ from
  forall_drop_step hostOps0 hostOps0_length 0 (by decide) (keeps_one rfl (by decide +kernel)) <|
  forall_drop_step hostOps0 hostOps0_length 1 (by decide) (keeps_one rfl (by decide +kernel)) <|
  forall_drop_step hostOps0 hostOps0_length 2 (by decide) (keeps_one rfl (by decide +kernel)) <|
  forall_drop_step hostOps0 hostOps0_length 3 (by decide) (keeps_one rfl (by decide +kernel)) <|
  forall_drop_step hostOps0 hostOps0_length 4 (by decide) (keeps_one rfl (by decide +kernel)) <|
  forall_drop_step hostOps0 hostOps0_length 5 (by decide) (keeps_one rfl (by decide +kernel)) <|
  forall_drop_step hostOps0 hostOps0_length 6 (by decide) (keeps_one rfl (by decide +kernel)) <|
  forall_drop_step hostOps0 hostOps0_length 7 (by decide) (keeps_one rfl (by decide +kernel)) <|
  forall_drop_step hostOps0 hostOps0_length 8 (by decide) (keeps_one rfl (by decide +kernel)) <|
  forall_drop_step hostOps0 hostOps0_length 9 (by decide) (keeps_one rfl (by decide +kernel)) <|
  forall_drop_step hostOps0 hostOps0_length 10 (by decide) (keeps_one rfl (by decide +kernel)) <|
  forall_drop_step hostOps0 hostOps0_length 11 (by decide) (keeps_one rfl (by decide +kernel)) <|
  forall_drop_step hostOps0 hostOps0_length 12 (by decide) (keeps_one rfl (by decide +kernel)) <|
  forall_drop_step hostOps0 hostOps0_length 13 (by decide) (keeps_one rfl (by decide +kernel)) <|
  forall_drop_step hostOps0 hostOps0_length 14 (by decide) (keeps_one rfl (by decide +kernel)) <|
  forall_drop_step hostOps0 hostOps0_length 15 (by decide) (keeps_one rfl (by decide +kernel)) <|
  forall_drop_step hostOps0 hostOps0_length 16 (by decide) (keeps_one rfl (by decide +kernel)) <|
  forall_drop_step hostOps0 hostOps0_length 17 (by decide) (keeps_one rfl (by decide +kernel)) <|
  forall_drop_end hostOps0 hostOps0_length

set_option maxHeartbeats 40000000 in
/-- No operation of `hostOps0_1` allocates a buffer. -/
theorem hostOps0_1_fresh : (hostOps0_1 : List (HloOp τ sig (Elt F))).Forall fun op => op.fresh = ∅ := by
  simp only [List.Forall]; repeat' constructor

theorem hostOps0_1_length : (hostOps0_1 : List (HloOp τ sig (Elt F))).length = 3 := rfl

set_option maxHeartbeats 40000000 in
/-- No operation of `hostOps0_1` writes an argument array: each writes its one result, a value of the program's own. -/
theorem hostOps0_1_keeps : (hostOps0_1 : List (HloOp τ sig (Elt F))).Forall fun op => ∀ r ∈ argRefs, Proc.devRef (τ := τ) .tc r ∉ op.writes :=
  show ((hostOps0_1 : List (HloOp τ sig (Elt F))).drop 0).Forall _ from
  forall_drop_step hostOps0_1 hostOps0_1_length 0 (by decide) (keeps_one rfl (by decide +kernel)) <|
  forall_drop_step hostOps0_1 hostOps0_1_length 1 (by decide) (keeps_one rfl (by decide +kernel)) <|
  forall_drop_step hostOps0_1 hostOps0_1_length 2 (by decide) (keeps_one rfl (by decide +kernel)) <|
  forall_drop_end hostOps0_1 hostOps0_1_length

set_option maxHeartbeats 40000000 in
/-- No operation of `hostOps0_2` allocates a buffer. -/
theorem hostOps0_2_fresh : (hostOps0_2 : List (HloOp τ sig (Elt F))).Forall fun op => op.fresh = ∅ := by
  simp only [List.Forall]; repeat' constructor

theorem hostOps0_2_length : (hostOps0_2 : List (HloOp τ sig (Elt F))).length = 34 := rfl

set_option maxHeartbeats 40000000 in
/-- No operation of `hostOps0_2` writes an argument array: each writes its one result, a value of the program's own. -/
theorem hostOps0_2_keeps : (hostOps0_2 : List (HloOp τ sig (Elt F))).Forall fun op => ∀ r ∈ argRefs, Proc.devRef (τ := τ) .tc r ∉ op.writes :=
  show ((hostOps0_2 : List (HloOp τ sig (Elt F))).drop 0).Forall _ from
  forall_drop_step hostOps0_2 hostOps0_2_length 0 (by decide) (keeps_one rfl (by decide +kernel)) <|
  forall_drop_step hostOps0_2 hostOps0_2_length 1 (by decide) (keeps_one rfl (by decide +kernel)) <|
  forall_drop_step hostOps0_2 hostOps0_2_length 2 (by decide) (keeps_one rfl (by decide +kernel)) <|
  forall_drop_step hostOps0_2 hostOps0_2_length 3 (by decide) (keeps_one rfl (by decide +kernel)) <|
  forall_drop_step hostOps0_2 hostOps0_2_length 4 (by decide) (keeps_one rfl (by decide +kernel)) <|
  forall_drop_step hostOps0_2 hostOps0_2_length 5 (by decide) (keeps_one rfl (by decide +kernel)) <|
  forall_drop_step hostOps0_2 hostOps0_2_length 6 (by decide) (keeps_one rfl (by decide +kernel)) <|
  forall_drop_step hostOps0_2 hostOps0_2_length 7 (by decide) (keeps_one rfl (by decide +kernel)) <|
  forall_drop_step hostOps0_2 hostOps0_2_length 8 (by decide) (keeps_one rfl (by decide +kernel)) <|
  forall_drop_step hostOps0_2 hostOps0_2_length 9 (by decide) (keeps_one rfl (by decide +kernel)) <|
  forall_drop_step hostOps0_2 hostOps0_2_length 10 (by decide) (keeps_one rfl (by decide +kernel)) <|
  forall_drop_step hostOps0_2 hostOps0_2_length 11 (by decide) (keeps_one rfl (by decide +kernel)) <|
  forall_drop_step hostOps0_2 hostOps0_2_length 12 (by decide) (keeps_one rfl (by decide +kernel)) <|
  forall_drop_step hostOps0_2 hostOps0_2_length 13 (by decide) (keeps_one rfl (by decide +kernel)) <|
  forall_drop_step hostOps0_2 hostOps0_2_length 14 (by decide) (keeps_one rfl (by decide +kernel)) <|
  forall_drop_step hostOps0_2 hostOps0_2_length 15 (by decide) (keeps_one rfl (by decide +kernel)) <|
  forall_drop_step hostOps0_2 hostOps0_2_length 16 (by decide) (keeps_one rfl (by decide +kernel)) <|
  forall_drop_step hostOps0_2 hostOps0_2_length 17 (by decide) (keeps_one rfl (by decide +kernel)) <|
  forall_drop_step hostOps0_2 hostOps0_2_length 18 (by decide) (keeps_one rfl (by decide +kernel)) <|
  forall_drop_step hostOps0_2 hostOps0_2_length 19 (by decide) (keeps_one rfl (by decide +kernel)) <|
  forall_drop_step hostOps0_2 hostOps0_2_length 20 (by decide) (keeps_one rfl (by decide +kernel)) <|
  forall_drop_step hostOps0_2 hostOps0_2_length 21 (by decide) (keeps_one rfl (by decide +kernel)) <|
  forall_drop_step hostOps0_2 hostOps0_2_length 22 (by decide) (keeps_one rfl (by decide +kernel)) <|
  forall_drop_step hostOps0_2 hostOps0_2_length 23 (by decide) (keeps_one rfl (by decide +kernel)) <|
  forall_drop_step hostOps0_2 hostOps0_2_length 24 (by decide) (keeps_one rfl (by decide +kernel)) <|
  forall_drop_step hostOps0_2 hostOps0_2_length 25 (by decide) (keeps_one rfl (by decide +kernel)) <|
  forall_drop_step hostOps0_2 hostOps0_2_length 26 (by decide) (keeps_one rfl (by decide +kernel)) <|
  forall_drop_step hostOps0_2 hostOps0_2_length 27 (by decide) (keeps_one rfl (by decide +kernel)) <|
  forall_drop_step hostOps0_2 hostOps0_2_length 28 (by decide) (keeps_one rfl (by decide +kernel)) <|
  forall_drop_step hostOps0_2 hostOps0_2_length 29 (by decide) (keeps_one rfl (by decide +kernel)) <|
  forall_drop_step hostOps0_2 hostOps0_2_length 30 (by decide) (keeps_one rfl (by decide +kernel)) <|
  forall_drop_step hostOps0_2 hostOps0_2_length 31 (by decide) (keeps_one rfl (by decide +kernel)) <|
  forall_drop_step hostOps0_2 hostOps0_2_length 32 (by decide) (keeps_one rfl (by decide +kernel)) <|
  forall_drop_step hostOps0_2 hostOps0_2_length 33 (by decide) (keeps_one rfl (by decide +kernel)) <|
  forall_drop_end hostOps0_2 hostOps0_2_length

set_option maxHeartbeats 40000000 in
/-- No operation of `hostOps0_3` allocates a buffer. -/
theorem hostOps0_3_fresh : (hostOps0_3 : List (HloOp τ sig (Elt F))).Forall fun op => op.fresh = ∅ := by
  simp only [List.Forall]; repeat' constructor

theorem hostOps0_3_length : (hostOps0_3 : List (HloOp τ sig (Elt F))).length = 3 := rfl

set_option maxHeartbeats 40000000 in
/-- No operation of `hostOps0_3` writes an argument array: each writes its one result, a value of the program's own. -/
theorem hostOps0_3_keeps : (hostOps0_3 : List (HloOp τ sig (Elt F))).Forall fun op => ∀ r ∈ argRefs, Proc.devRef (τ := τ) .tc r ∉ op.writes :=
  show ((hostOps0_3 : List (HloOp τ sig (Elt F))).drop 0).Forall _ from
  forall_drop_step hostOps0_3 hostOps0_3_length 0 (by decide) (keeps_one rfl (by decide +kernel)) <|
  forall_drop_step hostOps0_3 hostOps0_3_length 1 (by decide) (keeps_one rfl (by decide +kernel)) <|
  forall_drop_step hostOps0_3 hostOps0_3_length 2 (by decide) (keeps_one rfl (by decide +kernel)) <|
  forall_drop_end hostOps0_3 hostOps0_3_length

set_option maxHeartbeats 40000000 in
/-- No operation of `hostOps0_4` allocates a buffer. -/
theorem hostOps0_4_fresh : (hostOps0_4 : List (HloOp τ sig (Elt F))).Forall fun op => op.fresh = ∅ := by
  simp only [List.Forall]; repeat' constructor

theorem hostOps0_4_length : (hostOps0_4 : List (HloOp τ sig (Elt F))).length = 99 := rfl

set_option maxHeartbeats 40000000 in
/-- No operation of `hostOps0_4` writes an argument array: each writes its one result, a value of the program's own. -/
theorem hostOps0_4_keeps : (hostOps0_4 : List (HloOp τ sig (Elt F))).Forall fun op => ∀ r ∈ argRefs, Proc.devRef (τ := τ) .tc r ∉ op.writes :=
  show ((hostOps0_4 : List (HloOp τ sig (Elt F))).drop 0).Forall _ from
  forall_drop_step hostOps0_4 hostOps0_4_length 0 (by decide) (keeps_one rfl (by decide +kernel)) <|
  forall_drop_step hostOps0_4 hostOps0_4_length 1 (by decide) (keeps_one rfl (by decide +kernel)) <|
  forall_drop_step hostOps0_4 hostOps0_4_length 2 (by decide) (keeps_one rfl (by decide +kernel)) <|
  forall_drop_step hostOps0_4 hostOps0_4_length 3 (by decide) (keeps_one rfl (by decide +kernel)) <|
  forall_drop_step hostOps0_4 hostOps0_4_length 4 (by decide) (keeps_one rfl (by decide +kernel)) <|
  forall_drop_step hostOps0_4 hostOps0_4_length 5 (by decide) (keeps_one rfl (by decide +kernel)) <|
  forall_drop_step hostOps0_4 hostOps0_4_length 6 (by decide) (keeps_one rfl (by decide +kernel)) <|
  forall_drop_step hostOps0_4 hostOps0_4_length 7 (by decide) (keeps_one rfl (by decide +kernel)) <|
  forall_drop_step hostOps0_4 hostOps0_4_length 8 (by decide) (keeps_one rfl (by decide +kernel)) <|
  forall_drop_step hostOps0_4 hostOps0_4_length 9 (by decide) (keeps_one rfl (by decide +kernel)) <|
  forall_drop_step hostOps0_4 hostOps0_4_length 10 (by decide) (keeps_one rfl (by decide +kernel)) <|
  forall_drop_step hostOps0_4 hostOps0_4_length 11 (by decide) (keeps_one rfl (by decide +kernel)) <|
  forall_drop_step hostOps0_4 hostOps0_4_length 12 (by decide) (keeps_one rfl (by decide +kernel)) <|
  forall_drop_step hostOps0_4 hostOps0_4_length 13 (by decide) (keeps_one rfl (by decide +kernel)) <|
  forall_drop_step hostOps0_4 hostOps0_4_length 14 (by decide) (keeps_one rfl (by decide +kernel)) <|
  forall_drop_step hostOps0_4 hostOps0_4_length 15 (by decide) (keeps_one rfl (by decide +kernel)) <|
  forall_drop_step hostOps0_4 hostOps0_4_length 16 (by decide) (keeps_one rfl (by decide +kernel)) <|
  forall_drop_step hostOps0_4 hostOps0_4_length 17 (by decide) (keeps_one rfl (by decide +kernel)) <|
  forall_drop_step hostOps0_4 hostOps0_4_length 18 (by decide) (keeps_one rfl (by decide +kernel)) <|
  forall_drop_step hostOps0_4 hostOps0_4_length 19 (by decide) (keeps_one rfl (by decide +kernel)) <|
  forall_drop_step hostOps0_4 hostOps0_4_length 20 (by decide) (keeps_one rfl (by decide +kernel)) <|
  forall_drop_step hostOps0_4 hostOps0_4_length 21 (by decide) (keeps_one rfl (by decide +kernel)) <|
  forall_drop_step hostOps0_4 hostOps0_4_length 22 (by decide) (keeps_one rfl (by decide +kernel)) <|
  forall_drop_step hostOps0_4 hostOps0_4_length 23 (by decide) (keeps_one rfl (by decide +kernel)) <|
  forall_drop_step hostOps0_4 hostOps0_4_length 24 (by decide) (keeps_one rfl (by decide +kernel)) <|
  forall_drop_step hostOps0_4 hostOps0_4_length 25 (by decide) (keeps_one rfl (by decide +kernel)) <|
  forall_drop_step hostOps0_4 hostOps0_4_length 26 (by decide) (keeps_one rfl (by decide +kernel)) <|
  forall_drop_step hostOps0_4 hostOps0_4_length 27 (by decide) (keeps_one rfl (by decide +kernel)) <|
  forall_drop_step hostOps0_4 hostOps0_4_length 28 (by decide) (keeps_one rfl (by decide +kernel)) <|
  forall_drop_step hostOps0_4 hostOps0_4_length 29 (by decide) (keeps_one rfl (by decide +kernel)) <|
  forall_drop_step hostOps0_4 hostOps0_4_length 30 (by decide) (keeps_one rfl (by decide +kernel)) <|
  forall_drop_step hostOps0_4 hostOps0_4_length 31 (by decide) (keeps_one rfl (by decide +kernel)) <|
  forall_drop_step hostOps0_4 hostOps0_4_length 32 (by decide) (keeps_one rfl (by decide +kernel)) <|
  forall_drop_step hostOps0_4 hostOps0_4_length 33 (by decide) (keeps_one rfl (by decide +kernel)) <|
  forall_drop_step hostOps0_4 hostOps0_4_length 34 (by decide) (keeps_one rfl (by decide +kernel)) <|
  forall_drop_step hostOps0_4 hostOps0_4_length 35 (by decide) (keeps_one rfl (by decide +kernel)) <|
  forall_drop_step hostOps0_4 hostOps0_4_length 36 (by decide) (keeps_one rfl (by decide +kernel)) <|
  forall_drop_step hostOps0_4 hostOps0_4_length 37 (by decide) (keeps_one rfl (by decide +kernel)) <|
  forall_drop_step hostOps0_4 hostOps0_4_length 38 (by decide) (keeps_one rfl (by decide +kernel)) <|
  forall_drop_step hostOps0_4 hostOps0_4_length 39 (by decide) (keeps_one rfl (by decide +kernel)) <|
  forall_drop_step hostOps0_4 hostOps0_4_length 40 (by decide) (keeps_one rfl (by decide +kernel)) <|
  forall_drop_step hostOps0_4 hostOps0_4_length 41 (by decide) (keeps_one rfl (by decide +kernel)) <|
  forall_drop_step hostOps0_4 hostOps0_4_length 42 (by decide) (keeps_one rfl (by decide +kernel)) <|
  forall_drop_step hostOps0_4 hostOps0_4_length 43 (by decide) (keeps_one rfl (by decide +kernel)) <|
  forall_drop_step hostOps0_4 hostOps0_4_length 44 (by decide) (keeps_one rfl (by decide +kernel)) <|
  forall_drop_step hostOps0_4 hostOps0_4_length 45 (by decide) (keeps_one rfl (by decide +kernel)) <|
  forall_drop_step hostOps0_4 hostOps0_4_length 46 (by decide) (keeps_one rfl (by decide +kernel)) <|
  forall_drop_step hostOps0_4 hostOps0_4_length 47 (by decide) (keeps_one rfl (by decide +kernel)) <|
  forall_drop_step hostOps0_4 hostOps0_4_length 48 (by decide) (keeps_one rfl (by decide +kernel)) <|
  forall_drop_step hostOps0_4 hostOps0_4_length 49 (by decide) (keeps_one rfl (by decide +kernel)) <|
  forall_drop_step hostOps0_4 hostOps0_4_length 50 (by decide) (keeps_one rfl (by decide +kernel)) <|
  forall_drop_step hostOps0_4 hostOps0_4_length 51 (by decide) (keeps_one rfl (by decide +kernel)) <|
  forall_drop_step hostOps0_4 hostOps0_4_length 52 (by decide) (keeps_one rfl (by decide +kernel)) <|
  forall_drop_step hostOps0_4 hostOps0_4_length 53 (by decide) (keeps_one rfl (by decide +kernel)) <|
  forall_drop_step hostOps0_4 hostOps0_4_length 54 (by decide) (keeps_one rfl (by decide +kernel)) <|
  forall_drop_step hostOps0_4 hostOps0_4_length 55 (by decide) (keeps_one rfl (by decide +kernel)) <|
  forall_drop_step hostOps0_4 hostOps0_4_length 56 (by decide) (keeps_one rfl (by decide +kernel)) <|
  forall_drop_step hostOps0_4 hostOps0_4_length 57 (by decide) (keeps_one rfl (by decide +kernel)) <|
  forall_drop_step hostOps0_4 hostOps0_4_length 58 (by decide) (keeps_one rfl (by decide +kernel)) <|
  forall_drop_step hostOps0_4 hostOps0_4_length 59 (by decide) (keeps_one rfl (by decide +kernel)) <|
  forall_drop_step hostOps0_4 hostOps0_4_length 60 (by decide) (keeps_one rfl (by decide +kernel)) <|
  forall_drop_step hostOps0_4 hostOps0_4_length 61 (by decide) (keeps_one rfl (by decide +kernel)) <|
  forall_drop_step hostOps0_4 hostOps0_4_length 62 (by decide) (keeps_one rfl (by decide +kernel)) <|
  forall_drop_step hostOps0_4 hostOps0_4_length 63 (by decide) (keeps_one rfl (by decide +kernel)) <|
  forall_drop_step hostOps0_4 hostOps0_4_length 64 (by decide) (keeps_one rfl (by decide +kernel)) <|
  forall_drop_step hostOps0_4 hostOps0_4_length 65 (by decide) (keeps_one rfl (by decide +kernel)) <|
  forall_drop_step hostOps0_4 hostOps0_4_length 66 (by decide) (keeps_one rfl (by decide +kernel)) <|
  forall_drop_step hostOps0_4 hostOps0_4_length 67 (by decide) (keeps_one rfl (by decide +kernel)) <|
  forall_drop_step hostOps0_4 hostOps0_4_length 68 (by decide) (keeps_one rfl (by decide +kernel)) <|
  forall_drop_step hostOps0_4 hostOps0_4_length 69 (by decide) (keeps_one rfl (by decide +kernel)) <|
  forall_drop_step hostOps0_4 hostOps0_4_length 70 (by decide) (keeps_one rfl (by decide +kernel)) <|
  forall_drop_step hostOps0_4 hostOps0_4_length 71 (by decide) (keeps_one rfl (by decide +kernel)) <|
  forall_drop_step hostOps0_4 hostOps0_4_length 72 (by decide) (keeps_one rfl (by decide +kernel)) <|
  forall_drop_step hostOps0_4 hostOps0_4_length 73 (by decide) (keeps_one rfl (by decide +kernel)) <|
  forall_drop_step hostOps0_4 hostOps0_4_length 74 (by decide) (keeps_one rfl (by decide +kernel)) <|
  forall_drop_step hostOps0_4 hostOps0_4_length 75 (by decide) (keeps_one rfl (by decide +kernel)) <|
  forall_drop_step hostOps0_4 hostOps0_4_length 76 (by decide) (keeps_one rfl (by decide +kernel)) <|
  forall_drop_step hostOps0_4 hostOps0_4_length 77 (by decide) (keeps_one rfl (by decide +kernel)) <|
  forall_drop_step hostOps0_4 hostOps0_4_length 78 (by decide) (keeps_one rfl (by decide +kernel)) <|
  forall_drop_step hostOps0_4 hostOps0_4_length 79 (by decide) (keeps_one rfl (by decide +kernel)) <|
  forall_drop_step hostOps0_4 hostOps0_4_length 80 (by decide) (keeps_one rfl (by decide +kernel)) <|
  forall_drop_step hostOps0_4 hostOps0_4_length 81 (by decide) (keeps_one rfl (by decide +kernel)) <|
  forall_drop_step hostOps0_4 hostOps0_4_length 82 (by decide) (keeps_one rfl (by decide +kernel)) <|
  forall_drop_step hostOps0_4 hostOps0_4_length 83 (by decide) (keeps_one rfl (by decide +kernel)) <|
  forall_drop_step hostOps0_4 hostOps0_4_length 84 (by decide) (keeps_one rfl (by decide +kernel)) <|
  forall_drop_step hostOps0_4 hostOps0_4_length 85 (by decide) (keeps_one rfl (by decide +kernel)) <|
  forall_drop_step hostOps0_4 hostOps0_4_length 86 (by decide) (keeps_one rfl (by decide +kernel)) <|
  forall_drop_step hostOps0_4 hostOps0_4_length 87 (by decide) (keeps_one rfl (by decide +kernel)) <|
  forall_drop_step hostOps0_4 hostOps0_4_length 88 (by decide) (keeps_one rfl (by decide +kernel)) <|
  forall_drop_step hostOps0_4 hostOps0_4_length 89 (by decide) (keeps_one rfl (by decide +kernel)) <|
  forall_drop_step hostOps0_4 hostOps0_4_length 90 (by decide) (keeps_one rfl (by decide +kernel)) <|
  forall_drop_step hostOps0_4 hostOps0_4_length 91 (by decide) (keeps_one rfl (by decide +kernel)) <|
  forall_drop_step hostOps0_4 hostOps0_4_length 92 (by decide) (keeps_one rfl (by decide +kernel)) <|
  forall_drop_step hostOps0_4 hostOps0_4_length 93 (by decide) (keeps_one rfl (by decide +kernel)) <|
  forall_drop_step hostOps0_4 hostOps0_4_length 94 (by decide) (keeps_one rfl (by decide +kernel)) <|
  forall_drop_step hostOps0_4 hostOps0_4_length 95 (by decide) (keeps_one rfl (by decide +kernel)) <|
  forall_drop_step hostOps0_4 hostOps0_4_length 96 (by decide) (keeps_one rfl (by decide +kernel)) <|
  forall_drop_step hostOps0_4 hostOps0_4_length 97 (by decide) (keeps_one rfl (by decide +kernel)) <|
  forall_drop_step hostOps0_4 hostOps0_4_length 98 (by decide) (keeps_one rfl (by decide +kernel)) <|
  forall_drop_end hostOps0_4 hostOps0_4_length

set_option maxHeartbeats 40000000 in
/-- No operation of `hostOps1` allocates a buffer. -/
theorem hostOps1_fresh : (hostOps1 : List (HloOp τ sig (Elt F))).Forall fun op => op.fresh = ∅ := by
  simp only [List.Forall]; repeat' constructor

theorem hostOps1_length : (hostOps1 : List (HloOp τ sig (Elt F))).length = 79 := rfl

set_option maxHeartbeats 40000000 in
/-- No operation of `hostOps1` writes an argument array: each writes its one result, a value of the program's own. -/
theorem hostOps1_keeps : (hostOps1 : List (HloOp τ sig (Elt F))).Forall fun op => ∀ r ∈ argRefs, Proc.devRef (τ := τ) .tc r ∉ op.writes :=
  show ((hostOps1 : List (HloOp τ sig (Elt F))).drop 0).Forall _ from
  forall_drop_step hostOps1 hostOps1_length 0 (by decide) (keeps_one rfl (by decide +kernel)) <|
  forall_drop_step hostOps1 hostOps1_length 1 (by decide) (keeps_one rfl (by decide +kernel)) <|
  forall_drop_step hostOps1 hostOps1_length 2 (by decide) (keeps_one rfl (by decide +kernel)) <|
  forall_drop_step hostOps1 hostOps1_length 3 (by decide) (keeps_one rfl (by decide +kernel)) <|
  forall_drop_step hostOps1 hostOps1_length 4 (by decide) (keeps_one rfl (by decide +kernel)) <|
  forall_drop_step hostOps1 hostOps1_length 5 (by decide) (keeps_one rfl (by decide +kernel)) <|
  forall_drop_step hostOps1 hostOps1_length 6 (by decide) (keeps_one rfl (by decide +kernel)) <|
  forall_drop_step hostOps1 hostOps1_length 7 (by decide) (keeps_one rfl (by decide +kernel)) <|
  forall_drop_step hostOps1 hostOps1_length 8 (by decide) (keeps_one rfl (by decide +kernel)) <|
  forall_drop_step hostOps1 hostOps1_length 9 (by decide) (keeps_one rfl (by decide +kernel)) <|
  forall_drop_step hostOps1 hostOps1_length 10 (by decide) (keeps_one rfl (by decide +kernel)) <|
  forall_drop_step hostOps1 hostOps1_length 11 (by decide) (keeps_one rfl (by decide +kernel)) <|
  forall_drop_step hostOps1 hostOps1_length 12 (by decide) (keeps_one rfl (by decide +kernel)) <|
  forall_drop_step hostOps1 hostOps1_length 13 (by decide) (keeps_one rfl (by decide +kernel)) <|
  forall_drop_step hostOps1 hostOps1_length 14 (by decide) (keeps_one rfl (by decide +kernel)) <|
  forall_drop_step hostOps1 hostOps1_length 15 (by decide) (keeps_one rfl (by decide +kernel)) <|
  forall_drop_step hostOps1 hostOps1_length 16 (by decide) (keeps_one rfl (by decide +kernel)) <|
  forall_drop_step hostOps1 hostOps1_length 17 (by decide) (keeps_one rfl (by decide +kernel)) <|
  forall_drop_step hostOps1 hostOps1_length 18 (by decide) (keeps_one rfl (by decide +kernel)) <|
  forall_drop_step hostOps1 hostOps1_length 19 (by decide) (keeps_one rfl (by decide +kernel)) <|
  forall_drop_step hostOps1 hostOps1_length 20 (by decide) (keeps_one rfl (by decide +kernel)) <|
  forall_drop_step hostOps1 hostOps1_length 21 (by decide) (keeps_one rfl (by decide +kernel)) <|
  forall_drop_step hostOps1 hostOps1_length 22 (by decide) (keeps_one rfl (by decide +kernel)) <|
  forall_drop_step hostOps1 hostOps1_length 23 (by decide) (keeps_one rfl (by decide +kernel)) <|
  forall_drop_step hostOps1 hostOps1_length 24 (by decide) (keeps_one rfl (by decide +kernel)) <|
  forall_drop_step hostOps1 hostOps1_length 25 (by decide) (keeps_one rfl (by decide +kernel)) <|
  forall_drop_step hostOps1 hostOps1_length 26 (by decide) (keeps_one rfl (by decide +kernel)) <|
  forall_drop_step hostOps1 hostOps1_length 27 (by decide) (keeps_one rfl (by decide +kernel)) <|
  forall_drop_step hostOps1 hostOps1_length 28 (by decide) (keeps_one rfl (by decide +kernel)) <|
  forall_drop_step hostOps1 hostOps1_length 29 (by decide) (keeps_one rfl (by decide +kernel)) <|
  forall_drop_step hostOps1 hostOps1_length 30 (by decide) (keeps_one rfl (by decide +kernel)) <|
  forall_drop_step hostOps1 hostOps1_length 31 (by decide) (keeps_one rfl (by decide +kernel)) <|
  forall_drop_step hostOps1 hostOps1_length 32 (by decide) (keeps_one rfl (by decide +kernel)) <|
  forall_drop_step hostOps1 hostOps1_length 33 (by decide) (keeps_one rfl (by decide +kernel)) <|
  forall_drop_step hostOps1 hostOps1_length 34 (by decide) (keeps_one rfl (by decide +kernel)) <|
  forall_drop_step hostOps1 hostOps1_length 35 (by decide) (keeps_one rfl (by decide +kernel)) <|
  forall_drop_step hostOps1 hostOps1_length 36 (by decide) (keeps_one rfl (by decide +kernel)) <|
  forall_drop_step hostOps1 hostOps1_length 37 (by decide) (keeps_one rfl (by decide +kernel)) <|
  forall_drop_step hostOps1 hostOps1_length 38 (by decide) (keeps_one rfl (by decide +kernel)) <|
  forall_drop_step hostOps1 hostOps1_length 39 (by decide) (keeps_one rfl (by decide +kernel)) <|
  forall_drop_step hostOps1 hostOps1_length 40 (by decide) (keeps_one rfl (by decide +kernel)) <|
  forall_drop_step hostOps1 hostOps1_length 41 (by decide) (keeps_one rfl (by decide +kernel)) <|
  forall_drop_step hostOps1 hostOps1_length 42 (by decide) (keeps_one rfl (by decide +kernel)) <|
  forall_drop_step hostOps1 hostOps1_length 43 (by decide) (keeps_one rfl (by decide +kernel)) <|
  forall_drop_step hostOps1 hostOps1_length 44 (by decide) (keeps_one rfl (by decide +kernel)) <|
  forall_drop_step hostOps1 hostOps1_length 45 (by decide) (keeps_one rfl (by decide +kernel)) <|
  forall_drop_step hostOps1 hostOps1_length 46 (by decide) (keeps_one rfl (by decide +kernel)) <|
  forall_drop_step hostOps1 hostOps1_length 47 (by decide) (keeps_one rfl (by decide +kernel)) <|
  forall_drop_step hostOps1 hostOps1_length 48 (by decide) (keeps_one rfl (by decide +kernel)) <|
  forall_drop_step hostOps1 hostOps1_length 49 (by decide) (keeps_one rfl (by decide +kernel)) <|
  forall_drop_step hostOps1 hostOps1_length 50 (by decide) (keeps_one rfl (by decide +kernel)) <|
  forall_drop_step hostOps1 hostOps1_length 51 (by decide) (keeps_one rfl (by decide +kernel)) <|
  forall_drop_step hostOps1 hostOps1_length 52 (by decide) (keeps_one rfl (by decide +kernel)) <|
  forall_drop_step hostOps1 hostOps1_length 53 (by decide) (keeps_one rfl (by decide +kernel)) <|
  forall_drop_step hostOps1 hostOps1_length 54 (by decide) (keeps_one rfl (by decide +kernel)) <|
  forall_drop_step hostOps1 hostOps1_length 55 (by decide) (keeps_one rfl (by decide +kernel)) <|
  forall_drop_step hostOps1 hostOps1_length 56 (by decide) (keeps_one rfl (by decide +kernel)) <|
  forall_drop_step hostOps1 hostOps1_length 57 (by decide) (keeps_one rfl (by decide +kernel)) <|
  forall_drop_step hostOps1 hostOps1_length 58 (by decide) (keeps_one rfl (by decide +kernel)) <|
  forall_drop_step hostOps1 hostOps1_length 59 (by decide) (keeps_one rfl (by decide +kernel)) <|
  forall_drop_step hostOps1 hostOps1_length 60 (by decide) (keeps_one rfl (by decide +kernel)) <|
  forall_drop_step hostOps1 hostOps1_length 61 (by decide) (keeps_one rfl (by decide +kernel)) <|
  forall_drop_step hostOps1 hostOps1_length 62 (by decide) (keeps_one rfl (by decide +kernel)) <|
  forall_drop_step hostOps1 hostOps1_length 63 (by decide) (keeps_one rfl (by decide +kernel)) <|
  forall_drop_step hostOps1 hostOps1_length 64 (by decide) (keeps_one rfl (by decide +kernel)) <|
  forall_drop_step hostOps1 hostOps1_length 65 (by decide) (keeps_one rfl (by decide +kernel)) <|
  forall_drop_step hostOps1 hostOps1_length 66 (by decide) (keeps_one rfl (by decide +kernel)) <|
  forall_drop_step hostOps1 hostOps1_length 67 (by decide) (keeps_one rfl (by decide +kernel)) <|
  forall_drop_step hostOps1 hostOps1_length 68 (by decide) (keeps_one rfl (by decide +kernel)) <|
  forall_drop_step hostOps1 hostOps1_length 69 (by decide) (keeps_one rfl (by decide +kernel)) <|
  forall_drop_step hostOps1 hostOps1_length 70 (by decide) (keeps_one rfl (by decide +kernel)) <|
  forall_drop_step hostOps1 hostOps1_length 71 (by decide) (keeps_one rfl (by decide +kernel)) <|
  forall_drop_step hostOps1 hostOps1_length 72 (by decide) (keeps_one rfl (by decide +kernel)) <|
  forall_drop_step hostOps1 hostOps1_length 73 (by decide) (keeps_one rfl (by decide +kernel)) <|
  forall_drop_step hostOps1 hostOps1_length 74 (by decide) (keeps_one rfl (by decide +kernel)) <|
  forall_drop_step hostOps1 hostOps1_length 75 (by decide) (keeps_one rfl (by decide +kernel)) <|
  forall_drop_step hostOps1 hostOps1_length 76 (by decide) (keeps_one rfl (by decide +kernel)) <|
  forall_drop_step hostOps1 hostOps1_length 77 (by decide) (keeps_one rfl (by decide +kernel)) <|
  forall_drop_step hostOps1 hostOps1_length 78 (by decide) (keeps_one rfl (by decide +kernel)) <|
  forall_drop_end hostOps1 hostOps1_length

set_option maxHeartbeats 40000000 in
/-- No operation of `hostOps2` allocates a buffer. -/
theorem hostOps2_fresh : (hostOps2 : List (HloOp τ sig (Elt F))).Forall fun op => op.fresh = ∅ := by
  simp only [List.Forall]; repeat' constructor

theorem hostOps2_length : (hostOps2 : List (HloOp τ sig (Elt F))).length = 80 := rfl

set_option maxHeartbeats 40000000 in
/-- No operation of `hostOps2` writes an argument array: each writes its one result, a value of the program's own. -/
theorem hostOps2_keeps : (hostOps2 : List (HloOp τ sig (Elt F))).Forall fun op => ∀ r ∈ argRefs, Proc.devRef (τ := τ) .tc r ∉ op.writes :=
  show ((hostOps2 : List (HloOp τ sig (Elt F))).drop 0).Forall _ from
  forall_drop_step hostOps2 hostOps2_length 0 (by decide) (keeps_one rfl (by decide +kernel)) <|
  forall_drop_step hostOps2 hostOps2_length 1 (by decide) (keeps_one rfl (by decide +kernel)) <|
  forall_drop_step hostOps2 hostOps2_length 2 (by decide) (keeps_one rfl (by decide +kernel)) <|
  forall_drop_step hostOps2 hostOps2_length 3 (by decide) (keeps_one rfl (by decide +kernel)) <|
  forall_drop_step hostOps2 hostOps2_length 4 (by decide) (keeps_one rfl (by decide +kernel)) <|
  forall_drop_step hostOps2 hostOps2_length 5 (by decide) (keeps_one rfl (by decide +kernel)) <|
  forall_drop_step hostOps2 hostOps2_length 6 (by decide) (keeps_one rfl (by decide +kernel)) <|
  forall_drop_step hostOps2 hostOps2_length 7 (by decide) (keeps_one rfl (by decide +kernel)) <|
  forall_drop_step hostOps2 hostOps2_length 8 (by decide) (keeps_one rfl (by decide +kernel)) <|
  forall_drop_step hostOps2 hostOps2_length 9 (by decide) (keeps_one rfl (by decide +kernel)) <|
  forall_drop_step hostOps2 hostOps2_length 10 (by decide) (keeps_one rfl (by decide +kernel)) <|
  forall_drop_step hostOps2 hostOps2_length 11 (by decide) (keeps_one rfl (by decide +kernel)) <|
  forall_drop_step hostOps2 hostOps2_length 12 (by decide) (keeps_one rfl (by decide +kernel)) <|
  forall_drop_step hostOps2 hostOps2_length 13 (by decide) (keeps_one rfl (by decide +kernel)) <|
  forall_drop_step hostOps2 hostOps2_length 14 (by decide) (keeps_one rfl (by decide +kernel)) <|
  forall_drop_step hostOps2 hostOps2_length 15 (by decide) (keeps_one rfl (by decide +kernel)) <|
  forall_drop_step hostOps2 hostOps2_length 16 (by decide) (keeps_one rfl (by decide +kernel)) <|
  forall_drop_step hostOps2 hostOps2_length 17 (by decide) (keeps_one rfl (by decide +kernel)) <|
  forall_drop_step hostOps2 hostOps2_length 18 (by decide) (keeps_one rfl (by decide +kernel)) <|
  forall_drop_step hostOps2 hostOps2_length 19 (by decide) (keeps_one rfl (by decide +kernel)) <|
  forall_drop_step hostOps2 hostOps2_length 20 (by decide) (keeps_one rfl (by decide +kernel)) <|
  forall_drop_step hostOps2 hostOps2_length 21 (by decide) (keeps_one rfl (by decide +kernel)) <|
  forall_drop_step hostOps2 hostOps2_length 22 (by decide) (keeps_one rfl (by decide +kernel)) <|
  forall_drop_step hostOps2 hostOps2_length 23 (by decide) (keeps_one rfl (by decide +kernel)) <|
  forall_drop_step hostOps2 hostOps2_length 24 (by decide) (keeps_one rfl (by decide +kernel)) <|
  forall_drop_step hostOps2 hostOps2_length 25 (by decide) (keeps_one rfl (by decide +kernel)) <|
  forall_drop_step hostOps2 hostOps2_length 26 (by decide) (keeps_one rfl (by decide +kernel)) <|
  forall_drop_step hostOps2 hostOps2_length 27 (by decide) (keeps_one rfl (by decide +kernel)) <|
  forall_drop_step hostOps2 hostOps2_length 28 (by decide) (keeps_one rfl (by decide +kernel)) <|
  forall_drop_step hostOps2 hostOps2_length 29 (by decide) (keeps_one rfl (by decide +kernel)) <|
  forall_drop_step hostOps2 hostOps2_length 30 (by decide) (keeps_one rfl (by decide +kernel)) <|
  forall_drop_step hostOps2 hostOps2_length 31 (by decide) (keeps_one rfl (by decide +kernel)) <|
  forall_drop_step hostOps2 hostOps2_length 32 (by decide) (keeps_one rfl (by decide +kernel)) <|
  forall_drop_step hostOps2 hostOps2_length 33 (by decide) (keeps_one rfl (by decide +kernel)) <|
  forall_drop_step hostOps2 hostOps2_length 34 (by decide) (keeps_one rfl (by decide +kernel)) <|
  forall_drop_step hostOps2 hostOps2_length 35 (by decide) (keeps_one rfl (by decide +kernel)) <|
  forall_drop_step hostOps2 hostOps2_length 36 (by decide) (keeps_one rfl (by decide +kernel)) <|
  forall_drop_step hostOps2 hostOps2_length 37 (by decide) (keeps_one rfl (by decide +kernel)) <|
  forall_drop_step hostOps2 hostOps2_length 38 (by decide) (keeps_one rfl (by decide +kernel)) <|
  forall_drop_step hostOps2 hostOps2_length 39 (by decide) (keeps_one rfl (by decide +kernel)) <|
  forall_drop_step hostOps2 hostOps2_length 40 (by decide) (keeps_one rfl (by decide +kernel)) <|
  forall_drop_step hostOps2 hostOps2_length 41 (by decide) (keeps_one rfl (by decide +kernel)) <|
  forall_drop_step hostOps2 hostOps2_length 42 (by decide) (keeps_one rfl (by decide +kernel)) <|
  forall_drop_step hostOps2 hostOps2_length 43 (by decide) (keeps_one rfl (by decide +kernel)) <|
  forall_drop_step hostOps2 hostOps2_length 44 (by decide) (keeps_one rfl (by decide +kernel)) <|
  forall_drop_step hostOps2 hostOps2_length 45 (by decide) (keeps_one rfl (by decide +kernel)) <|
  forall_drop_step hostOps2 hostOps2_length 46 (by decide) (keeps_one rfl (by decide +kernel)) <|
  forall_drop_step hostOps2 hostOps2_length 47 (by decide) (keeps_one rfl (by decide +kernel)) <|
  forall_drop_step hostOps2 hostOps2_length 48 (by decide) (keeps_one rfl (by decide +kernel)) <|
  forall_drop_step hostOps2 hostOps2_length 49 (by decide) (keeps_one rfl (by decide +kernel)) <|
  forall_drop_step hostOps2 hostOps2_length 50 (by decide) (keeps_one rfl (by decide +kernel)) <|
  forall_drop_step hostOps2 hostOps2_length 51 (by decide) (keeps_one rfl (by decide +kernel)) <|
  forall_drop_step hostOps2 hostOps2_length 52 (by decide) (keeps_one rfl (by decide +kernel)) <|
  forall_drop_step hostOps2 hostOps2_length 53 (by decide) (keeps_one rfl (by decide +kernel)) <|
  forall_drop_step hostOps2 hostOps2_length 54 (by decide) (keeps_one rfl (by decide +kernel)) <|
  forall_drop_step hostOps2 hostOps2_length 55 (by decide) (keeps_one rfl (by decide +kernel)) <|
  forall_drop_step hostOps2 hostOps2_length 56 (by decide) (keeps_one rfl (by decide +kernel)) <|
  forall_drop_step hostOps2 hostOps2_length 57 (by decide) (keeps_one rfl (by decide +kernel)) <|
  forall_drop_step hostOps2 hostOps2_length 58 (by decide) (keeps_one rfl (by decide +kernel)) <|
  forall_drop_step hostOps2 hostOps2_length 59 (by decide) (keeps_one rfl (by decide +kernel)) <|
  forall_drop_step hostOps2 hostOps2_length 60 (by decide) (keeps_one rfl (by decide +kernel)) <|
  forall_drop_step hostOps2 hostOps2_length 61 (by decide) (keeps_one rfl (by decide +kernel)) <|
  forall_drop_step hostOps2 hostOps2_length 62 (by decide) (keeps_one rfl (by decide +kernel)) <|
  forall_drop_step hostOps2 hostOps2_length 63 (by decide) (keeps_one rfl (by decide +kernel)) <|
  forall_drop_step hostOps2 hostOps2_length 64 (by decide) (keeps_one rfl (by decide +kernel)) <|
  forall_drop_step hostOps2 hostOps2_length 65 (by decide) (keeps_one rfl (by decide +kernel)) <|
  forall_drop_step hostOps2 hostOps2_length 66 (by decide) (keeps_one rfl (by decide +kernel)) <|
  forall_drop_step hostOps2 hostOps2_length 67 (by decide) (keeps_one rfl (by decide +kernel)) <|
  forall_drop_step hostOps2 hostOps2_length 68 (by decide) (keeps_one rfl (by decide +kernel)) <|
  forall_drop_step hostOps2 hostOps2_length 69 (by decide) (keeps_one rfl (by decide +kernel)) <|
  forall_drop_step hostOps2 hostOps2_length 70 (by decide) (keeps_one rfl (by decide +kernel)) <|
  forall_drop_step hostOps2 hostOps2_length 71 (by decide) (keeps_one rfl (by decide +kernel)) <|
  forall_drop_step hostOps2 hostOps2_length 72 (by decide) (keeps_one rfl (by decide +kernel)) <|
  forall_drop_step hostOps2 hostOps2_length 73 (by decide) (keeps_one rfl (by decide +kernel)) <|
  forall_drop_step hostOps2 hostOps2_length 74 (by decide) (keeps_one rfl (by decide +kernel)) <|
  forall_drop_step hostOps2 hostOps2_length 75 (by decide) (keeps_one rfl (by decide +kernel)) <|
  forall_drop_step hostOps2 hostOps2_length 76 (by decide) (keeps_one rfl (by decide +kernel)) <|
  forall_drop_step hostOps2 hostOps2_length 77 (by decide) (keeps_one rfl (by decide +kernel)) <|
  forall_drop_step hostOps2 hostOps2_length 78 (by decide) (keeps_one rfl (by decide +kernel)) <|
  forall_drop_step hostOps2 hostOps2_length 79 (by decide) (keeps_one rfl (by decide +kernel)) <|
  forall_drop_end hostOps2 hostOps2_length

set_option maxHeartbeats 40000000 in
/-- No operation of `hostOps3` allocates a buffer. -/
theorem hostOps3_fresh : (hostOps3 : List (HloOp τ sig (Elt F))).Forall fun op => op.fresh = ∅ := by
  simp only [List.Forall]; repeat' constructor

theorem hostOps3_length : (hostOps3 : List (HloOp τ sig (Elt F))).length = 79 := rfl

set_option maxHeartbeats 40000000 in
/-- No operation of `hostOps3` writes an argument array: each writes its one result, a value of the program's own. -/
theorem hostOps3_keeps : (hostOps3 : List (HloOp τ sig (Elt F))).Forall fun op => ∀ r ∈ argRefs, Proc.devRef (τ := τ) .tc r ∉ op.writes :=
  show ((hostOps3 : List (HloOp τ sig (Elt F))).drop 0).Forall _ from
  forall_drop_step hostOps3 hostOps3_length 0 (by decide) (keeps_one rfl (by decide +kernel)) <|
  forall_drop_step hostOps3 hostOps3_length 1 (by decide) (keeps_one rfl (by decide +kernel)) <|
  forall_drop_step hostOps3 hostOps3_length 2 (by decide) (keeps_one rfl (by decide +kernel)) <|
  forall_drop_step hostOps3 hostOps3_length 3 (by decide) (keeps_one rfl (by decide +kernel)) <|
  forall_drop_step hostOps3 hostOps3_length 4 (by decide) (keeps_one rfl (by decide +kernel)) <|
  forall_drop_step hostOps3 hostOps3_length 5 (by decide) (keeps_one rfl (by decide +kernel)) <|
  forall_drop_step hostOps3 hostOps3_length 6 (by decide) (keeps_one rfl (by decide +kernel)) <|
  forall_drop_step hostOps3 hostOps3_length 7 (by decide) (keeps_one rfl (by decide +kernel)) <|
  forall_drop_step hostOps3 hostOps3_length 8 (by decide) (keeps_one rfl (by decide +kernel)) <|
  forall_drop_step hostOps3 hostOps3_length 9 (by decide) (keeps_one rfl (by decide +kernel)) <|
  forall_drop_step hostOps3 hostOps3_length 10 (by decide) (keeps_one rfl (by decide +kernel)) <|
  forall_drop_step hostOps3 hostOps3_length 11 (by decide) (keeps_one rfl (by decide +kernel)) <|
  forall_drop_step hostOps3 hostOps3_length 12 (by decide) (keeps_one rfl (by decide +kernel)) <|
  forall_drop_step hostOps3 hostOps3_length 13 (by decide) (keeps_one rfl (by decide +kernel)) <|
  forall_drop_step hostOps3 hostOps3_length 14 (by decide) (keeps_one rfl (by decide +kernel)) <|
  forall_drop_step hostOps3 hostOps3_length 15 (by decide) (keeps_one rfl (by decide +kernel)) <|
  forall_drop_step hostOps3 hostOps3_length 16 (by decide) (keeps_one rfl (by decide +kernel)) <|
  forall_drop_step hostOps3 hostOps3_length 17 (by decide) (keeps_one rfl (by decide +kernel)) <|
  forall_drop_step hostOps3 hostOps3_length 18 (by decide) (keeps_one rfl (by decide +kernel)) <|
  forall_drop_step hostOps3 hostOps3_length 19 (by decide) (keeps_one rfl (by decide +kernel)) <|
  forall_drop_step hostOps3 hostOps3_length 20 (by decide) (keeps_one rfl (by decide +kernel)) <|
  forall_drop_step hostOps3 hostOps3_length 21 (by decide) (keeps_one rfl (by decide +kernel)) <|
  forall_drop_step hostOps3 hostOps3_length 22 (by decide) (keeps_one rfl (by decide +kernel)) <|
  forall_drop_step hostOps3 hostOps3_length 23 (by decide) (keeps_one rfl (by decide +kernel)) <|
  forall_drop_step hostOps3 hostOps3_length 24 (by decide) (keeps_one rfl (by decide +kernel)) <|
  forall_drop_step hostOps3 hostOps3_length 25 (by decide) (keeps_one rfl (by decide +kernel)) <|
  forall_drop_step hostOps3 hostOps3_length 26 (by decide) (keeps_one rfl (by decide +kernel)) <|
  forall_drop_step hostOps3 hostOps3_length 27 (by decide) (keeps_one rfl (by decide +kernel)) <|
  forall_drop_step hostOps3 hostOps3_length 28 (by decide) (keeps_one rfl (by decide +kernel)) <|
  forall_drop_step hostOps3 hostOps3_length 29 (by decide) (keeps_one rfl (by decide +kernel)) <|
  forall_drop_step hostOps3 hostOps3_length 30 (by decide) (keeps_one rfl (by decide +kernel)) <|
  forall_drop_step hostOps3 hostOps3_length 31 (by decide) (keeps_one rfl (by decide +kernel)) <|
  forall_drop_step hostOps3 hostOps3_length 32 (by decide) (keeps_one rfl (by decide +kernel)) <|
  forall_drop_step hostOps3 hostOps3_length 33 (by decide) (keeps_one rfl (by decide +kernel)) <|
  forall_drop_step hostOps3 hostOps3_length 34 (by decide) (keeps_one rfl (by decide +kernel)) <|
  forall_drop_step hostOps3 hostOps3_length 35 (by decide) (keeps_one rfl (by decide +kernel)) <|
  forall_drop_step hostOps3 hostOps3_length 36 (by decide) (keeps_one rfl (by decide +kernel)) <|
  forall_drop_step hostOps3 hostOps3_length 37 (by decide) (keeps_one rfl (by decide +kernel)) <|
  forall_drop_step hostOps3 hostOps3_length 38 (by decide) (keeps_one rfl (by decide +kernel)) <|
  forall_drop_step hostOps3 hostOps3_length 39 (by decide) (keeps_one rfl (by decide +kernel)) <|
  forall_drop_step hostOps3 hostOps3_length 40 (by decide) (keeps_one rfl (by decide +kernel)) <|
  forall_drop_step hostOps3 hostOps3_length 41 (by decide) (keeps_one rfl (by decide +kernel)) <|
  forall_drop_step hostOps3 hostOps3_length 42 (by decide) (keeps_one rfl (by decide +kernel)) <|
  forall_drop_step hostOps3 hostOps3_length 43 (by decide) (keeps_one rfl (by decide +kernel)) <|
  forall_drop_step hostOps3 hostOps3_length 44 (by decide) (keeps_one rfl (by decide +kernel)) <|
  forall_drop_step hostOps3 hostOps3_length 45 (by decide) (keeps_one rfl (by decide +kernel)) <|
  forall_drop_step hostOps3 hostOps3_length 46 (by decide) (keeps_one rfl (by decide +kernel)) <|
  forall_drop_step hostOps3 hostOps3_length 47 (by decide) (keeps_one rfl (by decide +kernel)) <|
  forall_drop_step hostOps3 hostOps3_length 48 (by decide) (keeps_one rfl (by decide +kernel)) <|
  forall_drop_step hostOps3 hostOps3_length 49 (by decide) (keeps_one rfl (by decide +kernel)) <|
  forall_drop_step hostOps3 hostOps3_length 50 (by decide) (keeps_one rfl (by decide +kernel)) <|
  forall_drop_step hostOps3 hostOps3_length 51 (by decide) (keeps_one rfl (by decide +kernel)) <|
  forall_drop_step hostOps3 hostOps3_length 52 (by decide) (keeps_one rfl (by decide +kernel)) <|
  forall_drop_step hostOps3 hostOps3_length 53 (by decide) (keeps_one rfl (by decide +kernel)) <|
  forall_drop_step hostOps3 hostOps3_length 54 (by decide) (keeps_one rfl (by decide +kernel)) <|
  forall_drop_step hostOps3 hostOps3_length 55 (by decide) (keeps_one rfl (by decide +kernel)) <|
  forall_drop_step hostOps3 hostOps3_length 56 (by decide) (keeps_one rfl (by decide +kernel)) <|
  forall_drop_step hostOps3 hostOps3_length 57 (by decide) (keeps_one rfl (by decide +kernel)) <|
  forall_drop_step hostOps3 hostOps3_length 58 (by decide) (keeps_one rfl (by decide +kernel)) <|
  forall_drop_step hostOps3 hostOps3_length 59 (by decide) (keeps_one rfl (by decide +kernel)) <|
  forall_drop_step hostOps3 hostOps3_length 60 (by decide) (keeps_one rfl (by decide +kernel)) <|
  forall_drop_step hostOps3 hostOps3_length 61 (by decide) (keeps_one rfl (by decide +kernel)) <|
  forall_drop_step hostOps3 hostOps3_length 62 (by decide) (keeps_one rfl (by decide +kernel)) <|
  forall_drop_step hostOps3 hostOps3_length 63 (by decide) (keeps_one rfl (by decide +kernel)) <|
  forall_drop_step hostOps3 hostOps3_length 64 (by decide) (keeps_one rfl (by decide +kernel)) <|
  forall_drop_step hostOps3 hostOps3_length 65 (by decide) (keeps_one rfl (by decide +kernel)) <|
  forall_drop_step hostOps3 hostOps3_length 66 (by decide) (keeps_one rfl (by decide +kernel)) <|
  forall_drop_step hostOps3 hostOps3_length 67 (by decide) (keeps_one rfl (by decide +kernel)) <|
  forall_drop_step hostOps3 hostOps3_length 68 (by decide) (keeps_one rfl (by decide +kernel)) <|
  forall_drop_step hostOps3 hostOps3_length 69 (by decide) (keeps_one rfl (by decide +kernel)) <|
  forall_drop_step hostOps3 hostOps3_length 70 (by decide) (keeps_one rfl (by decide +kernel)) <|
  forall_drop_step hostOps3 hostOps3_length 71 (by decide) (keeps_one rfl (by decide +kernel)) <|
  forall_drop_step hostOps3 hostOps3_length 72 (by decide) (keeps_one rfl (by decide +kernel)) <|
  forall_drop_step hostOps3 hostOps3_length 73 (by decide) (keeps_one rfl (by decide +kernel)) <|
  forall_drop_step hostOps3 hostOps3_length 74 (by decide) (keeps_one rfl (by decide +kernel)) <|
  forall_drop_step hostOps3 hostOps3_length 75 (by decide) (keeps_one rfl (by decide +kernel)) <|
  forall_drop_step hostOps3 hostOps3_length 76 (by decide) (keeps_one rfl (by decide +kernel)) <|
  forall_drop_step hostOps3 hostOps3_length 77 (by decide) (keeps_one rfl (by decide +kernel)) <|
  forall_drop_step hostOps3 hostOps3_length 78 (by decide) (keeps_one rfl (by decide +kernel)) <|
  forall_drop_end hostOps3 hostOps3_length

set_option maxHeartbeats 40000000 in
/-- No operation of `hostOps4` allocates a buffer. -/
theorem hostOps4_fresh : (hostOps4 : List (HloOp τ sig (Elt F))).Forall fun op => op.fresh = ∅ := by
  simp only [List.Forall]; repeat' constructor

theorem hostOps4_length : (hostOps4 : List (HloOp τ sig (Elt F))).length = 21 := rfl

set_option maxHeartbeats 40000000 in
/-- No operation of `hostOps4` writes an argument array: each writes its one result, a value of the program's own. -/
theorem hostOps4_keeps : (hostOps4 : List (HloOp τ sig (Elt F))).Forall fun op => ∀ r ∈ argRefs, Proc.devRef (τ := τ) .tc r ∉ op.writes :=
  show ((hostOps4 : List (HloOp τ sig (Elt F))).drop 0).Forall _ from
  forall_drop_step hostOps4 hostOps4_length 0 (by decide) (keeps_one rfl (by decide +kernel)) <|
  forall_drop_step hostOps4 hostOps4_length 1 (by decide) (keeps_one rfl (by decide +kernel)) <|
  forall_drop_step hostOps4 hostOps4_length 2 (by decide) (keeps_one rfl (by decide +kernel)) <|
  forall_drop_step hostOps4 hostOps4_length 3 (by decide) (keeps_one rfl (by decide +kernel)) <|
  forall_drop_step hostOps4 hostOps4_length 4 (by decide) (keeps_one rfl (by decide +kernel)) <|
  forall_drop_step hostOps4 hostOps4_length 5 (by decide) (keeps_one rfl (by decide +kernel)) <|
  forall_drop_step hostOps4 hostOps4_length 6 (by decide) (keeps_one rfl (by decide +kernel)) <|
  forall_drop_step hostOps4 hostOps4_length 7 (by decide) (keeps_one rfl (by decide +kernel)) <|
  forall_drop_step hostOps4 hostOps4_length 8 (by decide) (keeps_one rfl (by decide +kernel)) <|
  forall_drop_step hostOps4 hostOps4_length 9 (by decide) (keeps_one rfl (by decide +kernel)) <|
  forall_drop_step hostOps4 hostOps4_length 10 (by decide) (keeps_one rfl (by decide +kernel)) <|
  forall_drop_step hostOps4 hostOps4_length 11 (by decide) (keeps_one rfl (by decide +kernel)) <|
  forall_drop_step hostOps4 hostOps4_length 12 (by decide) (keeps_one rfl (by decide +kernel)) <|
  forall_drop_step hostOps4 hostOps4_length 13 (by decide) (keeps_one rfl (by decide +kernel)) <|
  forall_drop_step hostOps4 hostOps4_length 14 (by decide) (keeps_one rfl (by decide +kernel)) <|
  forall_drop_step hostOps4 hostOps4_length 15 (by decide) (keeps_one rfl (by decide +kernel)) <|
  forall_drop_step hostOps4 hostOps4_length 16 (by decide) (keeps_one rfl (by decide +kernel)) <|
  forall_drop_step hostOps4 hostOps4_length 17 (by decide) (keeps_one rfl (by decide +kernel)) <|
  forall_drop_step hostOps4 hostOps4_length 18 (by decide) (keeps_one rfl (by decide +kernel)) <|
  forall_drop_step hostOps4 hostOps4_length 19 (by decide) (keeps_one rfl (by decide +kernel)) <|
  forall_drop_step hostOps4 hostOps4_length 20 (by decide) (keeps_one rfl (by decide +kernel)) <|
  forall_drop_end hostOps4 hostOps4_length

set_option maxHeartbeats 40000000 in
/-- No operation of `hostOps4_1` allocates a buffer. -/
theorem hostOps4_1_fresh : (hostOps4_1 : List (HloOp τ sig (Elt F))).Forall fun op => op.fresh = ∅ := by
  simp only [List.Forall]; repeat' constructor

theorem hostOps4_1_length : (hostOps4_1 : List (HloOp τ sig (Elt F))).length = 15 := rfl

set_option maxHeartbeats 40000000 in
/-- No operation of `hostOps4_1` writes an argument array: each writes its one result, a value of the program's own. -/
theorem hostOps4_1_keeps : (hostOps4_1 : List (HloOp τ sig (Elt F))).Forall fun op => ∀ r ∈ argRefs, Proc.devRef (τ := τ) .tc r ∉ op.writes :=
  show ((hostOps4_1 : List (HloOp τ sig (Elt F))).drop 0).Forall _ from
  forall_drop_step hostOps4_1 hostOps4_1_length 0 (by decide) (keeps_one rfl (by decide +kernel)) <|
  forall_drop_step hostOps4_1 hostOps4_1_length 1 (by decide) (keeps_one rfl (by decide +kernel)) <|
  forall_drop_step hostOps4_1 hostOps4_1_length 2 (by decide) (keeps_one rfl (by decide +kernel)) <|
  forall_drop_step hostOps4_1 hostOps4_1_length 3 (by decide) (keeps_one rfl (by decide +kernel)) <|
  forall_drop_step hostOps4_1 hostOps4_1_length 4 (by decide) (keeps_one rfl (by decide +kernel)) <|
  forall_drop_step hostOps4_1 hostOps4_1_length 5 (by decide) (keeps_one rfl (by decide +kernel)) <|
  forall_drop_step hostOps4_1 hostOps4_1_length 6 (by decide) (keeps_one rfl (by decide +kernel)) <|
  forall_drop_step hostOps4_1 hostOps4_1_length 7 (by decide) (keeps_one rfl (by decide +kernel)) <|
  forall_drop_step hostOps4_1 hostOps4_1_length 8 (by decide) (keeps_one rfl (by decide +kernel)) <|
  forall_drop_step hostOps4_1 hostOps4_1_length 9 (by decide) (keeps_one rfl (by decide +kernel)) <|
  forall_drop_step hostOps4_1 hostOps4_1_length 10 (by decide) (keeps_one rfl (by decide +kernel)) <|
  forall_drop_step hostOps4_1 hostOps4_1_length 11 (by decide) (keeps_one rfl (by decide +kernel)) <|
  forall_drop_step hostOps4_1 hostOps4_1_length 12 (by decide) (keeps_one rfl (by decide +kernel)) <|
  forall_drop_step hostOps4_1 hostOps4_1_length 13 (by decide) (keeps_one rfl (by decide +kernel)) <|
  forall_drop_step hostOps4_1 hostOps4_1_length 14 (by decide) (keeps_one rfl (by decide +kernel)) <|
  forall_drop_end hostOps4_1 hostOps4_1_length

end Cert.KernelIdeal.Hand

end
-- ==== Proof.KIRun.lean ====
import proofs.«137322_j45767171506782_1_alg».proof.Proof.Gen.KernelIdeal.Launch
import proofs.«137322_j45767171506782_1_alg».proof.Proof.Gen.KernelIdeal.Skeleton
import proofs.«137322_j45767171506782_1_alg».proof.Proof.Gen.KernelIdeal.Points
import proofs.«137322_j45767171506782_1_alg».proof.Proof.KIRegion0
import proofs.«137322_j45767171506782_1_alg».proof.Proof.KIRegion1
import proofs.«137322_j45767171506782_1_alg».proof.Proof.KIRegion2
import proofs.«137322_j45767171506782_1_alg».proof.Proof.KIRegion3
import proofs.«137322_j45767171506782_1_alg».proof.Proof.KIHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's fourteen segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2` (region 2's entry). -/
abbrev W9 : Dev nD → Valuation τ sig (Elt F) := fun c => StableHlo.after hostOps2 (W8 m ρ c)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves and every other buffer what it held at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3` (region 3's entry). -/
abbrev W11 : Dev nD → Valuation τ sig (Elt F) := fun c => StableHlo.after hostOps3 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves and every other buffer what it held at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After `hostOps4`. -/
abbrev W13 : Dev nD → Valuation τ sig (Elt F) := fun c => StableHlo.after hostOps4 (W12 m ρ c)
/-- After `hostOps4_1`: the contents @main returns with. -/
abbrev W14 : Dev nD → Valuation τ sig (Elt F) := fun c => StableHlo.after hostOps4_1 (W13 m ρ c)

/-! ### The arguments end as launched: no host operation writes one, and no region has one as a window's array
    (every window's array is a value the host stretches compute), so the fold at an argument's buffer walks back
    to the launch memory -/

/-- No argument array is an array of region 0's windows. -/
theorem args_not_win0 : ∀ r ∈ argRefs, ∀ w : Fin cfg0.W, Pipeline.arrRef spec0 w ≠ r := by decide
/-- No argument array is an array of region 1's windows. -/
theorem args_not_win1 : ∀ r ∈ argRefs, ∀ w : Fin cfg1.W, Pipeline.arrRef spec1 w ≠ r := by decide
/-- No argument array is an array of region 2's windows. -/
theorem args_not_win2 : ∀ r ∈ argRefs, ∀ w : Fin cfg2.W, Pipeline.arrRef spec2 w ≠ r := by decide
/-- No argument array is an array of region 3's windows. -/
theorem args_not_win3 : ∀ r ∈ argRefs, ∀ w : Fin cfg3.W, Pipeline.arrRef spec3 w ≠ r := by decide

/-- Every argument array holds at the end what it held at launch. -/
theorem W14_arg (c : Dev nD) {r : Ref sig .tc} (hr : r ∈ argRefs) :
    W14 m ρ c (Proc.devRef .tc r) = m ((c : Thread nD τ).loc r) :=
  calc W14 m ρ c (Proc.devRef .tc r)
    _ = W13 m ρ c (Proc.devRef .tc r) := after_keeps argRefs hostOps4_1_keeps _ hr
    _ = W12 m ρ c (Proc.devRef .tc r) := after_keeps argRefs hostOps4_keeps _ hr
    _ = W11 m ρ c (Proc.devRef .tc r) := W12_of_ne m ρ c r (args_not_win3 r hr)
    _ = W10 m ρ c (Proc.devRef .tc r) := after_keeps argRefs hostOps3_keeps _ hr
    _ = W9 m ρ c (Proc.devRef .tc r) := W10_of_ne m ρ c r (args_not_win2 r hr)
    _ = W8 m ρ c (Proc.devRef .tc r) := after_keeps argRefs hostOps2_keeps _ hr
    _ = W7 m ρ c (Proc.devRef .tc r) := W8_of_ne m ρ c r (args_not_win1 r hr)
    _ = W6 m ρ c (Proc.devRef .tc r) := after_keeps argRefs hostOps1_keeps _ hr
    _ = W5 m ρ c (Proc.devRef .tc r) := W6_of_ne m ρ c r (args_not_win0 r hr)
    _ = W4 m ρ c (Proc.devRef .tc r) := after_keeps argRefs hostOps0_4_keeps _ hr
    _ = W3 m ρ c (Proc.devRef .tc r) := after_keeps argRefs hostOps0_3_keeps _ hr
    _ = W2 m ρ c (Proc.devRef .tc r) := after_keeps argRefs hostOps0_2_keeps _ hr
    _ = W1 m ρ c (Proc.devRef .tc r) := after_keeps argRefs hostOps0_1_keeps _ hr
    _ = W0 m ρ c (Proc.devRef .tc r) := after_keeps argRefs hostOps0_keeps _ hr
    _ = m ((c : Thread nD τ).loc r) := rfl

theorem W14_main_arg0 (c : Dev nD) : W14 m ρ c (Proc.devRef .tc main_arg0) = m ((c : Thread nD τ).loc main_arg0) :=
  W14_arg m ρ c (by decide)
theorem W14_main_arg1 (c : Dev nD) : W14 m ρ c (Proc.devRef .tc main_arg1) = m ((c : Thread nD τ).loc main_arg1) :=
  W14_arg m ρ c (by decide)
theorem W14_main_arg2 (c : Dev nD) : W14 m ρ c (Proc.devRef .tc main_arg2) = m ((c : Thread nD τ).loc main_arg2) :=
  W14_arg m ρ c (by decide)
theorem W14_main_arg3 (c : Dev nD) : W14 m ρ c (Proc.devRef .tc main_arg3) = m ((c : Thread nD τ).loc main_arg3) :=
  W14_arg m ρ c (by decide)
theorem W14_main_arg4 (c : Dev nD) : W14 m ρ c (Proc.devRef .tc main_arg4) = m ((c : Thread nD τ).loc main_arg4) :=
  W14_arg m ρ c (by decide)
theorem W14_main_arg5 (c : Dev nD) : W14 m ρ c (Proc.devRef .tc main_arg5) = m ((c : Thread nD τ).loc main_arg5) :=
  W14_arg m ρ c (by decide)
theorem W14_main_arg6 (c : Dev nD) : W14 m ρ c (Proc.devRef .tc main_arg6) = m ((c : Thread nD τ).loc main_arg6) :=
  W14_arg m ρ c (by decide)
theorem W14_main_arg7 (c : Dev nD) : W14 m ρ c (Proc.devRef .tc main_arg7) = m ((c : Thread nD τ).loc main_arg7) :=
  W14_arg m ρ c (by decide)
theorem W14_main_arg8 (c : Dev nD) : W14 m ρ c (Proc.devRef .tc main_arg8) = m ((c : Thread nD τ).loc main_arg8) :=
  W14_arg m ρ c (by decide)
theorem W14_main_arg9 (c : Dev nD) : W14 m ρ c (Proc.devRef .tc main_arg9) = m ((c : Thread nD τ).loc main_arg9) :=
  W14_arg m ρ c (by decide)
theorem W14_main_arg10 (c : Dev nD) : W14 m ρ c (Proc.devRef .tc main_arg10) = m ((c : Thread nD τ).loc main_arg10) :=
  W14_arg m ρ c (by decide)
theorem W14_main_arg11 (c : Dev nD) : W14 m ρ c (Proc.devRef .tc main_arg11) = m ((c : Thread nD τ).loc main_arg11) :=
  W14_arg m ρ c (by decide)
theorem W14_main_arg12 (c : Dev nD) : W14 m ρ c (Proc.devRef .tc main_arg12) = m ((c : Thread nD τ).loc main_arg12) :=
  W14_arg m ρ c (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W14`, the
    generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 (pipeline 0) over the thread state: entered from every unscoped buffer at `W5`, left at `W6`. Its
    arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (pipeline 1) over the thread state: entered from every unscoped buffer at `W7`, left at `W8`. Its
    arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (pipeline 2) over the thread state: entered from every unscoped buffer at `W9`, left at `W10`. Its
    arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (pipeline 3) over the thread state: entered from every unscoped buffer at `W11`, left at `W12`. Its
    arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)) ]
/-- @main is the run of the segments: it is the chain of its items, and the segments' run is the same chain. -/
theorem main_run (c : Dev nD) : main (F := F) c = Pipeline.Seg.run (segs m ρ) := (main_chain c).trans (by chain_rfl)

set_option backward.isDefEq.respectTransparency.types false in
/-- The whole run: at the compiled mesh, from any memory with zero counters, every weakly fair execution of @main on
    the TensorCores terminates, nothing faulting, and every final state has every unscoped buffer of every core at
    the fold's last contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The frame: every final state of @main has the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩) (run_all m ρ)

end Cert.KernelIdeal.Hand

end
-- ==== Proof.RefRun.lean ====
/-
  The reference program's run, read stage by stage. Its @main is the straight line of the 519 host operations of the
  five lists joined in order, so every weakly fair execution ends with each buffer at what the operations leave there,
  one list after the other.
-/
import proofs.«137322_j45767171506782_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) := opsA ++ (opsB ++ (opsC ++ (opsD ++ opsE)))

set_option maxRecDepth 65536 in
set_option maxHeartbeats 40000000 in
theorem main_eq (c : Dev nD) : main (F := F) c = seq (ops (F := F)) := rfl

/-- Running two lines one after the other folds the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append opsA_sub (forall_append opsB_sub (forall_append opsC_sub (forall_append opsD_sub opsE_sub)))

theorem ops_fresh : (ops : List (HloOp τ sig (Elt F))).Forall fun op => op.fresh = ∅ :=
  forall_append opsA_fresh (forall_append opsB_fresh (forall_append opsC_fresh (forall_append opsD_fresh opsE_fresh)))

/-- The buffer contents at the end of each of the five lists, from the launch memory. -/
abbrev U0 (m : (ℓ : Loc nD τ sig) → Buf (Elt F) ℓ) (d : Dev nD) : Valuation τ sig (Elt F) := launchContents m d
abbrev UA (m : (ℓ : Loc nD τ sig) → Buf (Elt F) ℓ) (d : Dev nD) : Valuation τ sig (Elt F) := after opsA (U0 m d)
abbrev UB (m : (ℓ : Loc nD τ sig) → Buf (Elt F) ℓ) (d : Dev nD) : Valuation τ sig (Elt F) := after opsB (UA m d)
abbrev UC (m : (ℓ : Loc nD τ sig) → Buf (Elt F) ℓ) (d : Dev nD) : Valuation τ sig (Elt F) := after opsC (UB m d)
abbrev UD (m : (ℓ : Loc nD τ sig) → Buf (Elt F) ℓ) (d : Dev nD) : Valuation τ sig (Elt F) := after opsD (UC m d)
abbrev UE (m : (ℓ : Loc nD τ sig) → Buf (Elt F) ℓ) (d : Dev nD) : Valuation τ sig (Elt F) := after opsE (UD m d)

theorem after_ops (m : (ℓ : Loc nD τ sig) → Buf (Elt F) ℓ) (d : Dev nD) : after ops (launchContents m d) = UE m d := by
  simp only [ops, after_append]

/-- THE RUN: every weakly fair execution of @main terminates, nothing faulting, with every buffer of the TensorCore at
    what the five lists leave there. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = UE m d (Proc.devRef .tc b) :=
  (θ_run defs _ _).mono (fun _ h d b => (h d b).trans (congrFun (after_ops m d) _))
    (run_seq scopedRefs_eq scopedSems_eq defs main (fun _ => ops) main_eq (fun _ => ops_sub) m ρ
      (fun _ => List.forall_iff_forall_mem.mp ops_fresh))

end Cert.ReferenceIdeal.RefRun

end
-- ==== Proof.RefFrame.lean ====
/-
  The reference program leaves its argument arrays as launched: none of its 519 host operations writes one, so the
  fold of the five lists at an argument's buffer is the launch memory after each list, and so at the end of the run.
-/
import proofs.«137322_j45767171506782_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirteen argument arrays of @main. -/
def argRefs : List (Ref sig .tc) :=
  [main_arg0, main_arg1, main_arg2, main_arg3, main_arg4, main_arg5, main_arg6, main_arg7, main_arg8, main_arg9,
    main_arg10, main_arg11, main_arg12]

/-- A line of host operations none of which writes any reference of the list `Rs` leaves each of them at its
    contents: the fold over the line changes a buffer only at an operation that writes it. -/
theorem after_keeps {ops : List (HloOp τ sig (Elt F))} (Rs : List (Ref sig .tc))
    (h : ops.Forall fun op => ∀ r ∈ Rs, Proc.devRef (τ := τ) .tc r ∉ op.writes) (W : Valuation τ sig (Elt F))
    {r : Ref sig .tc} (hr : r ∈ Rs) :
    StableHlo.after ops W (Proc.devRef .tc r) = W (Proc.devRef .tc r) :=
  StableHlo.after_of_forall_not_mem ops W fun op hop => (List.forall_iff_forall_mem.mp h) op hop r hr

/-- Every argument array has one of the first thirteen indices of its memory space. -/
theorem args_idx_lt : ∀ r ∈ argRefs, r.idx.val < 13 := by decide +kernel

/-- One operation whose writes are the single result `y`, an array of index thirteen or more, writes no argument. -/
theorem keeps_one {op : HloOp τ sig (Elt F)} {y : Ref sig .tc} (hw : op.writes = {Proc.devRef (τ := τ) .tc y})
    (h : 13 ≤ y.idx.val) : ∀ r ∈ argRefs, Proc.devRef (τ := τ) .tc r ∉ op.writes :=
  fun r hr hm => by
    rw [hw, Finset.mem_singleton] at hm
    have e : r = y := Proc.devRef_injective _ hm
    have hlt := args_idx_lt r hr
    rw [e] at hlt
    omega

/-! ## A fact about every operation of a list, read position by position

A fact about every operation of a list is assembled from the fact at each position, last position first. -/

section ByIndex
variable {α : Type} {p : α → Prop}

/-- Past the last position nothing is left. -/
theorem forall_drop_end (l : List α) {n : ℕ} (hn : l.length = n) : (l.drop n).Forall p := by
  rw [← hn, List.drop_length]; exact trivial

/-- From the fact at position `k` and at every later position, the fact from position `k` on. -/
theorem forall_drop_step (l : List α) {n : ℕ} (hn : l.length = n) (k : ℕ) (hk : k < n)
    (h : p (l.get ⟨k, hn ▸ hk⟩)) (ht : (l.drop (k + 1)).Forall p) : (l.drop k).Forall p := by
  have hk' : k < l.length := hn ▸ hk
  rw [List.drop_eq_getElem_cons hk', List.forall_cons]
  exact ⟨h, ht⟩

end ByIndex

theorem opsA_length : (opsA : List (HloOp τ sig (Elt F))).length = 179 := rfl

set_option maxHeartbeats 40000000 in
/-- No operation of `opsA` writes an argument array: each writes its one result, a value of the program's own. -/
theorem opsA_keeps : (opsA : List (HloOp τ sig (Elt F))).Forall fun op => ∀ r ∈ argRefs, Proc.devRef (τ := τ) .tc r ∉ op.writes :=
  show ((opsA : List (HloOp τ sig (Elt F))).drop 0).Forall _ from
  forall_drop_step opsA opsA_length 0 (by decide) (keeps_one rfl (by decide +kernel)) <|
  forall_drop_step opsA opsA_length 1 (by decide) (keeps_one rfl (by decide +kernel)) <|
  forall_drop_step opsA opsA_length 2 (by decide) (keeps_one rfl (by decide +kernel)) <|
  forall_drop_step opsA opsA_length 3 (by decide) (keeps_one rfl (by decide +kernel)) <|
  forall_drop_step opsA opsA_length 4 (by decide) (keeps_one rfl (by decide +kernel)) <|
  forall_drop_step opsA opsA_length 5 (by decide) (keeps_one rfl (by decide +kernel)) <|
  forall_drop_step opsA opsA_length 6 (by decide) (keeps_one rfl (by decide +kernel)) <|
  forall_drop_step opsA opsA_length 7 (by decide) (keeps_one rfl (by decide +kernel)) <|
  forall_drop_step opsA opsA_length 8 (by decide) (keeps_one rfl (by decide +kernel)) <|
  forall_drop_step opsA opsA_length 9 (by decide) (keeps_one rfl (by decide +kernel)) <|
  forall_drop_step opsA opsA_length 10 (by decide) (keeps_one rfl (by decide +kernel)) <|
  forall_drop_step opsA opsA_length 11 (by decide) (keeps_one rfl (by decide +kernel)) <|
  forall_drop_step opsA opsA_length 12 (by decide) (keeps_one rfl (by decide +kernel)) <|
  forall_drop_step opsA opsA_length 13 (by decide) (keeps_one rfl (by decide +kernel)) <|
  forall_drop_step opsA opsA_length 14 (by decide) (keeps_one rfl (by decide +kernel)) <|
  forall_drop_step opsA opsA_length 15 (by decide) (keeps_one rfl (by decide +kernel)) <|
  forall_drop_step opsA opsA_length 16 (by decide) (keeps_one rfl (by decide +kernel)) <|
  forall_drop_step opsA opsA_length 17 (by decide) (keeps_one rfl (by decide +kernel)) <|
  forall_drop_step opsA opsA_length 18 (by decide) (keeps_one rfl (by decide +kernel)) <|
  forall_drop_step opsA opsA_length 19 (by decide) (keeps_one rfl (by decide +kernel)) <|
  forall_drop_step opsA opsA_length 20 (by decide) (keeps_one rfl (by decide +kernel)) <|
  forall_drop_step opsA opsA_length 21 (by decide) (keeps_one rfl (by decide +kernel)) <|
  forall_drop_step opsA opsA_length 22 (by decide) (keeps_one rfl (by decide +kernel)) <|
  forall_drop_step opsA opsA_length 23 (by decide) (keeps_one rfl (by decide +kernel)) <|
  forall_drop_step opsA opsA_length 24 (by decide) (keeps_one rfl (by decide +kernel)) <|
  forall_drop_step opsA opsA_length 25 (by decide) (keeps_one rfl (by decide +kernel)) <|
  forall_drop_step opsA opsA_length 26 (by decide) (keeps_one rfl (by decide +kernel)) <|
  forall_drop_step opsA opsA_length 27 (by decide) (keeps_one rfl (by decide +kernel)) <|
  forall_drop_step opsA opsA_length 28 (by decide) (keeps_one rfl (by decide +kernel)) <|
  forall_drop_step opsA opsA_length 29 (by decide) (keeps_one rfl (by decide +kernel)) <|
  forall_drop_step opsA opsA_length 30 (by decide) (keeps_one rfl (by decide +kernel)) <|
  forall_drop_step opsA opsA_length 31 (by decide) (keeps_one rfl (by decide +kernel)) <|
  forall_drop_step opsA opsA_length 32 (by decide) (keeps_one rfl (by decide +kernel)) <|
  forall_drop_step opsA opsA_length 33 (by decide) (keeps_one rfl (by decide +kernel)) <|
  forall_drop_step opsA opsA_length 34 (by decide) (keeps_one rfl (by decide +kernel)) <|
  forall_drop_step opsA opsA_length 35 (by decide) (keeps_one rfl (by decide +kernel)) <|
  forall_drop_step opsA opsA_length 36 (by decide) (keeps_one rfl (by decide +kernel)) <|
  forall_drop_step opsA opsA_length 37 (by decide) (keeps_one rfl (by decide +kernel)) <|
  forall_drop_step opsA opsA_length 38 (by decide) (keeps_one rfl (by decide +kernel)) <|
  forall_drop_step opsA opsA_length 39 (by decide) (keeps_one rfl (by decide +kernel)) <|
  forall_drop_step opsA opsA_length 40 (by decide) (keeps_one rfl (by decide +kernel)) <|
  forall_drop_step opsA opsA_length 41 (by decide) (keeps_one rfl (by decide +kernel)) <|
  forall_drop_step opsA opsA_length 42 (by decide) (keeps_one rfl (by decide +kernel)) <|
  forall_drop_step opsA opsA_length 43 (by decide) (keeps_one rfl (by decide +kernel)) <|
  forall_drop_step opsA opsA_length 44 (by decide) (keeps_one rfl (by decide +kernel)) <|
  forall_drop_step opsA opsA_length 45 (by decide) (keeps_one rfl (by decide +kernel)) <|
  forall_drop_step opsA opsA_length 46 (by decide) (keeps_one rfl (by decide +kernel)) <|
  forall_drop_step opsA opsA_length 47 (by decide) (keeps_one rfl (by decide +kernel)) <|
  forall_drop_step opsA opsA_length 48 (by decide) (keeps_one rfl (by decide +kernel)) <|
  forall_drop_step opsA opsA_length 49 (by decide) (keeps_one rfl (by decide +kernel)) <|
  forall_drop_step opsA opsA_length 50 (by decide) (keeps_one rfl (by decide +kernel)) <|
  forall_drop_step opsA opsA_length 51 (by decide) (keeps_one rfl (by decide +kernel)) <|
  forall_drop_step opsA opsA_length 52 (by decide) (keeps_one rfl (by decide +kernel)) <|
  forall_drop_step opsA opsA_length 53 (by decide) (keeps_one rfl (by decide +kernel)) <|
  forall_drop_step opsA opsA_length 54 (by decide) (keeps_one rfl (by decide +kernel)) <|
  forall_drop_step opsA opsA_length 55 (by decide) (keeps_one rfl (by decide +kernel)) <|
  forall_drop_step opsA opsA_length 56 (by decide) (keeps_one rfl (by decide +kernel)) <|
  forall_drop_step opsA opsA_length 57 (by decide) (keeps_one rfl (by decide +kernel)) <|
  forall_drop_step opsA opsA_length 58 (by decide) (keeps_one rfl (by decide +kernel)) <|
  forall_drop_step opsA opsA_length 59 (by decide) (keeps_one rfl (by decide +kernel)) <|
  forall_drop_step opsA opsA_length 60 (by decide) (keeps_one rfl (by decide +kernel)) <|
  forall_drop_step opsA opsA_length 61 (by decide) (keeps_one rfl (by decide +kernel)) <|
  forall_drop_step opsA opsA_length 62 (by decide) (keeps_one rfl (by decide +kernel)) <|
  forall_drop_step opsA opsA_length 63 (by decide) (keeps_one rfl (by decide +kernel)) <|
  forall_drop_step opsA opsA_length 64 (by decide) (keeps_one rfl (by decide +kernel)) <|
  forall_drop_step opsA opsA_length 65 (by decide) (keeps_one rfl (by decide +kernel)) <|
  forall_drop_step opsA opsA_length 66 (by decide) (keeps_one rfl (by decide +kernel)) <|
  forall_drop_step opsA opsA_length 67 (by decide) (keeps_one rfl (by decide +kernel)) <|
  forall_drop_step opsA opsA_length 68 (by decide) (keeps_one rfl (by decide +kernel)) <|
  forall_drop_step opsA opsA_length 69 (by decide) (keeps_one rfl (by decide +kernel)) <|
  forall_drop_step opsA opsA_length 70 (by decide) (keeps_one rfl (by decide +kernel)) <|
  forall_drop_step opsA opsA_length 71 (by decide) (keeps_one rfl (by decide +kernel)) <|
  forall_drop_step opsA opsA_length 72 (by decide) (keeps_one rfl (by decide +kernel)) <|
  forall_drop_step opsA opsA_length 73 (by decide) (keeps_one rfl (by decide +kernel)) <|
  forall_drop_step opsA opsA_length 74 (by decide) (keeps_one rfl (by decide +kernel)) <|
  forall_drop_step opsA opsA_length 75 (by decide) (keeps_one rfl (by decide +kernel)) <|
  forall_drop_step opsA opsA_length 76 (by decide) (keeps_one rfl (by decide +kernel)) <|
  forall_drop_step opsA opsA_length 77 (by decide) (keeps_one rfl (by decide +kernel)) <|
  forall_drop_step opsA opsA_length 78 (by decide) (keeps_one rfl (by decide +kernel)) <|
  forall_drop_step opsA opsA_length 79 (by decide) (keeps_one rfl (by decide +kernel)) <|
  forall_drop_step opsA opsA_length 80 (by decide) (keeps_one rfl (by decide +kernel)) <|
  forall_drop_step opsA opsA_length 81 (by decide) (keeps_one rfl (by decide +kernel)) <|
  forall_drop_step opsA opsA_length 82 (by decide) (keeps_one rfl (by decide +kernel)) <|
  forall_drop_step opsA opsA_length 83 (by decide) (keeps_one rfl (by decide +kernel)) <|
  forall_drop_step opsA opsA_length 84 (by decide) (keeps_one rfl (by decide +kernel)) <|
  forall_drop_step opsA opsA_length 85 (by decide) (keeps_one rfl (by decide +kernel)) <|
  forall_drop_step opsA opsA_length 86 (by decide) (keeps_one rfl (by decide +kernel)) <|
  forall_drop_step opsA opsA_length 87 (by decide) (keeps_one rfl (by decide +kernel)) <|
  forall_drop_step opsA opsA_length 88 (by decide) (keeps_one rfl (by decide +kernel)) <|
  forall_drop_step opsA opsA_length 89 (by decide) (keeps_one rfl (by decide +kernel)) <|
  forall_drop_step opsA opsA_length 90 (by decide) (keeps_one rfl (by decide +kernel)) <|
  forall_drop_step opsA opsA_length 91 (by decide) (keeps_one rfl (by decide +kernel)) <|
  forall_drop_step opsA opsA_length 92 (by decide) (keeps_one rfl (by decide +kernel)) <|
  forall_drop_step opsA opsA_length 93 (by decide) (keeps_one rfl (by decide +kernel)) <|
  forall_drop_step opsA opsA_length 94 (by decide) (keeps_one rfl (by decide +kernel)) <|
  forall_drop_step opsA opsA_length 95 (by decide) (keeps_one rfl (by decide +kernel)) <|
  forall_drop_step opsA opsA_length 96 (by decide) (keeps_one rfl (by decide +kernel)) <|
  forall_drop_step opsA opsA_length 97 (by decide) (keeps_one rfl (by decide +kernel)) <|
  forall_drop_step opsA opsA_length 98 (by decide) (keeps_one rfl (by decide +kernel)) <|
  forall_drop_step opsA opsA_length 99 (by decide) (keeps_one rfl (by decide +kernel)) <|
  forall_drop_step opsA opsA_length 100 (by decide) (keeps_one rfl (by decide +kernel)) <|
  forall_drop_step opsA opsA_length 101 (by decide) (keeps_one rfl (by decide +kernel)) <|
  forall_drop_step opsA opsA_length 102 (by decide) (keeps_one rfl (by decide +kernel)) <|
  forall_drop_step opsA opsA_length 103 (by decide) (keeps_one rfl (by decide +kernel)) <|
  forall_drop_step opsA opsA_length 104 (by decide) (keeps_one rfl (by decide +kernel)) <|
  forall_drop_step opsA opsA_length 105 (by decide) (keeps_one rfl (by decide +kernel)) <|
  forall_drop_step opsA opsA_length 106 (by decide) (keeps_one rfl (by decide +kernel)) <|
  forall_drop_step opsA opsA_length 107 (by decide) (keeps_one rfl (by decide +kernel)) <|
  forall_drop_step opsA opsA_length 108 (by decide) (keeps_one rfl (by decide +kernel)) <|
  forall_drop_step opsA opsA_length 109 (by decide) (keeps_one rfl (by decide +kernel)) <|
  forall_drop_step opsA opsA_length 110 (by decide) (keeps_one rfl (by decide +kernel)) <|
  forall_drop_step opsA opsA_length 111 (by decide) (keeps_one rfl (by decide +kernel)) <|
  forall_drop_step opsA opsA_length 112 (by decide) (keeps_one rfl (by decide +kernel)) <|
  forall_drop_step opsA opsA_length 113 (by decide) (keeps_one rfl (by decide +kernel)) <|
  forall_drop_step opsA opsA_length 114 (by decide) (keeps_one rfl (by decide +kernel)) <|
  forall_drop_step opsA opsA_length 115 (by decide) (keeps_one rfl (by decide +kernel)) <|
  forall_drop_step opsA opsA_length 116 (by decide) (keeps_one rfl (by decide +kernel)) <|
  forall_drop_step opsA opsA_length 117 (by decide) (keeps_one rfl (by decide +kernel)) <|
  forall_drop_step opsA opsA_length 118 (by decide) (keeps_one rfl (by decide +kernel)) <|
  forall_drop_step opsA opsA_length 119 (by decide) (keeps_one rfl (by decide +kernel)) <|
  forall_drop_step opsA opsA_length 120 (by decide) (keeps_one rfl (by decide +kernel)) <|
  forall_drop_step opsA opsA_length 121 (by decide) (keeps_one rfl (by decide +kernel)) <|
  forall_drop_step opsA opsA_length 122 (by decide) (keeps_one rfl (by decide +kernel)) <|
  forall_drop_step opsA opsA_length 123 (by decide) (keeps_one rfl (by decide +kernel)) <|
  forall_drop_step opsA opsA_length 124 (by decide) (keeps_one rfl (by decide +kernel)) <|
  forall_drop_step opsA opsA_length 125 (by decide) (keeps_one rfl (by decide +kernel)) <|
  forall_drop_step opsA opsA_length 126 (by decide) (keeps_one rfl (by decide +kernel)) <|
  forall_drop_step opsA opsA_length 127 (by decide) (keeps_one rfl (by decide +kernel)) <|
  forall_drop_step opsA opsA_length 128 (by decide) (keeps_one rfl (by decide +kernel)) <|
  forall_drop_step opsA opsA_length 129 (by decide) (keeps_one rfl (by decide +kernel)) <|
  forall_drop_step opsA opsA_length 130 (by decide) (keeps_one rfl (by decide +kernel)) <|
  forall_drop_step opsA opsA_length 131 (by decide) (keeps_one rfl (by decide +kernel)) <|
  forall_drop_step opsA opsA_length 132 (by decide) (keeps_one rfl (by decide +kernel)) <|
  forall_drop_step opsA opsA_length 133 (by decide) (keeps_one rfl (by decide +kernel)) <|
  forall_drop_step opsA opsA_length 134 (by decide) (keeps_one rfl (by decide +kernel)) <|
  forall_drop_step opsA opsA_length 135 (by decide) (keeps_one rfl (by decide +kernel)) <|
  forall_drop_step opsA opsA_length 136 (by decide) (keeps_one rfl (by decide +kernel)) <|
  forall_drop_step opsA opsA_length 137 (by decide) (keeps_one rfl (by decide +kernel)) <|
  forall_drop_step opsA opsA_length 138 (by decide) (keeps_one rfl (by decide +kernel)) <|
  forall_drop_step opsA opsA_length 139 (by decide) (keeps_one rfl (by decide +kernel)) <|
  forall_drop_step opsA opsA_length 140 (by decide) (keeps_one rfl (by decide +kernel)) <|
  forall_drop_step opsA opsA_length 141 (by decide) (keeps_one rfl (by decide +kernel)) <|
  forall_drop_step opsA opsA_length 142 (by decide) (keeps_one rfl (by decide +kernel)) <|
  forall_drop_step opsA opsA_length 143 (by decide) (keeps_one rfl (by decide +kernel)) <|
  forall_drop_step opsA opsA_length 144 (by decide) (keeps_one rfl (by decide +kernel)) <|
  forall_drop_step opsA opsA_length 145 (by decide) (keeps_one rfl (by decide +kernel)) <|
  forall_drop_step opsA opsA_length 146 (by decide) (keeps_one rfl (by decide +kernel)) <|
  forall_drop_step opsA opsA_length 147 (by decide) (keeps_one rfl (by decide +kernel)) <|
  forall_drop_step opsA opsA_length 148 (by decide) (keeps_one rfl (by decide +kernel)) <|
  forall_drop_step opsA opsA_length 149 (by decide) (keeps_one rfl (by decide +kernel)) <|
  forall_drop_step opsA opsA_length 150 (by decide) (keeps_one rfl (by decide +kernel)) <|
  forall_drop_step opsA opsA_length 151 (by decide) (keeps_one rfl (by decide +kernel)) <|
  forall_drop_step opsA opsA_length 152 (by decide) (keeps_one rfl (by decide +kernel)) <|
  forall_drop_step opsA opsA_length 153 (by decide) (keeps_one rfl (by decide +kernel)) <|
  forall_drop_step opsA opsA_length 154 (by decide) (keeps_one rfl (by decide +kernel)) <|
  forall_drop_step opsA opsA_length 155 (by decide) (keeps_one rfl (by decide +kernel)) <|
  forall_drop_step opsA opsA_length 156 (by decide) (keeps_one rfl (by decide +kernel)) <|
  forall_drop_step opsA opsA_length 157 (by decide) (keeps_one rfl (by decide +kernel)) <|
  forall_drop_step opsA opsA_length 158 (by decide) (keeps_one rfl (by decide +kernel)) <|
  forall_drop_step opsA opsA_length 159 (by decide) (keeps_one rfl (by decide +kernel)) <|
  forall_drop_step opsA opsA_length 160 (by decide) (keeps_one rfl (by decide +kernel)) <|
  forall_drop_step opsA opsA_length 161 (by decide) (keeps_one rfl (by decide +kernel)) <|
  forall_drop_step opsA opsA_length 162 (by decide) (keeps_one rfl (by decide +kernel)) <|
  forall_drop_step opsA opsA_length 163 (by decide) (keeps_one rfl (by decide +kernel)) <|
  forall_drop_step opsA opsA_length 164 (by decide) (keeps_one rfl (by decide +kernel)) <|
  forall_drop_step opsA opsA_length 165 (by decide) (keeps_one rfl (by decide +kernel)) <|
  forall_drop_step opsA opsA_length 166 (by decide) (keeps_one rfl (by decide +kernel)) <|
  forall_drop_step opsA opsA_length 167 (by decide) (keeps_one rfl (by decide +kernel)) <|
  forall_drop_step opsA opsA_length 168 (by decide) (keeps_one rfl (by decide +kernel)) <|
  forall_drop_step opsA opsA_length 169 (by decide) (keeps_one rfl (by decide +kernel)) <|
  forall_drop_step opsA opsA_length 170 (by decide) (keeps_one rfl (by decide +kernel)) <|
  forall_drop_step opsA opsA_length 171 (by decide) (keeps_one rfl (by decide +kernel)) <|
  forall_drop_step opsA opsA_length 172 (by decide) (keeps_one rfl (by decide +kernel)) <|
  forall_drop_step opsA opsA_length 173 (by decide) (keeps_one rfl (by decide +kernel)) <|
  forall_drop_step opsA opsA_length 174 (by decide) (keeps_one rfl (by decide +kernel)) <|
  forall_drop_step opsA opsA_length 175 (by decide) (keeps_one rfl (by decide +kernel)) <|
  forall_drop_step opsA opsA_length 176 (by decide) (keeps_one rfl (by decide +kernel)) <|
  forall_drop_step opsA opsA_length 177 (by decide) (keeps_one rfl (by decide +kernel)) <|
  forall_drop_step opsA opsA_length 178 (by decide) (keeps_one rfl (by decide +kernel)) <|
  forall_drop_end opsA opsA_length

theorem opsB_length : (opsB : List (HloOp τ sig (Elt F))).length = 101 := rfl

set_option maxHeartbeats 40000000 in
/-- No operation of `opsB` writes an argument array: each writes its one result, a value of the program's own. -/
theorem opsB_keeps : (opsB : List (HloOp τ sig (Elt F))).Forall fun op => ∀ r ∈ argRefs, Proc.devRef (τ := τ) .tc r ∉ op.writes :=
  show ((opsB : List (HloOp τ sig (Elt F))).drop 0).Forall _ from
  forall_drop_step opsB opsB_length 0 (by decide) (keeps_one rfl (by decide +kernel)) <|
  forall_drop_step opsB opsB_length 1 (by decide) (keeps_one rfl (by decide +kernel)) <|
  forall_drop_step opsB opsB_length 2 (by decide) (keeps_one rfl (by decide +kernel)) <|
  forall_drop_step opsB opsB_length 3 (by decide) (keeps_one rfl (by decide +kernel)) <|
  forall_drop_step opsB opsB_length 4 (by decide) (keeps_one rfl (by decide +kernel)) <|
  forall_drop_step opsB opsB_length 5 (by decide) (keeps_one rfl (by decide +kernel)) <|
  forall_drop_step opsB opsB_length 6 (by decide) (keeps_one rfl (by decide +kernel)) <|
  forall_drop_step opsB opsB_length 7 (by decide) (keeps_one rfl (by decide +kernel)) <|
  forall_drop_step opsB opsB_length 8 (by decide) (keeps_one rfl (by decide +kernel)) <|
  forall_drop_step opsB opsB_length 9 (by decide) (keeps_one rfl (by decide +kernel)) <|
  forall_drop_step opsB opsB_length 10 (by decide) (keeps_one rfl (by decide +kernel)) <|
  forall_drop_step opsB opsB_length 11 (by decide) (keeps_one rfl (by decide +kernel)) <|
  forall_drop_step opsB opsB_length 12 (by decide) (keeps_one rfl (by decide +kernel)) <|
  forall_drop_step opsB opsB_length 13 (by decide) (keeps_one rfl (by decide +kernel)) <|
  forall_drop_step opsB opsB_length 14 (by decide) (keeps_one rfl (by decide +kernel)) <|
  forall_drop_step opsB opsB_length 15 (by decide) (keeps_one rfl (by decide +kernel)) <|
  forall_drop_step opsB opsB_length 16 (by decide) (keeps_one rfl (by decide +kernel)) <|
  forall_drop_step opsB opsB_length 17 (by decide) (keeps_one rfl (by decide +kernel)) <|
  forall_drop_step opsB opsB_length 18 (by decide) (keeps_one rfl (by decide +kernel)) <|
  forall_drop_step opsB opsB_length 19 (by decide) (keeps_one rfl (by decide +kernel)) <|
  forall_drop_step opsB opsB_length 20 (by decide) (keeps_one rfl (by decide +kernel)) <|
  forall_drop_step opsB opsB_length 21 (by decide) (keeps_one rfl (by decide +kernel)) <|
  forall_drop_step opsB opsB_length 22 (by decide) (keeps_one rfl (by decide +kernel)) <|
  forall_drop_step opsB opsB_length 23 (by decide) (keeps_one rfl (by decide +kernel)) <|
  forall_drop_step opsB opsB_length 24 (by decide) (keeps_one rfl (by decide +kernel)) <|
  forall_drop_step opsB opsB_length 25 (by decide) (keeps_one rfl (by decide +kernel)) <|
  forall_drop_step opsB opsB_length 26 (by decide) (keeps_one rfl (by decide +kernel)) <|
  forall_drop_step opsB opsB_length 27 (by decide) (keeps_one rfl (by decide +kernel)) <|
  forall_drop_step opsB opsB_length 28 (by decide) (keeps_one rfl (by decide +kernel)) <|
  forall_drop_step opsB opsB_length 29 (by decide) (keeps_one rfl (by decide +kernel)) <|
  forall_drop_step opsB opsB_length 30 (by decide) (keeps_one rfl (by decide +kernel)) <|
  forall_drop_step opsB opsB_length 31 (by decide) (keeps_one rfl (by decide +kernel)) <|
  forall_drop_step opsB opsB_length 32 (by decide) (keeps_one rfl (by decide +kernel)) <|
  forall_drop_step opsB opsB_length 33 (by decide) (keeps_one rfl (by decide +kernel)) <|
  forall_drop_step opsB opsB_length 34 (by decide) (keeps_one rfl (by decide +kernel)) <|
  forall_drop_step opsB opsB_length 35 (by decide) (keeps_one rfl (by decide +kernel)) <|
  forall_drop_step opsB opsB_length 36 (by decide) (keeps_one rfl (by decide +kernel)) <|
  forall_drop_step opsB opsB_length 37 (by decide) (keeps_one rfl (by decide +kernel)) <|
  forall_drop_step opsB opsB_length 38 (by decide) (keeps_one rfl (by decide +kernel)) <|
  forall_drop_step opsB opsB_length 39 (by decide) (keeps_one rfl (by decide +kernel)) <|
  forall_drop_step opsB opsB_length 40 (by decide) (keeps_one rfl (by decide +kernel)) <|
  forall_drop_step opsB opsB_length 41 (by decide) (keeps_one rfl (by decide +kernel)) <|
  forall_drop_step opsB opsB_length 42 (by decide) (keeps_one rfl (by decide +kernel)) <|
  forall_drop_step opsB opsB_length 43 (by decide) (keeps_one rfl (by decide +kernel)) <|
  forall_drop_step opsB opsB_length 44 (by decide) (keeps_one rfl (by decide +kernel)) <|
  forall_drop_step opsB opsB_length 45 (by decide) (keeps_one rfl (by decide +kernel)) <|
  forall_drop_step opsB opsB_length 46 (by decide) (keeps_one rfl (by decide +kernel)) <|
  forall_drop_step opsB opsB_length 47 (by decide) (keeps_one rfl (by decide +kernel)) <|
  forall_drop_step opsB opsB_length 48 (by decide) (keeps_one rfl (by decide +kernel)) <|
  forall_drop_step opsB opsB_length 49 (by decide) (keeps_one rfl (by decide +kernel)) <|
  forall_drop_step opsB opsB_length 50 (by decide) (keeps_one rfl (by decide +kernel)) <|
  forall_drop_step opsB opsB_length 51 (by decide) (keeps_one rfl (by decide +kernel)) <|
  forall_drop_step opsB opsB_length 52 (by decide) (keeps_one rfl (by decide +kernel)) <|
  forall_drop_step opsB opsB_length 53 (by decide) (keeps_one rfl (by decide +kernel)) <|
  forall_drop_step opsB opsB_length 54 (by decide) (keeps_one rfl (by decide +kernel)) <|
  forall_drop_step opsB opsB_length 55 (by decide) (keeps_one rfl (by decide +kernel)) <|
  forall_drop_step opsB opsB_length 56 (by decide) (keeps_one rfl (by decide +kernel)) <|
  forall_drop_step opsB opsB_length 57 (by decide) (keeps_one rfl (by decide +kernel)) <|
  forall_drop_step opsB opsB_length 58 (by decide) (keeps_one rfl (by decide +kernel)) <|
  forall_drop_step opsB opsB_length 59 (by decide) (keeps_one rfl (by decide +kernel)) <|
  forall_drop_step opsB opsB_length 60 (by decide) (keeps_one rfl (by decide +kernel)) <|
  forall_drop_step opsB opsB_length 61 (by decide) (keeps_one rfl (by decide +kernel)) <|
  forall_drop_step opsB opsB_length 62 (by decide) (keeps_one rfl (by decide +kernel)) <|
  forall_drop_step opsB opsB_length 63 (by decide) (keeps_one rfl (by decide +kernel)) <|
  forall_drop_step opsB opsB_length 64 (by decide) (keeps_one rfl (by decide +kernel)) <|
  forall_drop_step opsB opsB_length 65 (by decide) (keeps_one rfl (by decide +kernel)) <|
  forall_drop_step opsB opsB_length 66 (by decide) (keeps_one rfl (by decide +kernel)) <|
  forall_drop_step opsB opsB_length 67 (by decide) (keeps_one rfl (by decide +kernel)) <|
  forall_drop_step opsB opsB_length 68 (by decide) (keeps_one rfl (by decide +kernel)) <|
  forall_drop_step opsB opsB_length 69 (by decide) (keeps_one rfl (by decide +kernel)) <|
  forall_drop_step opsB opsB_length 70 (by decide) (keeps_one rfl (by decide +kernel)) <|
  forall_drop_step opsB opsB_length 71 (by decide) (keeps_one rfl (by decide +kernel)) <|
  forall_drop_step opsB opsB_length 72 (by decide) (keeps_one rfl (by decide +kernel)) <|
  forall_drop_step opsB opsB_length 73 (by decide) (keeps_one rfl (by decide +kernel)) <|
  forall_drop_step opsB opsB_length 74 (by decide) (keeps_one rfl (by decide +kernel)) <|
  forall_drop_step opsB opsB_length 75 (by decide) (keeps_one rfl (by decide +kernel)) <|
  forall_drop_step opsB opsB_length 76 (by decide) (keeps_one rfl (by decide +kernel)) <|
  forall_drop_step opsB opsB_length 77 (by decide) (keeps_one rfl (by decide +kernel)) <|
  forall_drop_step opsB opsB_length 78 (by decide) (keeps_one rfl (by decide +kernel)) <|
  forall_drop_step opsB opsB_length 79 (by decide) (keeps_one rfl (by decide +kernel)) <|
  forall_drop_step opsB opsB_length 80 (by decide) (keeps_one rfl (by decide +kernel)) <|
  forall_drop_step opsB opsB_length 81 (by decide) (keeps_one rfl (by decide +kernel)) <|
  forall_drop_step opsB opsB_length 82 (by decide) (keeps_one rfl (by decide +kernel)) <|
  forall_drop_step opsB opsB_length 83 (by decide) (keeps_one rfl (by decide +kernel)) <|
  forall_drop_step opsB opsB_length 84 (by decide) (keeps_one rfl (by decide +kernel)) <|
  forall_drop_step opsB opsB_length 85 (by decide) (keeps_one rfl (by decide +kernel)) <|
  forall_drop_step opsB opsB_length 86 (by decide) (keeps_one rfl (by decide +kernel)) <|
  forall_drop_step opsB opsB_length 87 (by decide) (keeps_one rfl (by decide +kernel)) <|
  forall_drop_step opsB opsB_length 88 (by decide) (keeps_one rfl (by decide +kernel)) <|
  forall_drop_step opsB opsB_length 89 (by decide) (keeps_one rfl (by decide +kernel)) <|
  forall_drop_step opsB opsB_length 90 (by decide) (keeps_one rfl (by decide +kernel)) <|
  forall_drop_step opsB opsB_length 91 (by decide) (keeps_one rfl (by decide +kernel)) <|
  forall_drop_step opsB opsB_length 92 (by decide) (keeps_one rfl (by decide +kernel)) <|
  forall_drop_step opsB opsB_length 93 (by decide) (keeps_one rfl (by decide +kernel)) <|
  forall_drop_step opsB opsB_length 94 (by decide) (keeps_one rfl (by decide +kernel)) <|
  forall_drop_step opsB opsB_length 95 (by decide) (keeps_one rfl (by decide +kernel)) <|
  forall_drop_step opsB opsB_length 96 (by decide) (keeps_one rfl (by decide +kernel)) <|
  forall_drop_step opsB opsB_length 97 (by decide) (keeps_one rfl (by decide +kernel)) <|
  forall_drop_step opsB opsB_length 98 (by decide) (keeps_one rfl (by decide +kernel)) <|
  forall_drop_step opsB opsB_length 99 (by decide) (keeps_one rfl (by decide +kernel)) <|
  forall_drop_step opsB opsB_length 100 (by decide) (keeps_one rfl (by decide +kernel)) <|
  forall_drop_end opsB opsB_length

theorem opsC_length : (opsC : List (HloOp τ sig (Elt F))).length = 102 := rfl

set_option maxHeartbeats 40000000 in
/-- No operation of `opsC` writes an argument array: each writes its one result, a value of the program's own. -/
theorem opsC_keeps : (opsC : List (HloOp τ sig (Elt F))).Forall fun op => ∀ r ∈ argRefs, Proc.devRef (τ := τ) .tc r ∉ op.writes :=
  show ((opsC : List (HloOp τ sig (Elt F))).drop 0).Forall _ from
  forall_drop_step opsC opsC_length 0 (by decide) (keeps_one rfl (by decide +kernel)) <|
  forall_drop_step opsC opsC_length 1 (by decide) (keeps_one rfl (by decide +kernel)) <|
  forall_drop_step opsC opsC_length 2 (by decide) (keeps_one rfl (by decide +kernel)) <|
  forall_drop_step opsC opsC_length 3 (by decide) (keeps_one rfl (by decide +kernel)) <|
  forall_drop_step opsC opsC_length 4 (by decide) (keeps_one rfl (by decide +kernel)) <|
  forall_drop_step opsC opsC_length 5 (by decide) (keeps_one rfl (by decide +kernel)) <|
  forall_drop_step opsC opsC_length 6 (by decide) (keeps_one rfl (by decide +kernel)) <|
  forall_drop_step opsC opsC_length 7 (by decide) (keeps_one rfl (by decide +kernel)) <|
  forall_drop_step opsC opsC_length 8 (by decide) (keeps_one rfl (by decide +kernel)) <|
  forall_drop_step opsC opsC_length 9 (by decide) (keeps_one rfl (by decide +kernel)) <|
  forall_drop_step opsC opsC_length 10 (by decide) (keeps_one rfl (by decide +kernel)) <|
  forall_drop_step opsC opsC_length 11 (by decide) (keeps_one rfl (by decide +kernel)) <|
  forall_drop_step opsC opsC_length 12 (by decide) (keeps_one rfl (by decide +kernel)) <|
  forall_drop_step opsC opsC_length 13 (by decide) (keeps_one rfl (by decide +kernel)) <|
  forall_drop_step opsC opsC_length 14 (by decide) (keeps_one rfl (by decide +kernel)) <|
  forall_drop_step opsC opsC_length 15 (by decide) (keeps_one rfl (by decide +kernel)) <|
  forall_drop_step opsC opsC_length 16 (by decide) (keeps_one rfl (by decide +kernel)) <|
  forall_drop_step opsC opsC_length 17 (by decide) (keeps_one rfl (by decide +kernel)) <|
  forall_drop_step opsC opsC_length 18 (by decide) (keeps_one rfl (by decide +kernel)) <|
  forall_drop_step opsC opsC_length 19 (by decide) (keeps_one rfl (by decide +kernel)) <|
  forall_drop_step opsC opsC_length 20 (by decide) (keeps_one rfl (by decide +kernel)) <|
  forall_drop_step opsC opsC_length 21 (by decide) (keeps_one rfl (by decide +kernel)) <|
  forall_drop_step opsC opsC_length 22 (by decide) (keeps_one rfl (by decide +kernel)) <|
  forall_drop_step opsC opsC_length 23 (by decide) (keeps_one rfl (by decide +kernel)) <|
  forall_drop_step opsC opsC_length 24 (by decide) (keeps_one rfl (by decide +kernel)) <|
  forall_drop_step opsC opsC_length 25 (by decide) (keeps_one rfl (by decide +kernel)) <|
  forall_drop_step opsC opsC_length 26 (by decide) (keeps_one rfl (by decide +kernel)) <|
  forall_drop_step opsC opsC_length 27 (by decide) (keeps_one rfl (by decide +kernel)) <|
  forall_drop_step opsC opsC_length 28 (by decide) (keeps_one rfl (by decide +kernel)) <|
  forall_drop_step opsC opsC_length 29 (by decide) (keeps_one rfl (by decide +kernel)) <|
  forall_drop_step opsC opsC_length 30 (by decide) (keeps_one rfl (by decide +kernel)) <|
  forall_drop_step opsC opsC_length 31 (by decide) (keeps_one rfl (by decide +kernel)) <|
  forall_drop_step opsC opsC_length 32 (by decide) (keeps_one rfl (by decide +kernel)) <|
  forall_drop_step opsC opsC_length 33 (by decide) (keeps_one rfl (by decide +kernel)) <|
  forall_drop_step opsC opsC_length 34 (by decide) (keeps_one rfl (by decide +kernel)) <|
  forall_drop_step opsC opsC_length 35 (by decide) (keeps_one rfl (by decide +kernel)) <|
  forall_drop_step opsC opsC_length 36 (by decide) (keeps_one rfl (by decide +kernel)) <|
  forall_drop_step opsC opsC_length 37 (by decide) (keeps_one rfl (by decide +kernel)) <|
  forall_drop_step opsC opsC_length 38 (by decide) (keeps_one rfl (by decide +kernel)) <|
  forall_drop_step opsC opsC_length 39 (by decide) (keeps_one rfl (by decide +kernel)) <|
  forall_drop_step opsC opsC_length 40 (by decide) (keeps_one rfl (by decide +kernel)) <|
  forall_drop_step opsC opsC_length 41 (by decide) (keeps_one rfl (by decide +kernel)) <|
  forall_drop_step opsC opsC_length 42 (by decide) (keeps_one rfl (by decide +kernel)) <|
  forall_drop_step opsC opsC_length 43 (by decide) (keeps_one rfl (by decide +kernel)) <|
  forall_drop_step opsC opsC_length 44 (by decide) (keeps_one rfl (by decide +kernel)) <|
  forall_drop_step opsC opsC_length 45 (by decide) (keeps_one rfl (by decide +kernel)) <|
  forall_drop_step opsC opsC_length 46 (by decide) (keeps_one rfl (by decide +kernel)) <|
  forall_drop_step opsC opsC_length 47 (by decide) (keeps_one rfl (by decide +kernel)) <|
  forall_drop_step opsC opsC_length 48 (by decide) (keeps_one rfl (by decide +kernel)) <|
  forall_drop_step opsC opsC_length 49 (by decide) (keeps_one rfl (by decide +kernel)) <|
  forall_drop_step opsC opsC_length 50 (by decide) (keeps_one rfl (by decide +kernel)) <|
  forall_drop_step opsC opsC_length 51 (by decide) (keeps_one rfl (by decide +kernel)) <|
  forall_drop_step opsC opsC_length 52 (by decide) (keeps_one rfl (by decide +kernel)) <|
  forall_drop_step opsC opsC_length 53 (by decide) (keeps_one rfl (by decide +kernel)) <|
  forall_drop_step opsC opsC_length 54 (by decide) (keeps_one rfl (by decide +kernel)) <|
  forall_drop_step opsC opsC_length 55 (by decide) (keeps_one rfl (by decide +kernel)) <|
  forall_drop_step opsC opsC_length 56 (by decide) (keeps_one rfl (by decide +kernel)) <|
  forall_drop_step opsC opsC_length 57 (by decide) (keeps_one rfl (by decide +kernel)) <|
  forall_drop_step opsC opsC_length 58 (by decide) (keeps_one rfl (by decide +kernel)) <|
  forall_drop_step opsC opsC_length 59 (by decide) (keeps_one rfl (by decide +kernel)) <|
  forall_drop_step opsC opsC_length 60 (by decide) (keeps_one rfl (by decide +kernel)) <|
  forall_drop_step opsC opsC_length 61 (by decide) (keeps_one rfl (by decide +kernel)) <|
  forall_drop_step opsC opsC_length 62 (by decide) (keeps_one rfl (by decide +kernel)) <|
  forall_drop_step opsC opsC_length 63 (by decide) (keeps_one rfl (by decide +kernel)) <|
  forall_drop_step opsC opsC_length 64 (by decide) (keeps_one rfl (by decide +kernel)) <|
  forall_drop_step opsC opsC_length 65 (by decide) (keeps_one rfl (by decide +kernel)) <|
  forall_drop_step opsC opsC_length 66 (by decide) (keeps_one rfl (by decide +kernel)) <|
  forall_drop_step opsC opsC_length 67 (by decide) (keeps_one rfl (by decide +kernel)) <|
  forall_drop_step opsC opsC_length 68 (by decide) (keeps_one rfl (by decide +kernel)) <|
  forall_drop_step opsC opsC_length 69 (by decide) (keeps_one rfl (by decide +kernel)) <|
  forall_drop_step opsC opsC_length 70 (by decide) (keeps_one rfl (by decide +kernel)) <|
  forall_drop_step opsC opsC_length 71 (by decide) (keeps_one rfl (by decide +kernel)) <|
  forall_drop_step opsC opsC_length 72 (by decide) (keeps_one rfl (by decide +kernel)) <|
  forall_drop_step opsC opsC_length 73 (by decide) (keeps_one rfl (by decide +kernel)) <|
  forall_drop_step opsC opsC_length 74 (by decide) (keeps_one rfl (by decide +kernel)) <|
  forall_drop_step opsC opsC_length 75 (by decide) (keeps_one rfl (by decide +kernel)) <|
  forall_drop_step opsC opsC_length 76 (by decide) (keeps_one rfl (by decide +kernel)) <|
  forall_drop_step opsC opsC_length 77 (by decide) (keeps_one rfl (by decide +kernel)) <|
  forall_drop_step opsC opsC_length 78 (by decide) (keeps_one rfl (by decide +kernel)) <|
  forall_drop_step opsC opsC_length 79 (by decide) (keeps_one rfl (by decide +kernel)) <|
  forall_drop_step opsC opsC_length 80 (by decide) (keeps_one rfl (by decide +kernel)) <|
  forall_drop_step opsC opsC_length 81 (by decide) (keeps_one rfl (by decide +kernel)) <|
  forall_drop_step opsC opsC_length 82 (by decide) (keeps_one rfl (by decide +kernel)) <|
  forall_drop_step opsC opsC_length 83 (by decide) (keeps_one rfl (by decide +kernel)) <|
  forall_drop_step opsC opsC_length 84 (by decide) (keeps_one rfl (by decide +kernel)) <|
  forall_drop_step opsC opsC_length 85 (by decide) (keeps_one rfl (by decide +kernel)) <|
  forall_drop_step opsC opsC_length 86 (by decide) (keeps_one rfl (by decide +kernel)) <|
  forall_drop_step opsC opsC_length 87 (by decide) (keeps_one rfl (by decide +kernel)) <|
  forall_drop_step opsC opsC_length 88 (by decide) (keeps_one rfl (by decide +kernel)) <|
  forall_drop_step opsC opsC_length 89 (by decide) (keeps_one rfl (by decide +kernel)) <|
  forall_drop_step opsC opsC_length 90 (by decide) (keeps_one rfl (by decide +kernel)) <|
  forall_drop_step opsC opsC_length 91 (by decide) (keeps_one rfl (by decide +kernel)) <|
  forall_drop_step opsC opsC_length 92 (by decide) (keeps_one rfl (by decide +kernel)) <|
  forall_drop_step opsC opsC_length 93 (by decide) (keeps_one rfl (by decide +kernel)) <|
  forall_drop_step opsC opsC_length 94 (by decide) (keeps_one rfl (by decide +kernel)) <|
  forall_drop_step opsC opsC_length 95 (by decide) (keeps_one rfl (by decide +kernel)) <|
  forall_drop_step opsC opsC_length 96 (by decide) (keeps_one rfl (by decide +kernel)) <|
  forall_drop_step opsC opsC_length 97 (by decide) (keeps_one rfl (by decide +kernel)) <|
  forall_drop_step opsC opsC_length 98 (by decide) (keeps_one rfl (by decide +kernel)) <|
  forall_drop_step opsC opsC_length 99 (by decide) (keeps_one rfl (by decide +kernel)) <|
  forall_drop_step opsC opsC_length 100 (by decide) (keeps_one rfl (by decide +kernel)) <|
  forall_drop_step opsC opsC_length 101 (by decide) (keeps_one rfl (by decide +kernel)) <|
  forall_drop_end opsC opsC_length

theorem opsD_length : (opsD : List (HloOp τ sig (Elt F))).length = 101 := rfl

set_option maxHeartbeats 40000000 in
/-- No operation of `opsD` writes an argument array: each writes its one result, a value of the program's own. -/
theorem opsD_keeps : (opsD : List (HloOp τ sig (Elt F))).Forall fun op => ∀ r ∈ argRefs, Proc.devRef (τ := τ) .tc r ∉ op.writes :=
  show ((opsD : List (HloOp τ sig (Elt F))).drop 0).Forall _ from
  forall_drop_step opsD opsD_length 0 (by decide) (keeps_one rfl (by decide +kernel)) <|
  forall_drop_step opsD opsD_length 1 (by decide) (keeps_one rfl (by decide +kernel)) <|
  forall_drop_step opsD opsD_length 2 (by decide) (keeps_one rfl (by decide +kernel)) <|
  forall_drop_step opsD opsD_length 3 (by decide) (keeps_one rfl (by decide +kernel)) <|
  forall_drop_step opsD opsD_length 4 (by decide) (keeps_one rfl (by decide +kernel)) <|
  forall_drop_step opsD opsD_length 5 (by decide) (keeps_one rfl (by decide +kernel)) <|
  forall_drop_step opsD opsD_length 6 (by decide) (keeps_one rfl (by decide +kernel)) <|
  forall_drop_step opsD opsD_length 7 (by decide) (keeps_one rfl (by decide +kernel)) <|
  forall_drop_step opsD opsD_length 8 (by decide) (keeps_one rfl (by decide +kernel)) <|
  forall_drop_step opsD opsD_length 9 (by decide) (keeps_one rfl (by decide +kernel)) <|
  forall_drop_step opsD opsD_length 10 (by decide) (keeps_one rfl (by decide +kernel)) <|
  forall_drop_step opsD opsD_length 11 (by decide) (keeps_one rfl (by decide +kernel)) <|
  forall_drop_step opsD opsD_length 12 (by decide) (keeps_one rfl (by decide +kernel)) <|
  forall_drop_step opsD opsD_length 13 (by decide) (keeps_one rfl (by decide +kernel)) <|
  forall_drop_step opsD opsD_length 14 (by decide) (keeps_one rfl (by decide +kernel)) <|
  forall_drop_step opsD opsD_length 15 (by decide) (keeps_one rfl (by decide +kernel)) <|
  forall_drop_step opsD opsD_length 16 (by decide) (keeps_one rfl (by decide +kernel)) <|
  forall_drop_step opsD opsD_length 17 (by decide) (keeps_one rfl (by decide +kernel)) <|
  forall_drop_step opsD opsD_length 18 (by decide) (keeps_one rfl (by decide +kernel)) <|
  forall_drop_step opsD opsD_length 19 (by decide) (keeps_one rfl (by decide +kernel)) <|
  forall_drop_step opsD opsD_length 20 (by decide) (keeps_one rfl (by decide +kernel)) <|
  forall_drop_step opsD opsD_length 21 (by decide) (keeps_one rfl (by decide +kernel)) <|
  forall_drop_step opsD opsD_length 22 (by decide) (keeps_one rfl (by decide +kernel)) <|
  forall_drop_step opsD opsD_length 23 (by decide) (keeps_one rfl (by decide +kernel)) <|
  forall_drop_step opsD opsD_length 24 (by decide) (keeps_one rfl (by decide +kernel)) <|
  forall_drop_step opsD opsD_length 25 (by decide) (keeps_one rfl (by decide +kernel)) <|
  forall_drop_step opsD opsD_length 26 (by decide) (keeps_one rfl (by decide +kernel)) <|
  forall_drop_step opsD opsD_length 27 (by decide) (keeps_one rfl (by decide +kernel)) <|
  forall_drop_step opsD opsD_length 28 (by decide) (keeps_one rfl (by decide +kernel)) <|
  forall_drop_step opsD opsD_length 29 (by decide) (keeps_one rfl (by decide +kernel)) <|
  forall_drop_step opsD opsD_length 30 (by decide) (keeps_one rfl (by decide +kernel)) <|
  forall_drop_step opsD opsD_length 31 (by decide) (keeps_one rfl (by decide +kernel)) <|
  forall_drop_step opsD opsD_length 32 (by decide) (keeps_one rfl (by decide +kernel)) <|
  forall_drop_step opsD opsD_length 33 (by decide) (keeps_one rfl (by decide +kernel)) <|
  forall_drop_step opsD opsD_length 34 (by decide) (keeps_one rfl (by decide +kernel)) <|
  forall_drop_step opsD opsD_length 35 (by decide) (keeps_one rfl (by decide +kernel)) <|
  forall_drop_step opsD opsD_length 36 (by decide) (keeps_one rfl (by decide +kernel)) <|
  forall_drop_step opsD opsD_length 37 (by decide) (keeps_one rfl (by decide +kernel)) <|
  forall_drop_step opsD opsD_length 38 (by decide) (keeps_one rfl (by decide +kernel)) <|
  forall_drop_step opsD opsD_length 39 (by decide) (keeps_one rfl (by decide +kernel)) <|
  forall_drop_step opsD opsD_length 40 (by decide) (keeps_one rfl (by decide +kernel)) <|
  forall_drop_step opsD opsD_length 41 (by decide) (keeps_one rfl (by decide +kernel)) <|
  forall_drop_step opsD opsD_length 42 (by decide) (keeps_one rfl (by decide +kernel)) <|
  forall_drop_step opsD opsD_length 43 (by decide) (keeps_one rfl (by decide +kernel)) <|
  forall_drop_step opsD opsD_length 44 (by decide) (keeps_one rfl (by decide +kernel)) <|
  forall_drop_step opsD opsD_length 45 (by decide) (keeps_one rfl (by decide +kernel)) <|
  forall_drop_step opsD opsD_length 46 (by decide) (keeps_one rfl (by decide +kernel)) <|
  forall_drop_step opsD opsD_length 47 (by decide) (keeps_one rfl (by decide +kernel)) <|
  forall_drop_step opsD opsD_length 48 (by decide) (keeps_one rfl (by decide +kernel)) <|
  forall_drop_step opsD opsD_length 49 (by decide) (keeps_one rfl (by decide +kernel)) <|
  forall_drop_step opsD opsD_length 50 (by decide) (keeps_one rfl (by decide +kernel)) <|
  forall_drop_step opsD opsD_length 51 (by decide) (keeps_one rfl (by decide +kernel)) <|
  forall_drop_step opsD opsD_length 52 (by decide) (keeps_one rfl (by decide +kernel)) <|
  forall_drop_step opsD opsD_length 53 (by decide) (keeps_one rfl (by decide +kernel)) <|
  forall_drop_step opsD opsD_length 54 (by decide) (keeps_one rfl (by decide +kernel)) <|
  forall_drop_step opsD opsD_length 55 (by decide) (keeps_one rfl (by decide +kernel)) <|
  forall_drop_step opsD opsD_length 56 (by decide) (keeps_one rfl (by decide +kernel)) <|
  forall_drop_step opsD opsD_length 57 (by decide) (keeps_one rfl (by decide +kernel)) <|
  forall_drop_step opsD opsD_length 58 (by decide) (keeps_one rfl (by decide +kernel)) <|
  forall_drop_step opsD opsD_length 59 (by decide) (keeps_one rfl (by decide +kernel)) <|
  forall_drop_step opsD opsD_length 60 (by decide) (keeps_one rfl (by decide +kernel)) <|
  forall_drop_step opsD opsD_length 61 (by decide) (keeps_one rfl (by decide +kernel)) <|
  forall_drop_step opsD opsD_length 62 (by decide) (keeps_one rfl (by decide +kernel)) <|
  forall_drop_step opsD opsD_length 63 (by decide) (keeps_one rfl (by decide +kernel)) <|
  forall_drop_step opsD opsD_length 64 (by decide) (keeps_one rfl (by decide +kernel)) <|
  forall_drop_step opsD opsD_length 65 (by decide) (keeps_one rfl (by decide +kernel)) <|
  forall_drop_step opsD opsD_length 66 (by decide) (keeps_one rfl (by decide +kernel)) <|
  forall_drop_step opsD opsD_length 67 (by decide) (keeps_one rfl (by decide +kernel)) <|
  forall_drop_step opsD opsD_length 68 (by decide) (keeps_one rfl (by decide +kernel)) <|
  forall_drop_step opsD opsD_length 69 (by decide) (keeps_one rfl (by decide +kernel)) <|
  forall_drop_step opsD opsD_length 70 (by decide) (keeps_one rfl (by decide +kernel)) <|
  forall_drop_step opsD opsD_length 71 (by decide) (keeps_one rfl (by decide +kernel)) <|
  forall_drop_step opsD opsD_length 72 (by decide) (keeps_one rfl (by decide +kernel)) <|
  forall_drop_step opsD opsD_length 73 (by decide) (keeps_one rfl (by decide +kernel)) <|
  forall_drop_step opsD opsD_length 74 (by decide) (keeps_one rfl (by decide +kernel)) <|
  forall_drop_step opsD opsD_length 75 (by decide) (keeps_one rfl (by decide +kernel)) <|
  forall_drop_step opsD opsD_length 76 (by decide) (keeps_one rfl (by decide +kernel)) <|
  forall_drop_step opsD opsD_length 77 (by decide) (keeps_one rfl (by decide +kernel)) <|
  forall_drop_step opsD opsD_length 78 (by decide) (keeps_one rfl (by decide +kernel)) <|
  forall_drop_step opsD opsD_length 79 (by decide) (keeps_one rfl (by decide +kernel)) <|
  forall_drop_step opsD opsD_length 80 (by decide) (keeps_one rfl (by decide +kernel)) <|
  forall_drop_step opsD opsD_length 81 (by decide) (keeps_one rfl (by decide +kernel)) <|
  forall_drop_step opsD opsD_length 82 (by decide) (keeps_one rfl (by decide +kernel)) <|
  forall_drop_step opsD opsD_length 83 (by decide) (keeps_one rfl (by decide +kernel)) <|
  forall_drop_step opsD opsD_length 84 (by decide) (keeps_one rfl (by decide +kernel)) <|
  forall_drop_step opsD opsD_length 85 (by decide) (keeps_one rfl (by decide +kernel)) <|
  forall_drop_step opsD opsD_length 86 (by decide) (keeps_one rfl (by decide +kernel)) <|
  forall_drop_step opsD opsD_length 87 (by decide) (keeps_one rfl (by decide +kernel)) <|
  forall_drop_step opsD opsD_length 88 (by decide) (keeps_one rfl (by decide +kernel)) <|
  forall_drop_step opsD opsD_length 89 (by decide) (keeps_one rfl (by decide +kernel)) <|
  forall_drop_step opsD opsD_length 90 (by decide) (keeps_one rfl (by decide +kernel)) <|
  forall_drop_step opsD opsD_length 91 (by decide) (keeps_one rfl (by decide +kernel)) <|
  forall_drop_step opsD opsD_length 92 (by decide) (keeps_one rfl (by decide +kernel)) <|
  forall_drop_step opsD opsD_length 93 (by decide) (keeps_one rfl (by decide +kernel)) <|
  forall_drop_step opsD opsD_length 94 (by decide) (keeps_one rfl (by decide +kernel)) <|
  forall_drop_step opsD opsD_length 95 (by decide) (keeps_one rfl (by decide +kernel)) <|
  forall_drop_step opsD opsD_length 96 (by decide) (keeps_one rfl (by decide +kernel)) <|
  forall_drop_step opsD opsD_length 97 (by decide) (keeps_one rfl (by decide +kernel)) <|
  forall_drop_step opsD opsD_length 98 (by decide) (keeps_one rfl (by decide +kernel)) <|
  forall_drop_step opsD opsD_length 99 (by decide) (keeps_one rfl (by decide +kernel)) <|
  forall_drop_step opsD opsD_length 100 (by decide) (keeps_one rfl (by decide +kernel)) <|
  forall_drop_end opsD opsD_length

theorem opsE_length : (opsE : List (HloOp τ sig (Elt F))).length = 36 := rfl

set_option maxHeartbeats 40000000 in
/-- No operation of `opsE` writes an argument array: each writes its one result, a value of the program's own. -/
theorem opsE_keeps : (opsE : List (HloOp τ sig (Elt F))).Forall fun op => ∀ r ∈ argRefs, Proc.devRef (τ := τ) .tc r ∉ op.writes :=
  show ((opsE : List (HloOp τ sig (Elt F))).drop 0).Forall _ from
  forall_drop_step opsE opsE_length 0 (by decide) (keeps_one rfl (by decide +kernel)) <|
  forall_drop_step opsE opsE_length 1 (by decide) (keeps_one rfl (by decide +kernel)) <|
  forall_drop_step opsE opsE_length 2 (by decide) (keeps_one rfl (by decide +kernel)) <|
  forall_drop_step opsE opsE_length 3 (by decide) (keeps_one rfl (by decide +kernel)) <|
  forall_drop_step opsE opsE_length 4 (by decide) (keeps_one rfl (by decide +kernel)) <|
  forall_drop_step opsE opsE_length 5 (by decide) (keeps_one rfl (by decide +kernel)) <|
  forall_drop_step opsE opsE_length 6 (by decide) (keeps_one rfl (by decide +kernel)) <|
  forall_drop_step opsE opsE_length 7 (by decide) (keeps_one rfl (by decide +kernel)) <|
  forall_drop_step opsE opsE_length 8 (by decide) (keeps_one rfl (by decide +kernel)) <|
  forall_drop_step opsE opsE_length 9 (by decide) (keeps_one rfl (by decide +kernel)) <|
  forall_drop_step opsE opsE_length 10 (by decide) (keeps_one rfl (by decide +kernel)) <|
  forall_drop_step opsE opsE_length 11 (by decide) (keeps_one rfl (by decide +kernel)) <|
  forall_drop_step opsE opsE_length 12 (by decide) (keeps_one rfl (by decide +kernel)) <|
  forall_drop_step opsE opsE_length 13 (by decide) (keeps_one rfl (by decide +kernel)) <|
  forall_drop_step opsE opsE_length 14 (by decide) (keeps_one rfl (by decide +kernel)) <|
  forall_drop_step opsE opsE_length 15 (by decide) (keeps_one rfl (by decide +kernel)) <|
  forall_drop_step opsE opsE_length 16 (by decide) (keeps_one rfl (by decide +kernel)) <|
  forall_drop_step opsE opsE_length 17 (by decide) (keeps_one rfl (by decide +kernel)) <|
  forall_drop_step opsE opsE_length 18 (by decide) (keeps_one rfl (by decide +kernel)) <|
  forall_drop_step opsE opsE_length 19 (by decide) (keeps_one rfl (by decide +kernel)) <|
  forall_drop_step opsE opsE_length 20 (by decide) (keeps_one rfl (by decide +kernel)) <|
  forall_drop_step opsE opsE_length 21 (by decide) (keeps_one rfl (by decide +kernel)) <|
  forall_drop_step opsE opsE_length 22 (by decide) (keeps_one rfl (by decide +kernel)) <|
  forall_drop_step opsE opsE_length 23 (by decide) (keeps_one rfl (by decide +kernel)) <|
  forall_drop_step opsE opsE_length 24 (by decide) (keeps_one rfl (by decide +kernel)) <|
  forall_drop_step opsE opsE_length 25 (by decide) (keeps_one rfl (by decide +kernel)) <|
  forall_drop_step opsE opsE_length 26 (by decide) (keeps_one rfl (by decide +kernel)) <|
  forall_drop_step opsE opsE_length 27 (by decide) (keeps_one rfl (by decide +kernel)) <|
  forall_drop_step opsE opsE_length 28 (by decide) (keeps_one rfl (by decide +kernel)) <|
  forall_drop_step opsE opsE_length 29 (by decide) (keeps_one rfl (by decide +kernel)) <|
  forall_drop_step opsE opsE_length 30 (by decide) (keeps_one rfl (by decide +kernel)) <|
  forall_drop_step opsE opsE_length 31 (by decide) (keeps_one rfl (by decide +kernel)) <|
  forall_drop_step opsE opsE_length 32 (by decide) (keeps_one rfl (by decide +kernel)) <|
  forall_drop_step opsE opsE_length 33 (by decide) (keeps_one rfl (by decide +kernel)) <|
  forall_drop_step opsE opsE_length 34 (by decide) (keeps_one rfl (by decide +kernel)) <|
  forall_drop_step opsE opsE_length 35 (by decide) (keeps_one rfl (by decide +kernel)) <|
  forall_drop_end opsE opsE_length

variable (m : (ℓ : Loc nD τ sig) → Buf (Elt F) ℓ)

/-! ## Every argument array holds its launch contents after each of the five lists -/

theorem U0_arg (d : Dev nD) {r : Ref sig .tc} (hr : r ∈ argRefs) :
    U0 m d (Proc.devRef .tc r) = m ((d.tc : Thread nD τ).loc r) := rfl
theorem UA_arg (d : Dev nD) {r : Ref sig .tc} (hr : r ∈ argRefs) :
    UA m d (Proc.devRef .tc r) = m ((d.tc : Thread nD τ).loc r) :=
  (after_keeps argRefs opsA_keeps _ hr).trans (U0_arg m d hr)
theorem UB_arg (d : Dev nD) {r : Ref sig .tc} (hr : r ∈ argRefs) :
    UB m d (Proc.devRef .tc r) = m ((d.tc : Thread nD τ).loc r) :=
  (after_keeps argRefs opsB_keeps _ hr).trans (UA_arg m d hr)
theorem UC_arg (d : Dev nD) {r : Ref sig .tc} (hr : r ∈ argRefs) :
    UC m d (Proc.devRef .tc r) = m ((d.tc : Thread nD τ).loc r) :=
  (after_keeps argRefs opsC_keeps _ hr).trans (UB_arg m d hr)
theorem UD_arg (d : Dev nD) {r : Ref sig .tc} (hr : r ∈ argRefs) :
    UD m d (Proc.devRef .tc r) = m ((d.tc : Thread nD τ).loc r) :=
  (after_keeps argRefs opsD_keeps _ hr).trans (UC_arg m d hr)
theorem UE_arg (d : Dev nD) {r : Ref sig .tc} (hr : r ∈ argRefs) :
    UE m d (Proc.devRef .tc r) = m ((d.tc : Thread nD τ).loc r) :=
  (after_keeps argRefs opsE_keeps _ hr).trans (UD_arg m d hr)

/-- The frame: every final state of the reference's @main has the thirteen argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12)) :=
  (θ_run defs _ _).mono (fun r h c =>
    ⟨(h c main_arg0).trans (UE_arg m c (by decide)),
     (h c main_arg1).trans (UE_arg m c (by decide)),
     (h c main_arg2).trans (UE_arg m c (by decide)),
     (h c main_arg3).trans (UE_arg m c (by decide)),
     (h c main_arg4).trans (UE_arg m c (by decide)),
     (h c main_arg5).trans (UE_arg m c (by decide)),
     (h c main_arg6).trans (UE_arg m c (by decide)),
     (h c main_arg7).trans (UE_arg m c (by decide)),
     (h c main_arg8).trans (UE_arg m c (by decide)),
     (h c main_arg9).trans (UE_arg m c (by decide)),
     (h c main_arg10).trans (UE_arg m c (by decide)),
     (h c main_arg11).trans (UE_arg m c (by decide)),
     (h c main_arg12).trans (UE_arg m c (by decide))⟩) (run_raw m ρ)

end Cert.ReferenceIdeal.RefRun

end
-- ==== Proof.KIArgs.lean ====
import proofs.«137322_j45767171506782_1_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! # Every argument array holds its launch contents at every segment boundary

No host stretch writes an argument array and no region has one as a window's array, so the fold at an argument's
buffer is the launch memory at each boundary, one step at a time from the launch. -/

theorem W0_arg (c : Dev nD) {r : Ref sig .tc} (hr : r ∈ argRefs) :
    W0 m ρ c (Proc.devRef .tc r) = m ((c : Thread nD τ).loc r) := rfl
theorem W1_arg (c : Dev nD) {r : Ref sig .tc} (hr : r ∈ argRefs) :
    W1 m ρ c (Proc.devRef .tc r) = m ((c : Thread nD τ).loc r) :=
  (after_keeps argRefs hostOps0_keeps _ hr).trans (W0_arg m ρ c hr)
theorem W2_arg (c : Dev nD) {r : Ref sig .tc} (hr : r ∈ argRefs) :
    W2 m ρ c (Proc.devRef .tc r) = m ((c : Thread nD τ).loc r) :=
  (after_keeps argRefs hostOps0_1_keeps _ hr).trans (W1_arg m ρ c hr)
theorem W3_arg (c : Dev nD) {r : Ref sig .tc} (hr : r ∈ argRefs) :
    W3 m ρ c (Proc.devRef .tc r) = m ((c : Thread nD τ).loc r) :=
  (after_keeps argRefs hostOps0_2_keeps _ hr).trans (W2_arg m ρ c hr)
theorem W4_arg (c : Dev nD) {r : Ref sig .tc} (hr : r ∈ argRefs) :
    W4 m ρ c (Proc.devRef .tc r) = m ((c : Thread nD τ).loc r) :=
  (after_keeps argRefs hostOps0_3_keeps _ hr).trans (W3_arg m ρ c hr)
theorem W5_arg (c : Dev nD) {r : Ref sig .tc} (hr : r ∈ argRefs) :
    W5 m ρ c (Proc.devRef .tc r) = m ((c : Thread nD τ).loc r) :=
  (after_keeps argRefs hostOps0_4_keeps _ hr).trans (W4_arg m ρ c hr)
theorem W6_arg (c : Dev nD) {r : Ref sig .tc} (hr : r ∈ argRefs) :
    W6 m ρ c (Proc.devRef .tc r) = m ((c : Thread nD τ).loc r) :=
  (W6_of_ne m ρ c r (args_not_win0 r hr)).trans (W5_arg m ρ c hr)
theorem W7_arg (c : Dev nD) {r : Ref sig .tc} (hr : r ∈ argRefs) :
    W7 m ρ c (Proc.devRef .tc r) = m ((c : Thread nD τ).loc r) :=
  (after_keeps argRefs hostOps1_keeps _ hr).trans (W6_arg m ρ c hr)
theorem W8_arg (c : Dev nD) {r : Ref sig .tc} (hr : r ∈ argRefs) :
    W8 m ρ c (Proc.devRef .tc r) = m ((c : Thread nD τ).loc r) :=
  (W8_of_ne m ρ c r (args_not_win1 r hr)).trans (W7_arg m ρ c hr)
theorem W9_arg (c : Dev nD) {r : Ref sig .tc} (hr : r ∈ argRefs) :
    W9 m ρ c (Proc.devRef .tc r) = m ((c : Thread nD τ).loc r) :=
  (after_keeps argRefs hostOps2_keeps _ hr).trans (W8_arg m ρ c hr)
theorem W10_arg (c : Dev nD) {r : Ref sig .tc} (hr : r ∈ argRefs) :
    W10 m ρ c (Proc.devRef .tc r) = m ((c : Thread nD τ).loc r) :=
  (W10_of_ne m ρ c r (args_not_win2 r hr)).trans (W9_arg m ρ c hr)
theorem W11_arg (c : Dev nD) {r : Ref sig .tc} (hr : r ∈ argRefs) :
    W11 m ρ c (Proc.devRef .tc r) = m ((c : Thread nD τ).loc r) :=
  (after_keeps argRefs hostOps3_keeps _ hr).trans (W10_arg m ρ c hr)
theorem W12_arg (c : Dev nD) {r : Ref sig .tc} (hr : r ∈ argRefs) :
    W12 m ρ c (Proc.devRef .tc r) = m ((c : Thread nD τ).loc r) :=
  (W12_of_ne m ρ c r (args_not_win3 r hr)).trans (W11_arg m ρ c hr)
theorem W13_arg (c : Dev nD) {r : Ref sig .tc} (hr : r ∈ argRefs) :
    W13 m ρ c (Proc.devRef .tc r) = m ((c : Thread nD τ).loc r) :=
  (after_keeps argRefs hostOps4_keeps _ hr).trans (W12_arg m ρ c hr)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«137322_j45767171506782_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«137322_j45767171506782_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«137322_j45767171506782_1_alg».proof.Proof.LibBlockReads
import proofs.«137322_j45767171506782_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.KIValue0.lean ====
/-
  Region 0: what its output array holds when the region ends, as ONE function of the three arrays it reads.
  Each grid point multiplies a block of 2000 rows of the left array by the whole 80×64 matrix, adds the bias row and
  takes the maximum with zero; row r of the result depends on row r of the left array only, so the 50 blocks written back
  are the rows of the layer applied to the whole arrays, and together they cover the output.
-/
import proofs.«137322_j45767171506782_1_alg».proof.Proof.KIRegion0
import proofs.«137322_j45767171506782_1_alg».proof.Proof.LibMatProd
import proofs.«137322_j45767171506782_1_alg».proof.Proof.LibBiasRelu
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Lib.MatProd Cert.Lib.BiasRelu

theorem origin0 : (![0, 0] : Fin 2 → Nat) = fun _ => 0 := funext fun a => by fin_cases a <;> rfl

/-- The body's arithmetic on its three loaded blocks: the product into zeros, the bias row added to every row, the
    maximum with zero. The changes of float format are the identity on the extended reals. -/
theorem pay0_eq (x0 : Vec Ideal S2000x80 .f32) (x1 : Vec Ideal S80x64 .f32) (x2 : Vec Ideal S1x64 .f32) :
    k0_pay1 (F := Ideal) x0 x1 x2 = biasRelu (matProd x0 x1) x2 := by
  unfold k0_pay1
  dsimp only
  funext i
  obtain ⟨p, q, rfl⟩ : ∃ (p : Fin 2000) (q : Fin 64), i = ix2 p q := ⟨i 0, i 1, eq_ix2 i⟩
  rw [biasRelu_apply, ← matmul_zero_eq_matProd dot_S2000x80_S80x64_S2000x64_1_0_0_1_n_n rfl rfl rfl rfl rfl rfl none x0 x1,
    maximumf_apply, addf_apply, Cert.Lib.BlockReads.broadcast_row_apply, shapeCast_self, shapeCast_self, shapeCast_self]
  rfl

/-- Rows r₀ … r₀+1999 of the layer of whole arrays are the layer of those rows. -/
theorem rows_layer0 (A : S100000x80.Idx → EReal) (B : S80x64.Idx → EReal) (b : S1x64.Idx → EReal)
    (A' : S2000x80.Idx → EReal) (B' : S80x64.Idx → EReal) (b' : S1x64.Idx → EReal)
    (p : Fin 2000) (q : Fin 64) (r : Fin 100000)
    (hA : ∀ k : Fin 80, A' (ix2 p k) = A (ix2 r k)) (hB : ∀ k : Fin 80, B' (ix2 k q) = B (ix2 k q))
    (hb : b' (ix2 0 q) = b (ix2 0 q)) :
    biasRelu (matProd A' B') b' (ix2 p q) = biasRelu (matProd A B) b (ix2 r q) := by
  rw [biasRelu_apply, biasRelu_apply, matProd_block A A' B B' p q r q hA hB, hb]

section
variable (V : (c : Dev nD) → (b : Ref sig .tc) → Buf (Elt Ideal) ((c : Thread nD τ).loc b))

/-- The layer of the three arrays region 0 reads, as the region finds them. -/
def layer0 (c : Dev nD) : S100000x64.Idx → EReal :=
  biasRelu (matProd (V c main_v117 : S100000x80.Idx → EReal) (V c main_v118 : S80x64.Idx → EReal)) (V c main_v119 : S1x64.Idx → EReal)

/-- The printed index maps over the grid: the left array's and the output's blocks are block t of rows, the matrix
    and the bias row are read whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer. -/
theorem flushed0_eq (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero origin0]
  simp only [View.ld_unit_zero (S := S2000x80) origin0, View.ld_unit_zero (S := S80x64) origin0, View.ld_unit_zero (S := S1x64) origin0]
  rw [pay0_eq]
  obtain ⟨e0, e1, e2, e3, e4, e5, e6, e7⟩ := idx_facts0 t
  have ht : t.val < 50 := lt_of_lt_of_eq t.isLt N_0
  funext j
  obtain ⟨p, q, rfl⟩ : ∃ (p : Fin 2000) (q : Fin 64), j = ix2 p q := ⟨j 0, j 1, eq_ix2 j⟩
  have hp := p.isLt
  have hr : t.val * 2000 + p.val < 100000 := by omega
  show biasRelu (matProd (iblk0 V c 0 t) (iblk0 V c 1 t)) (iblk0 V c 2 t) (ix2 p q)
    = layer0 V c (((cfg0.win 3).blk t).view.emb (ix2 p q))
  have hi : ((cfg0.win 3).blk t).view.emb (ix2 p q) = (ix2 (⟨t.val * 2000 + p.val, hr⟩ : Fin 100000) q : S100000x64.Idx) := by
    funext a; apply Fin.ext
    match a with
    | ⟨0, _⟩ => show win0_3.index t (0 : Fin 2) * 2000 + 1 * p.val = t.val * 2000 + p.val; omega
    | ⟨1, _⟩ => show win0_3.index t (1 : Fin 2) * 64 + 1 * q.val = q.val; omega
  rw [hi]
  unfold layer0
  refine rows_layer0 _ _ _ _ _ _ p q ⟨t.val * 2000 + p.val, hr⟩ (fun k => ?_) (fun k => ?_) ?_
  · show V c main_v117 (((cfg0.win 0).blk t).view.emb (ix2 p k)) = V c main_v117 (ix2 (⟨t.val * 2000 + p.val, hr⟩ : Fin 100000) k)
    refine congrArg (V c main_v117) ?_
    funext a; apply Fin.ext
    match a with
    | ⟨0, _⟩ => show win0_0.index t (0 : Fin 2) * 2000 + 1 * p.val = t.val * 2000 + p.val; omega
    | ⟨1, _⟩ => show win0_0.index t (1 : Fin 2) * 80 + 1 * k.val = k.val; omega
  · show V c main_v118 (((cfg0.win 1).blk t).view.emb (ix2 k q)) = V c main_v118 (ix2 k q)
    refine congrArg (V c main_v118) ?_
    funext a; apply Fin.ext
    match a with
    | ⟨0, _⟩ => show win0_1.index t (0 : Fin 2) * 80 + 1 * k.val = k.val; omega
    | ⟨1, _⟩ => show win0_1.index t (1 : Fin 2) * 64 + 1 * q.val = q.val; omega
  · show V c main_v119 (((cfg0.win 2).blk t).view.emb (ix2 0 q)) = V c main_v119 (ix2 0 q)
    refine congrArg (V c main_v119) ?_
    funext a; apply Fin.ext
    match a with
    | ⟨0, _⟩ => show win0_2.index t (0 : Fin 2) * 1 + 1 * 0 = 0; omega
    | ⟨1, _⟩ => show win0_2.index t (1 : Fin 2) * 64 + 1 * q.val = q.val; omega

/-- An index of the output array is in point t's block iff its row is one of the block's 2000. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v120).slice (win0_3.rect t)).set ↔ _
  rw [View.set_slice_whole, Rect.mem_set_unit]
  exact Iff.rfl

/-- Every row of the output is in the block of the point r / 2000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_3 _, ?_⟩
  rw [mem_blk0]
  obtain ⟨e0, e1, e2, e3, e4, e5, e6, e7⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e7]; omega

/-- THE OUTPUT ARRAY when region 0 ends: the layer of the three arrays it read. -/
theorem final0 (c : Dev nD) : (dat0 V c).arrAt 3 cfg0.N = layer0 V c :=
  (dat0 V c).arrAt_eq_of_cover 3 (layer0 V c) (fun t _ => flushed0_eq V c t) (cover0)

end

end Cert.KernelIdeal.Hand

end
-- ==== Proof.KIValue1.lean ====
/-
  Region 1: what its output array holds when the region ends, as ONE function of the three arrays it reads.
  Each grid point multiplies a block of 2000 rows of the left array by the whole 80×64 matrix, adds the bias row and
  takes the maximum with zero; row r of the result depends on row r of the left array only, so the 50 blocks written back
  are the rows of the layer applied to the whole arrays, and together they cover the output.
-/
import proofs.«137322_j45767171506782_1_alg».proof.Proof.KIRegion1
import proofs.«137322_j45767171506782_1_alg».proof.Proof.LibMatProd
import proofs.«137322_j45767171506782_1_alg».proof.Proof.LibBiasRelu
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Lib.MatProd Cert.Lib.BiasRelu

theorem origin1 : (![0, 0] : Fin 2 → Nat) = fun _ => 0 := funext fun a => by fin_cases a <;> rfl

/-- The body's arithmetic on its three loaded blocks: the product into zeros, the bias row added to every row, the
    maximum with zero. The changes of float format are the identity on the extended reals. -/
theorem pay1_eq (x0 : Vec Ideal S2000x80 .f32) (x1 : Vec Ideal S80x64 .f32) (x2 : Vec Ideal S1x64 .f32) :
    k1_pay1 (F := Ideal) x0 x1 x2 = biasRelu (matProd x0 x1) x2 := by
  unfold k1_pay1
  dsimp only
  funext i
  obtain ⟨p, q, rfl⟩ : ∃ (p : Fin 2000) (q : Fin 64), i = ix2 p q := ⟨i 0, i 1, eq_ix2 i⟩
  rw [biasRelu_apply, ← matmul_zero_eq_matProd dot_S2000x80_S80x64_S2000x64_1_0_0_1_n_n rfl rfl rfl rfl rfl rfl none x0 x1,
    maximumf_apply, addf_apply, Cert.Lib.BlockReads.broadcast_row_apply, shapeCast_self, shapeCast_self, shapeCast_self]
  rfl

/-- Rows r₀ … r₀+1999 of the layer of whole arrays are the layer of those rows. -/
theorem rows_layer1 (A : S100000x80.Idx → EReal) (B : S80x64.Idx → EReal) (b : S1x64.Idx → EReal)
    (A' : S2000x80.Idx → EReal) (B' : S80x64.Idx → EReal) (b' : S1x64.Idx → EReal)
    (p : Fin 2000) (q : Fin 64) (r : Fin 100000)
    (hA : ∀ k : Fin 80, A' (ix2 p k) = A (ix2 r k)) (hB : ∀ k : Fin 80, B' (ix2 k q) = B (ix2 k q))
    (hb : b' (ix2 0 q) = b (ix2 0 q)) :
    biasRelu (matProd A' B') b' (ix2 p q) = biasRelu (matProd A B) b (ix2 r q) := by
  rw [biasRelu_apply, biasRelu_apply, matProd_block A A' B B' p q r q hA hB, hb]

section
variable (V : (c : Dev nD) → (b : Ref sig .tc) → Buf (Elt Ideal) ((c : Thread nD τ).loc b))

/-- The layer of the three arrays region 1 reads, as the region finds them. -/
def layer1 (c : Dev nD) : S100000x64.Idx → EReal :=
  biasRelu (matProd (V c main_v182 : S100000x80.Idx → EReal) (V c main_v183 : S80x64.Idx → EReal)) (V c main_v184 : S1x64.Idx → EReal)

/-- The printed index maps over the grid: the left array's and the output's blocks are block t of rows, the matrix
    and the bias row are read whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer. -/
theorem flushed1_eq (c : Dev nD) (t : Fin cfg1.N) :
    (dat1 V c).flushed 3 t = ((cfg1.win 3).blk t).view.read (Elt Ideal) (layer1 V c) := by
  show (cfg1.win 3).cut (grid1.coords t) ((dat1 V c).after 3 t) = _
  rw [after1_3]
  unfold out1_3
  rw [View.canon_unit_zero origin1]
  simp only [View.ld_unit_zero (S := S2000x80) origin1, View.ld_unit_zero (S := S80x64) origin1, View.ld_unit_zero (S := S1x64) origin1]
  rw [pay1_eq]
  obtain ⟨e0, e1, e2, e3, e4, e5, e6, e7⟩ := idx_facts1 t
  have ht : t.val < 50 := lt_of_lt_of_eq t.isLt N_1
  funext j
  obtain ⟨p, q, rfl⟩ : ∃ (p : Fin 2000) (q : Fin 64), j = ix2 p q := ⟨j 0, j 1, eq_ix2 j⟩
  have hp := p.isLt
  have hr : t.val * 2000 + p.val < 100000 := by omega
  show biasRelu (matProd (iblk1 V c 0 t) (iblk1 V c 1 t)) (iblk1 V c 2 t) (ix2 p q)
    = layer1 V c (((cfg1.win 3).blk t).view.emb (ix2 p q))
  have hi : ((cfg1.win 3).blk t).view.emb (ix2 p q) = (ix2 (⟨t.val * 2000 + p.val, hr⟩ : Fin 100000) q : S100000x64.Idx) := by
    funext a; apply Fin.ext
    match a with
    | ⟨0, _⟩ => show win1_3.index t (0 : Fin 2) * 2000 + 1 * p.val = t.val * 2000 + p.val; omega
    | ⟨1, _⟩ => show win1_3.index t (1 : Fin 2) * 64 + 1 * q.val = q.val; omega
  rw [hi]
  unfold layer1
  refine rows_layer1 _ _ _ _ _ _ p q ⟨t.val * 2000 + p.val, hr⟩ (fun k => ?_) (fun k => ?_) ?_
  · show V c main_v182 (((cfg1.win 0).blk t).view.emb (ix2 p k)) = V c main_v182 (ix2 (⟨t.val * 2000 + p.val, hr⟩ : Fin 100000) k)
    refine congrArg (V c main_v182) ?_
    funext a; apply Fin.ext
    match a with
    | ⟨0, _⟩ => show win1_0.index t (0 : Fin 2) * 2000 + 1 * p.val = t.val * 2000 + p.val; omega
    | ⟨1, _⟩ => show win1_0.index t (1 : Fin 2) * 80 + 1 * k.val = k.val; omega
  · show V c main_v183 (((cfg1.win 1).blk t).view.emb (ix2 k q)) = V c main_v183 (ix2 k q)
    refine congrArg (V c main_v183) ?_
    funext a; apply Fin.ext
    match a with
    | ⟨0, _⟩ => show win1_1.index t (0 : Fin 2) * 80 + 1 * k.val = k.val; omega
    | ⟨1, _⟩ => show win1_1.index t (1 : Fin 2) * 64 + 1 * q.val = q.val; omega
  · show V c main_v184 (((cfg1.win 2).blk t).view.emb (ix2 0 q)) = V c main_v184 (ix2 0 q)
    refine congrArg (V c main_v184) ?_
    funext a; apply Fin.ext
    match a with
    | ⟨0, _⟩ => show win1_2.index t (0 : Fin 2) * 1 + 1 * 0 = 0; omega
    | ⟨1, _⟩ => show win1_2.index t (1 : Fin 2) * 64 + 1 * q.val = q.val; omega

/-- An index of the output array is in point t's block iff its row is one of the block's 2000. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v185).slice (win1_3.rect t)).set ↔ _
  rw [View.set_slice_whole, Rect.mem_set_unit]
  exact Iff.rfl

/-- Every row of the output is in the block of the point r / 2000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_3 _, ?_⟩
  rw [mem_blk1]
  obtain ⟨e0, e1, e2, e3, e4, e5, e6, e7⟩ := idx_facts1 ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e7]; omega

/-- THE OUTPUT ARRAY when region 1 ends: the layer of the three arrays it read. -/
theorem final1 (c : Dev nD) : (dat1 V c).arrAt 3 cfg1.N = layer1 V c :=
  (dat1 V c).arrAt_eq_of_cover 3 (layer1 V c) (fun t _ => flushed1_eq V c t) (cover1)

end

end Cert.KernelIdeal.Hand

end
-- ==== Proof.KIValue2.lean ====
/-
  Region 2: what its output array holds when the region ends, as ONE function of the three arrays it reads.
  Each grid point multiplies a block of 2000 rows of the left array by the whole 640×256 matrix, adds the bias row and
  takes the maximum with zero; row r of the result depends on row r of the left array only, so the 50 blocks written back
  are the rows of the layer applied to the whole arrays, and together they cover the output.
-/
import proofs.«137322_j45767171506782_1_alg».proof.Proof.KIRegion2
import proofs.«137322_j45767171506782_1_alg».proof.Proof.LibMatProd
import proofs.«137322_j45767171506782_1_alg».proof.Proof.LibBiasRelu
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Lib.MatProd Cert.Lib.BiasRelu

theorem origin2 : (![0, 0] : Fin 2 → Nat) = fun _ => 0 := funext fun a => by fin_cases a <;> rfl

/-- The body's arithmetic on its three loaded blocks: the product into zeros, the bias row added to every row, the
    maximum with zero. The changes of float format are the identity on the extended reals. -/
theorem pay2_eq (x0 : Vec Ideal S2000x640 .f32) (x1 : Vec Ideal S640x256 .f32) (x2 : Vec Ideal S1x256 .f32) :
    k2_pay1 (F := Ideal) x0 x1 x2 = biasRelu (matProd x0 x1) x2 := by
  unfold k2_pay1
  dsimp only
  funext i
  obtain ⟨p, q, rfl⟩ : ∃ (p : Fin 2000) (q : Fin 256), i = ix2 p q := ⟨i 0, i 1, eq_ix2 i⟩
  rw [biasRelu_apply, ← matmul_zero_eq_matProd dot_S2000x640_S640x256_S2000x256_1_0_0_1_n_n rfl rfl rfl rfl rfl rfl none x0 x1,
    maximumf_apply, addf_apply, Cert.Lib.BlockReads.broadcast_row_apply, shapeCast_self, shapeCast_self, shapeCast_self]
  rfl

/-- Rows r₀ … r₀+1999 of the layer of whole arrays are the layer of those rows. -/
theorem rows_layer2 (A : S100000x640.Idx → EReal) (B : S640x256.Idx → EReal) (b : S1x256.Idx → EReal)
    (A' : S2000x640.Idx → EReal) (B' : S640x256.Idx → EReal) (b' : S1x256.Idx → EReal)
    (p : Fin 2000) (q : Fin 256) (r : Fin 100000)
    (hA : ∀ k : Fin 640, A' (ix2 p k) = A (ix2 r k)) (hB : ∀ k : Fin 640, B' (ix2 k q) = B (ix2 k q))
    (hb : b' (ix2 0 q) = b (ix2 0 q)) :
    biasRelu (matProd A' B') b' (ix2 p q) = biasRelu (matProd A B) b (ix2 r q) := by
  rw [biasRelu_apply, biasRelu_apply, matProd_block A A' B B' p q r q hA hB, hb]

section
variable (V : (c : Dev nD) → (b : Ref sig .tc) → Buf (Elt Ideal) ((c : Thread nD τ).loc b))

/-- The layer of the three arrays region 2 reads, as the region finds them. -/
def layer2 (c : Dev nD) : S100000x256.Idx → EReal :=
  biasRelu (matProd (V c main_v248 : S100000x640.Idx → EReal) (V c main_v249 : S640x256.Idx → EReal)) (V c main_v250 : S1x256.Idx → EReal)

/-- The printed index maps over the grid: the left array's and the output's blocks are block t of rows, the matrix
    and the bias row are read whole at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer. -/
theorem flushed2_eq (c : Dev nD) (t : Fin cfg2.N) :
    (dat2 V c).flushed 3 t = ((cfg2.win 3).blk t).view.read (Elt Ideal) (layer2 V c) := by
  show (cfg2.win 3).cut (grid2.coords t) ((dat2 V c).after 3 t) = _
  rw [after2_3]
  unfold out2_3
  rw [View.canon_unit_zero origin2]
  simp only [View.ld_unit_zero (S := S2000x640) origin2, View.ld_unit_zero (S := S640x256) origin2, View.ld_unit_zero (S := S1x256) origin2]
  rw [pay2_eq]
  obtain ⟨e0, e1, e2, e3, e4, e5, e6, e7⟩ := idx_facts2 t
  have ht : t.val < 50 := lt_of_lt_of_eq t.isLt N_2
  funext j
  obtain ⟨p, q, rfl⟩ : ∃ (p : Fin 2000) (q : Fin 256), j = ix2 p q := ⟨j 0, j 1, eq_ix2 j⟩
  have hp := p.isLt
  have hr : t.val * 2000 + p.val < 100000 := by omega
  show biasRelu (matProd (iblk2 V c 0 t) (iblk2 V c 1 t)) (iblk2 V c 2 t) (ix2 p q)
    = layer2 V c (((cfg2.win 3).blk t).view.emb (ix2 p q))
  have hi : ((cfg2.win 3).blk t).view.emb (ix2 p q) = (ix2 (⟨t.val * 2000 + p.val, hr⟩ : Fin 100000) q : S100000x256.Idx) := by
    funext a; apply Fin.ext
    match a with
    | ⟨0, _⟩ => show win2_3.index t (0 : Fin 2) * 2000 + 1 * p.val = t.val * 2000 + p.val; omega
    | ⟨1, _⟩ => show win2_3.index t (1 : Fin 2) * 256 + 1 * q.val = q.val; omega
  rw [hi]
  unfold layer2
  refine rows_layer2 _ _ _ _ _ _ p q ⟨t.val * 2000 + p.val, hr⟩ (fun k => ?_) (fun k => ?_) ?_
  · show V c main_v248 (((cfg2.win 0).blk t).view.emb (ix2 p k)) = V c main_v248 (ix2 (⟨t.val * 2000 + p.val, hr⟩ : Fin 100000) k)
    refine congrArg (V c main_v248) ?_
    funext a; apply Fin.ext
    match a with
    | ⟨0, _⟩ => show win2_0.index t (0 : Fin 2) * 2000 + 1 * p.val = t.val * 2000 + p.val; omega
    | ⟨1, _⟩ => show win2_0.index t (1 : Fin 2) * 640 + 1 * k.val = k.val; omega
  · show V c main_v249 (((cfg2.win 1).blk t).view.emb (ix2 k q)) = V c main_v249 (ix2 k q)
    refine congrArg (V c main_v249) ?_
    funext a; apply Fin.ext
    match a with
    | ⟨0, _⟩ => show win2_1.index t (0 : Fin 2) * 640 + 1 * k.val = k.val; omega
    | ⟨1, _⟩ => show win2_1.index t (1 : Fin 2) * 256 + 1 * q.val = q.val; omega
  · show V c main_v250 (((cfg2.win 2).blk t).view.emb (ix2 0 q)) = V c main_v250 (ix2 0 q)
    refine congrArg (V c main_v250) ?_
    funext a; apply Fin.ext
    match a with
    | ⟨0, _⟩ => show win2_2.index t (0 : Fin 2) * 1 + 1 * 0 = 0; omega
    | ⟨1, _⟩ => show win2_2.index t (1 : Fin 2) * 256 + 1 * q.val = q.val; omega

/-- An index of the output array is in point t's block iff its row is one of the block's 2000. -/
theorem mem_blk2 (t : Fin cfg2.N) (i : S100000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v251).slice (win2_3.rect t)).set ↔ _
  rw [View.set_slice_whole, Rect.mem_set_unit]
  exact Iff.rfl

/-- Every row of the output is in the block of the point r / 2000. -/
theorem cover2 (i : S100000x256.Idx) :
    ∃ t : Fin cfg2.N, (cfg2.win 3).flush t = true ∧ i ∈ ((cfg2.win 3).blk t).view.set := by
  have hi0 : (i 0).val < 100000 := (i 0).isLt
  have hi1 : (i 1).val < 256 := (i 1).isLt
  have hN : cfg2.N = 50 := N_2
  refine ⟨⟨(i 0).val / 2000, by rw [hN]; omega⟩, flush2_3 _, ?_⟩
  rw [mem_blk2]
  obtain ⟨e0, e1, e2, e3, e4, e5, e6, e7⟩ := idx_facts2 ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 256 ≤ (i 1).val ∧ (i 1).val < win2_3.index _ (1 : Fin 2) * 256 + 256
    rw [e7]; omega

/-- THE OUTPUT ARRAY when region 2 ends: the layer of the three arrays it read. -/
theorem final2 (c : Dev nD) : (dat2 V c).arrAt 3 cfg2.N = layer2 V c :=
  (dat2 V c).arrAt_eq_of_cover 3 (layer2 V c) (fun t _ => flushed2_eq V c t) (cover2)

end

end Cert.KernelIdeal.Hand

end
-- ==== Proof.KIValue3.lean ====
/-
  Region 3: what its output array holds when the region ends, as ONE function of the three arrays it reads.
  Each grid point multiplies a block of 2000 rows of the left array by the whole 640×256 matrix, adds the bias row and
  takes the maximum with zero; row r of the result depends on row r of the left array only, so the 50 blocks written back
  are the rows of the layer applied to the whole arrays, and together they cover the output.
-/
import proofs.«137322_j45767171506782_1_alg».proof.Proof.KIRegion3
import proofs.«137322_j45767171506782_1_alg».proof.Proof.LibMatProd
import proofs.«137322_j45767171506782_1_alg».proof.Proof.LibBiasRelu
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Lib.MatProd Cert.Lib.BiasRelu

theorem origin3 : (![0, 0] : Fin 2 → Nat) = fun _ => 0 := funext fun a => by fin_cases a <;> rfl

/-- The body's arithmetic on its three loaded blocks: the product into zeros, the bias row added to every row, the
    maximum with zero. The changes of float format are the identity on the extended reals. -/
theorem pay3_eq (x0 : Vec Ideal S2000x640 .f32) (x1 : Vec Ideal S640x256 .f32) (x2 : Vec Ideal S1x256 .f32) :
    k3_pay1 (F := Ideal) x0 x1 x2 = biasRelu (matProd x0 x1) x2 := by
  unfold k3_pay1
  dsimp only
  funext i
  obtain ⟨p, q, rfl⟩ : ∃ (p : Fin 2000) (q : Fin 256), i = ix2 p q := ⟨i 0, i 1, eq_ix2 i⟩
  rw [biasRelu_apply, ← matmul_zero_eq_matProd dot_S2000x640_S640x256_S2000x256_1_0_0_1_n_n rfl rfl rfl rfl rfl rfl none x0 x1,
    maximumf_apply, addf_apply, Cert.Lib.BlockReads.broadcast_row_apply, shapeCast_self, shapeCast_self, shapeCast_self]
  rfl

/-- Rows r₀ … r₀+1999 of the layer of whole arrays are the layer of those rows. -/
theorem rows_layer3 (A : S100000x640.Idx → EReal) (B : S640x256.Idx → EReal) (b : S1x256.Idx → EReal)
    (A' : S2000x640.Idx → EReal) (B' : S640x256.Idx → EReal) (b' : S1x256.Idx → EReal)
    (p : Fin 2000) (q : Fin 256) (r : Fin 100000)
    (hA : ∀ k : Fin 640, A' (ix2 p k) = A (ix2 r k)) (hB : ∀ k : Fin 640, B' (ix2 k q) = B (ix2 k q))
    (hb : b' (ix2 0 q) = b (ix2 0 q)) :
    biasRelu (matProd A' B') b' (ix2 p q) = biasRelu (matProd A B) b (ix2 r q) := by
  rw [biasRelu_apply, biasRelu_apply, matProd_block A A' B B' p q r q hA hB, hb]

section
variable (V : (c : Dev nD) → (b : Ref sig .tc) → Buf (Elt Ideal) ((c : Thread nD τ).loc b))

/-- The layer of the three arrays region 3 reads, as the region finds them. -/
def layer3 (c : Dev nD) : S100000x256.Idx → EReal :=
  biasRelu (matProd (V c main_v313 : S100000x640.Idx → EReal) (V c main_v314 : S640x256.Idx → EReal)) (V c main_v315 : S1x256.Idx → EReal)

/-- The printed index maps over the grid: the left array's and the output's blocks are block t of rows, the matrix
    and the bias row are read whole at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the layer. -/
theorem flushed3_eq (c : Dev nD) (t : Fin cfg3.N) :
    (dat3 V c).flushed 3 t = ((cfg3.win 3).blk t).view.read (Elt Ideal) (layer3 V c) := by
  show (cfg3.win 3).cut (grid3.coords t) ((dat3 V c).after 3 t) = _
  rw [after3_3]
  unfold out3_3
  rw [View.canon_unit_zero origin3]
  simp only [View.ld_unit_zero (S := S2000x640) origin3, View.ld_unit_zero (S := S640x256) origin3, View.ld_unit_zero (S := S1x256) origin3]
  rw [pay3_eq]
  obtain ⟨e0, e1, e2, e3, e4, e5, e6, e7⟩ := idx_facts3 t
  have ht : t.val < 50 := lt_of_lt_of_eq t.isLt N_3
  funext j
  obtain ⟨p, q, rfl⟩ : ∃ (p : Fin 2000) (q : Fin 256), j = ix2 p q := ⟨j 0, j 1, eq_ix2 j⟩
  have hp := p.isLt
  have hr : t.val * 2000 + p.val < 100000 := by omega
  show biasRelu (matProd (iblk3 V c 0 t) (iblk3 V c 1 t)) (iblk3 V c 2 t) (ix2 p q)
    = layer3 V c (((cfg3.win 3).blk t).view.emb (ix2 p q))
  have hi : ((cfg3.win 3).blk t).view.emb (ix2 p q) = (ix2 (⟨t.val * 2000 + p.val, hr⟩ : Fin 100000) q : S100000x256.Idx) := by
    funext a; apply Fin.ext
    match a with
    | ⟨0, _⟩ => show win3_3.index t (0 : Fin 2) * 2000 + 1 * p.val = t.val * 2000 + p.val; omega
    | ⟨1, _⟩ => show win3_3.index t (1 : Fin 2) * 256 + 1 * q.val = q.val; omega
  rw [hi]
  unfold layer3
  refine rows_layer3 _ _ _ _ _ _ p q ⟨t.val * 2000 + p.val, hr⟩ (fun k => ?_) (fun k => ?_) ?_
  · show V c main_v313 (((cfg3.win 0).blk t).view.emb (ix2 p k)) = V c main_v313 (ix2 (⟨t.val * 2000 + p.val, hr⟩ : Fin 100000) k)
    refine congrArg (V c main_v313) ?_
    funext a; apply Fin.ext
    match a with
    | ⟨0, _⟩ => show win3_0.index t (0 : Fin 2) * 2000 + 1 * p.val = t.val * 2000 + p.val; omega
    | ⟨1, _⟩ => show win3_0.index t (1 : Fin 2) * 640 + 1 * k.val = k.val; omega
  · show V c main_v314 (((cfg3.win 1).blk t).view.emb (ix2 k q)) = V c main_v314 (ix2 k q)
    refine congrArg (V c main_v314) ?_
    funext a; apply Fin.ext
    match a with
    | ⟨0, _⟩ => show win3_1.index t (0 : Fin 2) * 640 + 1 * k.val = k.val; omega
    | ⟨1, _⟩ => show win3_1.index t (1 : Fin 2) * 256 + 1 * q.val = q.val; omega
  · show V c main_v315 (((cfg3.win 2).blk t).view.emb (ix2 0 q)) = V c main_v315 (ix2 0 q)
    refine congrArg (V c main_v315) ?_
    funext a; apply Fin.ext
    match a with
    | ⟨0, _⟩ => show win3_2.index t (0 : Fin 2) * 1 + 1 * 0 = 0; omega
    | ⟨1, _⟩ => show win3_2.index t (1 : Fin 2) * 256 + 1 * q.val = q.val; omega

/-- An index of the output array is in point t's block iff its row is one of the block's 2000. -/
theorem mem_blk3 (t : Fin cfg3.N) (i : S100000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v316).slice (win3_3.rect t)).set ↔ _
  rw [View.set_slice_whole, Rect.mem_set_unit]
  exact Iff.rfl

/-- Every row of the output is in the block of the point r / 2000. -/
theorem cover3 (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hN : cfg3.N = 50 := N_3
  refine ⟨⟨(i 0).val / 2000, by rw [hN]; omega⟩, flush3_3 _, ?_⟩
  rw [mem_blk3]
  obtain ⟨e0, e1, e2, e3, e4, e5, e6, e7⟩ := idx_facts3 ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e6]; show (i 0).val / 2000 * 2000 ≤ (i 0).val ∧ (i 0).val < (i 0).val / 2000 * 2000 + 2000; omega
  | ⟨1, _⟩ =>
    show win3_3.index _ (1 : Fin 2) * 256 ≤ (i 1).val ∧ (i 1).val < win3_3.index _ (1 : Fin 2) * 256 + 256
    rw [e7]; omega

/-- THE OUTPUT ARRAY when region 3 ends: the layer of the three arrays it read. -/
theorem final3 (c : Dev nD) : (dat3 V c).arrAt 3 cfg3.N = layer3 V c :=
  (dat3 V c).arrAt_eq_of_cover 3 (layer3 V c) (fun t _ => flushed3_eq V c t) (cover3)

end

end Cert.KernelIdeal.Hand

end
-- ==== Proof.LibFiveBands.lean ====
/-
  A product with a matrix of FIVE bands of rows. Let T₀ … T₄ be N×f arrays put side by side into one N×(5·f) array,
  and let W be a 5×f×o array read as a (5·f)×o matrix, band k holding W(k, ·, ·). Entry (n, q) of the product is a sum
  over the 5·f columns; grouping the columns by band it is the sum over k of the entry (n, q) of Tₖ times band k of W.
  Sums on the extended reals may be regrouped freely (addition is commutative and associative there), so nothing has to
  be finite. With a bias row and a maximum with zero on top this says: one wide product of the joined array is the sum
  of the five narrow products, band by band. Nothing here mentions a program.
-/
import Idealize.ShloMosaic.PureOps.Ideal.Laws
import Idealize.ShloMosaic.Lib.ValueIdx
import Idealize.ShloMosaic.Lib.ValueLayout
import Idealize.ShloMosaic.Lib.Pipeline.Value
import proofs.«137322_j45767171506782_1_alg».proof.Proof.LibBlockReads
import proofs.«137322_j45767171506782_1_alg».proof.Proof.LibMatProd
import proofs.«137322_j45767171506782_1_alg».proof.Proof.LibBiasRelu
import proofs.«137322_j45767171506782_1_alg».proof.Proof.LibRowVector

open scoped BigOperators

noncomputable section

namespace Cert.Lib.FiveBands

open Idealize.ShloMosaic Idealize.ShloMosaic.ValueIdx Cert.Lib.MatProd

variable {N f o : Nat}

/-- The sum over the 5·f columns, grouped by band: column c of band k is column c + f·k. -/
theorem sum_bands (g : Fin (5 * f) → EReal) :
    ∑ j : Fin (5 * f), g j = ∑ k : Fin 5, ∑ c : Fin f, g (finProdFinEquiv (k, c)) := by
  rw [← Equiv.sum_comp finProdFinEquiv g, Fintype.sum_prod_type]

/-- Band k of W as an f×o matrix: the slab W(k, ·, ·) with its unit axis dropped. -/
theorem band_apply (W : (⟨3, ![5, f, o]⟩ : Shape).Idx → EReal) (k : Fin 5) (off : Fin 3 → Nat) (hoff : off = ![k.val, 0, 0])
    (hs : (⟨3, ![5, f, o]⟩ : Shape).Slices off ⟨3, ![1, f, o]⟩)
    (hd : (⟨3, ![1, f, o]⟩ : Shape).ShapeCasts ⟨2, ![f, o]⟩) (c : Fin f) (q : Fin o) :
    shapeCast ⟨2, ![f, o]⟩ (extractStridedSlice ⟨3, ![1, f, o]⟩ off W hs) hd (ix2 c q) = W (ix3 k c q) := by
  subst hoff
  rw [shapeCast_1ab_ab_apply]
  refine extractStridedSlice_apply _ W hs _ _ fun a => ?_
  match a with
  | ⟨0, _⟩ => show k.val = k.val + 0; rfl
  | ⟨1, _⟩ => show c.val = 0 + c.val; rw [Nat.zero_add]
  | ⟨2, _⟩ => show q.val = 0 + q.val; rw [Nat.zero_add]

/-- W read as a (5·f)×o matrix: row c + f·k is row c of band k. -/
theorem flat_apply (W : (⟨3, ![5, f, o]⟩ : Shape).Idx → EReal)
    (hr : (⟨3, ![5, f, o]⟩ : Shape).ShapeCasts ⟨2, ![5 * f, o]⟩) (k : Fin 5) (c : Fin f) (q : Fin o) :
    shapeCast ⟨2, ![5 * f, o]⟩ W hr (ix2 (finProdFinEquiv (k, c)) q) = W (ix3 k c q) := by
  refine shapeCast_apply W hr _ _ ?_
  rw [Shape.rowMajor_val_three, Shape.rowMajor_val_two]
  show (k.val * f + c.val) * o + q.val = (c.val + f * k.val) * o + q.val
  rw [Nat.mul_comm f k.val, Nat.add_comm (k.val * f) c.val]

end Cert.Lib.FiveBands

namespace Cert.Lib.FiveBands

open Idealize.ShloMosaic Idealize.ShloMosaic.ValueIdx Cert.Lib.MatProd Cert.Lib.BiasRelu Cert.Lib.RowVector

variable {N f o : Nat}

/-- The five N×f arrays side by side, as the list a concatenation takes. -/
abbrev side (t : Fin 5 → ((⟨2, ![N, f]⟩ : Shape).Idx → EReal)) : List ((s : Shape) × (s.Idx → EReal)) :=
  [⟨⟨2, ![N, f]⟩, t 0⟩, ⟨⟨2, ![N, f]⟩, t 1⟩, ⟨⟨2, ![N, f]⟩, t 2⟩, ⟨⟨2, ![N, f]⟩, t 3⟩, ⟨⟨2, ![N, f]⟩, t 4⟩]

/-- Column c + f·k of the joined array is column c of Tₖ. -/
theorem joined_apply (t : Fin 5 → ((⟨2, ![N, f]⟩ : Shape).Idx → EReal))
    (hc : Shape.Concatenates ((side t).map (·.1)) ⟨2, ![N, 5 * f]⟩ 1) (n : Fin N) (k : Fin 5) (c : Fin f) :
    concatenate ⟨2, ![N, 5 * f]⟩ 1 (side t) hc (ix2 n (finProdFinEquiv (k, c))) = t k (ix2 n c) := by
  have hi : ∀ b : Fin 2, b.cast (rfl : (2 : Nat) = 2) ≠ (1 : Fin 2) →
      ((ix2 n c : (⟨2, ![N, f]⟩ : Shape).Idx) b).val
        = ((ix2 n (finProdFinEquiv (k, c)) : (⟨2, ![N, 5 * f]⟩ : Shape).Idx) (b.cast rfl)).val := fun b hb => by
    match b with
    | ⟨0, _⟩ => rfl
    | ⟨1, _⟩ => exact absurd rfl hb
  match k with
  | ⟨0, _⟩ =>
    exact concatenate_apply_piece 1 (side t) hc _ 0 (by show 0 < 5; omega) ⟨2, ![N, f]⟩ (t 0) rfl rfl _ rfl (ix2 n c) hi
      (by show 0 + c.val = c.val + f * 0; omega)
  | ⟨1, _⟩ =>
    exact concatenate_apply_piece 1 (side t) hc _ 1 (by show 1 < 5; omega) ⟨2, ![N, f]⟩ (t 1) rfl rfl _ rfl (ix2 n c) hi
      (by show (f + 0) + c.val = c.val + f * 1; omega)
  | ⟨2, _⟩ =>
    exact concatenate_apply_piece 1 (side t) hc _ 2 (by show 2 < 5; omega) ⟨2, ![N, f]⟩ (t 2) rfl rfl _ rfl (ix2 n c) hi
      (by show (f + (f + 0)) + c.val = c.val + f * 2; omega)
  | ⟨3, _⟩ =>
    exact concatenate_apply_piece 1 (side t) hc _ 3 (by show 3 < 5; omega) ⟨2, ![N, f]⟩ (t 3) rfl rfl _ rfl (ix2 n c) hi
      (by show (f + (f + (f + 0))) + c.val = c.val + f * 3; omega)
  | ⟨4, _⟩ =>
    exact concatenate_apply_piece 1 (side t) hc _ 4 (by show 4 < 5; omega) ⟨2, ![N, f]⟩ (t 4) rfl rfl _ rfl (ix2 n c) hi
      (by show (f + (f + (f + (f + 0)))) + c.val = c.val + f * 4; omega)

/-- One wide product is the sum of the five narrow ones: entry (n, q) of the joined array times W read as a
    (5·f)×o matrix is the sum over the bands k of the entry (n, q) of Tₖ times band k of W. -/
theorem matProd_joined (t : Fin 5 → ((⟨2, ![N, f]⟩ : Shape).Idx → EReal))
    (hc : Shape.Concatenates ((side t).map (·.1)) ⟨2, ![N, 5 * f]⟩ 1)
    (W : (⟨3, ![5, f, o]⟩ : Shape).Idx → EReal) (hr : (⟨3, ![5, f, o]⟩ : Shape).ShapeCasts ⟨2, ![5 * f, o]⟩)
    (n : Fin N) (q : Fin o) :
    matProd (concatenate ⟨2, ![N, 5 * f]⟩ 1 (side t) hc) (shapeCast ⟨2, ![5 * f, o]⟩ W hr) (ix2 n q)
      = ∑ k : Fin 5, ∑ c : Fin f, t k (ix2 n c) * W (ix3 k c q) := by
  rw [matProd_apply, sum_bands]
  refine Finset.sum_congr rfl fun k _ => Finset.sum_congr rfl fun c _ => ?_
  rw [joined_apply, flat_apply]

end Cert.Lib.FiveBands

namespace Cert.Lib.FiveBands

open Idealize.ShloMosaic Idealize.ShloMosaic.ValueIdx Cert.Lib.MatProd Cert.Lib.BiasRelu Cert.Lib.RowVector

variable {N f o : Nat}

/-- THE LAYER, in its two spellings. On the left the wide form: the five arrays joined side by side, times W read as
    one (5·f)×o matrix, plus the bias as a 1×o row, and the maximum with zero. On the right the banded form: the five
    narrow products T₀·W(0) + T₁·W(1) + … + T₄·W(4) summed from the left, plus the bias vector broadcast over the rows,
    and the maximum with a splat of zero. They are one array. -/
theorem layer_eq (t0 t1 t2 t3 t4 : FVec Ideal ⟨2, ![N, f]⟩ .f32) (W : FVec Ideal ⟨3, ![5, f, o]⟩ .f32)
    (b : FVec Ideal ⟨1, ![o]⟩ .f32)
    (hc : Shape.Concatenates ((side ![t0, t1, t2, t3, t4]).map (·.1)) ⟨2, ![N, 5 * f]⟩ 1)
    (hr : (⟨3, ![5, f, o]⟩ : Shape).ShapeCasts ⟨2, ![5 * f, o]⟩)
    (hb : (⟨1, ![o]⟩ : Shape).ShapeCasts ⟨2, ![1, o]⟩)
    (d : DotDims ⟨2, ![N, f]⟩ ⟨2, ![f, o]⟩ ⟨2, ![N, o]⟩)
    (hlc : d.lhsContracting = [1]) (hrc : d.rhsContracting = [0]) (hln : d.lhsNonContracting = [0])
    (hrn : d.rhsNonContracting = [1]) (hlb : d.lhsBatch = []) (hrb : d.rhsBatch = [])
    (hs0 : (⟨3, ![5, f, o]⟩ : Shape).Slices ![0, 0, 0] ⟨3, ![1, f, o]⟩)
    (hs1 : (⟨3, ![5, f, o]⟩ : Shape).Slices ![1, 0, 0] ⟨3, ![1, f, o]⟩)
    (hs2 : (⟨3, ![5, f, o]⟩ : Shape).Slices ![2, 0, 0] ⟨3, ![1, f, o]⟩)
    (hs3 : (⟨3, ![5, f, o]⟩ : Shape).Slices ![3, 0, 0] ⟨3, ![1, f, o]⟩)
    (hs4 : (⟨3, ![5, f, o]⟩ : Shape).Slices ![4, 0, 0] ⟨3, ![1, f, o]⟩)
    (hd : (⟨3, ![1, f, o]⟩ : Shape).ShapeCasts ⟨2, ![f, o]⟩)
    (h1 : (⟨1, ![o]⟩ : Shape).BroadcastsInDim ⟨2, ![1, o]⟩ ![1])
    (h2 : (⟨2, ![1, o]⟩ : Shape).BroadcastsInDim ⟨2, ![N, o]⟩ ![0, 1])
    (h3 : (⟨0, ![]⟩ : Shape).BroadcastsInDim ⟨2, ![N, o]⟩ ![]) :
    biasRelu (matProd (concatenate ⟨2, ![N, 5 * f]⟩ 1 (side ![t0, t1, t2, t3, t4]) hc) (shapeCast ⟨2, ![5 * f, o]⟩ W hr))
        (shapeCast ⟨2, ![1, o]⟩ b hb)
      = maximumf (addf (addf (addf (addf (addf
            (Host.dotGeneral d none t0 (shapeCast ⟨2, ![f, o]⟩ (extractStridedSlice ⟨3, ![1, f, o]⟩ ![0, 0, 0] W hs0) hd))
            (Host.dotGeneral d none t1 (shapeCast ⟨2, ![f, o]⟩ (extractStridedSlice ⟨3, ![1, f, o]⟩ ![1, 0, 0] W hs1) hd)))
            (Host.dotGeneral d none t2 (shapeCast ⟨2, ![f, o]⟩ (extractStridedSlice ⟨3, ![1, f, o]⟩ ![2, 0, 0] W hs2) hd)))
            (Host.dotGeneral d none t3 (shapeCast ⟨2, ![f, o]⟩ (extractStridedSlice ⟨3, ![1, f, o]⟩ ![3, 0, 0] W hs3) hd)))
            (Host.dotGeneral d none t4 (shapeCast ⟨2, ![f, o]⟩ (extractStridedSlice ⟨3, ![1, f, o]⟩ ![4, 0, 0] W hs4) hd)))
          (broadcastInDim ⟨2, ![N, o]⟩ ![0, 1] h2 (broadcastInDim ⟨2, ![1, o]⟩ ![1] h1 b)))
        (broadcastInDim ⟨2, ![N, o]⟩ ![] h3 (constant (F := Ideal) ⟨0, ![]⟩ .f32 0x00000000#32)) := by
  rw [host_eq, shapeCast_eq_asRow]
  congr 1
  funext i
  obtain ⟨n, q, rfl⟩ : ∃ (n : Fin N) (q : Fin o), i = ix2 n q := ⟨i 0, i 1, eq_ix2 i⟩
  rw [matProd_joined, Fin.sum_univ_five]
  simp only [Host.dotGeneral, addf_apply, dotGeneral_eq_matProd d hlc hrc hln hrn hlb hrb, matProd_apply]
  refine congrArg₂ (· + ·) (congrArg₂ (· + ·) (congrArg₂ (· + ·) (congrArg₂ (· + ·) ?_ ?_) ?_) ?_) ?_
  · exact Finset.sum_congr rfl fun c _ => congrArg (t0 (ix2 n c) * ·) (band_apply W 0 _ rfl hs0 hd c q).symm
  · exact Finset.sum_congr rfl fun c _ => congrArg (t1 (ix2 n c) * ·) (band_apply W 1 _ rfl hs1 hd c q).symm
  · exact Finset.sum_congr rfl fun c _ => congrArg (t2 (ix2 n c) * ·) (band_apply W 2 _ rfl hs2 hd c q).symm
  · exact Finset.sum_congr rfl fun c _ => congrArg (t3 (ix2 n c) * ·) (band_apply W 3 _ rfl hs3 hd c q).symm
  · exact Finset.sum_congr rfl fun c _ => congrArg (t4 (ix2 n c) * ·) (band_apply W 4 _ rfl hs4 hd c q).symm

end Cert.Lib.FiveBands

end
-- ==== Proof.LibNaryFive.lean ====
/-
  A host operation with FIVE operand buffers (a concatenation of five arrays), read at its result buffer: its function
  applied to the five operands' contents, each taken at its own buffer, so that a reading of the operands' contents can
  go on through it. The four-operand form is the library's; this is the same statement one operand longer, with the
  five contents gathered by a selector whose value at each of 0 … 4 is the corresponding entry by computation. Nothing
  here mentions a program.
-/
import Idealize.ShloMosaic.Lib.StableHlo.Run

noncomputable section

namespace Cert.Lib.NaryFive

open Idealize.ShloMosaic Idealize.ShloMosaic.StableHlo

universe u

/-- Five values of five types, as one family over the indices 0 … 4. -/
def pick5 {α : Fin 5 → Type u} (a0 : α 0) (a1 : α 1) (a2 : α 2) (a3 : α 3) (a4 : α 4) : (k : Fin 5) → α k
  | ⟨0, _⟩ => a0
  | ⟨1, _⟩ => a1
  | ⟨2, _⟩ => a2
  | ⟨3, _⟩ => a3
  | ⟨4, _⟩ => a4

section
variable {α : Fin 5 → Type u} (a0 : α 0) (a1 : α 1) (a2 : α 2) (a3 : α 3) (a4 : α 4)
theorem pick5_0 : pick5 a0 a1 a2 a3 a4 0 = a0 := rfl
theorem pick5_1 : pick5 a0 a1 a2 a3 a4 1 = a1 := rfl
theorem pick5_2 : pick5 a0 a1 a2 a3 a4 2 = a2 := rfl
theorem pick5_3 : pick5 a0 a1 a2 a3 a4 3 = a3 := rfl
theorem pick5_4 : pick5 a0 a1 a2 a3 a4 4 = a4 := rfl
end

variable {τ : Topo} {sig : RefSig} {Val : EltTy → Type}
variable {x a b c e y : Ref sig .tc}

/-- The result of a five-operand operation, each operand's contents at its own buffer. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (pick5 (α := fun k => ((![x, a, b, c, e] : Fin 5 → Ref sig .tc) k).ty.Contents Val)
          (F (Proc.devRef .tc x)) (F (Proc.devRef .tc a)) (F (Proc.devRef .tc b)) (F (Proc.devRef .tc c)) (F (Proc.devRef .tc e))) := by
  rw [nary_result]; congr 1; funext k; fin_cases k <;> rfl

/-- Running two lines one after the other folds the second from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line cut at any position: its last operations run from what the first ones leave. -/
theorem after_split (n : Nat) (ops : List (HloOp τ sig Val)) (V : Valuation τ sig Val) :
    after ops V = after (ops.drop n) (after (ops.take n) V) := by
  conv_lhs => rw [← List.take_append_drop n ops]
  exact after_append _ _ _

end Cert.Lib.NaryFive

end
-- ==== Proof.Bridge0.lean ====
/-
  The two idealized programs side by side. Between its four kernel regions the kernel's host program runs the same
  graph operations as the reference — the edge weights, the Chebyshev recursion T₀ = X, T₁ = L·X, Tₖ = 2·L·Tₖ₋₁ − Tₖ₋₂ by
  gathers and scatter-adds, the pooling and the log-softmax at the end —, spelled identically operation by operation.
  Here are the folds of buffer contents over each stretch, for both programs, from contents given.
-/
import proofs.«137322_j45767171506782_1_alg».proof.Proof.Gen.KernelIdeal.Launch
import proofs.«137322_j45767171506782_1_alg».proof.Proof.RefOps
import proofs.«137322_j45767171506782_1_alg».proof.Proof.LibFiveBands
import proofs.«137322_j45767171506782_1_alg».proof.Proof.LibNaryFive

set_option maxRecDepth 65536

noncomputable section

namespace Cert.Bridge

open Idealize.ShloMosaic Idealize.ShloMosaic.TcCoe Idealize.ShloMosaic.StableHlo
open Cert.Lib.MatProd Cert.Lib.BiasRelu

abbrev KV := Valuation Cert.KernelIdeal.τ Cert.KernelIdeal.sig (Elt Ideal)
abbrev RV := Valuation Cert.ReferenceIdeal.τ Cert.ReferenceIdeal.sig (Elt Ideal)
abbrev kr (b : Ref Cert.KernelIdeal.sig .tc) : DevRef Cert.KernelIdeal.τ Cert.KernelIdeal.sig := Proc.devRef .tc b
abbrev rr (b : Ref Cert.ReferenceIdeal.sig .tc) : DevRef Cert.ReferenceIdeal.τ Cert.ReferenceIdeal.sig := Proc.devRef .tc b

/-- The kernel's host stretches between its regions, and the reference's five lists, as folds from given contents. -/
abbrev kA (V : KV) : KV := after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 V))))
abbrev kB (V : KV) : KV := after Cert.KernelIdeal.Gen.hostOps1 V
abbrev kC (V : KV) : KV := after Cert.KernelIdeal.Gen.hostOps2 V
abbrev kD (V : KV) : KV := after Cert.KernelIdeal.Gen.hostOps3 V
abbrev kE (V : KV) : KV := after Cert.KernelIdeal.Gen.hostOps4_1 (after Cert.KernelIdeal.Gen.hostOps4 V)
abbrev rA (U : RV) : RV := after Cert.ReferenceIdeal.RefRun.opsA U
abbrev rB (U : RV) : RV := after Cert.ReferenceIdeal.RefRun.opsB U
abbrev rC (U : RV) : RV := after Cert.ReferenceIdeal.RefRun.opsC U
abbrev rD (U : RV) : RV := after Cert.ReferenceIdeal.RefRun.opsD U
abbrev rE (U : RV) : RV := after Cert.ReferenceIdeal.RefRun.opsE U

end Cert.Bridge

end
-- ==== Proof.SimA.lean ====
/-
  Before the first region both programs read the edge list and the node features alike: the two endpoints' index
  vectors, the two sets of edge weights, and the five Chebyshev terms of the first branch. The kernel joins the five
  terms side by side for its region; the reference multiplies each by its band of the weights and sums. The layer's two
  spellings are one array.
-/
import proofs.«137322_j45767171506782_1_alg».proof.Proof.Bridge0

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- The edges' source indices. -/
theorem simA_v1 (V : KV) (U : RV)
    (h1 : V (kr Cert.KernelIdeal.main_arg1) = U (rr Cert.ReferenceIdeal.main_arg1)) :
    kA V (kr Cert.KernelIdeal.main_v1) = rA U (rr Cert.ReferenceIdeal.main_v1) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h1]
  all_goals rfl

set_option maxHeartbeats 40000000 in
/-- The edges' target indices. -/
theorem simA_v3 (V : KV) (U : RV)
    (h1 : V (kr Cert.KernelIdeal.main_arg1) = U (rr Cert.ReferenceIdeal.main_arg1)) :
    kA V (kr Cert.KernelIdeal.main_v3) = rA U (rr Cert.ReferenceIdeal.main_v3) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h1]
  all_goals rfl

set_option maxHeartbeats 40000000 in
/-- The edge weights of the forward graph. -/
theorem simA_v29 (V : KV) (U : RV)
    (h1 : V (kr Cert.KernelIdeal.main_arg1) = U (rr Cert.ReferenceIdeal.main_arg1)) :
    kA V (kr Cert.KernelIdeal.main_v29) = rA U (rr Cert.ReferenceIdeal.main_v29) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h1]
  all_goals rfl

set_option maxHeartbeats 40000000 in
/-- The edge weights of the reversed graph. -/
theorem simA_v55 (V : KV) (U : RV)
    (h1 : V (kr Cert.KernelIdeal.main_arg1) = U (rr Cert.ReferenceIdeal.main_arg1)) :
    kA V (kr Cert.KernelIdeal.main_v55) = rA U (rr Cert.ReferenceIdeal.main_v55) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h1]
  all_goals rfl

set_option maxHeartbeats 40000000 in
/-- The stretch leaves the convolution's input as it found it, in both programs. -/
theorem simA_t0 (V : KV) (U : RV)
    (h0 : V (kr Cert.KernelIdeal.main_arg0) = U (rr Cert.ReferenceIdeal.main_arg0)) :
    kA V (kr Cert.KernelIdeal.main_arg0) = rA U (rr Cert.ReferenceIdeal.main_arg0) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  all_goals rfl

set_option maxHeartbeats 40000000 in
/-- Chebyshev term 1 of this branch: the same gathers, scalings and scatter-adds of the same inputs in both programs. -/
theorem simA_t1 (V : KV) (U : RV)
    (h0 : V (kr Cert.KernelIdeal.main_arg0) = U (rr Cert.ReferenceIdeal.main_arg0)) (h1 : V (kr Cert.KernelIdeal.main_arg1) = U (rr Cert.ReferenceIdeal.main_arg1)) :
    kA V (kr Cert.KernelIdeal.main_v68) = rA U (rr Cert.ReferenceIdeal.main_v68) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← h1]
  all_goals rfl

set_option maxHeartbeats 40000000 in
/-- Chebyshev term 2 of this branch: the same gathers, scalings and scatter-adds of the same inputs in both programs. -/
theorem simA_t2 (V : KV) (U : RV)
    (h0 : V (kr Cert.KernelIdeal.main_arg0) = U (rr Cert.ReferenceIdeal.main_arg0)) (h1 : V (kr Cert.KernelIdeal.main_arg1) = U (rr Cert.ReferenceIdeal.main_arg1)) :
    kA V (kr Cert.KernelIdeal.main_v84) = rA U (rr Cert.ReferenceIdeal.main_v91) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← h1]
  all_goals rfl

set_option maxHeartbeats 40000000 in
/-- Chebyshev term 3 of this branch: the same gathers, scalings and scatter-adds of the same inputs in both programs. -/
theorem simA_t3 (V : KV) (U : RV)
    (h0 : V (kr Cert.KernelIdeal.main_arg0) = U (rr Cert.ReferenceIdeal.main_arg0)) (h1 : V (kr Cert.KernelIdeal.main_arg1) = U (rr Cert.ReferenceIdeal.main_arg1)) :
    kA V (kr Cert.KernelIdeal.main_v100) = rA U (rr Cert.ReferenceIdeal.main_v111) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← h1]
  all_goals rfl

set_option maxHeartbeats 40000000 in
/-- Chebyshev term 4 of this branch: the same gathers, scalings and scatter-adds of the same inputs in both programs. -/
theorem simA_t4 (V : KV) (U : RV)
    (h0 : V (kr Cert.KernelIdeal.main_arg0) = U (rr Cert.ReferenceIdeal.main_arg0)) (h1 : V (kr Cert.KernelIdeal.main_arg1) = U (rr Cert.ReferenceIdeal.main_arg1)) :
    kA V (kr Cert.KernelIdeal.main_v116) = rA U (rr Cert.ReferenceIdeal.main_v131) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← h1]
  all_goals rfl

set_option maxHeartbeats 40000000 in
/-- The weights read as one matrix of 5·f rows. -/
theorem simA_W (V : KV) (U : RV)
    (h3 : V (kr Cert.KernelIdeal.main_arg3) = U (rr Cert.ReferenceIdeal.main_arg3)) :
    kA V (kr Cert.KernelIdeal.main_v118) = shapeCast Cert.KernelIdeal.S80x64 (rA U (rr Cert.ReferenceIdeal.main_arg3)) Cert.KernelIdeal.Gen.shapeCasts_S5x16x64_S80x64 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h3]
  all_goals rfl

set_option maxHeartbeats 40000000 in
/-- The bias read as a row. -/
theorem simA_b (V : KV) (U : RV)
    (h4 : V (kr Cert.KernelIdeal.main_arg4) = U (rr Cert.ReferenceIdeal.main_arg4)) :
    kA V (kr Cert.KernelIdeal.main_v119) = shapeCast Cert.KernelIdeal.S1x64 (rA U (rr Cert.ReferenceIdeal.main_arg4)) Cert.KernelIdeal.Gen.shapeCasts_S64_S1x64 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h4]
  all_goals rfl

set_option maxHeartbeats 40000000 in
/-- The stretch's joined array is its five operands side by side, each as the stretch leaves it. -/
theorem tailA_cat (Z : KV) :
    after Cert.KernelIdeal.Gen.hostOps0_4 Z (kr Cert.KernelIdeal.main_v117)
      = concatenate Cert.KernelIdeal.S100000x80 1 [⟨Cert.KernelIdeal.S100000x16, after Cert.KernelIdeal.Gen.hostOps0_4 Z (kr Cert.KernelIdeal.main_arg0)⟩, ⟨Cert.KernelIdeal.S100000x16, after Cert.KernelIdeal.Gen.hostOps0_4 Z (kr Cert.KernelIdeal.main_v68)⟩, ⟨Cert.KernelIdeal.S100000x16, after Cert.KernelIdeal.Gen.hostOps0_4 Z (kr Cert.KernelIdeal.main_v84)⟩, ⟨Cert.KernelIdeal.S100000x16, after Cert.KernelIdeal.Gen.hostOps0_4 Z (kr Cert.KernelIdeal.main_v100)⟩, ⟨Cert.KernelIdeal.S100000x16, after Cert.KernelIdeal.Gen.hostOps0_4 Z (kr Cert.KernelIdeal.main_v116)⟩]
          Cert.KernelIdeal.Gen.concatenates_S100000x16_S100000x16_S100000x16_S100000x16_S100000x16_S100000x80_d1 := by
  rw [Cert.Lib.NaryFive.after_split 96 Cert.KernelIdeal.Gen.hostOps0_4 Z]
  generalize after (List.take 96 Cert.KernelIdeal.Gen.hostOps0_4) Z = Y
  simp only [Cert.KernelIdeal.Gen.hostOps0_4, List.drop, after_cons, after_nil]
  simp (disch := decide) only [reshape_result_ne', nary_result_ne']
  rw [Cert.Lib.NaryFive.nary5_result]
  rfl

end Cert.Bridge

end
-- ==== Proof.SimB.lean ====
/-
  Between the first and the second region: the second branch of the first layer, over the reversed edges.
-/
import proofs.«137322_j45767171506782_1_alg».proof.Proof.Bridge0

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- The stretch leaves the convolution's input as it found it, in both programs. -/
theorem simB_t0 (V : KV) (U : RV)
    (h0 : V (kr Cert.KernelIdeal.main_arg0) = U (rr Cert.ReferenceIdeal.main_arg0)) :
    kB V (kr Cert.KernelIdeal.main_arg0) = rB U (rr Cert.ReferenceIdeal.main_arg0) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  all_goals rfl

set_option maxHeartbeats 40000000 in
/-- Chebyshev term 1 of this branch: the same gathers, scalings and scatter-adds of the same inputs in both programs. -/
theorem simB_t1 (V : KV) (U : RV)
    (h0 : V (kr Cert.KernelIdeal.main_arg0) = U (rr Cert.ReferenceIdeal.main_arg0)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kB V (kr Cert.KernelIdeal.main_v133) = rB U (rr Cert.ReferenceIdeal.main_v152) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← hv1]
  try rw [← hv3]
  try rw [← hv55]
  all_goals rfl

set_option maxHeartbeats 40000000 in
/-- Chebyshev term 2 of this branch: the same gathers, scalings and scatter-adds of the same inputs in both programs. -/
theorem simB_t2 (V : KV) (U : RV)
    (h0 : V (kr Cert.KernelIdeal.main_arg0) = U (rr Cert.ReferenceIdeal.main_arg0)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kB V (kr Cert.KernelIdeal.main_v149) = rB U (rr Cert.ReferenceIdeal.main_v175) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← hv1]
  try rw [← hv3]
  try rw [← hv55]
  all_goals rfl

set_option maxHeartbeats 40000000 in
/-- Chebyshev term 3 of this branch: the same gathers, scalings and scatter-adds of the same inputs in both programs. -/
theorem simB_t3 (V : KV) (U : RV)
    (h0 : V (kr Cert.KernelIdeal.main_arg0) = U (rr Cert.ReferenceIdeal.main_arg0)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kB V (kr Cert.KernelIdeal.main_v165) = rB U (rr Cert.ReferenceIdeal.main_v195) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← hv1]
  try rw [← hv3]
  try rw [← hv55]
  all_goals rfl

set_option maxHeartbeats 40000000 in
/-- Chebyshev term 4 of this branch: the same gathers, scalings and scatter-adds of the same inputs in both programs. -/
theorem simB_t4 (V : KV) (U : RV)
    (h0 : V (kr Cert.KernelIdeal.main_arg0) = U (rr Cert.ReferenceIdeal.main_arg0)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kB V (kr Cert.KernelIdeal.main_v181) = rB U (rr Cert.ReferenceIdeal.main_v215) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h0]
  try rw [← hv1]
  try rw [← hv3]
  try rw [← hv55]
  all_goals rfl

set_option maxHeartbeats 40000000 in
/-- The weights read as one matrix of 5·f rows. -/
theorem simB_W (V : KV) (U : RV)
    (h5 : V (kr Cert.KernelIdeal.main_arg5) = U (rr Cert.ReferenceIdeal.main_arg5)) :
    kB V (kr Cert.KernelIdeal.main_v183) = shapeCast Cert.KernelIdeal.S80x64 (rB U (rr Cert.ReferenceIdeal.main_arg5)) Cert.KernelIdeal.Gen.shapeCasts_S5x16x64_S80x64 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h5]
  all_goals rfl

set_option maxHeartbeats 40000000 in
/-- The bias read as a row. -/
theorem simB_b (V : KV) (U : RV)
    (h6 : V (kr Cert.KernelIdeal.main_arg6) = U (rr Cert.ReferenceIdeal.main_arg6)) :
    kB V (kr Cert.KernelIdeal.main_v184) = shapeCast Cert.KernelIdeal.S1x64 (rB U (rr Cert.ReferenceIdeal.main_arg6)) Cert.KernelIdeal.Gen.shapeCasts_S64_S1x64 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h6]
  all_goals rfl

set_option maxHeartbeats 40000000 in
/-- The stretch's joined array is its five operands side by side, each as the stretch leaves it. -/
theorem tailB_cat (Z : KV) :
    after Cert.KernelIdeal.Gen.hostOps1 Z (kr Cert.KernelIdeal.main_v182)
      = concatenate Cert.KernelIdeal.S100000x80 1 [⟨Cert.KernelIdeal.S100000x16, after Cert.KernelIdeal.Gen.hostOps1 Z (kr Cert.KernelIdeal.main_arg0)⟩, ⟨Cert.KernelIdeal.S100000x16, after Cert.KernelIdeal.Gen.hostOps1 Z (kr Cert.KernelIdeal.main_v133)⟩, ⟨Cert.KernelIdeal.S100000x16, after Cert.KernelIdeal.Gen.hostOps1 Z (kr Cert.KernelIdeal.main_v149)⟩, ⟨Cert.KernelIdeal.S100000x16, after Cert.KernelIdeal.Gen.hostOps1 Z (kr Cert.KernelIdeal.main_v165)⟩, ⟨Cert.KernelIdeal.S100000x16, after Cert.KernelIdeal.Gen.hostOps1 Z (kr Cert.KernelIdeal.main_v181)⟩]
          Cert.KernelIdeal.Gen.concatenates_S100000x16_S100000x16_S100000x16_S100000x16_S100000x16_S100000x80_d1 := by
  rw [Cert.Lib.NaryFive.after_split 76 Cert.KernelIdeal.Gen.hostOps1 Z]
  generalize after (List.take 76 Cert.KernelIdeal.Gen.hostOps1) Z = Y
  simp only [Cert.KernelIdeal.Gen.hostOps1, List.drop, after_cons, after_nil]
  simp (disch := decide) only [reshape_result_ne', nary_result_ne']
  rw [Cert.Lib.NaryFive.nary5_result]
  rfl

set_option maxHeartbeats 40000000 in
/-- The stretch writes neither buffer: both keep their contents. -/
theorem simB_v1 (V : KV) (U : RV) (h : V (kr Cert.KernelIdeal.main_v1) = U (rr Cert.ReferenceIdeal.main_v1)) :
    kB V (kr Cert.KernelIdeal.main_v1) = rB U (rr Cert.ReferenceIdeal.main_v1) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simB_v3 (V : KV) (U : RV) (h : V (kr Cert.KernelIdeal.main_v3) = U (rr Cert.ReferenceIdeal.main_v3)) :
    kB V (kr Cert.KernelIdeal.main_v3) = rB U (rr Cert.ReferenceIdeal.main_v3) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simB_v29 (V : KV) (U : RV) (h : V (kr Cert.KernelIdeal.main_v29) = U (rr Cert.ReferenceIdeal.main_v29)) :
    kB V (kr Cert.KernelIdeal.main_v29) = rB U (rr Cert.ReferenceIdeal.main_v29) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simB_v55 (V : KV) (U : RV) (h : V (kr Cert.KernelIdeal.main_v55) = U (rr Cert.ReferenceIdeal.main_v55)) :
    kB V (kr Cert.KernelIdeal.main_v55) = rB U (rr Cert.ReferenceIdeal.main_v55) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simB_o0 (V : KV) (U : RV) (h : V (kr Cert.KernelIdeal.main_v120) = U (rr Cert.ReferenceIdeal.main_v139)) :
    kB V (kr Cert.KernelIdeal.main_v120) = rB U (rr Cert.ReferenceIdeal.main_v139) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

end Cert.Bridge

end
-- ==== Proof.SimC.lean ====
/-
  Between the second and the third region: the two branches' outputs joined into the second layer's input, and the
  first branch of the second layer.
-/
import proofs.«137322_j45767171506782_1_alg».proof.Proof.Bridge0

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- The stretch leaves the convolution's input as it found it, in both programs. -/
theorem simC_t0 (V : KV) (U : RV)
    (ho0 : V (kr Cert.KernelIdeal.main_v120) = U (rr Cert.ReferenceIdeal.main_v139)) (ho1 : V (kr Cert.KernelIdeal.main_v185) = U (rr Cert.ReferenceIdeal.main_v223)) :
    kC V (kr Cert.KernelIdeal.main_v186) = rC U (rr Cert.ReferenceIdeal.main_v224) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← ho0]
  try rw [← ho1]
  all_goals rfl

set_option maxHeartbeats 40000000 in
/-- Chebyshev term 1 of this branch: the same gathers, scalings and scatter-adds of the same inputs in both programs. -/
theorem simC_t1 (V : KV) (U : RV)
    (ho0 : V (kr Cert.KernelIdeal.main_v120) = U (rr Cert.ReferenceIdeal.main_v139)) (ho1 : V (kr Cert.KernelIdeal.main_v185) = U (rr Cert.ReferenceIdeal.main_v223)) (hv1 : V (kr Cert.KernelIdeal.main_v1) = U (rr Cert.ReferenceIdeal.main_v1)) (hv29 : V (kr Cert.KernelIdeal.main_v29) = U (rr Cert.ReferenceIdeal.main_v29)) (hv3 : V (kr Cert.KernelIdeal.main_v3) = U (rr Cert.ReferenceIdeal.main_v3)) :
    kC V (kr Cert.KernelIdeal.main_v199) = rC U (rr Cert.ReferenceIdeal.main_v237) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← ho0]
  try rw [← ho1]
  try rw [← hv1]
  try rw [← hv29]
  try rw [← hv3]
  all_goals rfl

set_option maxHeartbeats 40000000 in
/-- Chebyshev term 2 of this branch: the same gathers, scalings and scatter-adds of the same inputs in both programs. -/
theorem simC_t2 (V : KV) (U : RV)
    (ho0 : V (kr Cert.KernelIdeal.main_v120) = U (rr Cert.ReferenceIdeal.main_v139)) (ho1 : V (kr Cert.KernelIdeal.main_v185) = U (rr Cert.ReferenceIdeal.main_v223)) (hv1 : V (kr Cert.KernelIdeal.main_v1) = U (rr Cert.ReferenceIdeal.main_v1)) (hv29 : V (kr Cert.KernelIdeal.main_v29) = U (rr Cert.ReferenceIdeal.main_v29)) (hv3 : V (kr Cert.KernelIdeal.main_v3) = U (rr Cert.ReferenceIdeal.main_v3)) :
    kC V (kr Cert.KernelIdeal.main_v215) = rC U (rr Cert.ReferenceIdeal.main_v260) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← ho0]
  try rw [← ho1]
  try rw [← hv1]
  try rw [← hv29]
  try rw [← hv3]
  all_goals rfl

set_option maxHeartbeats 40000000 in
/-- Chebyshev term 3 of this branch: the same gathers, scalings and scatter-adds of the same inputs in both programs. -/
theorem simC_t3 (V : KV) (U : RV)
    (ho0 : V (kr Cert.KernelIdeal.main_v120) = U (rr Cert.ReferenceIdeal.main_v139)) (ho1 : V (kr Cert.KernelIdeal.main_v185) = U (rr Cert.ReferenceIdeal.main_v223)) (hv1 : V (kr Cert.KernelIdeal.main_v1) = U (rr Cert.ReferenceIdeal.main_v1)) (hv29 : V (kr Cert.KernelIdeal.main_v29) = U (rr Cert.ReferenceIdeal.main_v29)) (hv3 : V (kr Cert.KernelIdeal.main_v3) = U (rr Cert.ReferenceIdeal.main_v3)) :
    kC V (kr Cert.KernelIdeal.main_v231) = rC U (rr Cert.ReferenceIdeal.main_v280) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← ho0]
  try rw [← ho1]
  try rw [← hv1]
  try rw [← hv29]
  try rw [← hv3]
  all_goals rfl

set_option maxHeartbeats 40000000 in
/-- Chebyshev term 4 of this branch: the same gathers, scalings and scatter-adds of the same inputs in both programs. -/
theorem simC_t4 (V : KV) (U : RV)
    (ho0 : V (kr Cert.KernelIdeal.main_v120) = U (rr Cert.ReferenceIdeal.main_v139)) (ho1 : V (kr Cert.KernelIdeal.main_v185) = U (rr Cert.ReferenceIdeal.main_v223)) (hv1 : V (kr Cert.KernelIdeal.main_v1) = U (rr Cert.ReferenceIdeal.main_v1)) (hv29 : V (kr Cert.KernelIdeal.main_v29) = U (rr Cert.ReferenceIdeal.main_v29)) (hv3 : V (kr Cert.KernelIdeal.main_v3) = U (rr Cert.ReferenceIdeal.main_v3)) :
    kC V (kr Cert.KernelIdeal.main_v247) = rC U (rr Cert.ReferenceIdeal.main_v300) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← ho0]
  try rw [← ho1]
  try rw [← hv1]
  try rw [← hv29]
  try rw [← hv3]
  all_goals rfl

set_option maxHeartbeats 40000000 in
/-- The weights read as one matrix of 5·f rows. -/
theorem simC_W (V : KV) (U : RV)
    (h7 : V (kr Cert.KernelIdeal.main_arg7) = U (rr Cert.ReferenceIdeal.main_arg7)) :
    kC V (kr Cert.KernelIdeal.main_v249) = shapeCast Cert.KernelIdeal.S640x256 (rC U (rr Cert.ReferenceIdeal.main_arg7)) Cert.KernelIdeal.Gen.shapeCasts_S5x128x256_S640x256 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h7]
  all_goals rfl

set_option maxHeartbeats 40000000 in
/-- The bias read as a row. -/
theorem simC_b (V : KV) (U : RV)
    (h8 : V (kr Cert.KernelIdeal.main_arg8) = U (rr Cert.ReferenceIdeal.main_arg8)) :
    kC V (kr Cert.KernelIdeal.main_v250) = shapeCast Cert.KernelIdeal.S1x256 (rC U (rr Cert.ReferenceIdeal.main_arg8)) Cert.KernelIdeal.Gen.shapeCasts_S256_S1x256 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h8]
  all_goals rfl

set_option maxHeartbeats 40000000 in
/-- The stretch's joined array is its five operands side by side, each as the stretch leaves it. -/
theorem tailC_cat (Z : KV) :
    after Cert.KernelIdeal.Gen.hostOps2 Z (kr Cert.KernelIdeal.main_v248)
      = concatenate Cert.KernelIdeal.S100000x640 1 [⟨Cert.KernelIdeal.S100000x128, after Cert.KernelIdeal.Gen.hostOps2 Z (kr Cert.KernelIdeal.main_v186)⟩, ⟨Cert.KernelIdeal.S100000x128, after Cert.KernelIdeal.Gen.hostOps2 Z (kr Cert.KernelIdeal.main_v199)⟩, ⟨Cert.KernelIdeal.S100000x128, after Cert.KernelIdeal.Gen.hostOps2 Z (kr Cert.KernelIdeal.main_v215)⟩, ⟨Cert.KernelIdeal.S100000x128, after Cert.KernelIdeal.Gen.hostOps2 Z (kr Cert.KernelIdeal.main_v231)⟩, ⟨Cert.KernelIdeal.S100000x128, after Cert.KernelIdeal.Gen.hostOps2 Z (kr Cert.KernelIdeal.main_v247)⟩]
          Cert.KernelIdeal.Gen.concatenates_S100000x128_S100000x128_S100000x128_S100000x128_S100000x128_S100000x640_d1 := by
  rw [Cert.Lib.NaryFive.after_split 77 Cert.KernelIdeal.Gen.hostOps2 Z]
  generalize after (List.take 77 Cert.KernelIdeal.Gen.hostOps2) Z = Y
  simp only [Cert.KernelIdeal.Gen.hostOps2, List.drop, after_cons, after_nil]
  simp (disch := decide) only [reshape_result_ne', nary_result_ne']
  rw [Cert.Lib.NaryFive.nary5_result]
  rfl

set_option maxHeartbeats 40000000 in
/-- The stretch writes neither buffer: both keep their contents. -/
theorem simC_v1 (V : KV) (U : RV) (h : V (kr Cert.KernelIdeal.main_v1) = U (rr Cert.ReferenceIdeal.main_v1)) :
    kC V (kr Cert.KernelIdeal.main_v1) = rC U (rr Cert.ReferenceIdeal.main_v1) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simC_v3 (V : KV) (U : RV) (h : V (kr Cert.KernelIdeal.main_v3) = U (rr Cert.ReferenceIdeal.main_v3)) :
    kC V (kr Cert.KernelIdeal.main_v3) = rC U (rr Cert.ReferenceIdeal.main_v3) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

set_option maxHeartbeats 40000000 in
/-- The stretch writes neither buffer: both keep their contents. -/
theorem simC_v55 (V : KV) (U : RV) (h : V (kr Cert.KernelIdeal.main_v55) = U (rr Cert.ReferenceIdeal.main_v55)) :
    kC V (kr Cert.KernelIdeal.main_v55) = rC U (rr Cert.ReferenceIdeal.main_v55) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

end Cert.Bridge

end
-- ==== Proof.SimD.lean ====
/-
  Between the third and the fourth region: the second branch of the second layer, over the reversed edges.
-/
import proofs.«137322_j45767171506782_1_alg».proof.Proof.Bridge0

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- The stretch leaves the convolution's input as it found it, in both programs. -/
theorem simD_t0 (V : KV) (U : RV)
    (hh : V (kr Cert.KernelIdeal.main_v186) = U (rr Cert.ReferenceIdeal.main_v224)) :
    kD V (kr Cert.KernelIdeal.main_v186) = rD U (rr Cert.ReferenceIdeal.main_v224) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← hh]
  all_goals rfl

set_option maxHeartbeats 40000000 in
/-- Chebyshev term 1 of this branch: the same gathers, scalings and scatter-adds of the same inputs in both programs. -/
theorem simD_t1 (V : KV) (U : RV)
    (hh : V (kr Cert.KernelIdeal.main_v186) = U (rr Cert.ReferenceIdeal.main_v224)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kD V (kr Cert.KernelIdeal.main_v264) = rD U (rr Cert.ReferenceIdeal.main_v321) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← hh]
  try rw [← hv1]
  try rw [← hv3]
  try rw [← hv55]
  all_goals rfl

set_option maxHeartbeats 40000000 in
/-- Chebyshev term 2 of this branch: the same gathers, scalings and scatter-adds of the same inputs in both programs. -/
theorem simD_t2 (V : KV) (U : RV)
    (hh : V (kr Cert.KernelIdeal.main_v186) = U (rr Cert.ReferenceIdeal.main_v224)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kD V (kr Cert.KernelIdeal.main_v280) = rD U (rr Cert.ReferenceIdeal.main_v344) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← hh]
  try rw [← hv1]
  try rw [← hv3]
  try rw [← hv55]
  all_goals rfl

set_option maxHeartbeats 40000000 in
/-- Chebyshev term 3 of this branch: the same gathers, scalings and scatter-adds of the same inputs in both programs. -/
theorem simD_t3 (V : KV) (U : RV)
    (hh : V (kr Cert.KernelIdeal.main_v186) = U (rr Cert.ReferenceIdeal.main_v224)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kD V (kr Cert.KernelIdeal.main_v296) = rD U (rr Cert.ReferenceIdeal.main_v364) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← hh]
  try rw [← hv1]
  try rw [← hv3]
  try rw [← hv55]
  all_goals rfl

set_option maxHeartbeats 40000000 in
/-- Chebyshev term 4 of this branch: the same gathers, scalings and scatter-adds of the same inputs in both programs. -/
theorem simD_t4 (V : KV) (U : RV)
    (hh : V (kr Cert.KernelIdeal.main_v186) = U (rr Cert.ReferenceIdeal.main_v224)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) :
    kD V (kr Cert.KernelIdeal.main_v312) = rD U (rr Cert.ReferenceIdeal.main_v384) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← hh]
  try rw [← hv1]
  try rw [← hv3]
  try rw [← hv55]
  all_goals rfl

set_option maxHeartbeats 40000000 in
/-- The weights read as one matrix of 5·f rows. -/
theorem simD_W (V : KV) (U : RV)
    (h9 : V (kr Cert.KernelIdeal.main_arg9) = U (rr Cert.ReferenceIdeal.main_arg9)) :
    kD V (kr Cert.KernelIdeal.main_v314) = shapeCast Cert.KernelIdeal.S640x256 (rD U (rr Cert.ReferenceIdeal.main_arg9)) Cert.KernelIdeal.Gen.shapeCasts_S5x128x256_S640x256 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h9]
  all_goals rfl

set_option maxHeartbeats 40000000 in
/-- The bias read as a row. -/
theorem simD_b (V : KV) (U : RV)
    (h10 : V (kr Cert.KernelIdeal.main_arg10) = U (rr Cert.ReferenceIdeal.main_arg10)) :
    kD V (kr Cert.KernelIdeal.main_v315) = shapeCast Cert.KernelIdeal.S1x256 (rD U (rr Cert.ReferenceIdeal.main_arg10)) Cert.KernelIdeal.Gen.shapeCasts_S256_S1x256 := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [← h10]
  all_goals rfl

set_option maxHeartbeats 40000000 in
/-- The stretch's joined array is its five operands side by side, each as the stretch leaves it. -/
theorem tailD_cat (Z : KV) :
    after Cert.KernelIdeal.Gen.hostOps3 Z (kr Cert.KernelIdeal.main_v313)
      = concatenate Cert.KernelIdeal.S100000x640 1 [⟨Cert.KernelIdeal.S100000x128, after Cert.KernelIdeal.Gen.hostOps3 Z (kr Cert.KernelIdeal.main_v186)⟩, ⟨Cert.KernelIdeal.S100000x128, after Cert.KernelIdeal.Gen.hostOps3 Z (kr Cert.KernelIdeal.main_v264)⟩, ⟨Cert.KernelIdeal.S100000x128, after Cert.KernelIdeal.Gen.hostOps3 Z (kr Cert.KernelIdeal.main_v280)⟩, ⟨Cert.KernelIdeal.S100000x128, after Cert.KernelIdeal.Gen.hostOps3 Z (kr Cert.KernelIdeal.main_v296)⟩, ⟨Cert.KernelIdeal.S100000x128, after Cert.KernelIdeal.Gen.hostOps3 Z (kr Cert.KernelIdeal.main_v312)⟩]
          Cert.KernelIdeal.Gen.concatenates_S100000x128_S100000x128_S100000x128_S100000x128_S100000x128_S100000x640_d1 := by
  rw [Cert.Lib.NaryFive.after_split 76 Cert.KernelIdeal.Gen.hostOps3 Z]
  generalize after (List.take 76 Cert.KernelIdeal.Gen.hostOps3) Z = Y
  simp only [Cert.KernelIdeal.Gen.hostOps3, List.drop, after_cons, after_nil]
  simp (disch := decide) only [reshape_result_ne', nary_result_ne']
  rw [Cert.Lib.NaryFive.nary5_result]
  rfl

set_option maxHeartbeats 40000000 in
/-- The stretch writes neither buffer: both keep their contents. -/
theorem simD_o2 (V : KV) (U : RV) (h : V (kr Cert.KernelIdeal.main_v251) = U (rr Cert.ReferenceIdeal.main_v308)) :
    kD V (kr Cert.KernelIdeal.main_v251) = rD U (rr Cert.ReferenceIdeal.main_v308) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  exact h

end Cert.Bridge

end
-- ==== Proof.SimE.lean ====
/-
  After the last region: the two branches joined, the mean over each graph's nodes, the final dense layer and the
  log-softmax — the same operations in both programs.
-/
import proofs.«137322_j45767171506782_1_alg».proof.Proof.Bridge0

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
theorem simE_out (V : KV) (U : RV)
    (ho2 : V (kr Cert.KernelIdeal.main_v251) = U (rr Cert.ReferenceIdeal.main_v308)) (ho3 : V (kr Cert.KernelIdeal.main_v316) = U (rr Cert.ReferenceIdeal.main_v392)) (h2 : V (kr Cert.KernelIdeal.main_arg2) = U (rr Cert.ReferenceIdeal.main_arg2)) (h11 : V (kr Cert.KernelIdeal.main_arg11) = U (rr Cert.ReferenceIdeal.main_arg11)) (h12 : V (kr Cert.KernelIdeal.main_arg12) = U (rr Cert.ReferenceIdeal.main_arg12)) :
    kE V (kr Cert.KernelIdeal.main_v334) = rE U (rr Cert.ReferenceIdeal.main_v410) := by
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  after_results_simp
  rw [← ho2, ← ho3, ← h2, ← h11, ← h12]
  rfl

end Cert.Bridge

end
-- ==== Proof.SimAL.lean ====
/-
  The branch's dense layer in its two spellings: the kernel region's wide product of the joined Chebyshev terms, and the
  reference's sum of the five banded products.
-/
import proofs.«137322_j45767171506782_1_alg».proof.Proof.SimA

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- THE LAYER of this branch: the wide product of the joined terms the kernel's region computes is the reference's sum of
    the five banded products, with the bias and the maximum with zero. -/
theorem simA_layer (V : KV) (U : RV)
    (h0 : V (kr Cert.KernelIdeal.main_arg0) = U (rr Cert.ReferenceIdeal.main_arg0)) (h1 : V (kr Cert.KernelIdeal.main_arg1) = U (rr Cert.ReferenceIdeal.main_arg1)) (h3 : V (kr Cert.KernelIdeal.main_arg3) = U (rr Cert.ReferenceIdeal.main_arg3)) (h4 : V (kr Cert.KernelIdeal.main_arg4) = U (rr Cert.ReferenceIdeal.main_arg4)) :
    biasRelu (matProd (kA V (kr Cert.KernelIdeal.main_v117)) (kA V (kr Cert.KernelIdeal.main_v118))) (kA V (kr Cert.KernelIdeal.main_v119))
      = rA U (rr Cert.ReferenceIdeal.main_v139) := by
  have e0 := simA_t0 V U h0
  have e1 := simA_t1 V U h0 h1
  have e2 := simA_t2 V U h0 h1
  have e3 := simA_t3 V U h0 h1
  have e4 := simA_t4 V U h0 h1
  have eW := simA_W V U h3
  have eb := simA_b V U h4
  simp only [kA, kB, kC, kD] at e0 e1 e2 e3 e4 eW eb ⊢
  rw [tailA_cat, e0, e1, e2, e3, e4, eW, eb]
  refine (Cert.Lib.FiveBands.layer_eq (N := 100000) (f := 16) (o := 64) _ _ _ _ _ _ _ _ _ _
    Cert.ReferenceIdeal.dot_S100000x16_S16x64_S100000x64_1_0_0_1_n_n rfl rfl rfl rfl rfl rfl (by decide) (by decide) (by decide) (by decide) (by decide)
    (by decide) (by decide) (by decide) (by decide)).trans ?_
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  all_goals rfl

end Cert.Bridge

end
-- ==== Proof.SimBL.lean ====
/-
  The branch's dense layer in its two spellings: the kernel region's wide product of the joined Chebyshev terms, and the
  reference's sum of the five banded products.
-/
import proofs.«137322_j45767171506782_1_alg».proof.Proof.SimB

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- THE LAYER of this branch: the wide product of the joined terms the kernel's region computes is the reference's sum of
    the five banded products, with the bias and the maximum with zero. -/
theorem simB_layer (V : KV) (U : RV)
    (h0 : V (kr Cert.KernelIdeal.main_arg0) = U (rr Cert.ReferenceIdeal.main_arg0)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) (h5 : V (kr Cert.KernelIdeal.main_arg5) = U (rr Cert.ReferenceIdeal.main_arg5)) (h6 : V (kr Cert.KernelIdeal.main_arg6) = U (rr Cert.ReferenceIdeal.main_arg6)) :
    biasRelu (matProd (kB V (kr Cert.KernelIdeal.main_v182)) (kB V (kr Cert.KernelIdeal.main_v183))) (kB V (kr Cert.KernelIdeal.main_v184))
      = rB U (rr Cert.ReferenceIdeal.main_v223) := by
  have e0 := simB_t0 V U h0
  have e1 := simB_t1 V U h0 hv1 hv3 hv55
  have e2 := simB_t2 V U h0 hv1 hv3 hv55
  have e3 := simB_t3 V U h0 hv1 hv3 hv55
  have e4 := simB_t4 V U h0 hv1 hv3 hv55
  have eW := simB_W V U h5
  have eb := simB_b V U h6
  simp only [kA, kB, kC, kD] at e0 e1 e2 e3 e4 eW eb ⊢
  rw [tailB_cat, e0, e1, e2, e3, e4, eW, eb]
  refine (Cert.Lib.FiveBands.layer_eq (N := 100000) (f := 16) (o := 64) _ _ _ _ _ _ _ _ _ _
    Cert.ReferenceIdeal.dot_S100000x16_S16x64_S100000x64_1_0_0_1_n_n rfl rfl rfl rfl rfl rfl (by decide) (by decide) (by decide) (by decide) (by decide)
    (by decide) (by decide) (by decide) (by decide)).trans ?_
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  all_goals rfl

end Cert.Bridge

end
-- ==== Proof.SimCL.lean ====
/-
  The branch's dense layer in its two spellings: the kernel region's wide product of the joined Chebyshev terms, and the
  reference's sum of the five banded products.
-/
import proofs.«137322_j45767171506782_1_alg».proof.Proof.SimC

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- THE LAYER of this branch: the wide product of the joined terms the kernel's region computes is the reference's sum of
    the five banded products, with the bias and the maximum with zero. -/
theorem simC_layer (V : KV) (U : RV)
    (ho0 : V (kr Cert.KernelIdeal.main_v120) = U (rr Cert.ReferenceIdeal.main_v139)) (ho1 : V (kr Cert.KernelIdeal.main_v185) = U (rr Cert.ReferenceIdeal.main_v223)) (hv1 : V (kr Cert.KernelIdeal.main_v1) = U (rr Cert.ReferenceIdeal.main_v1)) (hv29 : V (kr Cert.KernelIdeal.main_v29) = U (rr Cert.ReferenceIdeal.main_v29)) (hv3 : V (kr Cert.KernelIdeal.main_v3) = U (rr Cert.ReferenceIdeal.main_v3)) (h7 : V (kr Cert.KernelIdeal.main_arg7) = U (rr Cert.ReferenceIdeal.main_arg7)) (h8 : V (kr Cert.KernelIdeal.main_arg8) = U (rr Cert.ReferenceIdeal.main_arg8)) :
    biasRelu (matProd (kC V (kr Cert.KernelIdeal.main_v248)) (kC V (kr Cert.KernelIdeal.main_v249))) (kC V (kr Cert.KernelIdeal.main_v250))
      = rC U (rr Cert.ReferenceIdeal.main_v308) := by
  have e0 := simC_t0 V U ho0 ho1
  have e1 := simC_t1 V U ho0 ho1 hv1 hv29 hv3
  have e2 := simC_t2 V U ho0 ho1 hv1 hv29 hv3
  have e3 := simC_t3 V U ho0 ho1 hv1 hv29 hv3
  have e4 := simC_t4 V U ho0 ho1 hv1 hv29 hv3
  have eW := simC_W V U h7
  have eb := simC_b V U h8
  simp only [kA, kB, kC, kD] at e0 e1 e2 e3 e4 eW eb ⊢
  rw [tailC_cat, e0, e1, e2, e3, e4, eW, eb]
  refine (Cert.Lib.FiveBands.layer_eq (N := 100000) (f := 128) (o := 256) _ _ _ _ _ _ _ _ _ _
    Cert.ReferenceIdeal.dot_S100000x128_S128x256_S100000x256_1_0_0_1_n_n rfl rfl rfl rfl rfl rfl (by decide) (by decide) (by decide) (by decide) (by decide)
    (by decide) (by decide) (by decide) (by decide)).trans ?_
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  all_goals rfl

end Cert.Bridge

end
-- ==== Proof.SimDL.lean ====
/-
  The branch's dense layer in its two spellings: the kernel region's wide product of the joined Chebyshev terms, and the
  reference's sum of the five banded products.
-/
import proofs.«137322_j45767171506782_1_alg».proof.Proof.SimD

set_option maxRecDepth 65536

noncomputable section

namespace Cert.Bridge

open Idealize.ShloMosaic Idealize.ShloMosaic.TcCoe Idealize.ShloMosaic.StableHlo
open Cert.Lib.MatProd Cert.Lib.BiasRelu

set_option maxHeartbeats 40000000 in
/-- THE LAYER of this branch: the wide product of the joined terms the kernel's region computes is the reference's sum of
    the five banded products, with the bias and the maximum with zero. -/
theorem simD_layer (V : KV) (U : RV)
    (hh : V (kr Cert.KernelIdeal.main_v186) = U (rr Cert.ReferenceIdeal.main_v224)) (hv1 : V (kr Cert.KernelIdeal.main_v1) = U (rr Cert.ReferenceIdeal.main_v1)) (hv3 : V (kr Cert.KernelIdeal.main_v3) = U (rr Cert.ReferenceIdeal.main_v3)) (hv55 : V (kr Cert.KernelIdeal.main_v55) = U (rr Cert.ReferenceIdeal.main_v55)) (h9 : V (kr Cert.KernelIdeal.main_arg9) = U (rr Cert.ReferenceIdeal.main_arg9)) (h10 : V (kr Cert.KernelIdeal.main_arg10) = U (rr Cert.ReferenceIdeal.main_arg10)) :
    biasRelu (matProd (kD V (kr Cert.KernelIdeal.main_v313)) (kD V (kr Cert.KernelIdeal.main_v314))) (kD V (kr Cert.KernelIdeal.main_v315))
      = rD U (rr Cert.ReferenceIdeal.main_v392) := by
  have e0 := simD_t0 V U hh
  have e1 := simD_t1 V U hh hv1 hv3 hv55
  have e2 := simD_t2 V U hh hv1 hv3 hv55
  have e3 := simD_t3 V U hh hv1 hv3 hv55
  have e4 := simD_t4 V U hh hv1 hv3 hv55
  have eW := simD_W V U h9
  have eb := simD_b V U h10
  simp only [kA, kB, kC, kD] at e0 e1 e2 e3 e4 eW eb ⊢
  rw [tailD_cat, e0, e1, e2, e3, e4, eW, eb]
  refine (Cert.Lib.FiveBands.layer_eq (N := 100000) (f := 128) (o := 256) _ _ _ _ _ _ _ _ _ _
    Cert.ReferenceIdeal.dot_S100000x128_S128x256_S100000x256_1_0_0_1_n_n rfl rfl rfl rfl rfl rfl (by decide) (by decide) (by decide) (by decide) (by decide)
    (by decide) (by decide) (by decide) (by decide)).trans ?_
  simp only [kA, kB, kC, kD, kE, rA, rB, rC, rD, rE,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps1, Cert.KernelIdeal.Gen.hostOps2, Cert.KernelIdeal.Gen.hostOps3,
    Cert.KernelIdeal.Gen.hostOps4, Cert.KernelIdeal.Gen.hostOps4_1,
    Cert.ReferenceIdeal.RefRun.opsA, Cert.ReferenceIdeal.RefRun.opsB, Cert.ReferenceIdeal.RefRun.opsC, Cert.ReferenceIdeal.RefRun.opsD,
    Cert.ReferenceIdeal.RefRun.opsE]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  all_goals rfl

end Cert.Bridge

end
-- ==== Proof.Bridge.lean ====
/-
  The two idealized programs end with the same result. Stage by stage: before each kernel region both programs hold the
  same index vectors, edge weights and Chebyshev terms (the same host operations of the same inputs); the region's
  output array is the dense layer of the joined terms, which is the reference's sum of the five banded products with
  the bias and the maximum with zero; after the last region both run the same pooling, dense layer and log-softmax.
-/
import proofs.«137322_j45767171506782_1_alg».proof.Proof.KIRun
import proofs.«137322_j45767171506782_1_alg».proof.Proof.KIArgs
import proofs.«137322_j45767171506782_1_alg».proof.Proof.KIValue0
import proofs.«137322_j45767171506782_1_alg».proof.Proof.KIValue1
import proofs.«137322_j45767171506782_1_alg».proof.Proof.KIValue2
import proofs.«137322_j45767171506782_1_alg».proof.Proof.KIValue3
import proofs.«137322_j45767171506782_1_alg».proof.Proof.RefRun
import proofs.«137322_j45767171506782_1_alg».proof.Proof.RefFrame
import proofs.«137322_j45767171506782_1_alg».proof.Proof.SimA
import proofs.«137322_j45767171506782_1_alg».proof.Proof.SimB
import proofs.«137322_j45767171506782_1_alg».proof.Proof.SimC
import proofs.«137322_j45767171506782_1_alg».proof.Proof.SimD
import proofs.«137322_j45767171506782_1_alg».proof.Proof.SimE
import proofs.«137322_j45767171506782_1_alg».proof.Proof.SimAL
import proofs.«137322_j45767171506782_1_alg».proof.Proof.SimBL
import proofs.«137322_j45767171506782_1_alg».proof.Proof.SimCL
import proofs.«137322_j45767171506782_1_alg».proof.Proof.SimDL

set_option maxRecDepth 65536

noncomputable section

namespace Cert.Bridge

open Idealize.ShloMosaic Idealize.ShloMosaic.TcCoe Idealize.ShloMosaic.StableHlo Idealize.SL.Sem
open Cert.KernelIdeal.Hand Cert.ReferenceIdeal.RefRun

set_option maxHeartbeats 4000000 in
/-- From memories that agree on the thirteen argument arrays, what the kernel's program leaves in its result buffer is
    what the reference's leaves in its own. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (ag0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (ag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (ag2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (ag3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (ag4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (ag5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (ag6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (ag7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (ag8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (ag9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (ag10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (ag11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (ag12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    W14 m ρ c (kr Cert.KernelIdeal.main_v334) = UE m' c (rr Cert.ReferenceIdeal.main_v410) := by
  -- before region 0
  have a1 := simA_v1 (W0 m ρ c) (U0 m' c) ((Cert.KernelIdeal.Hand.W0_arg m ρ c (r := Cert.KernelIdeal.main_arg1) (by decide)).trans ((ag1).symm.trans (Cert.ReferenceIdeal.RefRun.U0_arg m' c (r := Cert.ReferenceIdeal.main_arg1) (by decide)).symm))
  have a3 := simA_v3 (W0 m ρ c) (U0 m' c) ((Cert.KernelIdeal.Hand.W0_arg m ρ c (r := Cert.KernelIdeal.main_arg1) (by decide)).trans ((ag1).symm.trans (Cert.ReferenceIdeal.RefRun.U0_arg m' c (r := Cert.ReferenceIdeal.main_arg1) (by decide)).symm))
  have a29 := simA_v29 (W0 m ρ c) (U0 m' c) ((Cert.KernelIdeal.Hand.W0_arg m ρ c (r := Cert.KernelIdeal.main_arg1) (by decide)).trans ((ag1).symm.trans (Cert.ReferenceIdeal.RefRun.U0_arg m' c (r := Cert.ReferenceIdeal.main_arg1) (by decide)).symm))
  have a55 := simA_v55 (W0 m ρ c) (U0 m' c) ((Cert.KernelIdeal.Hand.W0_arg m ρ c (r := Cert.KernelIdeal.main_arg1) (by decide)).trans ((ag1).symm.trans (Cert.ReferenceIdeal.RefRun.U0_arg m' c (r := Cert.ReferenceIdeal.main_arg1) (by decide)).symm))
  have aL := simA_layer (W0 m ρ c) (U0 m' c) ((Cert.KernelIdeal.Hand.W0_arg m ρ c (r := Cert.KernelIdeal.main_arg0) (by decide)).trans ((ag0).symm.trans (Cert.ReferenceIdeal.RefRun.U0_arg m' c (r := Cert.ReferenceIdeal.main_arg0) (by decide)).symm)) ((Cert.KernelIdeal.Hand.W0_arg m ρ c (r := Cert.KernelIdeal.main_arg1) (by decide)).trans ((ag1).symm.trans (Cert.ReferenceIdeal.RefRun.U0_arg m' c (r := Cert.ReferenceIdeal.main_arg1) (by decide)).symm)) ((Cert.KernelIdeal.Hand.W0_arg m ρ c (r := Cert.KernelIdeal.main_arg3) (by decide)).trans ((ag3).symm.trans (Cert.ReferenceIdeal.RefRun.U0_arg m' c (r := Cert.ReferenceIdeal.main_arg3) (by decide)).symm)) ((Cert.KernelIdeal.Hand.W0_arg m ρ c (r := Cert.KernelIdeal.main_arg4) (by decide)).trans ((ag4).symm.trans (Cert.ReferenceIdeal.RefRun.U0_arg m' c (r := Cert.ReferenceIdeal.main_arg4) (by decide)).symm))
  -- region 0
  have o0 : W6 m ρ c (kr Cert.KernelIdeal.main_v120) = UA m' c (rr Cert.ReferenceIdeal.main_v139) :=
    (W6_arr m ρ c 3).trans ((final0 (V5 m ρ) c).trans aL)
  have b1 : W6 m ρ c (kr Cert.KernelIdeal.main_v1) = UA m' c (rr Cert.ReferenceIdeal.main_v1) := (W6_of_ne m ρ c Cert.KernelIdeal.main_v1 (by decide)).trans a1
  have b3 : W6 m ρ c (kr Cert.KernelIdeal.main_v3) = UA m' c (rr Cert.ReferenceIdeal.main_v3) := (W6_of_ne m ρ c Cert.KernelIdeal.main_v3 (by decide)).trans a3
  have b29 : W6 m ρ c (kr Cert.KernelIdeal.main_v29) = UA m' c (rr Cert.ReferenceIdeal.main_v29) := (W6_of_ne m ρ c Cert.KernelIdeal.main_v29 (by decide)).trans a29
  have b55 : W6 m ρ c (kr Cert.KernelIdeal.main_v55) = UA m' c (rr Cert.ReferenceIdeal.main_v55) := (W6_of_ne m ρ c Cert.KernelIdeal.main_v55 (by decide)).trans a55
  -- before region 1
  have bL := simB_layer (W6 m ρ c) (UA m' c) ((Cert.KernelIdeal.Hand.W6_arg m ρ c (r := Cert.KernelIdeal.main_arg0) (by decide)).trans ((ag0).symm.trans (Cert.ReferenceIdeal.RefRun.UA_arg m' c (r := Cert.ReferenceIdeal.main_arg0) (by decide)).symm)) b1 b3 b55 ((Cert.KernelIdeal.Hand.W6_arg m ρ c (r := Cert.KernelIdeal.main_arg5) (by decide)).trans ((ag5).symm.trans (Cert.ReferenceIdeal.RefRun.UA_arg m' c (r := Cert.ReferenceIdeal.main_arg5) (by decide)).symm)) ((Cert.KernelIdeal.Hand.W6_arg m ρ c (r := Cert.KernelIdeal.main_arg6) (by decide)).trans ((ag6).symm.trans (Cert.ReferenceIdeal.RefRun.UA_arg m' c (r := Cert.ReferenceIdeal.main_arg6) (by decide)).symm))
  have o1 : W8 m ρ c (kr Cert.KernelIdeal.main_v185) = UB m' c (rr Cert.ReferenceIdeal.main_v223) :=
    (W8_arr m ρ c 3).trans ((final1 (V7 m ρ) c).trans bL)
  have c1 : W8 m ρ c (kr Cert.KernelIdeal.main_v1) = UB m' c (rr Cert.ReferenceIdeal.main_v1) := (W8_of_ne m ρ c Cert.KernelIdeal.main_v1 (by decide)).trans (simB_v1 _ _ b1)
  have c3 : W8 m ρ c (kr Cert.KernelIdeal.main_v3) = UB m' c (rr Cert.ReferenceIdeal.main_v3) := (W8_of_ne m ρ c Cert.KernelIdeal.main_v3 (by decide)).trans (simB_v3 _ _ b3)
  have c29 : W8 m ρ c (kr Cert.KernelIdeal.main_v29) = UB m' c (rr Cert.ReferenceIdeal.main_v29) := (W8_of_ne m ρ c Cert.KernelIdeal.main_v29 (by decide)).trans (simB_v29 _ _ b29)
  have c55 : W8 m ρ c (kr Cert.KernelIdeal.main_v55) = UB m' c (rr Cert.ReferenceIdeal.main_v55) := (W8_of_ne m ρ c Cert.KernelIdeal.main_v55 (by decide)).trans (simB_v55 _ _ b55)
  have co0 : W8 m ρ c (kr Cert.KernelIdeal.main_v120) = UB m' c (rr Cert.ReferenceIdeal.main_v139) := (W8_of_ne m ρ c Cert.KernelIdeal.main_v120 (by decide)).trans (simB_o0 _ _ o0)
  -- before region 2
  have cH := simC_t0 (W8 m ρ c) (UB m' c) co0 o1
  have cL := simC_layer (W8 m ρ c) (UB m' c) co0 o1 c1 c29 c3 ((Cert.KernelIdeal.Hand.W8_arg m ρ c (r := Cert.KernelIdeal.main_arg7) (by decide)).trans ((ag7).symm.trans (Cert.ReferenceIdeal.RefRun.UB_arg m' c (r := Cert.ReferenceIdeal.main_arg7) (by decide)).symm)) ((Cert.KernelIdeal.Hand.W8_arg m ρ c (r := Cert.KernelIdeal.main_arg8) (by decide)).trans ((ag8).symm.trans (Cert.ReferenceIdeal.RefRun.UB_arg m' c (r := Cert.ReferenceIdeal.main_arg8) (by decide)).symm))
  have o2 : W10 m ρ c (kr Cert.KernelIdeal.main_v251) = UC m' c (rr Cert.ReferenceIdeal.main_v308) :=
    (W10_arr m ρ c 3).trans ((final2 (V9 m ρ) c).trans cL)
  have d1 : W10 m ρ c (kr Cert.KernelIdeal.main_v1) = UC m' c (rr Cert.ReferenceIdeal.main_v1) := (W10_of_ne m ρ c Cert.KernelIdeal.main_v1 (by decide)).trans (simC_v1 _ _ c1)
  have d3 : W10 m ρ c (kr Cert.KernelIdeal.main_v3) = UC m' c (rr Cert.ReferenceIdeal.main_v3) := (W10_of_ne m ρ c Cert.KernelIdeal.main_v3 (by decide)).trans (simC_v3 _ _ c3)
  have d55 : W10 m ρ c (kr Cert.KernelIdeal.main_v55) = UC m' c (rr Cert.ReferenceIdeal.main_v55) := (W10_of_ne m ρ c Cert.KernelIdeal.main_v55 (by decide)).trans (simC_v55 _ _ c55)
  have dH : W10 m ρ c (kr Cert.KernelIdeal.main_v186) = UC m' c (rr Cert.ReferenceIdeal.main_v224) := (W10_of_ne m ρ c Cert.KernelIdeal.main_v186 (by decide)).trans cH
  -- before region 3
  have dL := simD_layer (W10 m ρ c) (UC m' c) dH d1 d3 d55 ((Cert.KernelIdeal.Hand.W10_arg m ρ c (r := Cert.KernelIdeal.main_arg9) (by decide)).trans ((ag9).symm.trans (Cert.ReferenceIdeal.RefRun.UC_arg m' c (r := Cert.ReferenceIdeal.main_arg9) (by decide)).symm)) ((Cert.KernelIdeal.Hand.W10_arg m ρ c (r := Cert.KernelIdeal.main_arg10) (by decide)).trans ((ag10).symm.trans (Cert.ReferenceIdeal.RefRun.UC_arg m' c (r := Cert.ReferenceIdeal.main_arg10) (by decide)).symm))
  have o3 : W12 m ρ c (kr Cert.KernelIdeal.main_v316) = UD m' c (rr Cert.ReferenceIdeal.main_v392) :=
    (W12_arr m ρ c 3).trans ((final3 (V11 m ρ) c).trans dL)
  have eo2 : W12 m ρ c (kr Cert.KernelIdeal.main_v251) = UD m' c (rr Cert.ReferenceIdeal.main_v308) := (W12_of_ne m ρ c Cert.KernelIdeal.main_v251 (by decide)).trans (simD_o2 _ _ o2)
  -- after the last region
  exact simE_out (W12 m ρ c) (UD m' c) eo2 o3 ((Cert.KernelIdeal.Hand.W12_arg m ρ c (r := Cert.KernelIdeal.main_arg2) (by decide)).trans ((ag2).symm.trans (Cert.ReferenceIdeal.RefRun.UD_arg m' c (r := Cert.ReferenceIdeal.main_arg2) (by decide)).symm)) ((Cert.KernelIdeal.Hand.W12_arg m ρ c (r := Cert.KernelIdeal.main_arg11) (by decide)).trans ((ag11).symm.trans (Cert.ReferenceIdeal.RefRun.UD_arg m' c (r := Cert.ReferenceIdeal.main_arg11) (by decide)).symm)) ((Cert.KernelIdeal.Hand.W12_arg m ρ c (r := Cert.KernelIdeal.main_arg12) (by decide)).trans ((ag12).symm.trans (Cert.ReferenceIdeal.RefRun.UD_arg m' c (r := Cert.ReferenceIdeal.main_arg12) (by decide)).symm))

end Cert.Bridge

end
-- ==== Proof.lean ====
/-
  The certificate of one graph network against its reference: two stacked bidirectional Chebyshev convolutions, a mean
  over each graph's nodes, a dense layer and a log-softmax.

  The kernel's program computes each convolution branch as ONE wide product in a Pallas region: the five Chebyshev terms
  T₀ … T₄ joined side by side into an N×(5·f) array, times the weights read as one (5·f)×o matrix, plus the bias, and the
  maximum with zero, block of 2000 rows by block. The reference sums the five narrow products Tₖ·W(k), adds the bias and
  takes the maximum. On the extended reals (the changes of float format the identity, sums regrouped freely) the two
  are one array; everything around the four regions — the edge weights, the recursion Tₖ = 2·L·Tₖ₋₁ − Tₖ₋₂ by gathers and
  scatter-adds, the pooling, the final layer — is the same host computation in both programs. The precondition is never
  opened: no law used needs finiteness.

  The frames: each kernel region runs its body at every grid point on whole staging buffers (three loads, a load of the
  output buffer whose value is unused, one whole-block store), the host stretches between them write only buffers of
  their own, and no argument array is a region's output; the reference is a straight line of host operations.
-/
import proofs.«137322_j45767171506782_1_alg».proof.Defs
import proofs.«137322_j45767171506782_1_alg».proof.Proof.Gen.Kernel
import proofs.«137322_j45767171506782_1_alg».proof.Proof.Gen.KernelIdeal
import proofs.«137322_j45767171506782_1_alg».proof.Proof.Gen.ReferenceIdeal
import proofs.«137322_j45767171506782_1_alg».proof.Proof.Gen.Pre_finite_inputs
import proofs.«137322_j45767171506782_1_alg».proof.Proof.KRun
import proofs.«137322_j45767171506782_1_alg».proof.Proof.KIRun
import proofs.«137322_j45767171506782_1_alg».proof.Proof.RefFrame
import proofs.«137322_j45767171506782_1_alg».proof.Proof.Bridge

set_option maxRecDepth 65536

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.RefRun.frame m ρ

/-- The idealization rewrote nothing: the kernel's text is read as it stands. -/
theorem preserves : Cert.preserves_Kernel_KernelIdeal := trivial

set_option maxHeartbeats 4000000 in
/-- Both idealized programs run, and end with one result: what the kernel's run leaves in its result buffer. -/
theorem algebraic : Cert.algebraic_KernelIdeal_ReferenceIdeal := by
  intro m ρ m' ρ' _ hagree
  refine ⟨fun c => Cert.KernelIdeal.Hand.W14 m ρ c (Proc.devRef .tc Cert.KernelIdeal.main_v334), ?_, ?_⟩
  · refine (θ_run Cert.KernelIdeal.defs _ _).mono (fun r h c => ⟨h c _ (Cert.KernelIdeal.Hand.mem_uc Cert.KernelIdeal.main_v334 (by decide)),
      (h c _ (Cert.KernelIdeal.Hand.mem_uc Cert.KernelIdeal.main_arg0 (by decide))).trans (Cert.KernelIdeal.Hand.W14_main_arg0 m ρ c),
      (h c _ (Cert.KernelIdeal.Hand.mem_uc Cert.KernelIdeal.main_arg1 (by decide))).trans (Cert.KernelIdeal.Hand.W14_main_arg1 m ρ c),
      (h c _ (Cert.KernelIdeal.Hand.mem_uc Cert.KernelIdeal.main_arg2 (by decide))).trans (Cert.KernelIdeal.Hand.W14_main_arg2 m ρ c),
      (h c _ (Cert.KernelIdeal.Hand.mem_uc Cert.KernelIdeal.main_arg3 (by decide))).trans (Cert.KernelIdeal.Hand.W14_main_arg3 m ρ c),
      (h c _ (Cert.KernelIdeal.Hand.mem_uc Cert.KernelIdeal.main_arg4 (by decide))).trans (Cert.KernelIdeal.Hand.W14_main_arg4 m ρ c),
      (h c _ (Cert.KernelIdeal.Hand.mem_uc Cert.KernelIdeal.main_arg5 (by decide))).trans (Cert.KernelIdeal.Hand.W14_main_arg5 m ρ c),
      (h c _ (Cert.KernelIdeal.Hand.mem_uc Cert.KernelIdeal.main_arg6 (by decide))).trans (Cert.KernelIdeal.Hand.W14_main_arg6 m ρ c),
      (h c _ (Cert.KernelIdeal.Hand.mem_uc Cert.KernelIdeal.main_arg7 (by decide))).trans (Cert.KernelIdeal.Hand.W14_main_arg7 m ρ c),
      (h c _ (Cert.KernelIdeal.Hand.mem_uc Cert.KernelIdeal.main_arg8 (by decide))).trans (Cert.KernelIdeal.Hand.W14_main_arg8 m ρ c),
      (h c _ (Cert.KernelIdeal.Hand.mem_uc Cert.KernelIdeal.main_arg9 (by decide))).trans (Cert.KernelIdeal.Hand.W14_main_arg9 m ρ c),
      (h c _ (Cert.KernelIdeal.Hand.mem_uc Cert.KernelIdeal.main_arg10 (by decide))).trans (Cert.KernelIdeal.Hand.W14_main_arg10 m ρ c),
      (h c _ (Cert.KernelIdeal.Hand.mem_uc Cert.KernelIdeal.main_arg11 (by decide))).trans (Cert.KernelIdeal.Hand.W14_main_arg11 m ρ c),
      (h c _ (Cert.KernelIdeal.Hand.mem_uc Cert.KernelIdeal.main_arg12 (by decide))).trans (Cert.KernelIdeal.Hand.W14_main_arg12 m ρ c)⟩)
      (Cert.KernelIdeal.Hand.run_all m ρ)
  · refine (θ_run Cert.ReferenceIdeal.defs _ _).mono (fun r h c => ⟨(h c Cert.ReferenceIdeal.main_v410).trans
        (Cert.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2).symm,
      (h c Cert.ReferenceIdeal.main_arg0).trans (Cert.ReferenceIdeal.RefRun.UE_arg m' c (r := Cert.ReferenceIdeal.main_arg0) (by decide)),
      (h c Cert.ReferenceIdeal.main_arg1).trans (Cert.ReferenceIdeal.RefRun.UE_arg m' c (r := Cert.ReferenceIdeal.main_arg1) (by decide)),
      (h c Cert.ReferenceIdeal.main_arg2).trans (Cert.ReferenceIdeal.RefRun.UE_arg m' c (r := Cert.ReferenceIdeal.main_arg2) (by decide)),
      (h c Cert.ReferenceIdeal.main_arg3).trans (Cert.ReferenceIdeal.RefRun.UE_arg m' c (r := Cert.ReferenceIdeal.main_arg3) (by decide)),
      (h c Cert.ReferenceIdeal.main_arg4).trans (Cert.ReferenceIdeal.RefRun.UE_arg m' c (r := Cert.ReferenceIdeal.main_arg4) (by decide)),
      (h c Cert.ReferenceIdeal.main_arg5).trans (Cert.ReferenceIdeal.RefRun.UE_arg m' c (r := Cert.ReferenceIdeal.main_arg5) (by decide)),
      (h c Cert.ReferenceIdeal.main_arg6).trans (Cert.ReferenceIdeal.RefRun.UE_arg m' c (r := Cert.ReferenceIdeal.main_arg6) (by decide)),
      (h c Cert.ReferenceIdeal.main_arg7).trans (Cert.ReferenceIdeal.RefRun.UE_arg m' c (r := Cert.ReferenceIdeal.main_arg7) (by decide)),
      (h c Cert.ReferenceIdeal.main_arg8).trans (Cert.ReferenceIdeal.RefRun.UE_arg m' c (r := Cert.ReferenceIdeal.main_arg8) (by decide)),
      (h c Cert.ReferenceIdeal.main_arg9).trans (Cert.ReferenceIdeal.RefRun.UE_arg m' c (r := Cert.ReferenceIdeal.main_arg9) (by decide)),
      (h c Cert.ReferenceIdeal.main_arg10).trans (Cert.ReferenceIdeal.RefRun.UE_arg m' c (r := Cert.ReferenceIdeal.main_arg10) (by decide)),
      (h c Cert.ReferenceIdeal.main_arg11).trans (Cert.ReferenceIdeal.RefRun.UE_arg m' c (r := Cert.ReferenceIdeal.main_arg11) (by decide)),
      (h c Cert.ReferenceIdeal.main_arg12).trans (Cert.ReferenceIdeal.RefRun.UE_arg m' c (r := Cert.ReferenceIdeal.main_arg12) (by decide))⟩)
      (Cert.ReferenceIdeal.RefRun.run_raw m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
